-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v19_0)) (v2 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v19_0) = v1 c
          ∧ r.2.mem ((c.tc : Thread Cert.KernelIdeal.nD Cert.KernelIdeal.τ).loc Cert.KernelIdeal.main_v57) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x256 : Shape := ⟨3, ![4, 8192, 256]⟩
abbrev S4x32768x256 : Shape := ⟨3, ![4, 32768, 256]⟩
abbrev S4x256 : Shape := ⟨2, ![4, 256]⟩
abbrev S4x32768x2 : Shape := ⟨3, ![4, 32768, 2]⟩
abbrev S4x8192x16 : Shape := ⟨3, ![4, 8192, 16]⟩
abbrev S4x8192 : Shape := ⟨2, ![4, 8192]⟩
abbrev S4 : Shape := ⟨1, ![4]⟩
abbrev S1024x256 : Shape := ⟨2, ![1024, 256]⟩
abbrev S256 : Shape := ⟨1, ![256]⟩
abbrev S768x256 : Shape := ⟨2, ![768, 256]⟩
abbrev S_ : Shape := ⟨0, ![]⟩

class Facts : Prop where
  bcast_S_S4x8192x256 : S_.BroadcastsInDim S4x8192x256 (![] : Fin 0 → Fin S4x8192x256.rank)
  reducesTo_S4x8192x256_S_d0_1_2 : S4x8192x256.ReducesTo [0, 1, 2] S_
  h_S_ : 0 < S_.numel
  bcast_S_S4x32768x256 : S_.BroadcastsInDim S4x32768x256 (![] : Fin 0 → Fin S4x32768x256.rank)
  reducesTo_S4x32768x256_S_d0_1_2 : S4x32768x256.ReducesTo [0, 1, 2] S_
  bcast_S_S4x256 : S_.BroadcastsInDim S4x256 (![] : Fin 0 → Fin S4x256.rank)
  reducesTo_S4x256_S_d0_1 : S4x256.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_

variable [Facts]

def fn_part4 {F : FTy → Type} [FloatOps F] (main_arg19 : FVec F S256 .f32) (main_arg20 : FVec F S256 .f32) (main_arg21 : FVec F S256 .f32) (main_v63 : IVec S_ 1) (main_v67 : IVec S_ 1) : IVec S_ 1 :=
  let main_v68 : IVec S_ 1 := andi main_v63 main_v67
  let main_v69 : FVec F S256 .f32 := Host.absf main_arg19
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg20
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg21
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg16 : FVec F S768x256 .f32) (main_arg17 : FVec F S256 .f32) (main_arg18 : FVec F S256 .f32) (main_arg19 : FVec F S256 .f32) (main_arg20 : FVec F S256 .f32) (main_arg21 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S768x256 .f32 := Host.absf main_arg16
  let main_cst_20 : FVec F S_ .f32 := constant S_ .f32 0x7F800000#32
  let main_v55 : FVec F S768x256 .f32 := broadcastInDim S768x256 ![] bcast_S_S768x256 main_cst_20
  let main_v56 : IVec S768x256 1 := cmpf .olt main_v54 main_v55
  let main_c_21 : IVec S_ 1 := constantI S_ 1 1#1
  let main_v57 : IVec S_ 1 := (fun x v => Host.reduce IntOp.andi x v reducesTo_S768x256_S_d0_1 h_S_) main_v56 main_c_21
  let main_v58 : IVec S_ 1 := andi main_v53 main_v57
  let main_v59 : FVec F S256 .f32 := Host.absf main_arg17
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg18
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg19 main_arg20 main_arg21 main_v63 main_v67

def fn_part2 {F : FTy → Type} [FloatOps F] (main_arg12 : FVec F S768x256 .f32) (main_arg13 : FVec F S256 .f32) (main_arg14 : FVec F S256 .f32) (main_arg15 : FVec F S256 .f32) (main_arg16 : FVec F S768x256 .f32) (main_arg17 : FVec F S256 .f32) (main_arg18 : FVec F S256 .f32) (main_arg19 : FVec F S256 .f32) (main_arg20 : FVec F S256 .f32) (main_arg21 : FVec F S256 .f32) (main_v33 : IVec S_ 1) : IVec S_ 1 :=
  let main_v34 : FVec F S768x256 .f32 := Host.absf main_arg12
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S256 .f32 := Host.absf main_arg13
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg14
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg15
  let main_cst_18 : FVec F S_ .f32 := constant S_ .f32 0x7F800000#32
  let main_v50 : FVec F S256 .f32 := broadcastInDim S256 ![] bcast_S_S256 main_cst_18
  fn_part3 (F := F) main_arg16 main_arg17 main_arg18 main_arg19 main_arg20 main_arg21 main_v48 main_v49 main_v50

def fn_part1 {F : FTy → Type} [FloatOps F] (main_arg9 : FVec F S256 .f32) (main_arg10 : FVec F S256 .f32) (main_arg11 : FVec F S256 .f32) (main_arg12 : FVec F S768x256 .f32) (main_arg13 : FVec F S256 .f32) (main_arg14 : FVec F S256 .f32) (main_arg15 : FVec F S256 .f32) (main_arg16 : FVec F S768x256 .f32) (main_arg17 : FVec F S256 .f32) (main_arg18 : FVec F S256 .f32) (main_arg19 : FVec F S256 .f32) (main_arg20 : FVec F S256 .f32) (main_arg21 : FVec F S256 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256 .f32 := Host.absf main_arg9
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg10
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg11
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg12 main_arg13 main_arg14 main_arg15 main_arg16 main_arg17 main_arg18 main_arg19 main_arg20 main_arg21 main_v33

def fn {F : FTy → Type} [FloatOps F] (main_arg0 : FVec F S4x8192x256 .f32) (main_arg1 : FVec F S4x32768x256 .f32) (main_arg2 : FVec F S4x256 .f32) (main_arg3 : IVec S4x32768x2 32) (main_arg4 : IVec S4x8192x16 32) (main_arg5 : IVec S4x8192 32) (main_arg6 : IVec S4 32) (main_arg7 : IVec S4 32) (main_arg8 : FVec F S1024x256 .f32) (main_arg9 : FVec F S256 .f32) (main_arg10 : FVec F S256 .f32) (main_arg11 : FVec F S256 .f32) (main_arg12 : FVec F S768x256 .f32) (main_arg13 : FVec F S256 .f32) (main_arg14 : FVec F S256 .f32) (main_arg15 : FVec F S256 .f32) (main_arg16 : FVec F S768x256 .f32) (main_arg17 : FVec F S256 .f32) (main_arg18 : FVec F S256 .f32) (main_arg19 : FVec F S256 .f32) (main_arg20 : FVec F S256 .f32) (main_arg21 : FVec F S256 .f32) : IVec S_ 1 :=
  let main_v0 : FVec F S4x8192x256 .f32 := Host.absf main_arg0
  let main_cst : FVec F S_ .f32 := constant S_ .f32 0x7F800000#32
  let main_v1 : FVec F S4x8192x256 .f32 := broadcastInDim S4x8192x256 ![] bcast_S_S4x8192x256 main_cst
  let main_v2 : IVec S4x8192x256 1 := cmpf .olt main_v0 main_v1
  let main_c : IVec S_ 1 := constantI S_ 1 1#1
  let main_v3 : IVec S_ 1 := (fun x v => Host.reduce IntOp.andi x v reducesTo_S4x8192x256_S_d0_1_2 h_S_) main_v2 main_c
  let main_v4 : FVec F S4x32768x256 .f32 := Host.absf main_arg1
  let main_cst_0 : FVec F S_ .f32 := constant S_ .f32 0x7F800000#32
  let main_v5 : FVec F S4x32768x256 .f32 := broadcastInDim S4x32768x256 ![] bcast_S_S4x32768x256 main_cst_0
  let main_v6 : IVec S4x32768x256 1 := cmpf .olt main_v4 main_v5
  let main_c_1 : IVec S_ 1 := constantI S_ 1 1#1
  let main_v7 : IVec S_ 1 := (fun x v => Host.reduce IntOp.andi x v reducesTo_S4x32768x256_S_d0_1_2 h_S_) main_v6 main_c_1
  let main_v8 : IVec S_ 1 := andi main_v3 main_v7
  let main_v9 : FVec F S4x256 .f32 := Host.absf main_arg2
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_c_3 : IVec S_ 1 := constantI S_ 1 1#1
  let main_v12 : IVec S_ 1 := (fun x v => Host.reduce IntOp.andi x v reducesTo_S4x256_S_d0_1 h_S_) main_v11 main_c_3
  let main_v13 : IVec S_ 1 := andi main_v8 main_v12
  let main_v14 : FVec F S1024x256 .f32 := Host.absf main_arg8
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg9 main_arg10 main_arg11 main_arg12 main_arg13 main_arg14 main_arg15 main_arg16 main_arg17 main_arg18 main_arg19 main_arg20 main_arg21 main_v13 main_v16
-- ==== Kernel.lean ====
abbrev S4x8192x256 : Shape := ⟨3, ![4, 8192, 256]⟩
abbrev S4x32768x256 : Shape := ⟨3, ![4, 32768, 256]⟩
abbrev S4x256 : Shape := ⟨2, ![4, 256]⟩
abbrev S4x32768x2 : Shape := ⟨3, ![4, 32768, 2]⟩
abbrev S4x8192x16 : Shape := ⟨3, ![4, 8192, 16]⟩
abbrev S4x8192 : Shape := ⟨2, ![4, 8192]⟩
abbrev S4 : Shape := ⟨1, ![4]⟩
abbrev S1024x256 : Shape := ⟨2, ![1024, 256]⟩
abbrev S256 : Shape := ⟨1, ![256]⟩
abbrev S768x256 : Shape := ⟨2, ![768, 256]⟩
abbrev S4x32768x1 : Shape := ⟨3, ![4, 32768, 1]⟩
abbrev S_ : Shape := ⟨0, ![]⟩
abbrev S1 : Shape := ⟨1, ![1]⟩
abbrev S1x1x1 : Shape := ⟨3, ![1, 1, 1]⟩
abbrev S4x32768 : Shape := ⟨2, ![4, 32768]⟩
abbrev S4x1x256 : Shape := ⟨3, ![4, 1, 256]⟩
abbrev S1x1024x256 : Shape := ⟨3, ![1, 1024, 256]⟩
abbrev S1x1x256 : Shape := ⟨3, ![1, 1, 256]⟩
abbrev S1x256 : Shape := ⟨2, ![1, 256]⟩
abbrev S1024x1024 : Shape := ⟨2, ![1024, 1024]⟩
abbrev S1024 : Shape := ⟨1, ![1024]⟩
abbrev S1024x1 : Shape := ⟨2, ![1024, 1]⟩
abbrev S4x131072x1 : Shape := ⟨3, ![4, 131072, 1]⟩
abbrev S4x131072 : Shape := ⟨2, ![4, 131072]⟩
abbrev S4x131072x256 : Shape := ⟨3, ![4, 131072, 256]⟩
abbrev S4x8192x16x256 : Shape := ⟨4, ![4, 8192, 16, 256]⟩
abbrev S4x8192x1 : Shape := ⟨3, ![4, 8192, 1]⟩
abbrev S1024x768 : Shape := ⟨2, ![1024, 768]⟩
abbrev S4x1 : Shape := ⟨2, ![4, 1]⟩
abbrev S4x768 : Shape := ⟨2, ![4, 768]⟩

abbrev nBuf : Space → Nat
  | .hbm => 161
  | .vmem => 30
  | .smem => 0
  | _ => 0

abbrev hbmTy0_0 (i : Nat) : BufTy := match i % 128 with
  | 0 => ⟨S4x8192x256, .f32⟩
  | 1 => ⟨S4x32768x256, .f32⟩
  | 2 => ⟨S4x256, .f32⟩
  | 3 => ⟨S4x32768x2, .i32⟩
  | 4 => ⟨S4x8192x16, .i32⟩
  | 5 => ⟨S4x8192, .i32⟩
  | 6 => ⟨S4, .i32⟩
  | 7 => ⟨S4, .i32⟩
  | 8 => ⟨S1024x256, .f32⟩
  | 9 => ⟨S256, .f32⟩
  | 10 => ⟨S256, .f32⟩
  | 11 => ⟨S256, .f32⟩
  | 12 => ⟨S768x256, .f32⟩
  | 13 => ⟨S256, .f32⟩
  | 14 => ⟨S256, .f32⟩
  | 15 => ⟨S256, .f32⟩
  | 16 => ⟨S768x256, .f32⟩
  | 17 => ⟨S256, .f32⟩
  | 18 => ⟨S256, .f32⟩
  | 19 => ⟨S256, .f32⟩
  | 20 => ⟨S256, .f32⟩
  | 21 => ⟨S256, .f32⟩
  | 22 => ⟨S4x32768x1, .i32⟩
  | 23 => ⟨S_, .i32⟩
  | 24 => ⟨S4x32768x1, .i32⟩
  | 25 => ⟨S4x32768x1, .i1⟩
  | 26 => ⟨S_, .i32⟩
  | 27 => ⟨S4x32768x1, .i32⟩
  | 28 => ⟨S4x32768x1, .i32⟩
  | 29 => ⟨S4x32768x1, .i32⟩
  | 30 => ⟨S1, .i32⟩
  | 31 => ⟨S_, .i32⟩
  | 32 => ⟨S4x32768x1, .i32⟩
  | 33 => ⟨S4x32768x1, .i1⟩
  | 34 => ⟨S1x1x1, .i32⟩
  | 35 => ⟨S4x32768x1, .i32⟩
  | 36 => ⟨S4x32768x1, .i1⟩
  | 37 => ⟨S4x32768x1, .i1⟩
  | 38 => ⟨S_, .i1⟩
  | 39 => ⟨S4x32768, .i1⟩
  | 40 => ⟨S4x32768x256, .f32⟩
  | 41 => ⟨S4x32768x256, .i1⟩
  | 42 => ⟨S_, .f32⟩
  | 43 => ⟨S4x32768x256, .f32⟩
  | 44 => ⟨S4x32768x256, .f32⟩
  | 45 => ⟨S4x32768x1, .i32⟩
  | 46 => ⟨S_, .i32⟩
  | 47 => ⟨S4x32768x1, .i32⟩
  | 48 => ⟨S4x32768x1, .i1⟩
  | 49 => ⟨S_, .i32⟩
  | 50 => ⟨S4x32768x1, .i32⟩
  | 51 => ⟨S4x32768x1, .i32⟩
  | 52 => ⟨S4x32768x1, .i32⟩
  | 53 => ⟨S1, .i32⟩
  | 54 => ⟨S_, .i32⟩
  | 55 => ⟨S4x32768x1, .i32⟩
  | 56 => ⟨S4x32768x1, .i1⟩
  | 57 => ⟨S1x1x1, .i32⟩
  | 58 => ⟨S4x32768x1, .i32⟩
  | 59 => ⟨S4x32768x1, .i1⟩
  | 60 => ⟨S4x32768x1, .i1⟩
  | 61 => ⟨S_, .i1⟩
  | 62 => ⟨S4x32768, .i1⟩
  | 63 => ⟨S4x32768x256, .f32⟩
  | 64 => ⟨S4x32768x256, .i1⟩
  | 65 => ⟨S_, .f32⟩
  | 66 => ⟨S4x32768x256, .f32⟩
  | 67 => ⟨S4x32768x256, .f32⟩
  | 68 => ⟨S4x1x256, .f32⟩
  | 69 => ⟨S1024x256, .bf16⟩
  | 70 => ⟨S4x32768x256, .f32⟩
  | 71 => ⟨S4x1x256, .f32⟩
  | 72 => ⟨S4x131072x1, .i32⟩
  | 73 => ⟨S_, .i32⟩
  | 74 => ⟨S4x131072x1, .i32⟩
  | 75 => ⟨S4x131072x1, .i1⟩
  | 76 => ⟨S_, .i32⟩
  | 77 => ⟨S4x131072x1, .i32⟩
  | 78 => ⟨S4x131072x1, .i32⟩
  | 79 => ⟨S4x131072x1, .i32⟩
  | 80 => ⟨S1, .i32⟩
  | 81 => ⟨S_, .i32⟩
  | 82 => ⟨S4x131072x1, .i32⟩
  | 83 => ⟨S4x131072x1, .i1⟩
  | 84 => ⟨S1x1x1, .i32⟩
  | 85 => ⟨S4x131072x1, .i32⟩
  | 86 => ⟨S4x131072x1, .i1⟩
  | 87 => ⟨S4x131072x1, .i1⟩
  | 88 => ⟨S_, .i1⟩
  | 89 => ⟨S4x131072, .i1⟩
  | 90 => ⟨S4x131072x256, .f32⟩
  | 91 => ⟨S4x131072x256, .i1⟩
  | 92 => ⟨S_, .f32⟩
  | 93 => ⟨S4x131072x256, .f32⟩
  | 94 => ⟨S4x131072x256, .f32⟩
  | 95 => ⟨S4x8192x16x256, .f32⟩
  | 96 => ⟨S4x8192, .f32⟩
  | 97 => ⟨S_, .f32⟩
  | 98 => ⟨S4x8192, .f32⟩
  | 99 => ⟨S4x8192, .i1⟩
  | 100 => ⟨S_, .f32⟩
  | 101 => ⟨S_, .f32⟩
  | 102 => ⟨S4x8192, .f32⟩
  | 103 => ⟨S4x8192, .f32⟩
  | 104 => ⟨S_, .f32⟩
  | 105 => ⟨S4x8192x256, .f32⟩
  | 106 => ⟨S4x8192x1, .f32⟩
  | 107 => ⟨S4x8192x256, .f32⟩
  | 108 => ⟨S4x8192x256, .f32⟩
  | 109 => ⟨S768x256, .bf16⟩
  | 110 => ⟨S4x8192x256, .f32⟩
  | 111 => ⟨S4x1x256, .f32⟩
  | 112 => ⟨S4, .f32⟩
  | 113 => ⟨S_, .f32⟩
  | 114 => ⟨S4, .f32⟩
  | 115 => ⟨S4, .i1⟩
  | 116 => ⟨S_, .f32⟩
  | 117 => ⟨S_, .f32⟩
  | 118 => ⟨S4, .f32⟩
  | 119 => ⟨S4, .f32⟩
  | 120 => ⟨S4x256, .f32⟩
  | 121 => ⟨S4x1, .f32⟩
  | 122 => ⟨S4x256, .f32⟩
  | 123 => ⟨S4x256, .f32⟩
  | 124 => ⟨S4, .f32⟩
  | 125 => ⟨S_, .f32⟩
  | 126 => ⟨S4, .f32⟩
  | 127 => ⟨S4, .i1⟩
  | _ => ⟨S4x8192x256, .f32⟩

abbrev hbmTy0_1 (i : Nat) : BufTy := match i % 128 with
  | 0 => ⟨S_, .f32⟩
  | 1 => ⟨S_, .f32⟩
  | 2 => ⟨S4, .f32⟩
  | 3 => ⟨S4, .f32⟩
  | 4 => ⟨S4x256, .f32⟩
  | 5 => ⟨S4x1, .f32⟩
  | 6 => ⟨S4x256, .f32⟩
  | 7 => ⟨S4x256, .f32⟩
  | 8 => ⟨S4x768, .f32⟩
  | 9 => ⟨S4x256, .f32⟩
  | 10 => ⟨S1x256, .f32⟩
  | 11 => ⟨S4x256, .f32⟩
  | 12 => ⟨S4x256, .f32⟩
  | 13 => ⟨S_, .f32⟩
  | 14 => ⟨S4x256, .f32⟩
  | 15 => ⟨S4x256, .f32⟩
  | 16 => ⟨S4x256, .f32⟩
  | 17 => ⟨S1x256, .f32⟩
  | 18 => ⟨S4x256, .f32⟩
  | 19 => ⟨S4x256, .f32⟩
  | 20 => ⟨S_, .f32⟩
  | 21 => ⟨S256, .f32⟩
  | 22 => ⟨S256, .f32⟩
  | 23 => ⟨S256, .f32⟩
  | 24 => ⟨S1x256, .f32⟩
  | 25 => ⟨S4x256, .f32⟩
  | 26 => ⟨S4x256, .f32⟩
  | 27 => ⟨S1x256, .f32⟩
  | 28 => ⟨S4x256, .f32⟩
  | 29 => ⟨S4x256, .f32⟩
  | 30 => ⟨S1x256, .f32⟩
  | 31 => ⟨S4x256, .f32⟩
  | 32 => ⟨S4x256, .f32⟩
  | _ => ⟨S4x8192x256, .f32⟩

abbrev hbmTy (i : Nat) : BufTy := match i / 128 with
  | 0 => hbmTy0_0 i
  | 1 => hbmTy0_1 i
  | _ => ⟨S4x8192x256, .f32⟩

abbrev bufTy : (tb : Table) → Fin (tcTables nBuf tb) → BufTy
  | .hbm, ⟨i, _⟩ => hbmTy i
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1x256, .f32⟩
  | .local _ .vmem, ⟨7, _⟩ => ⟨S1x1x256, .f32⟩
  | .local _ .vmem, ⟨8, _⟩ => ⟨S1024x256, .bf16⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S1x1024x256, .f32⟩
  | .local _ .vmem, ⟨13, _⟩ => ⟨S1x1024x256, .f32⟩
  | .local _ .vmem, ⟨14, _⟩ => ⟨S1x1x256, .f32⟩
  | .local _ .vmem, ⟨15, _⟩ => ⟨S1x1x256, .f32⟩
  | .local _ .vmem, ⟨16, _⟩ => ⟨S1x1024x256, .f32⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .vmem, ⟨20, _⟩ => ⟨S1x1x256, .f32⟩
  | .local _ .vmem, ⟨21, _⟩ => ⟨S1x1x256, .f32⟩
  | .local _ .vmem, ⟨22, _⟩ => ⟨S768x256, .bf16⟩
  | .local _ .vmem, ⟨23, _⟩ => ⟨S256, .f32⟩
  | .local _ .vmem, ⟨24, _⟩ => ⟨S256, .f32⟩
  | .local _ .vmem, ⟨25, _⟩ => ⟨S256, .f32⟩
  | .local _ .vmem, ⟨26, _⟩ => ⟨S1x1024x256, .f32⟩
  | .local _ .vmem, ⟨27, _⟩ => ⟨S1x1024x256, .f32⟩
  | .local _ .vmem, ⟨28, _⟩ => ⟨S1x1x256, .f32⟩
  | .local _ .vmem, ⟨29, _⟩ => ⟨S1x1x256, .f32⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_c_2 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_c_3 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v1 : Ref sig .tc := ⟨.hbm, 44, rfl⟩
abbrev main_v2 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_c_2 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_c_3 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v3 : Ref sig .tc := ⟨.hbm, 67, rfl⟩
abbrev main_v4 : Ref sig .tc := ⟨.hbm, 68, rfl⟩
abbrev main_v5 : Ref sig .tc := ⟨.hbm, 69, rfl⟩
abbrev main_v6_0 : Ref sig .tc := ⟨.hbm, 70, rfl⟩
abbrev main_v6_1 : Ref sig .tc := ⟨.hbm, 71, rfl⟩
abbrev main_v7 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_c_2 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_c_3 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v8 : Ref sig .tc := ⟨.hbm, 94, rfl⟩
abbrev main_v9 : Ref sig .tc := ⟨.hbm, 95, rfl⟩
abbrev main_v10 : Ref sig .tc := ⟨.hbm, 96, rfl⟩
abbrev main_cst : Ref sig .tc := ⟨.hbm, 97, rfl⟩
abbrev main_v11 : Ref sig .tc := ⟨.hbm, 98, rfl⟩
abbrev main_v12 : Ref sig .tc := ⟨.hbm, 99, rfl⟩
abbrev main_cst_0 : Ref sig .tc := ⟨.hbm, 100, rfl⟩
abbrev main_call3_v0 : Ref sig .tc := ⟨.hbm, 101, rfl⟩
abbrev main_call3_v1 : Ref sig .tc := ⟨.hbm, 102, rfl⟩
abbrev main_v13 : Ref sig .tc := ⟨.hbm, 103, rfl⟩
abbrev main_cst_1 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev main_v19_0 : Ref sig .tc := ⟨.hbm, 110, rfl⟩
abbrev main_v19_1 : Ref sig .tc := ⟨.hbm, 111, rfl⟩
abbrev main_v20 : Ref sig .tc := ⟨.hbm, 112, rfl⟩
abbrev main_cst_2 : Ref sig .tc := ⟨.hbm, 113, rfl⟩
abbrev main_v21 : Ref sig .tc := ⟨.hbm, 114, rfl⟩
abbrev main_v22 : Ref sig .tc := ⟨.hbm, 115, rfl⟩
abbrev main_cst_3 : Ref sig .tc := ⟨.hbm, 116, rfl⟩
abbrev main_call4_v0 : Ref sig .tc := ⟨.hbm, 117, rfl⟩
abbrev main_call4_v1 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_cst_4 : Ref sig .tc := ⟨.hbm, 125, rfl⟩
abbrev main_v29 : Ref sig .tc := ⟨.hbm, 126, rfl⟩
abbrev main_v30 : Ref sig .tc := ⟨.hbm, 127, rfl⟩
abbrev main_cst_5 : Ref sig .tc := ⟨.hbm, 128, rfl⟩
abbrev main_call5_v0 : Ref sig .tc := ⟨.hbm, 129, rfl⟩
abbrev main_call5_v1 : Ref sig .tc := ⟨.hbm, 130, rfl⟩
abbrev main_v31 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_v35 : Ref sig .tc := ⟨.hbm, 135, rfl⟩
abbrev main_v36 : Ref sig .tc := ⟨.hbm, 136, rfl⟩
abbrev main_v37 : Ref sig .tc := ⟨.hbm, 137, rfl⟩
abbrev main_v38 : Ref sig .tc := ⟨.hbm, 138, rfl⟩
abbrev main_v39 : Ref sig .tc := ⟨.hbm, 139, rfl⟩
abbrev main_v40 : Ref sig .tc := ⟨.hbm, 140, rfl⟩
abbrev main_call6_cst : Ref sig .tc := ⟨.hbm, 141, rfl⟩
abbrev main_call6_v0 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_cst_6 : Ref sig .tc := ⟨.hbm, 148, rfl⟩
abbrev main_v46 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_v51 : Ref sig .tc := ⟨.hbm, 154, rfl⟩
abbrev main_v52 : Ref sig .tc := ⟨.hbm, 155, rfl⟩
abbrev main_v53 : Ref sig .tc := ⟨.hbm, 156, rfl⟩
abbrev main_v54 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S768x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  slices_S4x32768x2_S4x32768x1_0_0_0 : S4x32768x2.Slices ![0, 0, 0] S4x32768x1
  bcast_S_S4x32768x1 : S_.BroadcastsInDim S4x32768x1 (![] : Fin 0 → Fin S4x32768x1.rank)
  bcast_S1_S1x1x1_2 : S1.BroadcastsInDim S1x1x1 (![2] : Fin 1 → Fin S1x1x1.rank)
  bcast_S1x1x1_S4x32768x1_0_1_2 : S1x1x1.BroadcastsInDim S4x32768x1 (![0, 1, 2] : Fin 3 → Fin S4x32768x1.rank)
  reducesTo_S4x32768x1_S4x32768_d2 : S4x32768x1.ReducesTo [2] S4x32768
  h_S_ : 0 < S_.numel
  bcast_S4x32768_S4x32768x256_0_1 : S4x32768.BroadcastsInDim S4x32768x256 (![0, 1] : Fin 2 → Fin S4x32768x256.rank)
  bcast_S_S4x32768x256 : S_.BroadcastsInDim S4x32768x256 (![] : Fin 0 → Fin S4x32768x256.rank)
  slices_S4x32768x2_S4x32768x1_0_0_1 : S4x32768x2.Slices ![0, 0, 1] S4x32768x1
  bcast_S4x256_S4x1x256_0_2 : S4x256.BroadcastsInDim S4x1x256 (![0, 2] : Fin 2 → Fin S4x1x256.rank)
  bitsLt_bf16_f32 : FTy.bits .bf16 < FTy.bits .f32
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  shapeCasts_S256_S1x256 : S256.ShapeCasts S1x256
  shapeCasts_S1x256_S1x256 : S1x256.ShapeCasts S1x256
  broadcasts_S1x256_S1024x256 : S1x256.Broadcasts S1024x256
  concatenates_S1024x256_S1024x256_S1024x256_S1024x256_S1024x1024_d1 : Shape.Concatenates [S1024x256, S1024x256, S1024x256, S1024x256] S1024x1024 1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256_S256_0 : ∀ a, (![0] : Fin 1 → Nat) a + S256.size a ≤ S256.size a
  h_S256 : 0 < S256.numel
  reduces_S1024x256_S1024 : S1024x256.Reduces [1] S1024
  shapeCasts_S1024_S1024x1 : S1024.ShapeCasts S1024x1
  broadcasts_S1024x1_S1024x256 : S1024x1.Broadcasts S1024x256
  shapeCasts_S1024x256_S1x1024x256 : S1024x256.ShapeCasts S1x1024x256
  shapeCasts_S256_S1x1x256 : S256.ShapeCasts S1x1x256
  reduces_S1024x256_S256 : S1024x256.Reduces [0] S256
  shapeCasts_S4x8192x16_S4x131072x1 : S4x8192x16.ShapeCasts S4x131072x1
  bcast_S_S4x131072x1 : S_.BroadcastsInDim S4x131072x1 (![] : Fin 0 → Fin S4x131072x1.rank)
  bcast_S1x1x1_S4x131072x1_0_1_2 : S1x1x1.BroadcastsInDim S4x131072x1 (![0, 1, 2] : Fin 3 → Fin S4x131072x1.rank)
  reducesTo_S4x131072x1_S4x131072_d2 : S4x131072x1.ReducesTo [2] S4x131072
  bcast_S4x131072_S4x131072x256_0_1 : S4x131072.BroadcastsInDim S4x131072x256 (![0, 1] : Fin 2 → Fin S4x131072x256.rank)
  bcast_S_S4x131072x256 : S_.BroadcastsInDim S4x131072x256 (![] : Fin 0 → Fin S4x131072x256.rank)
  shapeCasts_S4x131072x256_S4x8192x16x256 : S4x131072x256.ShapeCasts S4x8192x16x256
  bcast_S_S4x8192 : S_.BroadcastsInDim S4x8192 (![] : Fin 0 → Fin S4x8192.rank)
  reducesTo_S4x8192x16x256_S4x8192x256_d2 : S4x8192x16x256.ReducesTo [2] S4x8192x256
  bcast_S4x8192_S4x8192x1_0_1 : S4x8192.BroadcastsInDim S4x8192x1 (![0, 1] : Fin 2 → Fin S4x8192x1.rank)
  bcast_S4x8192x1_S4x8192x256_0_1_2 : S4x8192x1.BroadcastsInDim S4x8192x256 (![0, 1, 2] : Fin 3 → Fin S4x8192x256.rank)
  concatenates_S1024x256_S1024x256_S1024x256_S1024x768_d1 : Shape.Concatenates [S1024x256, S1024x256, S1024x256] S1024x768 1
  inb_S768x256_S768x256_0_0 : ∀ a, (![0, 0] : Fin 2 → Nat) a + S768x256.size a ≤ S768x256.size a
  h_S768x256 : 0 < S768x256.numel
  shapeCasts_S768x256_S768x256 : S768x256.ShapeCasts S768x256
  bcast_S_S4 : S_.BroadcastsInDim S4 (![] : Fin 0 → Fin S4.rank)
  shapeCasts_S4x1x256_S4x256 : S4x1x256.ShapeCasts S4x256
  bcast_S4_S4x1_0 : S4.BroadcastsInDim S4x1 (![0] : Fin 1 → Fin S4x1.rank)
  bcast_S4x1_S4x256_0_1 : S4x1.BroadcastsInDim S4x256 (![0, 1] : Fin 2 → Fin S4x256.rank)
  concatenates_S4x256_S4x256_S4x256_S4x768_d1 : Shape.Concatenates [S4x256, S4x256, S4x256] S4x768 1
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  bcast_S_S4x256 : S_.BroadcastsInDim S4x256 (![] : Fin 0 → Fin S4x256.rank)
  bcast_S_S256 : S_.BroadcastsInDim S256 (![] : Fin 0 → Fin S256.rank)
  gather_S4x8192x256_S4x32768x1_S4x32768x256_2_1_0_0_1_2_11256_wf : GatherDims.WF S4x8192x256 S4x32768x1 S4x32768x256 [2] [1] [0] [1] [0] 2 ![1, 1, 256]
  dot_S1024x1024_S1024x256_S1024x256_1_0_0_1_n_n_wf : DotDims.WF S1024x1024 S1024x256 S1024x256 [1] [0] [0] [1] [] []
  gather_S4x32768x256_S4x131072x1_S4x131072x256_2_1_0_0_1_2_11256_wf : GatherDims.WF S4x32768x256 S4x131072x1 S4x131072x256 [2] [1] [0] [1] [0] 2 ![1, 1, 256]
  dot_S1024x768_S768x256_S1024x256_1_0_0_1_n_n_wf : DotDims.WF S1024x768 S768x256 S1024x256 [1] [0] [0] [1] [] []
  dot_S4x768_S768x256_S4x256_1_0_0_1_n_n_wf : DotDims.WF S4x768 S768x256 S4x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S4x32768x256.size a
  hwx0_0 : ∀ i : grid0.Coords, EltTy.bits .f32 = 32 ∨ (Rect.block (s := S4x32768x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S4x32768x256.size a
  hwx0_1 : ∀ i : grid0.Coords, EltTy.bits .f32 = 32 ∨ (Rect.block (s := S4x32768x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S4x32768x256.size a
  hwx0_2 : ∀ i : grid0.Coords, EltTy.bits .f32 = 32 ∨ (Rect.block (s := S4x32768x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S4x1x256.size a
  hwx0_3 : ∀ i : grid0.Coords, EltTy.bits .f32 = 32 ∨ (Rect.block (s := S4x1x256) S1x1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x256.size a
  hwx0_4 : ∀ i : grid0.Coords, EltTy.bits .bf16 = 32 ∨ (Rect.block (s := S1024x256) S1024x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x256.size a ≤ S4x32768x256.size a
  hwx0_8 : ∀ i : grid0.Coords, EltTy.bits .f32 = 32 ∨ (Rect.block (s := S4x32768x256) S1x1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x256.size a ≤ S4x1x256.size a
  hwx0_9 : ∀ i : grid0.Coords, EltTy.bits .f32 = 32 ∨ (Rect.block (s := S4x1x256) S1x1x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S4x8192x256.size a
  hwx1_0 : ∀ i : grid1.Coords, EltTy.bits .f32 = 32 ∨ (Rect.block (s := S4x8192x256) S1x1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x256.size a ≤ S4x8192x256.size a
  hwx1_1 : ∀ i : grid1.Coords, EltTy.bits .f32 = 32 ∨ (Rect.block (s := S4x8192x256) S1x1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S4x1x256.size a
  hwx1_2 : ∀ i : grid1.Coords, EltTy.bits .f32 = 32 ∨ (Rect.block (s := S4x1x256) S1x1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x256.size a ≤ S768x256.size a
  hwx1_3 : ∀ i : grid1.Coords, EltTy.bits .bf16 = 32 ∨ (Rect.block (s := S768x256) S768x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024x256.size a ≤ S4x8192x256.size a
  hwx1_7 : ∀ i : grid1.Coords, EltTy.bits .f32 = 32 ∨ (Rect.block (s := S4x8192x256) S1x1024x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x256.size a ≤ S4x1x256.size a
  hwx1_8 : ∀ i : grid1.Coords, EltTy.bits .f32 = 32 ∨ (Rect.block (s := S4x1x256) S1x1x256.size (cc1_transform_8 i) (hinb1_8 i)).WholeWords (EltTy.packing .f32)

variable [Facts₀]

def gather_S4x8192x256_S4x32768x1_S4x32768x256_2_1_0_0_1_2_11256 : GatherDims S4x8192x256 S4x32768x1 S4x32768x256 where
  offsetDims := [2]
  collapsedSliceDims := [1]
  operandBatchingDims := [0]
  startIndicesBatchingDims := [0]
  startIndexMap := [1]
  indexVectorDim := 2
  sliceSizes := ![1, 1, 256]
  wf := gather_S4x8192x256_S4x32768x1_S4x32768x256_2_1_0_0_1_2_11256_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def gather_S4x32768x256_S4x131072x1_S4x131072x256_2_1_0_0_1_2_11256 : GatherDims S4x32768x256 S4x131072x1 S4x131072x256 where
  offsetDims := [2]
  collapsedSliceDims := [1]
  operandBatchingDims := [0]
  startIndicesBatchingDims := [0]
  startIndexMap := [1]
  indexVectorDim := 2
  sliceSizes := ![1, 1, 256]
  wf := gather_S4x32768x256_S4x131072x1_S4x131072x256_2_1_0_0_1_2_11256_wf
def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf
def dot_S4x768_S768x256_S4x256_1_0_0_1_n_n : DotDims S4x768 S768x256 S4x256 where
  lhsContracting := [1]
  rhsContracting := [0]
  lhsNonContracting := [0]
  rhsNonContracting := [1]
  lhsBatch := []
  rhsBatch := []
  wf := dot_S4x768_S768x256_S4x256_1_0_0_1_n_n_wf

abbrev win0_0 : Pipeline.Window sig grid0 :=
  Pipeline.Window.ofSpec (Memref.whole main_arg1) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_0) S1x1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v6_1) S1x1x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S768x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19_0) S1x1024x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v19_1) S1x1x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4x8192x256 : Shape := ⟨3, ![4, 8192, 256]⟩
abbrev S4x32768x256 : Shape := ⟨3, ![4, 32768, 256]⟩
abbrev S4x256 : Shape := ⟨2, ![4, 256]⟩
abbrev S4x32768x2 : Shape := ⟨3, ![4, 32768, 2]⟩
abbrev S4x8192x16 : Shape := ⟨3, ![4, 8192, 16]⟩
abbrev S4x8192 : Shape := ⟨2, ![4, 8192]⟩
abbrev S4 : Shape := ⟨1, ![4]⟩
abbrev S1024x256 : Shape := ⟨2, ![1024, 256]⟩
abbrev S256 : Shape := ⟨1, ![256]⟩
abbrev S768x256 : Shape := ⟨2, ![768, 256]⟩
abbrev S4x32768x1 : Shape := ⟨3, ![4, 32768, 1]⟩
abbrev S_ : Shape := ⟨0, ![]⟩
abbrev S1 : Shape := ⟨1, ![1]⟩
abbrev S1x1x1 : Shape := ⟨3, ![1, 1, 1]⟩
abbrev S4x32768 : Shape := ⟨2, ![4, 32768]⟩
abbrev S4x1x256 : Shape := ⟨3, ![4, 1, 256]⟩
abbrev S4x32768x1024 : Shape := ⟨3, ![4, 32768, 1024]⟩
abbrev S1x1x256 : Shape := ⟨3, ![1, 1, 256]⟩
abbrev S4x131072x1 : Shape := ⟨3, ![4, 131072, 1]⟩
abbrev S4x131072 : Shape := ⟨2, ![4, 131072]⟩
abbrev S4x131072x256 : Shape := ⟨3, ![4, 131072, 256]⟩
abbrev S4x8192x16x256 : Shape := ⟨4, ![4, 8192, 16, 256]⟩
abbrev S4x8192x1 : Shape := ⟨3, ![4, 8192, 1]⟩
abbrev S4x8192x768 : Shape := ⟨3, ![4, 8192, 768]⟩
abbrev S4x1 : Shape := ⟨2, ![4, 1]⟩
abbrev S4x768 : Shape := ⟨2, ![4, 768]⟩
abbrev S1x256 : Shape := ⟨2, ![1, 256]⟩

abbrev nBuf : Space → Nat
  | .hbm => 236
  | .vmem => 0
  | .smem => 0
  | _ => 0

abbrev hbmTy0_0 (i : Nat) : BufTy := match i % 128 with
  | 0 => ⟨S4x8192x256, .f32⟩
  | 1 => ⟨S4x32768x256, .f32⟩
  | 2 => ⟨S4x256, .f32⟩
  | 3 => ⟨S4x32768x2, .i32⟩
  | 4 => ⟨S4x8192x16, .i32⟩
  | 5 => ⟨S4x8192, .i32⟩
  | 6 => ⟨S4, .i32⟩
  | 7 => ⟨S4, .i32⟩
  | 8 => ⟨S1024x256, .f32⟩
  | 9 => ⟨S256, .f32⟩
  | 10 => ⟨S256, .f32⟩
  | 11 => ⟨S256, .f32⟩
  | 12 => ⟨S768x256, .f32⟩
  | 13 => ⟨S256, .f32⟩
  | 14 => ⟨S256, .f32⟩
  | 15 => ⟨S256, .f32⟩
  | 16 => ⟨S768x256, .f32⟩
  | 17 => ⟨S256, .f32⟩
  | 18 => ⟨S256, .f32⟩
  | 19 => ⟨S256, .f32⟩
  | 20 => ⟨S256, .f32⟩
  | 21 => ⟨S256, .f32⟩
  | 22 => ⟨S4x32768x1, .i32⟩
  | 23 => ⟨S_, .i32⟩
  | 24 => ⟨S4x32768x1, .i32⟩
  | 25 => ⟨S4x32768x1, .i1⟩
  | 26 => ⟨S_, .i32⟩
  | 27 => ⟨S4x32768x1, .i32⟩
  | 28 => ⟨S4x32768x1, .i32⟩
  | 29 => ⟨S4x32768x1, .i32⟩
  | 30 => ⟨S1, .i32⟩
  | 31 => ⟨S_, .i32⟩
  | 32 => ⟨S4x32768x1, .i32⟩
  | 33 => ⟨S4x32768x1, .i1⟩
  | 34 => ⟨S1x1x1, .i32⟩
  | 35 => ⟨S4x32768x1, .i32⟩
  | 36 => ⟨S4x32768x1, .i1⟩
  | 37 => ⟨S4x32768x1, .i1⟩
  | 38 => ⟨S_, .i1⟩
  | 39 => ⟨S4x32768, .i1⟩
  | 40 => ⟨S4x32768x256, .f32⟩
  | 41 => ⟨S4x32768x256, .i1⟩
  | 42 => ⟨S_, .f32⟩
  | 43 => ⟨S4x32768x256, .f32⟩
  | 44 => ⟨S4x32768x256, .f32⟩
  | 45 => ⟨S4x32768x1, .i32⟩
  | 46 => ⟨S_, .i32⟩
  | 47 => ⟨S4x32768x1, .i32⟩
  | 48 => ⟨S4x32768x1, .i1⟩
  | 49 => ⟨S_, .i32⟩
  | 50 => ⟨S4x32768x1, .i32⟩
  | 51 => ⟨S4x32768x1, .i32⟩
  | 52 => ⟨S4x32768x1, .i32⟩
  | 53 => ⟨S1, .i32⟩
  | 54 => ⟨S_, .i32⟩
  | 55 => ⟨S4x32768x1, .i32⟩
  | 56 => ⟨S4x32768x1, .i1⟩
  | 57 => ⟨S1x1x1, .i32⟩
  | 58 => ⟨S4x32768x1, .i32⟩
  | 59 => ⟨S4x32768x1, .i1⟩
  | 60 => ⟨S4x32768x1, .i1⟩
  | 61 => ⟨S_, .i1⟩
  | 62 => ⟨S4x32768, .i1⟩
  | 63 => ⟨S4x32768x256, .f32⟩
  | 64 => ⟨S4x32768x256, .i1⟩
  | 65 => ⟨S_, .f32⟩
  | 66 => ⟨S4x32768x256, .f32⟩
  | 67 => ⟨S4x32768x256, .f32⟩
  | 68 => ⟨S4x1x256, .f32⟩
  | 69 => ⟨S4x32768x256, .f32⟩
  | 70 => ⟨S4x32768x1024, .f32⟩
  | 71 => ⟨S4x32768x256, .f32⟩
  | 72 => ⟨S1x1x256, .f32⟩
  | 73 => ⟨S4x32768x256, .f32⟩
  | 74 => ⟨S4x32768x256, .f32⟩
  | 75 => ⟨S_, .f32⟩
  | 76 => ⟨S4x32768x256, .f32⟩
  | 77 => ⟨S4x32768x256, .f32⟩
  | 78 => ⟨S4x32768x256, .f32⟩
  | 79 => ⟨S_, .f32⟩
  | 80 => ⟨S4x32768, .f32⟩
  | 81 => ⟨S4x32768x1, .f32⟩
  | 82 => ⟨S_, .f32⟩
  | 83 => ⟨S4x32768x1, .f32⟩
  | 84 => ⟨S4x32768x1, .f32⟩
  | 85 => ⟨S4x32768x256, .f32⟩
  | 86 => ⟨S4x32768x256, .f32⟩
  | 87 => ⟨S4x32768x256, .f32⟩
  | 88 => ⟨S_, .f32⟩
  | 89 => ⟨S4x32768, .f32⟩
  | 90 => ⟨S4x32768x1, .f32⟩
  | 91 => ⟨S_, .f32⟩
  | 92 => ⟨S4x32768x1, .f32⟩
  | 93 => ⟨S4x32768x1, .f32⟩
  | 94 => ⟨S4x32768x256, .f32⟩
  | 95 => ⟨S4x32768x256, .f32⟩
  | 96 => ⟨S_, .f32⟩
  | 97 => ⟨S4x32768x1, .f32⟩
  | 98 => ⟨S4x32768x1, .f32⟩
  | 99 => ⟨S4x32768x1, .f32⟩
  | 100 => ⟨S4x32768x256, .f32⟩
  | 101 => ⟨S4x32768x256, .f32⟩
  | 102 => ⟨S1x1x256, .f32⟩
  | 103 => ⟨S4x32768x256, .f32⟩
  | 104 => ⟨S4x32768x256, .f32⟩
  | 105 => ⟨S1x1x256, .f32⟩
  | 106 => ⟨S4x32768x256, .f32⟩
  | 107 => ⟨S4x32768x256, .f32⟩
  | 108 => ⟨S4x131072x1, .i32⟩
  | 109 => ⟨S_, .i32⟩
  | 110 => ⟨S4x131072x1, .i32⟩
  | 111 => ⟨S4x131072x1, .i1⟩
  | 112 => ⟨S_, .i32⟩
  | 113 => ⟨S4x131072x1, .i32⟩
  | 114 => ⟨S4x131072x1, .i32⟩
  | 115 => ⟨S4x131072x1, .i32⟩
  | 116 => ⟨S1, .i32⟩
  | 117 => ⟨S_, .i32⟩
  | 118 => ⟨S4x131072x1, .i32⟩
  | 119 => ⟨S4x131072x1, .i1⟩
  | 120 => ⟨S1x1x1, .i32⟩
  | 121 => ⟨S4x131072x1, .i32⟩
  | 122 => ⟨S4x131072x1, .i1⟩
  | 123 => ⟨S4x131072x1, .i1⟩
  | 124 => ⟨S_, .i1⟩
  | 125 => ⟨S4x131072, .i1⟩
  | 126 => ⟨S4x131072x256, .f32⟩
  | 127 => ⟨S4x131072x256, .i1⟩
  | _ => ⟨S4x8192x256, .f32⟩

abbrev hbmTy0_1 (i : Nat) : BufTy := match i % 128 with
  | 0 => ⟨S_, .f32⟩
  | 1 => ⟨S4x131072x256, .f32⟩
  | 2 => ⟨S4x131072x256, .f32⟩
  | 3 => ⟨S4x8192x16x256, .f32⟩
  | 4 => ⟨S4x8192, .f32⟩
  | 5 => ⟨S_, .f32⟩
  | 6 => ⟨S4x8192, .f32⟩
  | 7 => ⟨S4x8192, .i1⟩
  | 8 => ⟨S_, .f32⟩
  | 9 => ⟨S_, .f32⟩
  | 10 => ⟨S4x8192, .f32⟩
  | 11 => ⟨S4x8192, .f32⟩
  | 12 => ⟨S_, .f32⟩
  | 13 => ⟨S4x8192x256, .f32⟩
  | 14 => ⟨S4x8192x1, .f32⟩
  | 15 => ⟨S4x8192x256, .f32⟩
  | 16 => ⟨S4x8192x256, .f32⟩
  | 17 => ⟨S4x1x256, .f32⟩
  | 18 => ⟨S4x8192x256, .f32⟩
  | 19 => ⟨S4x8192x768, .f32⟩
  | 20 => ⟨S4x8192x256, .f32⟩
  | 21 => ⟨S1x1x256, .f32⟩
  | 22 => ⟨S4x8192x256, .f32⟩
  | 23 => ⟨S4x8192x256, .f32⟩
  | 24 => ⟨S_, .f32⟩
  | 25 => ⟨S4x8192x256, .f32⟩
  | 26 => ⟨S4x8192x256, .f32⟩
  | 27 => ⟨S4x8192x256, .f32⟩
  | 28 => ⟨S_, .f32⟩
  | 29 => ⟨S4x8192, .f32⟩
  | 30 => ⟨S4x8192x1, .f32⟩
  | 31 => ⟨S_, .f32⟩
  | 32 => ⟨S4x8192x1, .f32⟩
  | 33 => ⟨S4x8192x1, .f32⟩
  | 34 => ⟨S4x8192x256, .f32⟩
  | 35 => ⟨S4x8192x256, .f32⟩
  | 36 => ⟨S4x8192x256, .f32⟩
  | 37 => ⟨S_, .f32⟩
  | 38 => ⟨S4x8192, .f32⟩
  | 39 => ⟨S4x8192x1, .f32⟩
  | 40 => ⟨S_, .f32⟩
  | 41 => ⟨S4x8192x1, .f32⟩
  | 42 => ⟨S4x8192x1, .f32⟩
  | 43 => ⟨S4x8192x256, .f32⟩
  | 44 => ⟨S4x8192x256, .f32⟩
  | 45 => ⟨S_, .f32⟩
  | 46 => ⟨S4x8192x1, .f32⟩
  | 47 => ⟨S4x8192x1, .f32⟩
  | 48 => ⟨S4x8192x1, .f32⟩
  | 49 => ⟨S4x8192x256, .f32⟩
  | 50 => ⟨S4x8192x256, .f32⟩
  | 51 => ⟨S1x1x256, .f32⟩
  | 52 => ⟨S4x8192x256, .f32⟩
  | 53 => ⟨S4x8192x256, .f32⟩
  | 54 => ⟨S1x1x256, .f32⟩
  | 55 => ⟨S4x8192x256, .f32⟩
  | 56 => ⟨S4x8192x256, .f32⟩
  | 57 => ⟨S4, .f32⟩
  | 58 => ⟨S_, .f32⟩
  | 59 => ⟨S4, .f32⟩
  | 60 => ⟨S4, .i1⟩
  | 61 => ⟨S_, .f32⟩
  | 62 => ⟨S_, .f32⟩
  | 63 => ⟨S4, .f32⟩
  | 64 => ⟨S4, .f32⟩
  | 65 => ⟨S_, .f32⟩
  | 66 => ⟨S4x256, .f32⟩
  | 67 => ⟨S4x1, .f32⟩
  | 68 => ⟨S4x256, .f32⟩
  | 69 => ⟨S4x256, .f32⟩
  | 70 => ⟨S4, .f32⟩
  | 71 => ⟨S_, .f32⟩
  | 72 => ⟨S4, .f32⟩
  | 73 => ⟨S4, .i1⟩
  | 74 => ⟨S_, .f32⟩
  | 75 => ⟨S_, .f32⟩
  | 76 => ⟨S4, .f32⟩
  | 77 => ⟨S4, .f32⟩
  | 78 => ⟨S_, .f32⟩
  | 79 => ⟨S4x256, .f32⟩
  | 80 => ⟨S4x1, .f32⟩
  | 81 => ⟨S4x256, .f32⟩
  | 82 => ⟨S4x256, .f32⟩
  | 83 => ⟨S4x768, .f32⟩
  | 84 => ⟨S4x256, .f32⟩
  | 85 => ⟨S1x256, .f32⟩
  | 86 => ⟨S4x256, .f32⟩
  | 87 => ⟨S4x256, .f32⟩
  | 88 => ⟨S_, .f32⟩
  | 89 => ⟨S4x256, .f32⟩
  | 90 => ⟨S4x256, .f32⟩
  | 91 => ⟨S4x256, .f32⟩
  | 92 => ⟨S1x256, .f32⟩
  | 93 => ⟨S4x256, .f32⟩
  | 94 => ⟨S4x256, .f32⟩
  | 95 => ⟨S_, .f32⟩
  | 96 => ⟨S256, .f32⟩
  | 97 => ⟨S256, .f32⟩
  | 98 => ⟨S256, .f32⟩
  | 99 => ⟨S1x256, .f32⟩
  | 100 => ⟨S4x256, .f32⟩
  | 101 => ⟨S4x256, .f32⟩
  | 102 => ⟨S1x256, .f32⟩
  | 103 => ⟨S4x256, .f32⟩
  | 104 => ⟨S4x256, .f32⟩
  | 105 => ⟨S1x256, .f32⟩
  | 106 => ⟨S4x256, .f32⟩
  | 107 => ⟨S4x256, .f32⟩
  | _ => ⟨S4x8192x256, .f32⟩

abbrev hbmTy (i : Nat) : BufTy := match i / 128 with
  | 0 => hbmTy0_0 i
  | 1 => hbmTy0_1 i
  | _ => ⟨S4x8192x256, .f32⟩

abbrev bufTy : (tb : Table) → Fin (tcTables nBuf tb) → BufTy
  | .hbm, ⟨i, _⟩ => hbmTy i
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_c_2 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_c_3 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_cst : Ref sig .tc := ⟨.hbm, 42, rfl⟩
abbrev main_call0_v14 : Ref sig .tc := ⟨.hbm, 43, rfl⟩
abbrev main_v1 : Ref sig .tc := ⟨.hbm, 44, rfl⟩
abbrev main_v2 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_c_2 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_c_3 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v3 : Ref sig .tc := ⟨.hbm, 67, rfl⟩
abbrev main_v4 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_call2_cst : Ref sig .tc := ⟨.hbm, 75, rfl⟩
abbrev main_call2_v0 : Ref sig .tc := ⟨.hbm, 76, rfl⟩
abbrev main_v11 : Ref sig .tc := ⟨.hbm, 77, rfl⟩
abbrev main_v12 : Ref sig .tc := ⟨.hbm, 78, rfl⟩
abbrev main_cst : Ref sig .tc := ⟨.hbm, 79, rfl⟩
abbrev main_v13 : Ref sig .tc := ⟨.hbm, 80, rfl⟩
abbrev main_v14 : Ref sig .tc := ⟨.hbm, 81, rfl⟩
abbrev main_cst_0 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_v18 : Ref sig .tc := ⟨.hbm, 86, rfl⟩
abbrev main_v19 : Ref sig .tc := ⟨.hbm, 87, rfl⟩
abbrev main_cst_1 : Ref sig .tc := ⟨.hbm, 88, rfl⟩
abbrev main_v20 : Ref sig .tc := ⟨.hbm, 89, rfl⟩
abbrev main_v21 : Ref sig .tc := ⟨.hbm, 90, rfl⟩
abbrev main_cst_2 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_cst_3 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_c_1 : Ref sig .tc := ⟨.hbm, 116, rfl⟩
abbrev main_call3_c_2 : Ref sig .tc := ⟨.hbm, 117, rfl⟩
abbrev main_call3_v5 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_c_3 : Ref sig .tc := ⟨.hbm, 124, rfl⟩
abbrev main_call3_v11 : Ref sig .tc := ⟨.hbm, 125, rfl⟩
abbrev main_call3_v12 : Ref sig .tc := ⟨.hbm, 126, rfl⟩
abbrev main_call3_v13 : Ref sig .tc := ⟨.hbm, 127, rfl⟩
abbrev main_call3_cst : Ref sig .tc := ⟨.hbm, 128, rfl⟩
abbrev main_call3_v14 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_cst_4 : Ref sig .tc := ⟨.hbm, 133, rfl⟩
abbrev main_v41 : Ref sig .tc := ⟨.hbm, 134, rfl⟩
abbrev main_v42 : Ref sig .tc := ⟨.hbm, 135, rfl⟩
abbrev main_cst_5 : Ref sig .tc := ⟨.hbm, 136, rfl⟩
abbrev main_call4_v0 : Ref sig .tc := ⟨.hbm, 137, rfl⟩
abbrev main_call4_v1 : Ref sig .tc := ⟨.hbm, 138, rfl⟩
abbrev main_v43 : Ref sig .tc := ⟨.hbm, 139, rfl⟩
abbrev main_cst_6 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_call5_cst : Ref sig .tc := ⟨.hbm, 152, rfl⟩
abbrev main_call5_v0 : Ref sig .tc := ⟨.hbm, 153, rfl⟩
abbrev main_v55 : Ref sig .tc := ⟨.hbm, 154, rfl⟩
abbrev main_v56 : Ref sig .tc := ⟨.hbm, 155, rfl⟩
abbrev main_cst_7 : Ref sig .tc := ⟨.hbm, 156, rfl⟩
abbrev main_v57 : Ref sig .tc := ⟨.hbm, 157, rfl⟩
abbrev main_v58 : Ref sig .tc := ⟨.hbm, 158, rfl⟩
abbrev main_cst_8 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_cst_9 : Ref sig .tc := ⟨.hbm, 165, rfl⟩
abbrev main_v64 : Ref sig .tc := ⟨.hbm, 166, rfl⟩
abbrev main_v65 : Ref sig .tc := ⟨.hbm, 167, rfl⟩
abbrev main_cst_10 : Ref sig .tc := ⟨.hbm, 168, rfl⟩
abbrev main_v66 : Ref sig .tc := ⟨.hbm, 169, rfl⟩
abbrev main_v67 : Ref sig .tc := ⟨.hbm, 170, rfl⟩
abbrev main_v68 : Ref sig .tc := ⟨.hbm, 171, rfl⟩
abbrev main_v69 : Ref sig .tc := ⟨.hbm, 172, rfl⟩
abbrev main_cst_11 : Ref sig .tc := ⟨.hbm, 173, rfl⟩
abbrev main_v70 : Ref sig .tc := ⟨.hbm, 174, rfl⟩
abbrev main_v71 : Ref sig .tc := ⟨.hbm, 175, rfl⟩
abbrev main_v72 : Ref sig .tc := ⟨.hbm, 176, rfl⟩
abbrev main_v73 : Ref sig .tc := ⟨.hbm, 177, rfl⟩
abbrev main_v74 : Ref sig .tc := ⟨.hbm, 178, rfl⟩
abbrev main_v75 : Ref sig .tc := ⟨.hbm, 179, rfl⟩
abbrev main_v76 : Ref sig .tc := ⟨.hbm, 180, rfl⟩
abbrev main_v77 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_cst_12 : Ref sig .tc := ⟨.hbm, 186, rfl⟩
abbrev main_v82 : Ref sig .tc := ⟨.hbm, 187, rfl⟩
abbrev main_v83 : Ref sig .tc := ⟨.hbm, 188, rfl⟩
abbrev main_cst_13 : Ref sig .tc := ⟨.hbm, 189, rfl⟩
abbrev main_call6_v0 : Ref sig .tc := ⟨.hbm, 190, rfl⟩
abbrev main_call6_v1 : Ref sig .tc := ⟨.hbm, 191, rfl⟩
abbrev main_v84 : Ref sig .tc := ⟨.hbm, 192, rfl⟩
abbrev main_cst_14 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_v89 : Ref sig .tc := ⟨.hbm, 198, rfl⟩
abbrev main_cst_15 : Ref sig .tc := ⟨.hbm, 199, rfl⟩
abbrev main_v90 : Ref sig .tc := ⟨.hbm, 200, rfl⟩
abbrev main_v91 : Ref sig .tc := ⟨.hbm, 201, rfl⟩
abbrev main_cst_16 : Ref sig .tc := ⟨.hbm, 202, rfl⟩
abbrev main_call7_v0 : Ref sig .tc := ⟨.hbm, 203, rfl⟩
abbrev main_call7_v1 : Ref sig .tc := ⟨.hbm, 204, rfl⟩
abbrev main_v92 : Ref sig .tc := ⟨.hbm, 205, rfl⟩
abbrev main_cst_17 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_call8_cst : Ref sig .tc := ⟨.hbm, 216, rfl⟩
abbrev main_call8_v0 : Ref sig .tc := ⟨.hbm, 217, rfl⟩
abbrev main_v102 : Ref sig .tc := ⟨.hbm, 218, rfl⟩
abbrev main_v103 : Ref sig .tc := ⟨.hbm, 219, rfl⟩
abbrev main_v104 : Ref sig .tc := ⟨.hbm, 220, rfl⟩
abbrev main_v105 : Ref sig .tc := ⟨.hbm, 221, rfl⟩
abbrev main_v106 : Ref sig .tc := ⟨.hbm, 222, rfl⟩
abbrev main_cst_18 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩

abbrev nD : Nat := 1
abbrev τ : Topo := Topo.v7x

variable {F : FTy → Type} [FloatOps F]

class Facts₀ : Prop where
  slices_S4x32768x2_S4x32768x1_0_0_0 : S4x32768x2.Slices ![0, 0, 0] S4x32768x1
  bcast_S_S4x32768x1 : S_.BroadcastsInDim S4x32768x1 (![] : Fin 0 → Fin S4x32768x1.rank)
  bcast_S1_S1x1x1_2 : S1.BroadcastsInDim S1x1x1 (![2] : Fin 1 → Fin S1x1x1.rank)
  bcast_S1x1x1_S4x32768x1_0_1_2 : S1x1x1.BroadcastsInDim S4x32768x1 (![0, 1, 2] : Fin 3 → Fin S4x32768x1.rank)
  reducesTo_S4x32768x1_S4x32768_d2 : S4x32768x1.ReducesTo [2] S4x32768
  h_S_ : 0 < S_.numel
  bcast_S4x32768_S4x32768x256_0_1 : S4x32768.BroadcastsInDim S4x32768x256 (![0, 1] : Fin 2 → Fin S4x32768x256.rank)
  bcast_S_S4x32768x256 : S_.BroadcastsInDim S4x32768x256 (![] : Fin 0 → Fin S4x32768x256.rank)
  slices_S4x32768x2_S4x32768x1_0_0_1 : S4x32768x2.Slices ![0, 0, 1] S4x32768x1
  bcast_S4x256_S4x1x256_0_2 : S4x256.BroadcastsInDim S4x1x256 (![0, 2] : Fin 2 → Fin S4x1x256.rank)
  bcast_S4x1x256_S4x32768x256_0_1_2 : S4x1x256.BroadcastsInDim S4x32768x256 (![0, 1, 2] : Fin 3 → Fin S4x32768x256.rank)
  concatenates_S4x32768x256_S4x32768x256_S4x32768x256_S4x32768x256_S4x32768x1024_d2 : Shape.Concatenates [S4x32768x256, S4x32768x256, S4x32768x256, S4x32768x256] S4x32768x1024 2
  bcast_S256_S1x1x256_2 : S256.BroadcastsInDim S1x1x256 (![2] : Fin 1 → Fin S1x1x256.rank)
  bcast_S1x1x256_S4x32768x256_0_1_2 : S1x1x256.BroadcastsInDim S4x32768x256 (![0, 1, 2] : Fin 3 → Fin S4x32768x256.rank)
  reducesTo_S4x32768x256_S4x32768_d2 : S4x32768x256.ReducesTo [2] S4x32768
  bcast_S4x32768_S4x32768x1_0_1 : S4x32768.BroadcastsInDim S4x32768x1 (![0, 1] : Fin 2 → Fin S4x32768x1.rank)
  bcast_S4x32768x1_S4x32768x256_0_1_2 : S4x32768x1.BroadcastsInDim S4x32768x256 (![0, 1, 2] : Fin 3 → Fin S4x32768x256.rank)
  shapeCasts_S4x8192x16_S4x131072x1 : S4x8192x16.ShapeCasts S4x131072x1
  bcast_S_S4x131072x1 : S_.BroadcastsInDim S4x131072x1 (![] : Fin 0 → Fin S4x131072x1.rank)
  bcast_S1x1x1_S4x131072x1_0_1_2 : S1x1x1.BroadcastsInDim S4x131072x1 (![0, 1, 2] : Fin 3 → Fin S4x131072x1.rank)
  reducesTo_S4x131072x1_S4x131072_d2 : S4x131072x1.ReducesTo [2] S4x131072
  bcast_S4x131072_S4x131072x256_0_1 : S4x131072.BroadcastsInDim S4x131072x256 (![0, 1] : Fin 2 → Fin S4x131072x256.rank)
  bcast_S_S4x131072x256 : S_.BroadcastsInDim S4x131072x256 (![] : Fin 0 → Fin S4x131072x256.rank)
  shapeCasts_S4x131072x256_S4x8192x16x256 : S4x131072x256.ShapeCasts S4x8192x16x256
  bcast_S_S4x8192 : S_.BroadcastsInDim S4x8192 (![] : Fin 0 → Fin S4x8192.rank)
  reducesTo_S4x8192x16x256_S4x8192x256_d2 : S4x8192x16x256.ReducesTo [2] S4x8192x256
  bcast_S4x8192_S4x8192x1_0_1 : S4x8192.BroadcastsInDim S4x8192x1 (![0, 1] : Fin 2 → Fin S4x8192x1.rank)
  bcast_S4x8192x1_S4x8192x256_0_1_2 : S4x8192x1.BroadcastsInDim S4x8192x256 (![0, 1, 2] : Fin 3 → Fin S4x8192x256.rank)
  bcast_S4x1x256_S4x8192x256_0_1_2 : S4x1x256.BroadcastsInDim S4x8192x256 (![0, 1, 2] : Fin 3 → Fin S4x8192x256.rank)
  concatenates_S4x8192x256_S4x8192x256_S4x8192x256_S4x8192x768_d2 : Shape.Concatenates [S4x8192x256, S4x8192x256, S4x8192x256] S4x8192x768 2
  bcast_S1x1x256_S4x8192x256_0_1_2 : S1x1x256.BroadcastsInDim S4x8192x256 (![0, 1, 2] : Fin 3 → Fin S4x8192x256.rank)
  bcast_S_S4x8192x256 : S_.BroadcastsInDim S4x8192x256 (![] : Fin 0 → Fin S4x8192x256.rank)
  reducesTo_S4x8192x256_S4x8192_d2 : S4x8192x256.ReducesTo [2] S4x8192
  bcast_S_S4x8192x1 : S_.BroadcastsInDim S4x8192x1 (![] : Fin 0 → Fin S4x8192x1.rank)
  bcast_S_S4 : S_.BroadcastsInDim S4 (![] : Fin 0 → Fin S4.rank)
  reducesTo_S4x32768x256_S4x256_d1 : S4x32768x256.ReducesTo [1] S4x256
  bcast_S4_S4x1_0 : S4.BroadcastsInDim S4x1 (![0] : Fin 1 → Fin S4x1.rank)
  bcast_S4x1_S4x256_0_1 : S4x1.BroadcastsInDim S4x256 (![0, 1] : Fin 2 → Fin S4x256.rank)
  reducesTo_S4x8192x256_S4x256_d1 : S4x8192x256.ReducesTo [1] S4x256
  concatenates_S4x256_S4x256_S4x256_S4x768_d1 : Shape.Concatenates [S4x256, S4x256, S4x256] S4x768 1
  bcast_S256_S1x256_1 : S256.BroadcastsInDim S1x256 (![1] : Fin 1 → Fin S1x256.rank)
  bcast_S1x256_S4x256_0_1 : S1x256.BroadcastsInDim S4x256 (![0, 1] : Fin 2 → Fin S4x256.rank)
  bcast_S_S4x256 : S_.BroadcastsInDim S4x256 (![] : Fin 0 → Fin S4x256.rank)
  bcast_S_S256 : S_.BroadcastsInDim S256 (![] : Fin 0 → Fin S256.rank)
  gather_S4x8192x256_S4x32768x1_S4x32768x256_2_1_0_0_1_2_11256_wf : GatherDims.WF S4x8192x256 S4x32768x1 S4x32768x256 [2] [1] [0] [1] [0] 2 ![1, 1, 256]
  dot_S4x32768x1024_S1024x256_S4x32768x256_2_0_01_1_n_n_wf : DotDims.WF S4x32768x1024 S1024x256 S4x32768x256 [2] [0] [0, 1] [1] [] []
  gather_S4x32768x256_S4x131072x1_S4x131072x256_2_1_0_0_1_2_11256_wf : GatherDims.WF S4x32768x256 S4x131072x1 S4x131072x256 [2] [1] [0] [1] [0] 2 ![1, 1, 256]
  dot_S4x8192x768_S768x256_S4x8192x256_2_0_01_1_n_n_wf : DotDims.WF S4x8192x768 S768x256 S4x8192x256 [2] [0] [0, 1] [1] [] []
  dot_S4x768_S768x256_S4x256_1_0_0_1_n_n_wf : DotDims.WF S4x768 S768x256 S4x256 [1] [0] [0] [1] [] []

variable [Facts₀]

def gather_S4x8192x256_S4x32768x1_S4x32768x256_2_1_0_0_1_2_11256 : GatherDims S4x8192x256 S4x32768x1 S4x32768x256 where
  offsetDims := [2]
  collapsedSliceDims := [1]
  operandBatchingDims := [0]
  startIndicesBatchingDims := [0]
  startIndexMap := [1]
  indexVectorDim := 2
  sliceSizes := ![1, 1, 256]
  wf := gather_S4x8192x256_S4x32768x1_S4x32768x256_2_1_0_0_1_2_11256_wf
def dot_S4x32768x1024_S1024x256_S4x32768x256_2_0_01_1_n_n : DotDims S4x32768x1024 S1024x256 S4x32768x256 where
  lhsContracting := [2]
  rhsContracting := [0]
  lhsNonContracting := [0, 1]
  rhsNonContracting := [1]
  lhsBatch := []
  rhsBatch := []
  wf := dot_S4x32768x1024_S1024x256_S4x32768x256_2_0_01_1_n_n_wf
def gather_S4x32768x256_S4x131072x1_S4x131072x256_2_1_0_0_1_2_11256 : GatherDims S4x32768x256 S4x131072x1 S4x131072x256 where
  offsetDims := [2]
  collapsedSliceDims := [1]
  operandBatchingDims := [0]
  startIndicesBatchingDims := [0]
  startIndexMap := [1]
  indexVectorDim := 2
  sliceSizes := ![1, 1, 256]
  wf := gather_S4x32768x256_S4x131072x1_S4x131072x256_2_1_0_0_1_2_11256_wf
def dot_S4x8192x768_S768x256_S4x8192x256_2_0_01_1_n_n : DotDims S4x8192x768 S768x256 S4x8192x256 where
  lhsContracting := [2]
  rhsContracting := [0]
  lhsNonContracting := [0, 1]
  rhsNonContracting := [1]
  lhsBatch := []
  rhsBatch := []
  wf := dot_S4x8192x768_S768x256_S4x8192x256_2_0_01_1_n_n_wf
def dot_S4x768_S768x256_S4x256_1_0_0_1_n_n : DotDims S4x768 S768x256 S4x256 where
  lhsContracting := [1]
  rhsContracting := [0]
  lhsNonContracting := [0]
  rhsNonContracting := [1]
  lhsBatch := []
  rhsBatch := []
  wf := dot_S4x768_S768x256_S4x256_1_0_0_1_n_n_wf

class Facts : Prop extends Facts₀ where

variable [Facts]
-- ==== Proof.EdgeRunK.lean ====
/-
  The edge region's body, run once per control case. The body stores the normalised rows into the edge output's block and adds
  their column sums into the running-sum block; at the first tile of a batch (second grid coordinate 0) it first
  clears the running sum. Case A is a first tile; case B is any other tile, where the running sum is read as the
  tile before left it. Each run ends with the inputs as they were and each output's buffer holding the pieces
  its stores wrote.
-/
import proofs.«143816_j32993938768001_1_alg».proof.Proof.Gen.Kernel.Launch
import proofs.«143816_j32993938768001_1_alg».proof.Proof.Gen.Kernel.Skeleton
import proofs.«143816_j32993938768001_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the second coordinate (the tile within the batch) is 0. -/
abbrev cond0 (i : grid0.Coords) : Prop := (Scalar.cmpi .ne (Scalar.extui (Scalar.cmpi .eq (BitVec.ofNat 32 (i 1).val) 0#32)) 0#32) = 1#1

/-- It holds exactly at the first tile of each batch: the points ≡ 0 (mod 32) — decided over the grid. -/
theorem hcond0 : ∀ t : Fin cfg0.N, cond0 (grid0.coords t) ↔ t.val % 32 = 0 :=
  (by decide +kernel : ∀ t : Fin grid0.N, cond0 (grid0.coords t) ↔ t.val % 32 = 0)

set_option maxHeartbeats 4000000 in
/-- Case A (a first tile): the two outputs' buffers may hold anything when the body starts. -/
noncomputable def kernelRun0_A (c : Dev nD) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x1024x256 .f32) (harg4 : arg4.IsWhole) (arg5 : Memref sig .tc .vmem S1x1x256 .f32) (harg5 : arg5.IsWhole)
    (arg6 : Memref sig .tc .vmem S1024x256 .bf16) (harg6 : arg6.IsWhole) (arg7 : Memref sig .tc .vmem S256 .f32) (harg7 : arg7.IsWhole)
    (arg8 : Memref sig .tc .vmem S256 .f32) (harg8 : arg8.IsWhole) (arg9 : Memref sig .tc .vmem S256 .f32) (harg9 : arg9.IsWhole)
    (arg10 : Memref sig .tc .vmem S1x1024x256 .f32) (harg10 : arg10.IsWhole) (arg11 : Memref sig .tc .vmem S1x1x256 .f32) (harg11 : arg11.IsWhole)
    (hc0 : cond0 i)
    (x0 x1 x2 : Vec F S1x1024x256 .f32) (x3 : Vec F S1x1x256 .f32) (x4 : Vec F S1024x256 .bf16) (x5 x6 x7 : Vec F S256 .f32) :
    { L : List (View.Piece (Elt F) S1x1024x256 .f32) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2)) -∗ K ⟨⟩))
          ⊢ wp frame (wpE (defs₀ (F := F)) Variants.none c none) E
              (cc0__edge_kernel i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact H9

set_option maxHeartbeats 4000000 in
/-- Case B (a later tile): the running-sum buffer holds `xo9`, what the tile before left; the edge output's may hold anything. -/
noncomputable def kernelRun0_B (c : Dev nD) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x1024x256 .f32) (harg4 : arg4.IsWhole) (arg5 : Memref sig .tc .vmem S1x1x256 .f32) (harg5 : arg5.IsWhole)
    (arg6 : Memref sig .tc .vmem S1024x256 .bf16) (harg6 : arg6.IsWhole) (arg7 : Memref sig .tc .vmem S256 .f32) (harg7 : arg7.IsWhole)
    (arg8 : Memref sig .tc .vmem S256 .f32) (harg8 : arg8.IsWhole) (arg9 : Memref sig .tc .vmem S256 .f32) (harg9 : arg9.IsWhole)
    (arg10 : Memref sig .tc .vmem S1x1024x256 .f32) (harg10 : arg10.IsWhole) (arg11 : Memref sig .tc .vmem S1x1x256 .f32) (harg11 : arg11.IsWhole)
    (hc0 : ¬cond0 i)
    (x0 x1 x2 : Vec F S1x1024x256 .f32) (x3 : Vec F S1x1x256 .f32) (x4 : Vec F S1024x256 .bf16) (x5 x6 x7 : Vec F S256 .f32) (xo9 : Vec F S1x1x256 .f32) :
    { L : List (View.Piece (Elt F) S1x1024x256 .f32) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ (∃ d, owns (c : Thread nD τ) arg10 fullShare d) ∗ owns (c : Thread nD τ) arg11 fullShare xo9
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2)) -∗ K ⟨⟩))
          ⊢ wp frame (wpE (defs₀ (F := F)) Variants.none c none) E
              (cc0__edge_kernel i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact H9

end Cert.Kernel.Hand

end
-- ==== Proof.EdgeFrameK.lean ====
/-
  The edge region's proof data, at any contents `V` of the buffers when the region is entered. After the body at a
  point every input window's buffer still holds its block; the edge output's buffer holds the point's normalised
  rows; the running-sum buffer holds the sum over the batch's tiles so far — cleared at a batch's first tile, carried
  from the tile before otherwise (it is written back only after a batch's last tile). The body obligation follows
  case by case from the two runs.
-/
import proofs.«143816_j32993938768001_1_alg».proof.Proof.EdgeRunK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, through which its contents are stated (the choice does not matter). -/
abbrev VO0_8 : View sig .tc .vmem S1x1024x256 .f32 := (Memref.whole cc0_stg8_0 : Memref sig .tc .vmem S1x1024x256 .f32).view
abbrev VO0_9 : View sig .tc .vmem S1x1x256 .f32 := (Memref.whole cc0_stg9_0 : Memref sig .tc .vmem S1x1x256 .f32).view

abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256 .f32 := win0_9.stage (cfg0.slots t 9)
abbrev hs0_9 (t : Fin cfg0.N) : (ms0_9 t).IsWhole := hstage0_9 ((cfg0.slots t 9).cast nbuf0_9)

/-- Case A's pieces at point `t`. -/
abbrev runA0 (c : Dev nD) (t : Fin cfg0.N) (h : cond0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h (iblk0 V c 0 t) (iblk0 V c 1 t) (iblk0 V c 2 t) (iblk0 V c 3 t) (iblk0 V c 4 t) (iblk0 V c 5 t) (iblk0 V c 6 t) (iblk0 V c 7 t)
/-- Case B's pieces at point `t`, the running sum found at `xo`. -/
abbrev runB0 (c : Dev nD) (t : Fin cfg0.N) (h : ¬cond0 (grid0.coords t)) (xo : Vec F S1x1x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h (iblk0 V c 0 t) (iblk0 V c 1 t) (iblk0 V c 2 t) (iblk0 V c 3 t) (iblk0 V c 4 t) (iblk0 V c 5 t) (iblk0 V c 6 t) (iblk0 V c 7 t) xo

/-- Each case's pieces tile each output's block, so they cover it. -/
theorem coverA0_8 (c : Dev nD) (t : Fin cfg0.N) (h : cond0 (grid0.coords t)) (y : S1x1024x256.Idx) :
    ∃ pc ∈ (runA0 V c t h).1.1, y ∈ pc.1.set :=
  View.cover_of_tiledL (runA0 V c t h).1.1 S1x1024x256.size (by sl_kernel_rfl) y
theorem coverA0_9 (c : Dev nD) (t : Fin cfg0.N) (h : cond0 (grid0.coords t)) (y : S1x1x256.Idx) :
    ∃ pc ∈ (runA0 V c t h).1.2, y ∈ pc.1.set :=
  View.cover_of_tiledL (runA0 V c t h).1.2 S1x1x256.size (by sl_kernel_rfl) y
theorem coverB0_8 (c : Dev nD) (t : Fin cfg0.N) (h : ¬cond0 (grid0.coords t)) (xo : Vec F S1x1x256 .f32) (y : S1x1024x256.Idx) :
    ∃ pc ∈ (runB0 V c t h xo).1.1, y ∈ pc.1.set :=
  View.cover_of_tiledL (runB0 V c t h xo).1.1 S1x1024x256.size (by sl_kernel_rfl) y
theorem coverB0_9 (c : Dev nD) (t : Fin cfg0.N) (h : ¬cond0 (grid0.coords t)) (xo : Vec F S1x1x256 .f32) (y : S1x1x256.Idx) :
    ∃ pc ∈ (runB0 V c t h xo).1.2, y ∈ pc.1.set :=
  View.cover_of_tiledL (runB0 V c t h xo).1.2 S1x1x256.size (by sl_kernel_rfl) y

/-- What each case leaves in the two outputs' buffers: its pieces read back. -/
def outA0 (c : Dev nD) (t : Fin cfg0.N) (h : cond0 (grid0.coords t)) : Vec F S1x1024x256 .f32 × Vec F S1x1x256 .f32 :=
  (VO0_8.read (Elt F) (VO0_8.writes (Elt F) VO0_8.junk (runA0 V c t h).1.1), VO0_9.read (Elt F) (VO0_9.writes (Elt F) VO0_9.junk (runA0 V c t h).1.2))
def outB0 (c : Dev nD) (t : Fin cfg0.N) (h : ¬cond0 (grid0.coords t)) (xo : Vec F S1x1x256 .f32) : Vec F S1x1024x256 .f32 × Vec F S1x1x256 .f32 :=
  (VO0_8.read (Elt F) (VO0_8.writes (Elt F) VO0_8.junk (runB0 V c t h xo).1.1), VO0_9.read (Elt F) (VO0_9.writes (Elt F) VO0_9.junk (runB0 V c t h xo).1.2))

/-- THE ACCUMULATION: what the two outputs' buffers hold after the body at position `n` — at a batch's first tile case A's
    contents, otherwise case B's over the running sum the tile before left. -/
def outsAt0 (c : Dev nD) : (n : ℕ) → n < cfg0.N → Vec F S1x1024x256 .f32 × Vec F S1x1x256 .f32
  | 0, hn => outA0 V c ⟨0, hn⟩ ((hcond0 ⟨0, hn⟩).mpr (Nat.zero_mod _))
  | n + 1, hn =>
    if h0 : (n + 1) % 32 = 0 then outA0 V c ⟨n + 1, hn⟩ ((hcond0 ⟨n + 1, hn⟩).mpr h0)
    else outB0 V c ⟨n + 1, hn⟩ (fun h => h0 ((hcond0 ⟨n + 1, hn⟩).mp h)) (outsAt0 c n (Nat.lt_of_succ_lt hn)).2

theorem outsAt0_A (c : Dev nD) (t : Fin cfg0.N) (h0 : t.val % 32 = 0) :
    outsAt0 V c t.val t.isLt = outA0 V c t ((hcond0 t).mpr h0) := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = outB0 V c t (fun h => h0 ((hcond0 t).mp h)) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- At a later tile of a batch the running-sum buffer holds what the body left at the point before: it was not written back between. -/
theorem before0_9_B (c : Dev nD) (t : Fin cfg0.N) (h0 : ¬t.val % 32 = 0) (d) :
    (dat0 V c).before 9 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 4000000 in
/-- The body at any point: the inputs' buffers hold their blocks; the point is a batch's first tile or not; in the second
    case the running-sum buffer holds what the tile before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  have hN : t.val < 128 := lt_of_lt_of_eq t.isLt (show cfg0.N = 128 from N_0)
  by_cases h0 : t.val % 32 = 0
  · rw [outsAt0_A V c t h0]
    unfold outA0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dA, HA⟩, ⟨%dB, HB⟩⟩
    iapply ((runA0 V c t ((hcond0 t).mpr h0)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexists _; iexact HA
    isplitl [HB]; · iexists _; iexact HB
    iintro ⟨H0, H1, H2, H3, H4, H5, H6, H7, ⟨%eA, HA⟩, ⟨%eB, HB⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]
    · unfold owns; iexists _; isplitr
      swap; · iexact HA
      ipureintro; dsimp only; exact View.read_writes_of_cover _ _ _ _ _ (coverA0_8 V c t _)
    unfold owns; iexists _; isplitr
    swap; · iexact HB
    ipureintro; dsimp only; exact View.read_writes_of_cover _ _ _ _ _ (coverA0_9 V c t _)
  · rw [outsAt0_B V c t h0]
    simp only [before0_9_B V c t h0]
    unfold outB0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dA, HA⟩, ⟨%dB, HB⟩⟩
    iapply ((runB0 V c t (fun h => h0 ((hcond0 t).mp h)) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexists _; iexact HA
    isplitl [HB]; · iexact HB
    iintro ⟨H0, H1, H2, H3, H4, H5, H6, H7, ⟨%eA, HA⟩, ⟨%eB, HB⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]
    · unfold owns; iexists _; isplitr
      swap; · iexact HA
      ipureintro; dsimp only; exact View.read_writes_of_cover _ _ _ _ _ (coverB0_8 V c t _ _)
    unfold owns; iexists _; isplitr
    swap; · iexact HB
    ipureintro; dsimp only; exact View.read_writes_of_cover _ _ _ _ _ (coverB0_9 V c t _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.NodeRunK.lean ====
/-
  The node region's body, run once per control case. The body stores the normalised rows into the node output's block and adds
  their column sums into the running-sum block; at the first tile of a batch (second grid coordinate 0) it first
  clears the running sum. Case A is a first tile; case B is any other tile, where the running sum is read as the
  tile before left it. Each run ends with the inputs as they were and each output's buffer holding the pieces
  its stores wrote.
-/
import proofs.«143816_j32993938768001_1_alg».proof.Proof.Gen.Kernel.Launch
import proofs.«143816_j32993938768001_1_alg».proof.Proof.Gen.Kernel.Skeleton
import proofs.«143816_j32993938768001_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the second coordinate (the tile within the batch) is 0. -/
abbrev cond1 (i : grid1.Coords) : Prop := (Scalar.cmpi .ne (Scalar.extui (Scalar.cmpi .eq (BitVec.ofNat 32 (i 1).val) 0#32)) 0#32) = 1#1

/-- It holds exactly at the first tile of each batch: the points ≡ 0 (mod 8) — decided over the grid. -/
theorem hcond1 : ∀ t : Fin cfg1.N, cond1 (grid1.coords t) ↔ t.val % 8 = 0 :=
  (by decide +kernel : ∀ t : Fin grid1.N, cond1 (grid1.coords t) ↔ t.val % 8 = 0)

set_option maxHeartbeats 4000000 in
/-- Case A (a first tile): the two outputs' buffers may hold anything when the body starts. -/
noncomputable def kernelRun1_A (c : Dev nD) (i : grid1.Coords)
    (arg2 : Memref sig .tc .vmem S1x1024x256 .f32) (harg2 : arg2.IsWhole) (arg3 : Memref sig .tc .vmem S1x1024x256 .f32) (harg3 : arg3.IsWhole)
    (arg4 : Memref sig .tc .vmem S1x1x256 .f32) (harg4 : arg4.IsWhole) (arg5 : Memref sig .tc .vmem S768x256 .bf16) (harg5 : arg5.IsWhole)
    (arg6 : Memref sig .tc .vmem S256 .f32) (harg6 : arg6.IsWhole) (arg7 : Memref sig .tc .vmem S256 .f32) (harg7 : arg7.IsWhole)
    (arg8 : Memref sig .tc .vmem S256 .f32) (harg8 : arg8.IsWhole)
    (arg9 : Memref sig .tc .vmem S1x1024x256 .f32) (harg9 : arg9.IsWhole) (arg10 : Memref sig .tc .vmem S1x1x256 .f32) (harg10 : arg10.IsWhole)
    (hc0 : cond1 i)
    (x0 x1 : Vec F S1x1024x256 .f32) (x2 : Vec F S1x1x256 .f32) (x3 : Vec F S768x256 .bf16) (x4 x5 x6 : Vec F S256 .f32) :
    { L : List (View.Piece (Elt F) S1x1024x256 .f32) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E
              (cc1__node_kernel i arg2 harg2 arg3 harg3 arg4 harg4 arg5 harg5 arg6 harg6 arg7 harg7 arg8 harg8 arg9 harg9 arg10 harg10) K } := by
  refine ⟨(?_, ?_), fun E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; iexact H8

set_option maxHeartbeats 4000000 in
/-- Case B (a later tile): the running-sum buffer holds `xo8`, what the tile before left; the node output's may hold anything. -/
noncomputable def kernelRun1_B (c : Dev nD) (i : grid1.Coords)
    (arg2 : Memref sig .tc .vmem S1x1024x256 .f32) (harg2 : arg2.IsWhole) (arg3 : Memref sig .tc .vmem S1x1024x256 .f32) (harg3 : arg3.IsWhole)
    (arg4 : Memref sig .tc .vmem S1x1x256 .f32) (harg4 : arg4.IsWhole) (arg5 : Memref sig .tc .vmem S768x256 .bf16) (harg5 : arg5.IsWhole)
    (arg6 : Memref sig .tc .vmem S256 .f32) (harg6 : arg6.IsWhole) (arg7 : Memref sig .tc .vmem S256 .f32) (harg7 : arg7.IsWhole)
    (arg8 : Memref sig .tc .vmem S256 .f32) (harg8 : arg8.IsWhole)
    (arg9 : Memref sig .tc .vmem S1x1024x256 .f32) (harg9 : arg9.IsWhole) (arg10 : Memref sig .tc .vmem S1x1x256 .f32) (harg10 : arg10.IsWhole)
    (hc0 : ¬cond1 i)
    (x0 x1 : Vec F S1x1024x256 .f32) (x2 : Vec F S1x1x256 .f32) (x3 : Vec F S768x256 .bf16) (x4 x5 x6 : Vec F S256 .f32) (xo8 : Vec F S1x1x256 .f32) :
    { L : List (View.Piece (Elt F) S1x1024x256 .f32) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ (∃ d, owns (c : Thread nD τ) arg9 fullShare d) ∗ owns (c : Thread nD τ) arg10 fullShare xo8
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E
              (cc1__node_kernel i arg2 harg2 arg3 harg3 arg4 harg4 arg5 harg5 arg6 harg6 arg7 harg7 arg8 harg8 arg9 harg9 arg10 harg10) K } := by
  refine ⟨(?_, ?_), fun E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; iexact H8

end Cert.Kernel.Hand

end
-- ==== Proof.NodeFrameK.lean ====
/-
  The node region's proof data, at any contents `V` of the buffers when the region is entered. After the body at a
  point every input window's buffer still holds its block; the node output's buffer holds the point's normalised
  rows; the running-sum buffer holds the sum over the batch's tiles so far — cleared at a batch's first tile, carried
  from the tile before otherwise (it is written back only after a batch's last tile). The body obligation follows
  case by case from the two runs.
-/
import proofs.«143816_j32993938768001_1_alg».proof.Proof.NodeRunK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, through which its contents are stated (the choice does not matter). -/
abbrev VO1_7 : View sig .tc .vmem S1x1024x256 .f32 := (Memref.whole cc1_stg7_0 : Memref sig .tc .vmem S1x1024x256 .f32).view
abbrev VO1_8 : View sig .tc .vmem S1x1x256 .f32 := (Memref.whole cc1_stg8_0 : Memref sig .tc .vmem S1x1x256 .f32).view

abbrev ms1_0 (t : Fin cfg1.N) : Memref sig .tc .vmem S1x1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S768x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x256 .f32 := win1_8.stage (cfg1.slots t 8)
abbrev hs1_8 (t : Fin cfg1.N) : (ms1_8 t).IsWhole := hstage1_8 ((cfg1.slots t 8).cast nbuf1_8)

/-- Case A's pieces at point `t`. -/
abbrev runA1 (c : Dev nD) (t : Fin cfg1.N) (h : cond1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) h (iblk1 V c 0 t) (iblk1 V c 1 t) (iblk1 V c 2 t) (iblk1 V c 3 t) (iblk1 V c 4 t) (iblk1 V c 5 t) (iblk1 V c 6 t)
/-- Case B's pieces at point `t`, the running sum found at `xo`. -/
abbrev runB1 (c : Dev nD) (t : Fin cfg1.N) (h : ¬cond1 (grid1.coords t)) (xo : Vec F S1x1x256 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) h (iblk1 V c 0 t) (iblk1 V c 1 t) (iblk1 V c 2 t) (iblk1 V c 3 t) (iblk1 V c 4 t) (iblk1 V c 5 t) (iblk1 V c 6 t) xo

/-- Each case's pieces tile each output's block, so they cover it. -/
theorem coverA1_7 (c : Dev nD) (t : Fin cfg1.N) (h : cond1 (grid1.coords t)) (y : S1x1024x256.Idx) :
    ∃ pc ∈ (runA1 V c t h).1.1, y ∈ pc.1.set :=
  View.cover_of_tiledL (runA1 V c t h).1.1 S1x1024x256.size (by sl_kernel_rfl) y
theorem coverA1_8 (c : Dev nD) (t : Fin cfg1.N) (h : cond1 (grid1.coords t)) (y : S1x1x256.Idx) :
    ∃ pc ∈ (runA1 V c t h).1.2, y ∈ pc.1.set :=
  View.cover_of_tiledL (runA1 V c t h).1.2 S1x1x256.size (by sl_kernel_rfl) y
theorem coverB1_7 (c : Dev nD) (t : Fin cfg1.N) (h : ¬cond1 (grid1.coords t)) (xo : Vec F S1x1x256 .f32) (y : S1x1024x256.Idx) :
    ∃ pc ∈ (runB1 V c t h xo).1.1, y ∈ pc.1.set :=
  View.cover_of_tiledL (runB1 V c t h xo).1.1 S1x1024x256.size (by sl_kernel_rfl) y
theorem coverB1_8 (c : Dev nD) (t : Fin cfg1.N) (h : ¬cond1 (grid1.coords t)) (xo : Vec F S1x1x256 .f32) (y : S1x1x256.Idx) :
    ∃ pc ∈ (runB1 V c t h xo).1.2, y ∈ pc.1.set :=
  View.cover_of_tiledL (runB1 V c t h xo).1.2 S1x1x256.size (by sl_kernel_rfl) y

/-- What each case leaves in the two outputs' buffers: its pieces read back. -/
def outA1 (c : Dev nD) (t : Fin cfg1.N) (h : cond1 (grid1.coords t)) : Vec F S1x1024x256 .f32 × Vec F S1x1x256 .f32 :=
  (VO1_7.read (Elt F) (VO1_7.writes (Elt F) VO1_7.junk (runA1 V c t h).1.1), VO1_8.read (Elt F) (VO1_8.writes (Elt F) VO1_8.junk (runA1 V c t h).1.2))
def outB1 (c : Dev nD) (t : Fin cfg1.N) (h : ¬cond1 (grid1.coords t)) (xo : Vec F S1x1x256 .f32) : Vec F S1x1024x256 .f32 × Vec F S1x1x256 .f32 :=
  (VO1_7.read (Elt F) (VO1_7.writes (Elt F) VO1_7.junk (runB1 V c t h xo).1.1), VO1_8.read (Elt F) (VO1_8.writes (Elt F) VO1_8.junk (runB1 V c t h xo).1.2))

/-- THE ACCUMULATION: what the two outputs' buffers hold after the body at position `n` — at a batch's first tile case A's
    contents, otherwise case B's over the running sum the tile before left. -/
def outsAt1 (c : Dev nD) : (n : ℕ) → n < cfg1.N → Vec F S1x1024x256 .f32 × Vec F S1x1x256 .f32
  | 0, hn => outA1 V c ⟨0, hn⟩ ((hcond1 ⟨0, hn⟩).mpr (Nat.zero_mod _))
  | n + 1, hn =>
    if h0 : (n + 1) % 8 = 0 then outA1 V c ⟨n + 1, hn⟩ ((hcond1 ⟨n + 1, hn⟩).mpr h0)
    else outB1 V c ⟨n + 1, hn⟩ (fun h => h0 ((hcond1 ⟨n + 1, hn⟩).mp h)) (outsAt1 c n (Nat.lt_of_succ_lt hn)).2

theorem outsAt1_A (c : Dev nD) (t : Fin cfg1.N) (h0 : t.val % 8 = 0) :
    outsAt1 V c t.val t.isLt = outA1 V c t ((hcond1 t).mpr h0) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = outB1 V c t (fun h => h0 ((hcond1 t).mp h)) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- At a later tile of a batch the running-sum buffer holds what the body left at the point before: it was not written back between. -/
theorem before1_8_B (c : Dev nD) (t : Fin cfg1.N) (h0 : ¬t.val % 8 = 0) (d) :
    (dat1 V c).before 8 t d = (outsAt1 V c (t.val - 1) (Nat.lt_of_le_of_lt (Nat.sub_le _ _) t.isLt)).2 := by
  have hN : t.val < 32 := lt_of_lt_of_eq t.isLt (show cfg1.N = 32 from N_1)
  rw [Dat.before_out_kept _ 8 rfl t (by omega) (Bool.eq_false_iff.mpr fun h => by have := (flush1_8 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4000000 in
/-- The body at any point: the inputs' buffers hold their blocks; the point is a batch's first tile or not; in the second
    case the running-sum buffer holds what the tile before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  have hN : t.val < 32 := lt_of_lt_of_eq t.isLt (show cfg1.N = 32 from N_1)
  by_cases h0 : t.val % 8 = 0
  · rw [outsAt1_A V c t h0]
    unfold outA1
    iintro ⟨HΦ, Ho, ⟨%d0, H0⟩, ⟨%d1, H1⟩, ⟨%d2, H2⟩, ⟨%d3, H3⟩, ⟨%d4, H4⟩, ⟨%d5, H5⟩, ⟨%d6, H6⟩, ⟨%dA, HA⟩, ⟨%dB, HB⟩⟩
    iapply ((runA1 V c t ((hcond1 t).mpr h0)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexists _; iexact HA
    isplitl [HB]; · iexists _; iexact HB
    iintro ⟨H0, H1, H2, H3, H4, H5, H6, ⟨%eA, HA⟩, ⟨%eB, HB⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]
    · unfold owns; iexists _; isplitr
      swap; · iexact HA
      ipureintro; dsimp only; exact View.read_writes_of_cover _ _ _ _ _ (coverA1_7 V c t _)
    unfold owns; iexists _; isplitr
    swap; · iexact HB
    ipureintro; dsimp only; exact View.read_writes_of_cover _ _ _ _ _ (coverA1_8 V c t _)
  · rw [outsAt1_B V c t h0]
    simp only [before1_8_B V c t h0]
    unfold outB1
    iintro ⟨HΦ, Ho, ⟨%d0, H0⟩, ⟨%d1, H1⟩, ⟨%d2, H2⟩, ⟨%d3, H3⟩, ⟨%d4, H4⟩, ⟨%d5, H5⟩, ⟨%d6, H6⟩, ⟨%dA, HA⟩, ⟨%dB, HB⟩⟩
    iapply ((runB1 V c t (fun h => h0 ((hcond1 t).mp h)) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexists _; iexact HA
    isplitl [HB]; · iexact HB
    iintro ⟨H0, H1, H2, H3, H4, H5, H6, ⟨%eA, HA⟩, ⟨%eB, HB⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]
    · unfold owns; iexists _; isplitr
      swap; · iexact HA
      ipureintro; dsimp only; exact View.read_writes_of_cover _ _ _ _ _ (coverB1_7 V c t _ _)
    unfold owns; iexists _; isplitr
    swap; · iexact HB
    ipureintro; dsimp only; exact View.read_writes_of_cover _ _ _ _ _ (coverB1_8 V c t _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.FrameK.lean ====
/-
  The program's frame: both regions' segment records, over the thread state "every unscoped buffer at the contents the
  host stretches and the regions before have left, the generator register at some state, nothing owed", given to the
  generated conditional frame. What a region leaves in its two result arrays is what its pipeline's write-backs leave
  (the proof data's final arrays); every other buffer is as the region found it.
-/
import proofs.«143816_j32993938768001_1_alg».proof.Proof.EdgeFrameK
import proofs.«143816_j32993938768001_1_alg».proof.Proof.NodeFrameK
import proofs.«143816_j32993938768001_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' entries and exits -/

/-- The edge region's entry contents, read at the TensorCore's references. -/
abbrev VE0 : (c : Dev nD) → (b : Ref sig .tc) → Buf (Elt F) ((c : Thread nD τ).loc b) := fun c b => V5 m c b
/-- The edge region's exit contents: its arrays at what the pipeline leaves, every other buffer as entered. -/
def WX0 (c : Dev nD) : Valuation τ sig (Elt F) :=
  Pipeline.withArrays spec0 c (V5 m c) fun w => (dat0 (VE0 m) c).arrAt w cfg0.N
abbrev VX0 : (c : Dev nD) → (b : Ref sig .tc) → Buf (Elt F) ((c : Thread nD τ).loc b) := fun c b => WX0 m c b
/-- What the edge region leaves, as the unknowns of the generated valuations (read only at the edge region's two results). -/
def outs0 : Outs (F := F) := fun _ r c => WX0 m c r

/-- The node region's entry contents. -/
abbrev VE1 : (c : Dev nD) → (b : Ref sig .tc) → Buf (Elt F) ((c : Thread nD τ).loc b) := fun c b => V11 m (outs0 m) c b
/-- The node region's exit contents. -/
def WX1 (c : Dev nD) : Valuation τ sig (Elt F) :=
  Pipeline.withArrays spec1 c (V11 m (outs0 m) c) fun w => (dat1 (VE1 m) c).arrAt w cfg1.N
abbrev VX1 : (c : Dev nD) → (b : Ref sig .tc) → Buf (Elt F) ((c : Thread nD τ).loc b) := fun c b => WX1 m c b
/-- What both regions leave: item 12's unknowns are the node region's, item 6's the edge region's. -/
def outs : Outs (F := F) := fun J r c => if J = 12 then WX1 m c r else WX0 m c r

theorem WX0_arr (c : Dev nD) (w : Fin cfg0.W) :
    WX0 m c (Proc.devRef .tc (Pipeline.arrRef spec0 w)) = (dat0 (VE0 m) c).arrAt w cfg0.N := by
  unfold WX0; exact Pipeline.withArrays_arr spec0 launch0.win.arr_inj c _ _ w
theorem hF0 (c : Dev nD) (w : Fin cfg0.W) : (dat0 (VE0 m) c).arrAt w cfg0.N = VX0 m c (Pipeline.arrRef spec0 w) :=
  (WX0_arr m c w).symm
theorem hrest0 (c : Dev nD) : ∀ b, b ∉ Finset.univ.image (Pipeline.arrRef spec0) → VX0 m c b = VE0 m c b :=
  fun b hb => by
    show WX0 m c (Proc.devRef .tc b) = _
    unfold WX0; exact Pipeline.withArrays_of_ne spec0 c _ _ b fun w e => hb (Finset.mem_image.mpr ⟨w, Finset.mem_univ _, e⟩)
theorem WX1_arr (c : Dev nD) (w : Fin cfg1.W) :
    WX1 m c (Proc.devRef .tc (Pipeline.arrRef spec1 w)) = (dat1 (VE1 m) c).arrAt w cfg1.N := by
  unfold WX1; exact Pipeline.withArrays_arr spec1 launch1.win.arr_inj c _ _ w
theorem hF1 (c : Dev nD) (w : Fin cfg1.W) : (dat1 (VE1 m) c).arrAt w cfg1.N = VX1 m c (Pipeline.arrRef spec1 w) :=
  (WX1_arr m c w).symm
theorem hrest1 (c : Dev nD) : ∀ b, b ∉ Finset.univ.image (Pipeline.arrRef spec1) → VX1 m c b = VE1 m c b :=
  fun b hb => by
    show WX1 m c (Proc.devRef .tc b) = _
    unfold WX1; exact Pipeline.withArrays_of_ne spec1 c _ _ b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

/-- No core owes another anything: no level is assigned. -/
abbrev LL : GSem nD τ sig → Finset Unit := fun _ => ∅
abbrev lvv : GSem nD τ sig → Unit → ℕ := fun _ _ => 0
/-- What rides beside the buffers through every segment: the generator register at some state and the core's `owes`, at nothing. -/
abbrev Rr (c : Dev nD) : sProp 𝕄 := iprop((∃ r, prngReg c r) ∗ ∃ W, owes (c : Thread nD τ) (0 : CellTallies nD τ sig Unit) W)

-- unification with the pinned configuration unfolds plain definitions in a metavariable's type
set_option backward.isDefEq.respectTransparency.types false in
/-- Region 0 as a segment: entered from every unscoped buffer at the contents before it, left at those contents with the
    region's arrays at what the pipeline leaves. Its arrays are split out of the unscoped buffers and put back at the exit
    contents; the generator register goes into the pipeline's invariant and comes back; nothing is owed; the kernel has
    no semaphore of its own. -/
def reg0 : Pipeline.RegionSeg (pcfgs (F := F)) adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ LL lvv 0 fun _ _ => rfl
  pre c := iprop(StableHlo.held (c : Thread nD τ) (Pipeline.ucRefs τ sig) (V5 m c) ∗ Rr c)
  post c := iprop(StableHlo.held (c : Thread nD τ) (Pipeline.ucRefs τ sig) (WX0 m c) ∗ Rr c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration unfolds plain definitions in a metavariable's type
set_option backward.isDefEq.respectTransparency.types false in
/-- Region 1 as a segment: entered from every unscoped buffer at the contents before it, left at those contents with the
    region's arrays at what the pipeline leaves. Its arrays are split out of the unscoped buffers and put back at the exit
    contents; the generator register goes into the pipeline's invariant and comes back; nothing is owed; the kernel has
    no semaphore of its own. -/
def reg1 : Pipeline.RegionSeg (pcfgs (F := F)) adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ LL lvv 1 fun _ _ => rfl
  pre c := iprop(StableHlo.held (c : Thread nD τ) (Pipeline.ucRefs τ sig) (V11 m (outs0 m) c) ∗ Rr c)
  post c := iprop(StableHlo.held (c : Thread nD τ) (Pipeline.ucRefs τ sig) (WX1 m c) ∗ Rr c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The generated valuations at the regions' exits are the pipelines' -/

theorem outs_6 (r : Ref sig .tc) (c : Dev nD) : outs m 6 r c = outs0 m 6 r c := if_neg (by decide)
theorem outs_12 (r : Ref sig .tc) (c : Dev nD) : outs m 12 r c = WX1 m c r := if_pos rfl

/-- The valuations up to the node region's entry read the unknowns only at item 6. -/
theorem V11_congr (o o' : Outs (F := F)) (h : ∀ r c, o 6 r c = o' 6 r c) (c : Dev nD) : V11 m o c = V11 m o' c := by
  dsimp only [V11, V10, V9, V8, V7, V6]
  rw [h, h]
theorem V11_eq (c : Dev nD) : V11 m (outs m) c = V11 m (outs0 m) c := V11_congr m _ _ (outs_6 m) c

/-- Outside its two results the edge region's exit contents are its entry contents: an input window's array ends as it was found. -/
theorem WX0_of_ne (c : Dev nD) (b : DevRef τ sig) (h1 : b ≠ Proc.devRef .tc main_v6_0) (h2 : b ≠ Proc.devRef .tc main_v6_1) : WX0 m c b = V5 m c b := by
  by_cases h : ∃ w, Proc.devRef .tc (Pipeline.arrRef spec0 w) = b
  · obtain ⟨w, rfl⟩ := h
    unfold WX0
    rw [Pipeline.withArrays_arr spec0 launch0.win.arr_inj]
    match w with
    | ⟨0, _⟩ => exact ((dat0 (VE0 m) c).arrAt_in 0 rfl _).trans (A_eq0 (VE0 m) c 0)
    | ⟨1, _⟩ => exact ((dat0 (VE0 m) c).arrAt_in 1 rfl _).trans (A_eq0 (VE0 m) c 1)
    | ⟨2, _⟩ => exact ((dat0 (VE0 m) c).arrAt_in 2 rfl _).trans (A_eq0 (VE0 m) c 2)
    | ⟨3, _⟩ => exact ((dat0 (VE0 m) c).arrAt_in 3 rfl _).trans (A_eq0 (VE0 m) c 3)
    | ⟨4, _⟩ => exact ((dat0 (VE0 m) c).arrAt_in 4 rfl _).trans (A_eq0 (VE0 m) c 4)
    | ⟨5, _⟩ => exact ((dat0 (VE0 m) c).arrAt_in 5 rfl _).trans (A_eq0 (VE0 m) c 5)
    | ⟨6, _⟩ => exact ((dat0 (VE0 m) c).arrAt_in 6 rfl _).trans (A_eq0 (VE0 m) c 6)
    | ⟨7, _⟩ => exact ((dat0 (VE0 m) c).arrAt_in 7 rfl _).trans (A_eq0 (VE0 m) c 7)
    | ⟨8, _⟩ => exact absurd rfl h1
    | ⟨9, _⟩ => exact absurd rfl h2
  · unfold WX0 Pipeline.withArrays
    rw [dif_neg h]

/-- Outside its two results the node region's exit contents are its entry contents: an input window's array ends as it was found. -/
theorem WX1_of_ne (c : Dev nD) (b : DevRef τ sig) (h1 : b ≠ Proc.devRef .tc main_v19_0) (h2 : b ≠ Proc.devRef .tc main_v19_1) : WX1 m c b = V11 m (outs0 m) c b := by
  by_cases h : ∃ w, Proc.devRef .tc (Pipeline.arrRef spec1 w) = b
  · obtain ⟨w, rfl⟩ := h
    unfold WX1
    rw [Pipeline.withArrays_arr spec1 launch1.win.arr_inj]
    match w with
    | ⟨0, _⟩ => exact ((dat1 (VE1 m) c).arrAt_in 0 rfl _).trans (A_eq1 (VE1 m) c 0)
    | ⟨1, _⟩ => exact ((dat1 (VE1 m) c).arrAt_in 1 rfl _).trans (A_eq1 (VE1 m) c 1)
    | ⟨2, _⟩ => exact ((dat1 (VE1 m) c).arrAt_in 2 rfl _).trans (A_eq1 (VE1 m) c 2)
    | ⟨3, _⟩ => exact ((dat1 (VE1 m) c).arrAt_in 3 rfl _).trans (A_eq1 (VE1 m) c 3)
    | ⟨4, _⟩ => exact ((dat1 (VE1 m) c).arrAt_in 4 rfl _).trans (A_eq1 (VE1 m) c 4)
    | ⟨5, _⟩ => exact ((dat1 (VE1 m) c).arrAt_in 5 rfl _).trans (A_eq1 (VE1 m) c 5)
    | ⟨6, _⟩ => exact ((dat1 (VE1 m) c).arrAt_in 6 rfl _).trans (A_eq1 (VE1 m) c 6)
    | ⟨7, _⟩ => exact absurd rfl h1
    | ⟨8, _⟩ => exact absurd rfl h2
  · unfold WX1 Pipeline.withArrays
    rw [dif_neg h]

theorem V6_eq (c : Dev nD) : V6 m (outs m) c = WX0 m c := by
  funext b
  dsimp only [V6]
  by_cases h2 : b = Proc.devRef .tc main_v6_1
  · subst h2; rw [Function.update_self]; exact outs_6 m _ c
  · rw [Function.update_of_ne h2]
    by_cases h1 : b = Proc.devRef .tc main_v6_0
    · subst h1; rw [Function.update_self]; exact outs_6 m _ c
    · rw [Function.update_of_ne h1]; exact (WX0_of_ne m c b h1 h2).symm

theorem V12_eq (c : Dev nD) : V12 m (outs m) c = WX1 m c := by
  funext b
  dsimp only [V12]
  by_cases h2 : b = Proc.devRef .tc main_v19_1
  · subst h2; rw [Function.update_self]; exact outs_12 m _ c
  · rw [Function.update_of_ne h2]
    by_cases h1 : b = Proc.devRef .tc main_v19_0
    · subst h1; rw [Function.update_self]; exact outs_12 m _ c
    · rw [Function.update_of_ne h1, V11_eq]; exact (WX1_of_ne m c b h1 h2).symm

/-- What the launch hands a core besides its buffers makes the rest state: the generator register, and nothing owed. -/
theorem rest_of_launch (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ Rr (F := F) c := by
  iintro ⟨-, HO, -, Hp, -⟩
  isplitl [Hp]; · iexists _; iexact Hp
  iexists ∅; iexact HO

theorem rest_of_launch_all :
    (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ fun c : Dev nD => Rr (F := F) c : sProp 𝕄) :=
  bigSep_mono fun c _ => rest_of_launch ρ c

/-! ## The frame -/

-- the conditional frame's implicit arguments are found by unifying its conclusion with this one
set_option backward.isDefEq.respectTransparency.types false in
/-- THE FRAME, at any float instance: from any memory with zero counters every weakly fair execution of @main terminates,
    nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_cond m (Ix := Unit) (U := UR sig nD τ) (Lvl := ℕ) emb₁ () Variants.none LL lvv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      iintro ⟨H, -⟩
      imodintro
      iapply (rest_of_launch_all (F := F) ρ)
      iexact H)
    (hE2 := fun c => by iintro ⟨-, HO⟩; iexact HO)
    (reg0 m) (fun c => .rfl)
    (fun c => by rw [V6_eq]; exact .rfl)
    (reg1 m) (fun c => by rw [V11_eq]; exact .rfl)
    (fun c => by rw [V12_eq]; exact .rfl)

end Cert.Kernel.Hand

end
-- ==== Proof.EdgeRunKI.lean ====
/-
  The edge region's body, run once per control case. The body stores the normalised rows into the edge output's block and adds
  their column sums into the running-sum block; at the first tile of a batch (second grid coordinate 0) it first
  clears the running sum. Case A is a first tile; case B is any other tile, where the running sum is read as the
  tile before left it. Each run ends with the inputs as they were and each output's buffer holding the pieces
  its stores wrote.
-/
import proofs.«143816_j32993938768001_1_alg».proof.Proof.Gen.KernelIdeal.Launch
import proofs.«143816_j32993938768001_1_alg».proof.Proof.Gen.KernelIdeal.Skeleton
import proofs.«143816_j32993938768001_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the second coordinate (the tile within the batch) is 0. -/
abbrev cond0 (i : grid0.Coords) : Prop := (Scalar.cmpi .ne (Scalar.extui (Scalar.cmpi .eq (BitVec.ofNat 32 (i 1).val) 0#32)) 0#32) = 1#1

/-- It holds exactly at the first tile of each batch: the points ≡ 0 (mod 32) — decided over the grid. -/
theorem hcond0 : ∀ t : Fin cfg0.N, cond0 (grid0.coords t) ↔ t.val % 32 = 0 :=
  (by decide +kernel : ∀ t : Fin grid0.N, cond0 (grid0.coords t) ↔ t.val % 32 = 0)

set_option maxHeartbeats 4000000 in
/-- Case A (a first tile): the two outputs' buffers may hold anything when the body starts. -/
noncomputable def kernelRun0_A (c : Dev nD) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x1024x256 .f32) (harg4 : arg4.IsWhole) (arg5 : Memref sig .tc .vmem S1x1x256 .f32) (harg5 : arg5.IsWhole)
    (arg6 : Memref sig .tc .vmem S1024x256 .bf16) (harg6 : arg6.IsWhole) (arg7 : Memref sig .tc .vmem S256 .f32) (harg7 : arg7.IsWhole)
    (arg8 : Memref sig .tc .vmem S256 .f32) (harg8 : arg8.IsWhole) (arg9 : Memref sig .tc .vmem S256 .f32) (harg9 : arg9.IsWhole)
    (arg10 : Memref sig .tc .vmem S1x1024x256 .f32) (harg10 : arg10.IsWhole) (arg11 : Memref sig .tc .vmem S1x1x256 .f32) (harg11 : arg11.IsWhole)
    (hc0 : cond0 i)
    (x0 x1 x2 : Vec F S1x1024x256 .f32) (x3 : Vec F S1x1x256 .f32) (x4 : Vec F S1024x256 .bf16) (x5 x6 x7 : Vec F S256 .f32) :
    { L : List (View.Piece (Elt F) S1x1024x256 .f32) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2)) -∗ K ⟨⟩))
          ⊢ wp frame (wpE (defs₀ (F := F)) Variants.none c none) E
              (cc0__edge_kernel i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact H9

set_option maxHeartbeats 4000000 in
/-- Case B (a later tile): the running-sum buffer holds `xo9`, what the tile before left; the edge output's may hold anything. -/
noncomputable def kernelRun0_B (c : Dev nD) (i : grid0.Coords)
    (arg2 : Memref sig .tc .vmem S1x1024x256 .f32) (harg2 : arg2.IsWhole) (arg3 : Memref sig .tc .vmem S1x1024x256 .f32) (harg3 : arg3.IsWhole)
    (arg4 : Memref sig .tc .vmem S1x1024x256 .f32) (harg4 : arg4.IsWhole) (arg5 : Memref sig .tc .vmem S1x1x256 .f32) (harg5 : arg5.IsWhole)
    (arg6 : Memref sig .tc .vmem S1024x256 .bf16) (harg6 : arg6.IsWhole) (arg7 : Memref sig .tc .vmem S256 .f32) (harg7 : arg7.IsWhole)
    (arg8 : Memref sig .tc .vmem S256 .f32) (harg8 : arg8.IsWhole) (arg9 : Memref sig .tc .vmem S256 .f32) (harg9 : arg9.IsWhole)
    (arg10 : Memref sig .tc .vmem S1x1024x256 .f32) (harg10 : arg10.IsWhole) (arg11 : Memref sig .tc .vmem S1x1x256 .f32) (harg11 : arg11.IsWhole)
    (hc0 : ¬cond0 i)
    (x0 x1 x2 : Vec F S1x1024x256 .f32) (x3 : Vec F S1x1x256 .f32) (x4 : Vec F S1024x256 .bf16) (x5 x6 x7 : Vec F S256 .f32) (xo9 : Vec F S1x1x256 .f32) :
    { L : List (View.Piece (Elt F) S1x1024x256 .f32) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ (∃ d, owns (c : Thread nD τ) arg10 fullShare d) ∗ owns (c : Thread nD τ) arg11 fullShare xo9
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
                ∗ (∃ f, arg10.view.loc (c : Thread nD τ) ↦[arg10.view.set]{fullShare} arg10.view.writes (Elt F) f L.1)
                ∗ (∃ f, arg11.view.loc (c : Thread nD τ) ↦[arg11.view.set]{fullShare} arg11.view.writes (Elt F) f L.2)) -∗ K ⟨⟩))
          ⊢ wp frame (wpE (defs₀ (F := F)) Variants.none c none) E
              (cc0__edge_kernel i arg2 harg2 arg3 harg3 arg4 harg4 arg5 harg5 arg6 harg6 arg7 harg7 arg8 harg8 arg9 harg9 arg10 harg10 arg11 harg11) K } := by
  refine ⟨(?_, ?_), fun E K => ?run⟩
  case run =>
    simp only [cc0__edge_kernel_eq_skeleton]; unfold cc0__edge_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6; obtain rfl := harg9.eq_unread hf7
    obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    iexists _; iexact H9

end Cert.KernelIdeal.Hand

end
-- ==== Proof.EdgeFrameKI.lean ====
/-
  The edge region's proof data, at any contents `V` of the buffers when the region is entered. After the body at a
  point every input window's buffer still holds its block; the edge output's buffer holds the point's normalised
  rows; the running-sum buffer holds the sum over the batch's tiles so far — cleared at a batch's first tile, carried
  from the tile before otherwise (it is written back only after a batch's last tile). The body obligation follows
  case by case from the two runs.
-/
import proofs.«143816_j32993938768001_1_alg».proof.Proof.EdgeRunKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current buffer holds its block at every point, fetched there or not. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- One staging buffer of each output window, through which its contents are stated (the choice does not matter). -/
abbrev VO0_8 : View sig .tc .vmem S1x1024x256 .f32 := (Memref.whole cc0_stg8_0 : Memref sig .tc .vmem S1x1024x256 .f32).view
abbrev VO0_9 : View sig .tc .vmem S1x1x256 .f32 := (Memref.whole cc0_stg9_0 : Memref sig .tc .vmem S1x1x256 .f32).view

abbrev ms0_0 (t : Fin cfg0.N) : Memref sig .tc .vmem S1x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256 .f32 := win0_9.stage (cfg0.slots t 9)
abbrev hs0_9 (t : Fin cfg0.N) : (ms0_9 t).IsWhole := hstage0_9 ((cfg0.slots t 9).cast nbuf0_9)

/-- Case A's pieces at point `t`. -/
abbrev runA0 (c : Dev nD) (t : Fin cfg0.N) (h : cond0 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h (iblk0 V c 0 t) (iblk0 V c 1 t) (iblk0 V c 2 t) (iblk0 V c 3 t) (iblk0 V c 4 t) (iblk0 V c 5 t) (iblk0 V c 6 t) (iblk0 V c 7 t)
/-- Case B's pieces at point `t`, the running sum found at `xo`. -/
abbrev runB0 (c : Dev nD) (t : Fin cfg0.N) (h : ¬cond0 (grid0.coords t)) (xo : Vec F S1x1x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h (iblk0 V c 0 t) (iblk0 V c 1 t) (iblk0 V c 2 t) (iblk0 V c 3 t) (iblk0 V c 4 t) (iblk0 V c 5 t) (iblk0 V c 6 t) (iblk0 V c 7 t) xo

/-- Each case's pieces tile each output's block, so they cover it. -/
theorem coverA0_8 (c : Dev nD) (t : Fin cfg0.N) (h : cond0 (grid0.coords t)) (y : S1x1024x256.Idx) :
    ∃ pc ∈ (runA0 V c t h).1.1, y ∈ pc.1.set :=
  View.cover_of_tiledL (runA0 V c t h).1.1 S1x1024x256.size (by sl_kernel_rfl) y
theorem coverA0_9 (c : Dev nD) (t : Fin cfg0.N) (h : cond0 (grid0.coords t)) (y : S1x1x256.Idx) :
    ∃ pc ∈ (runA0 V c t h).1.2, y ∈ pc.1.set :=
  View.cover_of_tiledL (runA0 V c t h).1.2 S1x1x256.size (by sl_kernel_rfl) y
theorem coverB0_8 (c : Dev nD) (t : Fin cfg0.N) (h : ¬cond0 (grid0.coords t)) (xo : Vec F S1x1x256 .f32) (y : S1x1024x256.Idx) :
    ∃ pc ∈ (runB0 V c t h xo).1.1, y ∈ pc.1.set :=
  View.cover_of_tiledL (runB0 V c t h xo).1.1 S1x1024x256.size (by sl_kernel_rfl) y
theorem coverB0_9 (c : Dev nD) (t : Fin cfg0.N) (h : ¬cond0 (grid0.coords t)) (xo : Vec F S1x1x256 .f32) (y : S1x1x256.Idx) :
    ∃ pc ∈ (runB0 V c t h xo).1.2, y ∈ pc.1.set :=
  View.cover_of_tiledL (runB0 V c t h xo).1.2 S1x1x256.size (by sl_kernel_rfl) y

/-- What each case leaves in the two outputs' buffers: its pieces read back. -/
def outA0 (c : Dev nD) (t : Fin cfg0.N) (h : cond0 (grid0.coords t)) : Vec F S1x1024x256 .f32 × Vec F S1x1x256 .f32 :=
  (VO0_8.read (Elt F) (VO0_8.writes (Elt F) VO0_8.junk (runA0 V c t h).1.1), VO0_9.read (Elt F) (VO0_9.writes (Elt F) VO0_9.junk (runA0 V c t h).1.2))
def outB0 (c : Dev nD) (t : Fin cfg0.N) (h : ¬cond0 (grid0.coords t)) (xo : Vec F S1x1x256 .f32) : Vec F S1x1024x256 .f32 × Vec F S1x1x256 .f32 :=
  (VO0_8.read (Elt F) (VO0_8.writes (Elt F) VO0_8.junk (runB0 V c t h xo).1.1), VO0_9.read (Elt F) (VO0_9.writes (Elt F) VO0_9.junk (runB0 V c t h xo).1.2))

/-- THE ACCUMULATION: what the two outputs' buffers hold after the body at position `n` — at a batch's first tile case A's
    contents, otherwise case B's over the running sum the tile before left. -/
def outsAt0 (c : Dev nD) : (n : ℕ) → n < cfg0.N → Vec F S1x1024x256 .f32 × Vec F S1x1x256 .f32
  | 0, hn => outA0 V c ⟨0, hn⟩ ((hcond0 ⟨0, hn⟩).mpr (Nat.zero_mod _))
  | n + 1, hn =>
    if h0 : (n + 1) % 32 = 0 then outA0 V c ⟨n + 1, hn⟩ ((hcond0 ⟨n + 1, hn⟩).mpr h0)
    else outB0 V c ⟨n + 1, hn⟩ (fun h => h0 ((hcond0 ⟨n + 1, hn⟩).mp h)) (outsAt0 c n (Nat.lt_of_succ_lt hn)).2

theorem outsAt0_A (c : Dev nD) (t : Fin cfg0.N) (h0 : t.val % 32 = 0) :
    outsAt0 V c t.val t.isLt = outA0 V c t ((hcond0 t).mpr h0) := by
  obtain ⟨n, hn⟩ := t
  cases n with
  | zero => exact rfl
  | succ n => exact (dif_pos h0).trans rfl

theorem outsAt0_B (c : Dev nD) (t : Fin cfg0.N) (h0 : ¬t.val % 32 = 0) :
    outsAt0 V c t.val t.isLt = outB0 V c t (fun h => h0 ((hcond0 t).mp h)) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => (outsAt0 V c t.val t.isLt).1
    | ⟨9, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = (outsAt0 V c t.val t.isLt).1 := by dsimp only [dat0]
theorem after0_9 (c : Dev nD) (t : Fin cfg0.N) : (dat0 V c).after 9 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- At a later tile of a batch the running-sum buffer holds what the body left at the point before: it was not written back between. -/
theorem before0_9_B (c : Dev nD) (t : Fin cfg0.N) (h0 : ¬t.val % 32 = 0) (d) :
    (dat0 V c).before 9 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dat0]

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 4000000 in
/-- The body at any point: the inputs' buffers hold their blocks; the point is a batch's first tile or not; in the second
    case the running-sum buffer holds what the tile before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  have hN : t.val < 128 := lt_of_lt_of_eq t.isLt (show cfg0.N = 128 from N_0)
  by_cases h0 : t.val % 32 = 0
  · rw [outsAt0_A V c t h0]
    unfold outA0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dA, HA⟩, ⟨%dB, HB⟩⟩
    iapply ((runA0 V c t ((hcond0 t).mpr h0)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexists _; iexact HA
    isplitl [HB]; · iexists _; iexact HB
    iintro ⟨H0, H1, H2, H3, H4, H5, H6, H7, ⟨%eA, HA⟩, ⟨%eB, HB⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]
    · unfold owns; iexists _; isplitr
      swap; · iexact HA
      ipureintro; dsimp only; exact View.read_writes_of_cover _ _ _ _ _ (coverA0_8 V c t _)
    unfold owns; iexists _; isplitr
    swap; · iexact HB
    ipureintro; dsimp only; exact View.read_writes_of_cover _ _ _ _ _ (coverA0_9 V c t _)
  · rw [outsAt0_B V c t h0]
    simp only [before0_9_B V c t h0]
    unfold outB0
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dA, HA⟩, ⟨%dB, HB⟩⟩
    iapply ((runB0 V c t (fun h => h0 ((hcond0 t).mp h)) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexists _; iexact HA
    isplitl [HB]; · iexact HB
    iintro ⟨H0, H1, H2, H3, H4, H5, H6, H7, ⟨%eA, HA⟩, ⟨%eB, HB⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]
    · unfold owns; iexists _; isplitr
      swap; · iexact HA
      ipureintro; dsimp only; exact View.read_writes_of_cover _ _ _ _ _ (coverB0_8 V c t _ _)
    unfold owns; iexists _; isplitr
    swap; · iexact HB
    ipureintro; dsimp only; exact View.read_writes_of_cover _ _ _ _ _ (coverB0_9 V c t _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.NodeRunKI.lean ====
/-
  The node region's body, run once per control case. The body stores the normalised rows into the node output's block and adds
  their column sums into the running-sum block; at the first tile of a batch (second grid coordinate 0) it first
  clears the running sum. Case A is a first tile; case B is any other tile, where the running sum is read as the
  tile before left it. Each run ends with the inputs as they were and each output's buffer holding the pieces
  its stores wrote.
-/
import proofs.«143816_j32993938768001_1_alg».proof.Proof.Gen.KernelIdeal.Launch
import proofs.«143816_j32993938768001_1_alg».proof.Proof.Gen.KernelIdeal.Skeleton
import proofs.«143816_j32993938768001_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the second coordinate (the tile within the batch) is 0. -/
abbrev cond1 (i : grid1.Coords) : Prop := (Scalar.cmpi .ne (Scalar.extui (Scalar.cmpi .eq (BitVec.ofNat 32 (i 1).val) 0#32)) 0#32) = 1#1

/-- It holds exactly at the first tile of each batch: the points ≡ 0 (mod 8) — decided over the grid. -/
theorem hcond1 : ∀ t : Fin cfg1.N, cond1 (grid1.coords t) ↔ t.val % 8 = 0 :=
  (by decide +kernel : ∀ t : Fin grid1.N, cond1 (grid1.coords t) ↔ t.val % 8 = 0)

set_option maxHeartbeats 4000000 in
/-- Case A (a first tile): the two outputs' buffers may hold anything when the body starts. -/
noncomputable def kernelRun1_A (c : Dev nD) (i : grid1.Coords)
    (arg2 : Memref sig .tc .vmem S1x1024x256 .f32) (harg2 : arg2.IsWhole) (arg3 : Memref sig .tc .vmem S1x1024x256 .f32) (harg3 : arg3.IsWhole)
    (arg4 : Memref sig .tc .vmem S1x1x256 .f32) (harg4 : arg4.IsWhole) (arg5 : Memref sig .tc .vmem S768x256 .bf16) (harg5 : arg5.IsWhole)
    (arg6 : Memref sig .tc .vmem S256 .f32) (harg6 : arg6.IsWhole) (arg7 : Memref sig .tc .vmem S256 .f32) (harg7 : arg7.IsWhole)
    (arg8 : Memref sig .tc .vmem S256 .f32) (harg8 : arg8.IsWhole)
    (arg9 : Memref sig .tc .vmem S1x1024x256 .f32) (harg9 : arg9.IsWhole) (arg10 : Memref sig .tc .vmem S1x1x256 .f32) (harg10 : arg10.IsWhole)
    (hc0 : cond1 i)
    (x0 x1 : Vec F S1x1024x256 .f32) (x2 : Vec F S1x1x256 .f32) (x3 : Vec F S768x256 .bf16) (x4 x5 x6 : Vec F S256 .f32) :
    { L : List (View.Piece (Elt F) S1x1024x256 .f32) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E
              (cc1__node_kernel i arg2 harg2 arg3 harg3 arg4 harg4 arg5 harg5 arg6 harg6 arg7 harg7 arg8 harg8 arg9 harg9 arg10 harg10) K } := by
  refine ⟨(?_, ?_), fun E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; iexact H8

set_option maxHeartbeats 4000000 in
/-- Case B (a later tile): the running-sum buffer holds `xo8`, what the tile before left; the node output's may hold anything. -/
noncomputable def kernelRun1_B (c : Dev nD) (i : grid1.Coords)
    (arg2 : Memref sig .tc .vmem S1x1024x256 .f32) (harg2 : arg2.IsWhole) (arg3 : Memref sig .tc .vmem S1x1024x256 .f32) (harg3 : arg3.IsWhole)
    (arg4 : Memref sig .tc .vmem S1x1x256 .f32) (harg4 : arg4.IsWhole) (arg5 : Memref sig .tc .vmem S768x256 .bf16) (harg5 : arg5.IsWhole)
    (arg6 : Memref sig .tc .vmem S256 .f32) (harg6 : arg6.IsWhole) (arg7 : Memref sig .tc .vmem S256 .f32) (harg7 : arg7.IsWhole)
    (arg8 : Memref sig .tc .vmem S256 .f32) (harg8 : arg8.IsWhole)
    (arg9 : Memref sig .tc .vmem S1x1024x256 .f32) (harg9 : arg9.IsWhole) (arg10 : Memref sig .tc .vmem S1x1x256 .f32) (harg10 : arg10.IsWhole)
    (hc0 : ¬cond1 i)
    (x0 x1 : Vec F S1x1024x256 .f32) (x2 : Vec F S1x1x256 .f32) (x3 : Vec F S768x256 .bf16) (x4 x5 x6 : Vec F S256 .f32) (xo8 : Vec F S1x1x256 .f32) :
    { L : List (View.Piece (Elt F) S1x1024x256 .f32) × List (View.Piece (Elt F) S1x1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ (∃ d, owns (c : Thread nD τ) arg9 fullShare d) ∗ owns (c : Thread nD τ) arg10 fullShare xo8
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E
              (cc1__node_kernel i arg2 harg2 arg3 harg3 arg4 harg4 arg5 harg5 arg6 harg6 arg7 harg7 arg8 harg8 arg9 harg9 arg10 harg10) K } := by
  refine ⟨(?_, ?_), fun E K => ?run⟩
  case run =>
    simp only [cc1__node_kernel_eq_skeleton]; unfold cc1__node_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexact H7
    iexists _; iexact H8

end Cert.KernelIdeal.Hand

end
-- ==== Proof.NodeFrameKI.lean ====
/-
  The node region's proof data, at any contents `V` of the buffers when the region is entered. After the body at a
  point every input window's buffer still holds its block; the node output's buffer holds the point's normalised
  rows; the running-sum buffer holds the sum over the batch's tiles so far — cleared at a batch's first tile, carried
  from the tile before otherwise (it is written back only after a batch's last tile). The body obligation follows
  case by case from the two runs.
-/
import proofs.«143816_j32993938768001_1_alg».proof.Proof.NodeRunKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- One staging buffer of each output window, through which its contents are stated (the choice does not matter). -/
abbrev VO1_7 : View sig .tc .vmem S1x1024x256 .f32 := (Memref.whole cc1_stg7_0 : Memref sig .tc .vmem S1x1024x256 .f32).view
abbrev VO1_8 : View sig .tc .vmem S1x1x256 .f32 := (Memref.whole cc1_stg8_0 : Memref sig .tc .vmem S1x1x256 .f32).view

abbrev ms1_0 (t : Fin cfg1.N) : Memref sig .tc .vmem S1x1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S768x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x256 .f32 := win1_8.stage (cfg1.slots t 8)
abbrev hs1_8 (t : Fin cfg1.N) : (ms1_8 t).IsWhole := hstage1_8 ((cfg1.slots t 8).cast nbuf1_8)

/-- Case A's pieces at point `t`. -/
abbrev runA1 (c : Dev nD) (t : Fin cfg1.N) (h : cond1 (grid1.coords t)) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) h (iblk1 V c 0 t) (iblk1 V c 1 t) (iblk1 V c 2 t) (iblk1 V c 3 t) (iblk1 V c 4 t) (iblk1 V c 5 t) (iblk1 V c 6 t)
/-- Case B's pieces at point `t`, the running sum found at `xo`. -/
abbrev runB1 (c : Dev nD) (t : Fin cfg1.N) (h : ¬cond1 (grid1.coords t)) (xo : Vec F S1x1x256 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) h (iblk1 V c 0 t) (iblk1 V c 1 t) (iblk1 V c 2 t) (iblk1 V c 3 t) (iblk1 V c 4 t) (iblk1 V c 5 t) (iblk1 V c 6 t) xo

/-- Each case's pieces tile each output's block, so they cover it. -/
theorem coverA1_7 (c : Dev nD) (t : Fin cfg1.N) (h : cond1 (grid1.coords t)) (y : S1x1024x256.Idx) :
    ∃ pc ∈ (runA1 V c t h).1.1, y ∈ pc.1.set :=
  View.cover_of_tiledL (runA1 V c t h).1.1 S1x1024x256.size (by sl_kernel_rfl) y
theorem coverA1_8 (c : Dev nD) (t : Fin cfg1.N) (h : cond1 (grid1.coords t)) (y : S1x1x256.Idx) :
    ∃ pc ∈ (runA1 V c t h).1.2, y ∈ pc.1.set :=
  View.cover_of_tiledL (runA1 V c t h).1.2 S1x1x256.size (by sl_kernel_rfl) y
theorem coverB1_7 (c : Dev nD) (t : Fin cfg1.N) (h : ¬cond1 (grid1.coords t)) (xo : Vec F S1x1x256 .f32) (y : S1x1024x256.Idx) :
    ∃ pc ∈ (runB1 V c t h xo).1.1, y ∈ pc.1.set :=
  View.cover_of_tiledL (runB1 V c t h xo).1.1 S1x1024x256.size (by sl_kernel_rfl) y
theorem coverB1_8 (c : Dev nD) (t : Fin cfg1.N) (h : ¬cond1 (grid1.coords t)) (xo : Vec F S1x1x256 .f32) (y : S1x1x256.Idx) :
    ∃ pc ∈ (runB1 V c t h xo).1.2, y ∈ pc.1.set :=
  View.cover_of_tiledL (runB1 V c t h xo).1.2 S1x1x256.size (by sl_kernel_rfl) y

/-- What each case leaves in the two outputs' buffers: its pieces read back. -/
def outA1 (c : Dev nD) (t : Fin cfg1.N) (h : cond1 (grid1.coords t)) : Vec F S1x1024x256 .f32 × Vec F S1x1x256 .f32 :=
  (VO1_7.read (Elt F) (VO1_7.writes (Elt F) VO1_7.junk (runA1 V c t h).1.1), VO1_8.read (Elt F) (VO1_8.writes (Elt F) VO1_8.junk (runA1 V c t h).1.2))
def outB1 (c : Dev nD) (t : Fin cfg1.N) (h : ¬cond1 (grid1.coords t)) (xo : Vec F S1x1x256 .f32) : Vec F S1x1024x256 .f32 × Vec F S1x1x256 .f32 :=
  (VO1_7.read (Elt F) (VO1_7.writes (Elt F) VO1_7.junk (runB1 V c t h xo).1.1), VO1_8.read (Elt F) (VO1_8.writes (Elt F) VO1_8.junk (runB1 V c t h xo).1.2))

/-- THE ACCUMULATION: what the two outputs' buffers hold after the body at position `n` — at a batch's first tile case A's
    contents, otherwise case B's over the running sum the tile before left. -/
def outsAt1 (c : Dev nD) : (n : ℕ) → n < cfg1.N → Vec F S1x1024x256 .f32 × Vec F S1x1x256 .f32
  | 0, hn => outA1 V c ⟨0, hn⟩ ((hcond1 ⟨0, hn⟩).mpr (Nat.zero_mod _))
  | n + 1, hn =>
    if h0 : (n + 1) % 8 = 0 then outA1 V c ⟨n + 1, hn⟩ ((hcond1 ⟨n + 1, hn⟩).mpr h0)
    else outB1 V c ⟨n + 1, hn⟩ (fun h => h0 ((hcond1 ⟨n + 1, hn⟩).mp h)) (outsAt1 c n (Nat.lt_of_succ_lt hn)).2

theorem outsAt1_A (c : Dev nD) (t : Fin cfg1.N) (h0 : t.val % 8 = 0) :
    outsAt1 V c t.val t.isLt = outA1 V c t ((hcond1 t).mpr h0) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = outB1 V c t (fun h => h0 ((hcond1 t).mp h)) (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- At a later tile of a batch the running-sum buffer holds what the body left at the point before: it was not written back between. -/
theorem before1_8_B (c : Dev nD) (t : Fin cfg1.N) (h0 : ¬t.val % 8 = 0) (d) :
    (dat1 V c).before 8 t d = (outsAt1 V c (t.val - 1) (Nat.lt_of_le_of_lt (Nat.sub_le _ _) t.isLt)).2 := by
  have hN : t.val < 32 := lt_of_lt_of_eq t.isLt (show cfg1.N = 32 from N_1)
  rw [Dat.before_out_kept _ 8 rfl t (by omega) (Bool.eq_false_iff.mpr fun h => by have := (flush1_8 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4000000 in
/-- The body at any point: the inputs' buffers hold their blocks; the point is a batch's first tile or not; in the second
    case the running-sum buffer holds what the tile before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  have hN : t.val < 32 := lt_of_lt_of_eq t.isLt (show cfg1.N = 32 from N_1)
  by_cases h0 : t.val % 8 = 0
  · rw [outsAt1_A V c t h0]
    unfold outA1
    iintro ⟨HΦ, Ho, ⟨%d0, H0⟩, ⟨%d1, H1⟩, ⟨%d2, H2⟩, ⟨%d3, H3⟩, ⟨%d4, H4⟩, ⟨%d5, H5⟩, ⟨%d6, H6⟩, ⟨%dA, HA⟩, ⟨%dB, HB⟩⟩
    iapply ((runA1 V c t ((hcond1 t).mpr h0)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexists _; iexact HA
    isplitl [HB]; · iexists _; iexact HB
    iintro ⟨H0, H1, H2, H3, H4, H5, H6, ⟨%eA, HA⟩, ⟨%eB, HB⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]
    · unfold owns; iexists _; isplitr
      swap; · iexact HA
      ipureintro; dsimp only; exact View.read_writes_of_cover _ _ _ _ _ (coverA1_7 V c t _)
    unfold owns; iexists _; isplitr
    swap; · iexact HB
    ipureintro; dsimp only; exact View.read_writes_of_cover _ _ _ _ _ (coverA1_8 V c t _)
  · rw [outsAt1_B V c t h0]
    simp only [before1_8_B V c t h0]
    unfold outB1
    iintro ⟨HΦ, Ho, ⟨%d0, H0⟩, ⟨%d1, H1⟩, ⟨%d2, H2⟩, ⟨%d3, H3⟩, ⟨%d4, H4⟩, ⟨%d5, H5⟩, ⟨%d6, H6⟩, ⟨%dA, HA⟩, ⟨%dB, HB⟩⟩
    iapply ((runB1 V c t (fun h => h0 ((hcond1 t).mp h)) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]; · iexists _; iexact HA
    isplitl [HB]; · iexact HB
    iintro ⟨H0, H1, H2, H3, H4, H5, H6, ⟨%eA, HA⟩, ⟨%eB, HB⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HA]
    · unfold owns; iexists _; isplitr
      swap; · iexact HA
      ipureintro; dsimp only; exact View.read_writes_of_cover _ _ _ _ _ (coverB1_7 V c t _ _)
    unfold owns; iexists _; isplitr
    swap; · iexact HB
    ipureintro; dsimp only; exact View.read_writes_of_cover _ _ _ _ _ (coverB1_8 V c t _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.FrameKI.lean ====
/-
  The program's frame: both regions' segment records, over the thread state "every unscoped buffer at the contents the
  host stretches and the regions before have left, the generator register at some state, nothing owed", given to the
  generated conditional frame. What a region leaves in its two result arrays is what its pipeline's write-backs leave
  (the proof data's final arrays); every other buffer is as the region found it.
-/
import proofs.«143816_j32993938768001_1_alg».proof.Proof.EdgeFrameKI
import proofs.«143816_j32993938768001_1_alg».proof.Proof.NodeFrameKI
import proofs.«143816_j32993938768001_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the regions' entries and exits -/

/-- The edge region's entry contents, read at the TensorCore's references. -/
abbrev VE0 : (c : Dev nD) → (b : Ref sig .tc) → Buf (Elt F) ((c : Thread nD τ).loc b) := fun c b => V5 m c b
/-- The edge region's exit contents: its arrays at what the pipeline leaves, every other buffer as entered. -/
def WX0 (c : Dev nD) : Valuation τ sig (Elt F) :=
  Pipeline.withArrays spec0 c (V5 m c) fun w => (dat0 (VE0 m) c).arrAt w cfg0.N
abbrev VX0 : (c : Dev nD) → (b : Ref sig .tc) → Buf (Elt F) ((c : Thread nD τ).loc b) := fun c b => WX0 m c b
/-- What the edge region leaves, as the unknowns of the generated valuations (read only at the edge region's two results). -/
def outs0 : Outs (F := F) := fun _ r c => WX0 m c r

/-- The node region's entry contents. -/
abbrev VE1 : (c : Dev nD) → (b : Ref sig .tc) → Buf (Elt F) ((c : Thread nD τ).loc b) := fun c b => V11 m (outs0 m) c b
/-- The node region's exit contents. -/
def WX1 (c : Dev nD) : Valuation τ sig (Elt F) :=
  Pipeline.withArrays spec1 c (V11 m (outs0 m) c) fun w => (dat1 (VE1 m) c).arrAt w cfg1.N
abbrev VX1 : (c : Dev nD) → (b : Ref sig .tc) → Buf (Elt F) ((c : Thread nD τ).loc b) := fun c b => WX1 m c b
/-- What both regions leave: item 12's unknowns are the node region's, item 6's the edge region's. -/
def outs : Outs (F := F) := fun J r c => if J = 12 then WX1 m c r else WX0 m c r

theorem WX0_arr (c : Dev nD) (w : Fin cfg0.W) :
    WX0 m c (Proc.devRef .tc (Pipeline.arrRef spec0 w)) = (dat0 (VE0 m) c).arrAt w cfg0.N := by
  unfold WX0; exact Pipeline.withArrays_arr spec0 launch0.win.arr_inj c _ _ w
theorem hF0 (c : Dev nD) (w : Fin cfg0.W) : (dat0 (VE0 m) c).arrAt w cfg0.N = VX0 m c (Pipeline.arrRef spec0 w) :=
  (WX0_arr m c w).symm
theorem hrest0 (c : Dev nD) : ∀ b, b ∉ Finset.univ.image (Pipeline.arrRef spec0) → VX0 m c b = VE0 m c b :=
  fun b hb => by
    show WX0 m c (Proc.devRef .tc b) = _
    unfold WX0; exact Pipeline.withArrays_of_ne spec0 c _ _ b fun w e => hb (Finset.mem_image.mpr ⟨w, Finset.mem_univ _, e⟩)
theorem WX1_arr (c : Dev nD) (w : Fin cfg1.W) :
    WX1 m c (Proc.devRef .tc (Pipeline.arrRef spec1 w)) = (dat1 (VE1 m) c).arrAt w cfg1.N := by
  unfold WX1; exact Pipeline.withArrays_arr spec1 launch1.win.arr_inj c _ _ w
theorem hF1 (c : Dev nD) (w : Fin cfg1.W) : (dat1 (VE1 m) c).arrAt w cfg1.N = VX1 m c (Pipeline.arrRef spec1 w) :=
  (WX1_arr m c w).symm
theorem hrest1 (c : Dev nD) : ∀ b, b ∉ Finset.univ.image (Pipeline.arrRef spec1) → VX1 m c b = VE1 m c b :=
  fun b hb => by
    show WX1 m c (Proc.devRef .tc b) = _
    unfold WX1; exact Pipeline.withArrays_of_ne spec1 c _ _ b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c

/-- No core owes another anything: no level is assigned. -/
abbrev LL : GSem nD τ sig → Finset Unit := fun _ => ∅
abbrev lvv : GSem nD τ sig → Unit → ℕ := fun _ _ => 0
/-- What rides beside the buffers through every segment: the generator register at some state and the core's `owes`, at nothing. -/
abbrev Rr (c : Dev nD) : sProp 𝕄 := iprop((∃ r, prngReg c r) ∗ ∃ W, owes (c : Thread nD τ) (0 : CellTallies nD τ sig Unit) W)

-- unification with the pinned configuration unfolds plain definitions in a metavariable's type
set_option backward.isDefEq.respectTransparency.types false in
/-- Region 0 as a segment: entered from every unscoped buffer at the contents before it, left at those contents with the
    region's arrays at what the pipeline leaves. Its arrays are split out of the unscoped buffers and put back at the exit
    contents; the generator register goes into the pipeline's invariant and comes back; nothing is owed; the kernel has
    no semaphore of its own. -/
def reg0 : Pipeline.RegionSeg (pcfgs (F := F)) adm (pdats m) () defs₀ Variants.none LL lvv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ LL lvv 0 fun _ _ => rfl
  pre c := iprop(StableHlo.held (c : Thread nD τ) (Pipeline.ucRefs τ sig) (V5 m c) ∗ Rr c)
  post c := iprop(StableHlo.held (c : Thread nD τ) (Pipeline.ucRefs τ sig) (WX0 m c) ∗ Rr c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification with the pinned configuration unfolds plain definitions in a metavariable's type
set_option backward.isDefEq.respectTransparency.types false in
/-- Region 1 as a segment: entered from every unscoped buffer at the contents before it, left at those contents with the
    region's arrays at what the pipeline leaves. Its arrays are split out of the unscoped buffers and put back at the exit
    contents; the generator register goes into the pipeline's invariant and comes back; nothing is owed; the kernel has
    no semaphore of its own. -/
def reg1 : Pipeline.RegionSeg (pcfgs (F := F)) adm (pdats m) () defs₀ Variants.none LL lvv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ LL lvv 1 fun _ _ => rfl
  pre c := iprop(StableHlo.held (c : Thread nD τ) (Pipeline.ucRefs τ sig) (V11 m (outs0 m) c) ∗ Rr c)
  post c := iprop(StableHlo.held (c : Thread nD τ) (Pipeline.ucRefs τ sig) (WX1 m c) ∗ Rr c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The generated valuations at the regions' exits are the pipelines' -/

theorem outs_6 (r : Ref sig .tc) (c : Dev nD) : outs m 6 r c = outs0 m 6 r c := if_neg (by decide)
theorem outs_12 (r : Ref sig .tc) (c : Dev nD) : outs m 12 r c = WX1 m c r := if_pos rfl

/-- The valuations up to the node region's entry read the unknowns only at item 6. -/
theorem V11_congr (o o' : Outs (F := F)) (h : ∀ r c, o 6 r c = o' 6 r c) (c : Dev nD) : V11 m o c = V11 m o' c := by
  dsimp only [V11, V10, V9, V8, V7, V6]
  rw [h, h]
theorem V11_eq (c : Dev nD) : V11 m (outs m) c = V11 m (outs0 m) c := V11_congr m _ _ (outs_6 m) c

/-- Outside its two results the edge region's exit contents are its entry contents: an input window's array ends as it was found. -/
theorem WX0_of_ne (c : Dev nD) (b : DevRef τ sig) (h1 : b ≠ Proc.devRef .tc main_v6_0) (h2 : b ≠ Proc.devRef .tc main_v6_1) : WX0 m c b = V5 m c b := by
  by_cases h : ∃ w, Proc.devRef .tc (Pipeline.arrRef spec0 w) = b
  · obtain ⟨w, rfl⟩ := h
    unfold WX0
    rw [Pipeline.withArrays_arr spec0 launch0.win.arr_inj]
    match w with
    | ⟨0, _⟩ => exact ((dat0 (VE0 m) c).arrAt_in 0 rfl _).trans (A_eq0 (VE0 m) c 0)
    | ⟨1, _⟩ => exact ((dat0 (VE0 m) c).arrAt_in 1 rfl _).trans (A_eq0 (VE0 m) c 1)
    | ⟨2, _⟩ => exact ((dat0 (VE0 m) c).arrAt_in 2 rfl _).trans (A_eq0 (VE0 m) c 2)
    | ⟨3, _⟩ => exact ((dat0 (VE0 m) c).arrAt_in 3 rfl _).trans (A_eq0 (VE0 m) c 3)
    | ⟨4, _⟩ => exact ((dat0 (VE0 m) c).arrAt_in 4 rfl _).trans (A_eq0 (VE0 m) c 4)
    | ⟨5, _⟩ => exact ((dat0 (VE0 m) c).arrAt_in 5 rfl _).trans (A_eq0 (VE0 m) c 5)
    | ⟨6, _⟩ => exact ((dat0 (VE0 m) c).arrAt_in 6 rfl _).trans (A_eq0 (VE0 m) c 6)
    | ⟨7, _⟩ => exact ((dat0 (VE0 m) c).arrAt_in 7 rfl _).trans (A_eq0 (VE0 m) c 7)
    | ⟨8, _⟩ => exact absurd rfl h1
    | ⟨9, _⟩ => exact absurd rfl h2
  · unfold WX0 Pipeline.withArrays
    rw [dif_neg h]

/-- Outside its two results the node region's exit contents are its entry contents: an input window's array ends as it was found. -/
theorem WX1_of_ne (c : Dev nD) (b : DevRef τ sig) (h1 : b ≠ Proc.devRef .tc main_v19_0) (h2 : b ≠ Proc.devRef .tc main_v19_1) : WX1 m c b = V11 m (outs0 m) c b := by
  by_cases h : ∃ w, Proc.devRef .tc (Pipeline.arrRef spec1 w) = b
  · obtain ⟨w, rfl⟩ := h
    unfold WX1
    rw [Pipeline.withArrays_arr spec1 launch1.win.arr_inj]
    match w with
    | ⟨0, _⟩ => exact ((dat1 (VE1 m) c).arrAt_in 0 rfl _).trans (A_eq1 (VE1 m) c 0)
    | ⟨1, _⟩ => exact ((dat1 (VE1 m) c).arrAt_in 1 rfl _).trans (A_eq1 (VE1 m) c 1)
    | ⟨2, _⟩ => exact ((dat1 (VE1 m) c).arrAt_in 2 rfl _).trans (A_eq1 (VE1 m) c 2)
    | ⟨3, _⟩ => exact ((dat1 (VE1 m) c).arrAt_in 3 rfl _).trans (A_eq1 (VE1 m) c 3)
    | ⟨4, _⟩ => exact ((dat1 (VE1 m) c).arrAt_in 4 rfl _).trans (A_eq1 (VE1 m) c 4)
    | ⟨5, _⟩ => exact ((dat1 (VE1 m) c).arrAt_in 5 rfl _).trans (A_eq1 (VE1 m) c 5)
    | ⟨6, _⟩ => exact ((dat1 (VE1 m) c).arrAt_in 6 rfl _).trans (A_eq1 (VE1 m) c 6)
    | ⟨7, _⟩ => exact absurd rfl h1
    | ⟨8, _⟩ => exact absurd rfl h2
  · unfold WX1 Pipeline.withArrays
    rw [dif_neg h]

theorem V6_eq (c : Dev nD) : V6 m (outs m) c = WX0 m c := by
  funext b
  dsimp only [V6]
  by_cases h2 : b = Proc.devRef .tc main_v6_1
  · subst h2; rw [Function.update_self]; exact outs_6 m _ c
  · rw [Function.update_of_ne h2]
    by_cases h1 : b = Proc.devRef .tc main_v6_0
    · subst h1; rw [Function.update_self]; exact outs_6 m _ c
    · rw [Function.update_of_ne h1]; exact (WX0_of_ne m c b h1 h2).symm

theorem V12_eq (c : Dev nD) : V12 m (outs m) c = WX1 m c := by
  funext b
  dsimp only [V12]
  by_cases h2 : b = Proc.devRef .tc main_v19_1
  · subst h2; rw [Function.update_self]; exact outs_12 m _ c
  · rw [Function.update_of_ne h2]
    by_cases h1 : b = Proc.devRef .tc main_v19_0
    · subst h1; rw [Function.update_self]; exact outs_12 m _ c
    · rw [Function.update_of_ne h1, V11_eq]; exact (WX1_of_ne m c b h1 h2).symm

/-- What the launch hands a core besides its buffers makes the rest state: the generator register, and nothing owed. -/
theorem rest_of_launch (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ Rr (F := F) c := by
  iintro ⟨-, HO, -, Hp, -⟩
  isplitl [Hp]; · iexists _; iexact Hp
  iexists ∅; iexact HO

theorem rest_of_launch_all :
    (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ fun c : Dev nD => Rr (F := F) c : sProp 𝕄) :=
  bigSep_mono fun c _ => rest_of_launch ρ c

/-! ## The frame -/

-- the conditional frame's implicit arguments are found by unifying its conclusion with this one
set_option backward.isDefEq.respectTransparency.types false in
/-- THE FRAME, at any float instance: from any memory with zero counters every weakly fair execution of @main terminates,
    nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_cond m (Ix := Unit) (U := UR sig nD τ) (Lvl := ℕ) emb₁ () Variants.none LL lvv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      iintro ⟨H, -⟩
      imodintro
      iapply (rest_of_launch_all (F := F) ρ)
      iexact H)
    (hE2 := fun c => by iintro ⟨-, HO⟩; iexact HO)
    (reg0 m) (fun c => .rfl)
    (fun c => by rw [V6_eq]; exact .rfl)
    (reg1 m) (fun c => by rw [V11_eq]; exact .rfl)
    (fun c => by rw [V12_eq]; exact .rfl)

end Cert.KernelIdeal.Hand

end
-- ==== Proof.RunKI.lean ====
/-
  The program's run with its results named: every weakly fair execution of @main terminates, nothing faulting, with each
  of the three result buffers at what the last valuation holds there — the edge and node results at what their
  regions' pipelines leave, the global result at the host operations' term over them — and the arguments as launched.
  The launch is the library's several-regions theorem over the same segments as the frame.
-/
import proofs.«143816_j32993938768001_1_alg».proof.Proof.FrameKI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-- Two families held core by core are the family of their conjunctions. -/
theorem bigSep_join (P Q : Dev nD → sProp 𝕄) :
    (iprop((bigSep Finset.univ fun c : Dev nD => P c) ∗ bigSep Finset.univ fun c : Dev nD => Q c) : sProp 𝕄)
      ⊢ bigSep Finset.univ fun c : Dev nD => iprop(P c ∗ Q c) := by
  rw [bigSep_sep']

/-- The rest states between segments: the generator register at some state, nothing owed. -/
abbrev EE : Fin 3 → Dev nD → sProp 𝕄 := fun _ c => Rr (F := F) c

set_option backward.isDefEq.respectTransparency.types false in
theorem run_value : θ_run defs (onTc (τ := τ) (main (F := F))) ⟨m, fun _ => 0, ρ⟩ (fun r => ∀ c : Dev nD,
      r.2.mem ((c.tc : Thread nD τ).loc main_v6_0) = V19 m (outs m) c (Proc.devRef .tc main_v6_0) ∧ r.2.mem ((c.tc : Thread nD τ).loc main_v19_0) = V19 m (outs m) c (Proc.devRef .tc main_v19_0) ∧ r.2.mem ((c.tc : Thread nD τ).loc main_v57) = V19 m (outs m) c (Proc.devRef .tc main_v57) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20) ∧ r.2.mem ((c.tc : Thread nD τ).loc main_arg21) = m ((c.tc : Thread nD τ).loc main_arg21)) := by
  refine Pipeline.θ_run_regions_kit_dev (pcfgs (F := F)) adm (pdats m) () cellOf_inj emb₁ defs₀ Variants.none LL lvv m ρ main
    (segs m (outs m) Variants.none LL lvv (EE (F := F)) () (pdats m) (reg0 m) (reg1 m))
    (fun c Q => by
      rewrite [main_chain c, Seg.run_eq_chain,
        show (segs m (outs m) Variants.none LL lvv (EE (F := F)) () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ EE (F := F) 0 c))
    (Tₙ := fun c => StableHlo.held (c : Thread nD τ) (Pipeline.ucRefs τ sig) (V19 m (outs m) c))
    (hch := fun c => ⟨.rfl, .rfl, .rfl, .rfl, .rfl, .rfl, (show (iprop(StableHlo.held (c : Thread nD τ) (Pipeline.ucRefs τ sig) (WX0 m c) ∗ Rr c) : sProp 𝕄) ⊢ iprop(StableHlo.held (c : Thread nD τ) (Pipeline.ucRefs τ sig) (V6 m (outs m) c) ∗ EE (F := F) 1 c) from by rw [V6_eq]), .rfl, .rfl, .rfl, .rfl, (show (iprop(StableHlo.held (c : Thread nD τ) (Pipeline.ucRefs τ sig) (V11 m (outs m) c) ∗ EE (F := F) 1 c) : sProp 𝕄) ⊢ iprop(StableHlo.held (c : Thread nD τ) (Pipeline.ucRefs τ sig) (V11 m (outs0 m) c) ∗ Rr c) from by rw [V11_eq]), (show (iprop(StableHlo.held (c : Thread nD τ) (Pipeline.ucRefs τ sig) (WX1 m c) ∗ Rr c) : sProp 𝕄) ⊢ iprop(StableHlo.held (c : Thread nD τ) (Pipeline.ucRefs τ sig) (V12 m (outs m) c) ∗ EE (F := F) 2 c) from by rw [V12_eq]), .rfl, .rfl, .rfl, .rfl, .rfl, .rfl, sep_mono .rfl (by iintro ⟨-, HO⟩; iexact HO)⟩)
    (hinit := ?_) (QY := fun c s => s.mem ((c.tc : Thread nD τ).loc main_v6_0) = V19 m (outs m) c (Proc.devRef .tc main_v6_0) ∧ s.mem ((c.tc : Thread nD τ).loc main_v19_0) = V19 m (outs m) c (Proc.devRef .tc main_v19_0) ∧ s.mem ((c.tc : Thread nD τ).loc main_v57) = V19 m (outs m) c (Proc.devRef .tc main_v57) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21))
    (hfin := fun c s' => ?_) (hQ := fun _ h => h)
  · -- the launch: the unscoped buffers are held at the launch contents; the rest makes the first rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hj := bigSep_join (F := F) (fun c : Dev nD => StableHlo.held (c : Thread nD τ) (Pipeline.ucRefs τ sig) (V0 m c)) (fun c : Dev nD => EE (F := F) 0 c)
    iintro ⟨H, Hla⟩
    ihave H' := hsplit $$ H
    icases H' with ⟨Hh, Hr⟩
    ihave HE := (rest_of_launch_all (F := F) ρ) $$ Hr
    imodintro
    iapply hj
    isplitl [Hh]; · iexact Hh
    iexact HE
  · -- the end: each buffer read off the last valuation
    unfold StableHlo.held
    iintro ⟨Hh, HSI⟩
    ihave Hr := (pointsTo_read_all (Pipeline.ucRefs τ sig) (fun b => ((c : Thread nD τ).1, b)) (V19 m (outs m) c) s') $$ [Hh HSI]
    · isplitl [Hh] <;> iassumption
    icases Hr with ⟨%h, HSI⟩
    imodintro
    isplitr
    · ipureintro
      exact ⟨h (Proc.devRef .tc main_v6_0) (Finset.mem_filter.mpr ⟨StableHlo.devRef_mem_tcRefs main_v6_0, by decide⟩),
        h (Proc.devRef .tc main_v19_0) (Finset.mem_filter.mpr ⟨StableHlo.devRef_mem_tcRefs main_v19_0, by decide⟩),
        h (Proc.devRef .tc main_v57) (Finset.mem_filter.mpr ⟨StableHlo.devRef_mem_tcRefs main_v57, by decide⟩),
        (h (Proc.devRef .tc main_arg0) (Finset.mem_filter.mpr ⟨StableHlo.devRef_mem_tcRefs main_arg0, by decide⟩)).trans (V19_main_arg0 m (outs m) c),
        (h (Proc.devRef .tc main_arg1) (Finset.mem_filter.mpr ⟨StableHlo.devRef_mem_tcRefs main_arg1, by decide⟩)).trans (V19_main_arg1 m (outs m) c),
        (h (Proc.devRef .tc main_arg2) (Finset.mem_filter.mpr ⟨StableHlo.devRef_mem_tcRefs main_arg2, by decide⟩)).trans (V19_main_arg2 m (outs m) c),
        (h (Proc.devRef .tc main_arg3) (Finset.mem_filter.mpr ⟨StableHlo.devRef_mem_tcRefs main_arg3, by decide⟩)).trans (V19_main_arg3 m (outs m) c),
        (h (Proc.devRef .tc main_arg4) (Finset.mem_filter.mpr ⟨StableHlo.devRef_mem_tcRefs main_arg4, by decide⟩)).trans (V19_main_arg4 m (outs m) c),
        (h (Proc.devRef .tc main_arg5) (Finset.mem_filter.mpr ⟨StableHlo.devRef_mem_tcRefs main_arg5, by decide⟩)).trans (V19_main_arg5 m (outs m) c),
        (h (Proc.devRef .tc main_arg6) (Finset.mem_filter.mpr ⟨StableHlo.devRef_mem_tcRefs main_arg6, by decide⟩)).trans (V19_main_arg6 m (outs m) c),
        (h (Proc.devRef .tc main_arg7) (Finset.mem_filter.mpr ⟨StableHlo.devRef_mem_tcRefs main_arg7, by decide⟩)).trans (V19_main_arg7 m (outs m) c),
        (h (Proc.devRef .tc main_arg8) (Finset.mem_filter.mpr ⟨StableHlo.devRef_mem_tcRefs main_arg8, by decide⟩)).trans (V19_main_arg8 m (outs m) c),
        (h (Proc.devRef .tc main_arg9) (Finset.mem_filter.mpr ⟨StableHlo.devRef_mem_tcRefs main_arg9, by decide⟩)).trans (V19_main_arg9 m (outs m) c),
        (h (Proc.devRef .tc main_arg10) (Finset.mem_filter.mpr ⟨StableHlo.devRef_mem_tcRefs main_arg10, by decide⟩)).trans (V19_main_arg10 m (outs m) c),
        (h (Proc.devRef .tc main_arg11) (Finset.mem_filter.mpr ⟨StableHlo.devRef_mem_tcRefs main_arg11, by decide⟩)).trans (V19_main_arg11 m (outs m) c),
        (h (Proc.devRef .tc main_arg12) (Finset.mem_filter.mpr ⟨StableHlo.devRef_mem_tcRefs main_arg12, by decide⟩)).trans (V19_main_arg12 m (outs m) c),
        (h (Proc.devRef .tc main_arg13) (Finset.mem_filter.mpr ⟨StableHlo.devRef_mem_tcRefs main_arg13, by decide⟩)).trans (V19_main_arg13 m (outs m) c),
        (h (Proc.devRef .tc main_arg14) (Finset.mem_filter.mpr ⟨StableHlo.devRef_mem_tcRefs main_arg14, by decide⟩)).trans (V19_main_arg14 m (outs m) c),
        (h (Proc.devRef .tc main_arg15) (Finset.mem_filter.mpr ⟨StableHlo.devRef_mem_tcRefs main_arg15, by decide⟩)).trans (V19_main_arg15 m (outs m) c),
        (h (Proc.devRef .tc main_arg16) (Finset.mem_filter.mpr ⟨StableHlo.devRef_mem_tcRefs main_arg16, by decide⟩)).trans (V19_main_arg16 m (outs m) c),
        (h (Proc.devRef .tc main_arg17) (Finset.mem_filter.mpr ⟨StableHlo.devRef_mem_tcRefs main_arg17, by decide⟩)).trans (V19_main_arg17 m (outs m) c),
        (h (Proc.devRef .tc main_arg18) (Finset.mem_filter.mpr ⟨StableHlo.devRef_mem_tcRefs main_arg18, by decide⟩)).trans (V19_main_arg18 m (outs m) c),
        (h (Proc.devRef .tc main_arg19) (Finset.mem_filter.mpr ⟨StableHlo.devRef_mem_tcRefs main_arg19, by decide⟩)).trans (V19_main_arg19 m (outs m) c),
        (h (Proc.devRef .tc main_arg20) (Finset.mem_filter.mpr ⟨StableHlo.devRef_mem_tcRefs main_arg20, by decide⟩)).trans (V19_main_arg20 m (outs m) c),
        (h (Proc.devRef .tc main_arg21) (Finset.mem_filter.mpr ⟨StableHlo.devRef_mem_tcRefs main_arg21, by decide⟩)).trans (V19_main_arg21 m (outs m) c)⟩
    · iexact HSI

end Cert.KernelIdeal.Hand

end
-- ==== Proof.RefRunH0.lean ====
/-
  The reference's operations cut in three — the edge update, the node update, the global update — with the tools the
  three parts' values are read with.

  The contents of the buffers after a list of operations is a fold; after two lists one after the other it is the fold of
  the second over the fold of the first. A value carried to a buffer's type and back is the value. A concatenation's
  pieces are given as separate arguments, so that each can be replaced by an equal one.
-/
import proofs.«143816_j32993938768001_1_alg».proof.Proof.RefOpsP
import proofs.«143816_j32993938768001_1_alg».proof.Proof.RefReadP
import Idealize.ShloMosaic.Lib.StableHlo.Run

set_option maxRecDepth 16384

noncomputable section

namespace Cert.ReferenceIdeal.RunH

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

/-- The buffers after two lists of operations run one after the other. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value carried to a buffer's type and back is the value. -/
theorem ofBuf_toBuf {Val : EltTy → Type} {T : BufTy} (x : StableHlo.TRef sig T) (v : T.Contents Val) : x.ofBuf (x.toBuf v) = v := by
  obtain ⟨r, rfl, _, _⟩ := x; rfl

/-- Four pieces joined along an axis, the pieces as separate arguments. -/
def cat4 {α : Type} (t : Shape) (a : Fin t.rank) (s0 s1 s2 s3 : Shape) (h : Shape.Concatenates [s0, s1, s2, s3] t a)
    (x0 : s0.Idx → α) (x1 : s1.Idx → α) (x2 : s2.Idx → α) (x3 : s3.Idx → α) : t.Idx → α :=
  concatenate t a [⟨s0, x0⟩, ⟨s1, x1⟩, ⟨s2, x2⟩, ⟨s3, x3⟩] h
theorem cat4_eq {α : Type} (t : Shape) (a : Fin t.rank) (s0 s1 s2 s3 : Shape)
    (x0 : s0.Idx → α) (x1 : s1.Idx → α) (x2 : s2.Idx → α) (x3 : s3.Idx → α) (h) :
    concatenate t a [⟨s0, x0⟩, ⟨s1, x1⟩, ⟨s2, x2⟩, ⟨s3, x3⟩] h = cat4 t a s0 s1 s2 s3 h x0 x1 x2 x3 := rfl
/-- Three pieces joined along an axis, the pieces as separate arguments. -/
def cat3 {α : Type} (t : Shape) (a : Fin t.rank) (s0 s1 s2 : Shape) (h : Shape.Concatenates [s0, s1, s2] t a)
    (x0 : s0.Idx → α) (x1 : s1.Idx → α) (x2 : s2.Idx → α) : t.Idx → α :=
  concatenate t a [⟨s0, x0⟩, ⟨s1, x1⟩, ⟨s2, x2⟩] h
theorem cat3_eq {α : Type} (t : Shape) (a : Fin t.rank) (s0 s1 s2 : Shape)
    (x0 : s0.Idx → α) (x1 : s1.Idx → α) (x2 : s2.Idx → α) (h) :
    concatenate t a [⟨s0, x0⟩, ⟨s1, x1⟩, ⟨s2, x2⟩] h = cat3 t a s0 s1 s2 h x0 x1 x2 := rfl

/-- The edge update: the first 86 operations. -/
abbrev opsA : List (HloOp τ sig (Elt Ideal)) := (ops (F := Ideal)).take 86
/-- The node update: the next 77 operations. -/
abbrev opsB : List (HloOp τ sig (Elt Ideal)) := ((ops (F := Ideal)).drop 86).take 77
/-- The global update: the last 51 operations. -/
abbrev opsC : List (HloOp τ sig (Elt Ideal)) := ((ops (F := Ideal)).drop 86).drop 77

/-- The operations are the three parts in order. -/
theorem ops_split : (ops (F := Ideal)) = opsA ++ (opsB ++ opsC) := by
  rw [List.take_append_drop, List.take_append_drop]

/-- The buffers after all the operations: the global update over the node update over the edge update. -/
theorem after_ops (W : Valuation τ sig (Elt Ideal)) : after (ops (F := Ideal)) W = after opsC (after opsB (after opsA W)) := by
  rw [ops_split, after_append, after_append]

/-- The twenty-two argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

end Cert.ReferenceIdeal.RunH

end
-- ==== Proof.RefRunHA.lean ====
/-
  The edge update read as a value: over any buffer contents, the first part of the reference's operations leaves in the
  new edge features' buffer the reference's edge stage of the eight argument arrays it depends on, and leaves every
  argument buffer as it was. The buffer's contents is computed operation by operation; the concatenation's pieces and
  the values carried between a called function's buffers and their types are then put in the stages' own form.
-/
import proofs.«143816_j32993938768001_1_alg».proof.Proof.RefRunH0

set_option maxRecDepth 16384

noncomputable section

namespace Cert.ReferenceIdeal.RunH

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

set_option maxHeartbeats 4000000 in
/-- The new edge features after the edge update. -/
theorem edges_after (W : Valuation τ sig (Elt Ideal)) (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x8 : (⟨S1024x256, .f32⟩ : BufTy).Contents (Elt Ideal)) (x9 x10 x11 : (⟨S256, .f32⟩ : BufTy).Contents (Elt Ideal))
    (h0 : W (Proc.devRef .tc main_arg0) = x0) (h1 : W (Proc.devRef .tc main_arg1) = x1) (h2 : W (Proc.devRef .tc main_arg2) = x2) (h3 : W (Proc.devRef .tc main_arg3) = x3)
    (h8 : W (Proc.devRef .tc main_arg8) = x8) (h9 : W (Proc.devRef .tc main_arg9) = x9) (h10 : W (Proc.devRef .tc main_arg10) = x10) (h11 : W (Proc.devRef .tc main_arg11) = x11) :
    after opsA W (Proc.devRef .tc main_v36) = val_main_v36 (F := Ideal) x0 x1 x2 x3 x8 x9 x10 x11 := by
  dsimp only [opsA, ops]
  simp only [List.take_succ_cons, List.take_zero]
  after_results_simp
  dsimp only [Matrix.cons_val]
  simp only [cat4_eq]
  after_results_simp
  have c1 : ∀ p1 p2 p3 v, (StableHlo.TRef.of main_v11 p1 p2 p3 : StableHlo.TRef sig ⟨S4x32768x256, .f32⟩).toBuf (Val := Elt Ideal) v = v := fun _ _ _ _ => rfl
  have c2 : ∀ p1 p2 p3 v, (StableHlo.TRef.of main_v10 p1 p2 p3 : StableHlo.TRef sig ⟨S4x32768x256, .f32⟩).ofBuf (Val := Elt Ideal) v = v := fun _ _ _ _ => rfl
  have c3 : ∀ p1 p2 p3 v, (StableHlo.TRef.of main_v1 p1 p2 p3 : StableHlo.TRef sig ⟨S4x32768x256, .f32⟩).toBuf (Val := Elt Ideal) v = v := fun _ _ _ _ => rfl
  have c4 : ∀ p1 p2 p3 v, (StableHlo.TRef.of main_v3 p1 p2 p3 : StableHlo.TRef sig ⟨S4x32768x256, .f32⟩).toBuf (Val := Elt Ideal) v = v := fun _ _ _ _ => rfl
  have c5 : ∀ p1 p2 p3 v, (StableHlo.TRef.of main_v0 p1 p2 p3 : StableHlo.TRef sig ⟨S4x32768x1, .i32⟩).ofBuf (Val := Elt Ideal) v = v := fun _ _ _ _ => rfl
  have c6 : ∀ p1 p2 p3 v, (StableHlo.TRef.of main_v2 p1 p2 p3 : StableHlo.TRef sig ⟨S4x32768x1, .i32⟩).ofBuf (Val := Elt Ideal) v = v := fun _ _ _ _ => rfl
  have c7 : ∀ p1 p2 p3 v, (StableHlo.TRef.of main_arg0 p1 p2 p3 : StableHlo.TRef sig ⟨S4x8192x256, .f32⟩).ofBuf (Val := Elt Ideal) v = v := fun _ _ _ _ => rfl
  simp only [ofBuf_toBuf, c1, c2, c3, c4, c5, c6, c7]
  simp only [h0, h1, h2, h3, h8, h9, h10, h11]
  rfl

set_option maxHeartbeats 4000000 in
/-- The edge update writes no argument buffer. -/
theorem keepA (W : Valuation τ sig (Elt Ideal)) (r : Ref sig .tc) (hr : r ∈ (argRefs : List (Ref sig .tc))) :
    after opsA W (Proc.devRef .tc r) = W (Proc.devRef .tc r) := by
  dsimp only [opsA, ops]
  simp only [List.take_succ_cons, List.take_zero]
  simp only [argRefs, List.mem_cons, List.mem_append, List.not_mem_nil, or_false, or_assoc] at hr
  rcases hr with rfl | rfl | rfl | rfl | rfl | rfl | rfl | rfl | rfl | rfl | rfl | rfl | rfl | rfl | rfl | rfl | rfl | rfl | rfl | rfl | rfl | rfl
  all_goals after_results_simp

end Cert.ReferenceIdeal.RunH

end
-- ==== Proof.RefRunHB.lean ====
/-
  The node update read as a value: over any buffer contents whose new-edge-feature buffer holds the reference's edge
  stage, the second part of the reference's operations leaves in the new vertex features' buffer the reference's node
  stage of the fourteen argument arrays it depends on, and leaves the argument buffers and the new edge features as they were.
-/
import proofs.«143816_j32993938768001_1_alg».proof.Proof.RefRunH0

set_option maxRecDepth 16384

noncomputable section

namespace Cert.ReferenceIdeal.RunH

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

set_option maxHeartbeats 4000000 in
/-- The new vertex features after the node update. -/
theorem nodes_after (W : Valuation τ sig (Elt Ideal)) (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 x14 x15 : (⟨S256, .f32⟩ : BufTy).Contents (Elt Ideal))
    (h36 : W (Proc.devRef .tc main_v36) = val_main_v36 (F := Ideal) x0 x1 x2 x3 x8 x9 x10 x11)
    (h0 : W (Proc.devRef .tc main_arg0) = x0) (h2 : W (Proc.devRef .tc main_arg2) = x2) (h4 : W (Proc.devRef .tc main_arg4) = x4) (h5 : W (Proc.devRef .tc main_arg5) = x5)
    (h12 : W (Proc.devRef .tc main_arg12) = x12) (h13 : W (Proc.devRef .tc main_arg13) = x13) (h14 : W (Proc.devRef .tc main_arg14) = x14) (h15 : W (Proc.devRef .tc main_arg15) = x15) :
    after opsB W (Proc.devRef .tc main_v80) = val_main_v80 (F := Ideal) x0 x1 x2 x3 x4 x5 x8 x9 x10 x11 x12 x13 x14 x15 := by
  dsimp only [opsB, ops]
  simp only [List.drop_succ_cons, List.drop_zero, List.take_succ_cons, List.take_zero]
  after_results_simp
  dsimp only [Matrix.cons_val]
  simp only [cat3_eq]
  after_results_simp
  have c1 : ∀ p1 p2 p3 v, (StableHlo.TRef.of main_v55 p1 p2 p3 : StableHlo.TRef sig ⟨S4x8192x256, .f32⟩).toBuf (Val := Elt Ideal) v = v := fun _ _ _ _ => rfl
  have c2 : ∀ p1 p2 p3 v, (StableHlo.TRef.of main_v54 p1 p2 p3 : StableHlo.TRef sig ⟨S4x8192x256, .f32⟩).ofBuf (Val := Elt Ideal) v = v := fun _ _ _ _ => rfl
  have c3 : ∀ p1 p2 p3 v, (StableHlo.TRef.of main_v38 p1 p2 p3 : StableHlo.TRef sig ⟨S4x131072x256, .f32⟩).toBuf (Val := Elt Ideal) v = v := fun _ _ _ _ => rfl
  have c4 : ∀ p1 p2 p3 v, (StableHlo.TRef.of main_v37 p1 p2 p3 : StableHlo.TRef sig ⟨S4x131072x1, .i32⟩).ofBuf (Val := Elt Ideal) v = v := fun _ _ _ _ => rfl
  have c5 : ∀ p1 p2 p3 v, (StableHlo.TRef.of main_v36 p1 p2 p3 : StableHlo.TRef sig ⟨S4x32768x256, .f32⟩).ofBuf (Val := Elt Ideal) v = v := fun _ _ _ _ => rfl
  have c6 : ∀ p1 p2 p3 v, (StableHlo.TRef.of main_v43 p1 p2 p3 : StableHlo.TRef sig ⟨S4x8192, .f32⟩).toBuf (Val := Elt Ideal) v = v := fun _ _ _ _ => rfl
  have c7 : ∀ p1 p2 p3 v, (StableHlo.TRef.of main_v42 p1 p2 p3 : StableHlo.TRef sig ⟨S4x8192, .i1⟩).ofBuf (Val := Elt Ideal) v = v := fun _ _ _ _ => rfl
  have c8 : ∀ p1 p2 p3 v, (StableHlo.TRef.of main_cst_5 p1 p2 p3 : StableHlo.TRef sig ⟨S_, .f32⟩).ofBuf (Val := Elt Ideal) v = v := fun _ _ _ _ => rfl
  have c9 : ∀ p1 p2 p3 v, (StableHlo.TRef.of main_v40 p1 p2 p3 : StableHlo.TRef sig ⟨S4x8192, .f32⟩).ofBuf (Val := Elt Ideal) v = v := fun _ _ _ _ => rfl
  simp only [ofBuf_toBuf, c1, c2, c3, c4, c5, c6, c7, c8, c9]
  simp only [h36, h0, h2, h4, h5, h12, h13, h14, h15]
  rfl

set_option maxHeartbeats 4000000 in
/-- The node update writes no argument buffer, nor the new edge features. -/
theorem keepB (W : Valuation τ sig (Elt Ideal)) (r : Ref sig .tc) (hr : r ∈ (argRefs ++ [main_v36] : List (Ref sig .tc))) :
    after opsB W (Proc.devRef .tc r) = W (Proc.devRef .tc r) := by
  dsimp only [opsB, ops]
  simp only [List.drop_succ_cons, List.drop_zero, List.take_succ_cons, List.take_zero]
  simp only [argRefs, List.mem_cons, List.mem_append, List.not_mem_nil, or_false, or_assoc] at hr
  rcases hr with rfl | rfl | rfl | rfl | rfl | rfl | rfl | rfl | rfl | rfl | rfl | rfl | rfl | rfl | rfl | rfl | rfl | rfl | rfl | rfl | rfl | rfl | rfl
  all_goals after_results_simp

end Cert.ReferenceIdeal.RunH

end
-- ==== Proof.RefRunHC.lean ====
/-
  The global update read as a value: over any buffer contents whose new-edge-feature and new-vertex-feature buffers
  hold the reference's edge and node stages, the last part of the reference's operations leaves in the new global
  features' buffer the reference's global stage of the twenty-two argument arrays, and leaves the argument buffers and
  the two earlier results as they were.
-/
import proofs.«143816_j32993938768001_1_alg».proof.Proof.RefRunH0

set_option maxRecDepth 16384

noncomputable section

namespace Cert.ReferenceIdeal.RunH

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

set_option maxHeartbeats 4000000 in
/-- The new global features after the global update. -/
theorem global_after (W : Valuation τ sig (Elt Ideal)) (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x6 x7 : (⟨S4, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 x14 x15 : (⟨S256, .f32⟩ : BufTy).Contents (Elt Ideal)) (x16 : (⟨S768x256, .f32⟩ : BufTy).Contents (Elt Ideal)) (x17 x18 x19 x20 x21 : (⟨S256, .f32⟩ : BufTy).Contents (Elt Ideal))
    (h36 : W (Proc.devRef .tc main_v36) = val_main_v36 (F := Ideal) x0 x1 x2 x3 x8 x9 x10 x11)
    (h80 : W (Proc.devRef .tc main_v80) = val_main_v80 (F := Ideal) x0 x1 x2 x3 x4 x5 x8 x9 x10 x11 x12 x13 x14 x15)
    (h2 : W (Proc.devRef .tc main_arg2) = x2) (h6 : W (Proc.devRef .tc main_arg6) = x6) (h7 : W (Proc.devRef .tc main_arg7) = x7) (h16 : W (Proc.devRef .tc main_arg16) = x16) (h17 : W (Proc.devRef .tc main_arg17) = x17)
    (h18 : W (Proc.devRef .tc main_arg18) = x18) (h19 : W (Proc.devRef .tc main_arg19) = x19) (h20 : W (Proc.devRef .tc main_arg20) = x20) (h21 : W (Proc.devRef .tc main_arg21) = x21) :
    after opsC W (Proc.devRef .tc main_v118) = val_main_v118 (F := Ideal) x0 x1 x2 x3 x4 x5 x6 x7 x8 x9 x10 x11 x12 x13 x14 x15 x16 x17 x18 x19 x20 x21 := by
  dsimp only [opsC, ops]
  simp only [List.drop_succ_cons, List.drop_zero]
  after_results_simp
  dsimp only [Matrix.cons_val]
  simp only [cat3_eq]
  after_results_simp
  have c1 : ∀ p1 p2 p3 v, (StableHlo.TRef.of main_v102 p1 p2 p3 : StableHlo.TRef sig ⟨S4x256, .f32⟩).toBuf (Val := Elt Ideal) v = v := fun _ _ _ _ => rfl
  have c2 : ∀ p1 p2 p3 v, (StableHlo.TRef.of main_v101 p1 p2 p3 : StableHlo.TRef sig ⟨S4x256, .f32⟩).ofBuf (Val := Elt Ideal) v = v := fun _ _ _ _ => rfl
  have c3 : ∀ p1 p2 p3 v, (StableHlo.TRef.of main_v92 p1 p2 p3 : StableHlo.TRef sig ⟨S4, .f32⟩).toBuf (Val := Elt Ideal) v = v := fun _ _ _ _ => rfl
  have c4 : ∀ p1 p2 p3 v, (StableHlo.TRef.of main_v91 p1 p2 p3 : StableHlo.TRef sig ⟨S4, .i1⟩).ofBuf (Val := Elt Ideal) v = v := fun _ _ _ _ => rfl
  have c5 : ∀ p1 p2 p3 v, (StableHlo.TRef.of main_cst_16 p1 p2 p3 : StableHlo.TRef sig ⟨S_, .f32⟩).ofBuf (Val := Elt Ideal) v = v := fun _ _ _ _ => rfl
  have c6 : ∀ p1 p2 p3 v, (StableHlo.TRef.of main_v89 p1 p2 p3 : StableHlo.TRef sig ⟨S4, .f32⟩).ofBuf (Val := Elt Ideal) v = v := fun _ _ _ _ => rfl
  have c7 : ∀ p1 p2 p3 v, (StableHlo.TRef.of main_v84 p1 p2 p3 : StableHlo.TRef sig ⟨S4, .f32⟩).toBuf (Val := Elt Ideal) v = v := fun _ _ _ _ => rfl
  have c8 : ∀ p1 p2 p3 v, (StableHlo.TRef.of main_v83 p1 p2 p3 : StableHlo.TRef sig ⟨S4, .i1⟩).ofBuf (Val := Elt Ideal) v = v := fun _ _ _ _ => rfl
  have c9 : ∀ p1 p2 p3 v, (StableHlo.TRef.of main_cst_13 p1 p2 p3 : StableHlo.TRef sig ⟨S_, .f32⟩).ofBuf (Val := Elt Ideal) v = v := fun _ _ _ _ => rfl
  have c10 : ∀ p1 p2 p3 v, (StableHlo.TRef.of main_v81 p1 p2 p3 : StableHlo.TRef sig ⟨S4, .f32⟩).ofBuf (Val := Elt Ideal) v = v := fun _ _ _ _ => rfl
  simp only [ofBuf_toBuf, c1, c2, c3, c4, c5, c6, c7, c8, c9, c10]
  simp only [h36, h80, h2, h6, h7, h16, h17, h18, h19, h20, h21]
  rfl

set_option maxHeartbeats 4000000 in
/-- The global update writes no argument buffer, nor the new edge or vertex features. -/
theorem keepC (W : Valuation τ sig (Elt Ideal)) (r : Ref sig .tc) (hr : r ∈ (argRefs ++ [main_v36, main_v80] : List (Ref sig .tc))) :
    after opsC W (Proc.devRef .tc r) = W (Proc.devRef .tc r) := by
  dsimp only [opsC, ops]
  simp only [List.drop_succ_cons, List.drop_zero]
  simp only [argRefs, List.mem_cons, List.mem_append, List.not_mem_nil, or_false, or_assoc] at hr
  rcases hr with rfl | rfl | rfl | rfl | rfl | rfl | rfl | rfl | rfl | rfl | rfl | rfl | rfl | rfl | rfl | rfl | rfl | rfl | rfl | rfl | rfl | rfl | rfl | rfl
  all_goals after_results_simp

end Cert.ReferenceIdeal.RunH

end
-- ==== Proof.RefRunH.lean ====
/-
  The reference's run with its three results read as the stage functions of the arguments.

  The library's run of a straight line of operations leaves every buffer at the fold of the operations over the launch
  contents. The fold is taken apart into the edge, node and global updates: the new edge features are the edge stage of
  the arguments; the node update starts from buffers whose new edge features are that stage and whose arguments are
  unchanged, so the new vertex features are the node stage; likewise the new global features are the global stage;
  and no part writes an argument.
-/
import proofs.«143816_j32993938768001_1_alg».proof.Proof.RefRunHA
import proofs.«143816_j32993938768001_1_alg».proof.Proof.RefRunHB
import proofs.«143816_j32993938768001_1_alg».proof.Proof.RefRunHC

set_option maxRecDepth 16384

noncomputable section

namespace Cert.ReferenceIdeal.RunH

open Cert.ReferenceIdeal Cert.ReferenceIdeal.Gen Cert.ReferenceIdeal.OpsP Cert.ReferenceIdeal.ReadP
open Idealize.ShloMosaic Idealize.ShloMosaic.TcCoe Idealize.SL.Sem Idealize.ShloMosaic.StableHlo

variable (W : Valuation τ sig (Elt Ideal))

/-- The new edge features after all the operations: the edge stage of the contents' argument arrays. -/
theorem v36_ops : after (ops (F := Ideal)) W (Proc.devRef .tc main_v36)
    = val_main_v36 (F := Ideal) (W (Proc.devRef .tc main_arg0)) (W (Proc.devRef .tc main_arg1)) (W (Proc.devRef .tc main_arg2)) (W (Proc.devRef .tc main_arg3)) (W (Proc.devRef .tc main_arg8)) (W (Proc.devRef .tc main_arg9)) (W (Proc.devRef .tc main_arg10)) (W (Proc.devRef .tc main_arg11)) :=
  (congrFun (after_ops W) (Proc.devRef .tc main_v36)).trans <| (keepC _ main_v36 (by decide)).trans <|
    (keepB _ main_v36 (by decide)).trans <| edges_after W _ _ _ _ _ _ _ _ rfl rfl rfl rfl rfl rfl rfl rfl

/-- The new edge features when the node update starts. -/
theorem v36_A : after opsA W (Proc.devRef .tc main_v36)
    = val_main_v36 (F := Ideal) (W (Proc.devRef .tc main_arg0)) (W (Proc.devRef .tc main_arg1)) (W (Proc.devRef .tc main_arg2)) (W (Proc.devRef .tc main_arg3)) (W (Proc.devRef .tc main_arg8)) (W (Proc.devRef .tc main_arg9)) (W (Proc.devRef .tc main_arg10)) (W (Proc.devRef .tc main_arg11)) :=
  edges_after W _ _ _ _ _ _ _ _ rfl rfl rfl rfl rfl rfl rfl rfl

/-- The new vertex features when the global update starts. -/
theorem v80_B : after opsB (after opsA W) (Proc.devRef .tc main_v80)
    = val_main_v80 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  nodes_after (after opsA W) _ _ _ _ _ _ _ _ _ _ _ _ _ _ (v36_A W)
    (keepA W main_arg0 (by decide)) (keepA W main_arg2 (by decide)) (keepA W main_arg4 (by decide)) (keepA W main_arg5 (by decide)) (keepA W main_arg12 (by decide)) (keepA W main_arg13 (by decide)) (keepA W main_arg14 (by decide)) (keepA W main_arg15 (by decide))

/-- The new vertex features after all the operations: the node stage of the contents' argument arrays. -/
theorem v80_ops : after (ops (F := Ideal)) W (Proc.devRef .tc main_v80)
    = val_main_v80 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) :=
  (congrFun (after_ops W) (Proc.devRef .tc main_v80)).trans <| (keepC _ main_v80 (by decide)).trans <| v80_B W

/-- The new global features after all the operations: the global stage of the contents' argument arrays. -/
theorem v118_ops : after (ops (F := Ideal)) W (Proc.devRef .tc main_v118)
    = val_main_v118 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) :=
  (congrFun (after_ops W) (Proc.devRef .tc main_v118)).trans <|
    global_after (after opsB (after opsA W)) _ _ _ _ _ _ _ _ _ _ _ _ _ _ _ _ _ _ _ _ _ _
      ((keepB _ main_v36 (by decide)).trans (v36_A W)) (v80_B W)
      ((keepB _ main_arg2 (by decide)).trans (keepA W main_arg2 (by decide))) ((keepB _ main_arg6 (by decide)).trans (keepA W main_arg6 (by decide))) ((keepB _ main_arg7 (by decide)).trans (keepA W main_arg7 (by decide))) ((keepB _ main_arg16 (by decide)).trans (keepA W main_arg16 (by decide))) ((keepB _ main_arg17 (by decide)).trans (keepA W main_arg17 (by decide))) ((keepB _ main_arg18 (by decide)).trans (keepA W main_arg18 (by decide))) ((keepB _ main_arg19 (by decide)).trans (keepA W main_arg19 (by decide))) ((keepB _ main_arg20 (by decide)).trans (keepA W main_arg20 (by decide))) ((keepB _ main_arg21 (by decide)).trans (keepA W main_arg21 (by decide)))

/-- No operation writes an argument buffer. -/
theorem arg_ops (r : Ref sig .tc) (hr : r ∈ argRefs) : after (ops (F := Ideal)) W (Proc.devRef .tc r) = W (Proc.devRef .tc r) :=
  (congrFun (after_ops W) (Proc.devRef .tc r)).trans <| (keepC _ r (List.mem_append_left _ hr)).trans <|
    (keepB _ r (List.mem_append_left _ hr)).trans <| keepA W r hr

/-- On every device, from any memory with zero counters: every weakly fair execution of the reference terminates with
    its three results at the stage functions of the launch's argument arrays, and the arguments unchanged. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v80) = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v118) = val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v36).trans (v36_ops _), (h c main_v80).trans (v80_ops _), (h c main_v118).trans (v118_ops _),
      (h c main_arg0).trans (arg_ops _ main_arg0 (by decide)),
      (h c main_arg1).trans (arg_ops _ main_arg1 (by decide)),
      (h c main_arg2).trans (arg_ops _ main_arg2 (by decide)),
      (h c main_arg3).trans (arg_ops _ main_arg3 (by decide)),
      (h c main_arg4).trans (arg_ops _ main_arg4 (by decide)),
      (h c main_arg5).trans (arg_ops _ main_arg5 (by decide)),
      (h c main_arg6).trans (arg_ops _ main_arg6 (by decide)),
      (h c main_arg7).trans (arg_ops _ main_arg7 (by decide)),
      (h c main_arg8).trans (arg_ops _ main_arg8 (by decide)),
      (h c main_arg9).trans (arg_ops _ main_arg9 (by decide)),
      (h c main_arg10).trans (arg_ops _ main_arg10 (by decide)),
      (h c main_arg11).trans (arg_ops _ main_arg11 (by decide)),
      (h c main_arg12).trans (arg_ops _ main_arg12 (by decide)),
      (h c main_arg13).trans (arg_ops _ main_arg13 (by decide)),
      (h c main_arg14).trans (arg_ops _ main_arg14 (by decide)),
      (h c main_arg15).trans (arg_ops _ main_arg15 (by decide)),
      (h c main_arg16).trans (arg_ops _ main_arg16 (by decide)),
      (h c main_arg17).trans (arg_ops _ main_arg17 (by decide)),
      (h c main_arg18).trans (arg_ops _ main_arg18 (by decide)),
      (h c main_arg19).trans (arg_ops _ main_arg19 (by decide)),
      (h c main_arg20).trans (arg_ops _ main_arg20 (by decide)),
      (h c main_arg21).trans (arg_ops _ main_arg21 (by decide))⟩)
    (run_seq scopedRefs_eq scopedSems_eq defs main (fun _ => ops) main_eq (fun _ => ops_sub) m ρ)

end Cert.ReferenceIdeal.RunH

end
-- ==== Proof.Spec.lean ====
/-
  The mathematics both programs compute, stated once, row by row, over the extended reals.

  One row of a dense layer with a residual and a layer normalisation: for an input row `x` of `K` features, a
  weight matrix `W`, a bias, a residual row `res` and the normalisation's gain and offset,
    h d   = max (Σ_k x k · W k d + bias d) 0 + res d
    mean  = (Σ_d h d) / 256
    var   = (Σ_d (h d − mean)²) / 256
    out d = (h d − mean) · rsqrt (var + ε) · gain d + offset d.
  The input row is a concatenation of 256-wide pieces (`cat4`, `cat3`): feature `k` is entry `k % 256` of piece
  `k / 256`. The float words (256, ε = f32 1e-3, 0) are kept as words: the same word stands on both sides.
-/
import Idealize.ShloMosaic.PureOps.Ideal
import Idealize.ShloMosaic.Lib.ValueIdx

noncomputable section

namespace Cert.Spec

open Idealize.ShloMosaic

/-- The word of `256.0`. -/
abbrev c256 : EReal := Ideal.ofBits .f32 0x43800000#32
/-- The word of the normalisations' `ε` (f32 `1e-3`). -/
abbrev eps : EReal := Ideal.ofBits .f32 0x3A83126F#32
/-- The word of `0.0`. -/
abbrev zero : EReal := Ideal.ofBits .f32 0x00000000#32

/-- Four 256-wide pieces side by side: feature `k` is entry `k % 256` of piece `k / 256`. -/
def cat4 (p : Fin 4 → Fin 256 → EReal) (k : Fin 1024) : EReal :=
  p ⟨k.val / 256, by omega⟩ ⟨k.val % 256, Nat.mod_lt _ (by norm_num)⟩

/-- Three 256-wide pieces side by side. -/
def cat3 (p : Fin 3 → Fin 256 → EReal) (k : Fin 768) : EReal :=
  p ⟨k.val / 256, by omega⟩ ⟨k.val % 256, Nat.mod_lt _ (by norm_num)⟩

/-- A dense layer's row with bias, relu and residual. -/
def dense {K : ℕ} (x : Fin K → EReal) (W : Fin K → Fin 256 → EReal) (bias res : Fin 256 → EReal) (d : Fin 256) : EReal :=
  max ((∑ k, x k * W k d) + bias d) zero + res d

/-- The mean of a 256-wide row. -/
def mean (h : Fin 256 → EReal) : EReal := Ideal.div (∑ d, h d) c256

/-- Layer normalisation of a 256-wide row. -/
def layerNorm (h gain offset : Fin 256 → EReal) (d : Fin 256) : EReal :=
  (h d - mean h) * Ideal.rsqrt (mean (fun e => (h e - mean h) * (h e - mean h)) + eps) * gain d + offset d

/-- Dense layer, residual, layer normalisation: one row of either network's update. -/
def mlpLn {K : ℕ} (x : Fin K → EReal) (W : Fin K → Fin 256 → EReal) (bias res gain offset : Fin 256 → EReal) (d : Fin 256) : EReal :=
  layerNorm (dense x W bias res) gain offset d

end Cert.Spec

end
-- ==== Proof.RefGlobal.lean ====
/-
  The reference's global update: the column sums of the new edge and vertex features, and everything after them as one function.

  The sum of the new edge features over the edges of a batch, read at `(b, d)`, is `Σ e, edges_new (b, e, d)` (the sum's
  initial value is the zero word, which is 0); the same for the vertices. Everything the reference does after the two
  sums — the divisions by the valid counts, the three-piece row, the dense layer, the residual and the inference-mode
  batch normalisation — is stated once as a function `globalTail` of the two sum arrays and the arguments, and is not
  read at an index.
-/
import proofs.«143816_j32993938768001_1_alg».proof.Proof.RefReadP
import proofs.«143816_j32993938768001_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- The column sums of the new edge features, at `(b, d)`. -/
theorem edge_sum_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x8 : (⟨S1024x256, .f32⟩ : BufTy).Contents (Elt Ideal)) (x9 : (⟨S256, .f32⟩ : BufTy).Contents (Elt Ideal)) (x10 x11 : (⟨S256, .f32⟩ : BufTy).Contents (Elt Ideal)) (b : Fin 4) (d : Fin 256) :
    val_main_v85 (F := Ideal) x0 x1 x2 x3 x8 x9 x10 x11 (ix2 b d) = ∑ e : Fin 32768, val_main_v36 (F := Ideal) x0 x1 x2 x3 x8 x9 x10 x11 (ix3 b e d) := by
  have hi : ∀ k : Fin 32768, idx_main_v85 (ix2 b d) k = ix3 b k d := fun k =>
    funext fun a => Fin.ext (by match a with | ⟨0, _⟩ => rfl | ⟨1, _⟩ => rfl | ⟨2, _⟩ => rfl)
  rw [val_main_v85_apply, val_main_cst_14_apply]
  simp only [hi, Ideal.ofBits_def, Ideal.ofBits_zero_f32, zero_add]

/-- The column sums of the new vertex features, at `(b, d)`. -/
theorem node_sum_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 : (⟨S256, .f32⟩ : BufTy).Contents (Elt Ideal)) (x14 x15 : (⟨S256, .f32⟩ : BufTy).Contents (Elt Ideal)) (b : Fin 4) (d : Fin 256) :
    val_main_v93 (F := Ideal) x0 x1 x2 x3 x4 x5 x8 x9 x10 x11 x12 x13 x14 x15 (ix2 b d) = ∑ n : Fin 8192, val_main_v80 (F := Ideal) x0 x1 x2 x3 x4 x5 x8 x9 x10 x11 x12 x13 x14 x15 (ix3 b n d) := by
  have hi : ∀ k : Fin 8192, idx_main_v93 (ix2 b d) k = ix3 b k d := fun k =>
    funext fun a => Fin.ext (by match a with | ⟨0, _⟩ => rfl | ⟨1, _⟩ => rfl | ⟨2, _⟩ => rfl)
  rw [val_main_v93_apply, val_main_cst_17_apply]
  simp only [hi, Ideal.ofBits_def, Ideal.ofBits_zero_f32, zero_add]

/-- The global update after the two column sums: divide each by its valid count, join the global features with the two
    means, dense layer with bias and maximum with the zero word, residual, and the batch normalisation with the moving
    statistics. The count, bias, statistics, gain and offset stages are the reference's own, applied to their arguments. -/
def globalTail (sumE sumV x2 : (⟨S4x256, .f32⟩ : BufTy).Contents (Elt Ideal)) (x6 x7 : (⟨S4, .i32⟩ : BufTy).Contents (Elt Ideal)) (x16 : (⟨S768x256, .f32⟩ : BufTy).Contents (Elt Ideal)) (x17 x18 x19 x20 x21 : (⟨S256, .f32⟩ : BufTy).Contents (Elt Ideal)) : (⟨S4x256, .f32⟩ : BufTy).Contents (Elt Ideal) :=
  addf (F := Ideal) (φ := .f32)
    (mulf (F := Ideal) (φ := .f32)
      (mulf (F := Ideal) (φ := .f32)
        (subf (F := Ideal) (φ := .f32)
          (addf (F := Ideal) (φ := .f32)
            (maximumf (F := Ideal) (φ := .f32)
              (addf (F := Ideal) (φ := .f32)
                (Host.dotGeneral (F := Ideal) (φ₁ := .f32) (φ₂ := .f32) dot_S4x768_S768x256_S4x256_1_0_0_1_n_n none
                  (concatenate S4x768 1 [⟨S4x256, x2⟩,
                    ⟨S4x256, Host.divf (F := Ideal) (φ := .f32) sumV (val_main_v95 (F := Ideal) x6)⟩,
                    ⟨S4x256, Host.divf (F := Ideal) (φ := .f32) sumE (val_main_v87 (F := Ideal) x7)⟩]
                    concatenates_S4x256_S4x256_S4x256_S4x768_d1)
                  x16)
                (val_main_v100 (F := Ideal) x17))
              (val_main_call8_v0 (F := Ideal)))
            x2)
          (val_main_v105 (F := Ideal) x20))
        (val_main_v111 (F := Ideal) x21))
      (val_main_v114 (F := Ideal) x18))
    (val_main_v117 (F := Ideal) x19)

/-- The reference's new global features are `globalTail` of its two column sums. -/
theorem global_new_eq (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x6 x7 : (⟨S4, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 x14 x15 : (⟨S256, .f32⟩ : BufTy).Contents (Elt Ideal)) (x16 : (⟨S768x256, .f32⟩ : BufTy).Contents (Elt Ideal)) (x17 x18 x19 x20 x21 : (⟨S256, .f32⟩ : BufTy).Contents (Elt Ideal)) :
    val_main_v118 (F := Ideal) x0 x1 x2 x3 x4 x5 x6 x7 x8 x9 x10 x11 x12 x13 x14 x15 x16 x17 x18 x19 x20 x21
      = globalTail (val_main_v85 (F := Ideal) x0 x1 x2 x3 x8 x9 x10 x11) (val_main_v93 (F := Ideal) x0 x1 x2 x3 x4 x5 x8 x9 x10 x11 x12 x13 x14 x15) x2 x6 x7 x16 x17 x18 x19 x20 x21 := by
  unfold val_main_v118 val_main_v115 val_main_v112 val_main_v106 val_main_v103 val_main_v102 val_main_v101 val_main_v98
    val_main_v97 val_main_v96 val_main_v88 globalTail
  rfl

end Cert.ReferenceIdeal.RefValue

end
-- ==== Proof.HostTailRead.lean ====
/-
  The kernel program's last host operations compute the reference's global update of the two column sums.

  After its second region the kernel program reshapes the two column-sum arrays (`[4, 1, 256]` to `[4, 256]`), divides each
  by its valid count, joins the global features with the two means, and applies the dense layer, the maximum with the
  zero word, the residual and the batch normalisation with the moving statistics: the same operations, in the same
  order, as the reference's global update after its two sums. Here the operations are run from an arbitrary starting
  valuation `W` of the buffers, so that nothing before them is opened; the result buffer then holds the reference's
  `globalTail` of the two reshaped arrays and the arguments' contents in `W`.

  The three-operand concatenation's operands are read one at a time: the valuation the concatenation reads is named, each
  operand's contents in it is computed as a goal of its own, and the three equations are rewritten into the joined row.
-/
import proofs.«143816_j32993938768001_1_alg».proof.Proof.Gen.KernelIdeal.Regions
import proofs.«143816_j32993938768001_1_alg».proof.Proof.RefGlobal

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

/-- The entries of a literal family of three. -/
theorem vec3_zero {α : Type _} (x a b : α) : (![x, a, b] : Fin 3 → α) 0 = x := rfl
theorem vec3_one {α : Type _} (x a b : α) : (![x, a, b] : Fin 3 → α) 1 = a := rfl
theorem vec3_two {α : Type _} (x a b : α) : (![x, a, b] : Fin 3 → α) 2 = b := rfl

/-- From any valuation `W`, the last seven host stretches leave in `main_v57` the reference's global update of the two
    reshaped column-sum arrays of `W` and of `W`'s contents at the arguments. -/
theorem tail_read (W : Valuation τ sig (Elt Ideal)) :
    (StableHlo.after (hostOps2_6 (F := Ideal)) (StableHlo.after (hostOps2_5 (F := Ideal)) (StableHlo.after (hostOps2_4 (F := Ideal)) (StableHlo.after (hostOps2_3 (F := Ideal)) (StableHlo.after (hostOps2_2 (F := Ideal)) (StableHlo.after (hostOps2_1 (F := Ideal)) (StableHlo.after (hostOps2 (F := Ideal)) W))))))) (Proc.devRef .tc main_v57)
      = Cert.ReferenceIdeal.RefValue.globalTail (shapeCast S4x256 (W (Proc.devRef .tc main_v6_1)) shapeCasts_S4x1x256_S4x256) (shapeCast S4x256 (W (Proc.devRef .tc main_v19_1)) shapeCasts_S4x1x256_S4x256) (W (Proc.devRef .tc main_arg2)) (W (Proc.devRef .tc main_arg6)) (W (Proc.devRef .tc main_arg7)) (W (Proc.devRef .tc main_arg16)) (W (Proc.devRef .tc main_arg17)) (W (Proc.devRef .tc main_arg18)) (W (Proc.devRef .tc main_arg19)) (W (Proc.devRef .tc main_arg20)) (W (Proc.devRef .tc main_arg21)) := by
  dsimp only [hostOps2, hostOps2_1, hostOps2_2, hostOps2_3, hostOps2_4, hostOps2_5, hostOps2_6]
  simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne']
  generalize hF : ((binary main_v32 main_v34 main_v35 (Host.divf (F := Ideal) (s := S4x256) (φ := .f32)) _ _ _).result _ : Valuation τ sig (Elt Ideal)) = F
  have h2 : F (Proc.devRef .tc main_arg2) = W (Proc.devRef .tc main_arg2) := by
    subst hF
    simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne']
  have h35 : F (Proc.devRef .tc main_v35)
      = Host.divf (F := Ideal) (φ := .f32) (shapeCast S4x256 (W (Proc.devRef .tc main_v19_1)) shapeCasts_S4x1x256_S4x256) (Cert.ReferenceIdeal.ReadP.val_main_v95 (F := Ideal) (W (Proc.devRef .tc main_arg6))) := by
    subst hF
    simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne']
    rfl
  have h27 : F (Proc.devRef .tc main_v27)
      = Host.divf (F := Ideal) (φ := .f32) (shapeCast S4x256 (W (Proc.devRef .tc main_v6_1)) shapeCasts_S4x1x256_S4x256) (Cert.ReferenceIdeal.ReadP.val_main_v87 (F := Ideal) (W (Proc.devRef .tc main_arg7))) := by
    subst hF
    simp (disch := decide) only [after_cons, after_nil,
      nullary_result', unary_result', binary_result', ternary_result', quaternary_result', reshape_result', nary_result',
      nullary_result_ne', unary_result_ne', binary_result_ne', ternary_result_ne', quaternary_result_ne', reshape_result_ne',
      nary_result_ne']
    rfl
  dsimp only [vec3_zero, vec3_one, vec3_two]
  rw [h2, h35, h27]
  unfold Cert.ReferenceIdeal.RefValue.globalTail
  rfl

end Cert.KernelIdeal.HostValue

end
-- ==== Proof.HostTail.lean ====
/-
  The kernel program's results after its two regions.

  What the two regions leave — the new edge features and their column sums, the new vertex features and theirs — is kept
  as unknowns. No later host operation writes the two feature arrays, so they reach the end as the regions left them; and
  the new global features are the reference's global update of the two column-sum arrays, reshaped from `[4, 1, 256]` to
  `[4, 256]`, and of the arguments. A `[4, 1, 256]` array reshaped to `[4, 256]` reads, at `(b, d)`, the array at `(b, 0, d)`.
-/
import proofs.«143816_j32993938768001_1_alg».proof.Proof.HostTailRead
import Idealize.ShloMosaic.Lib.ValueLayout

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

variable (m : (ℓ : Loc nD τ sig) → Buf (Elt Ideal) ℓ) (outs : Outs (F := Ideal)) (c : Dev nD)

/-! ## The regions' outputs reach the end -/

/-- What the first region leaves in its first output is there when the first region ends. -/
theorem V6_at_v6_0 : V6 m outs c (Proc.devRef .tc main_v6_0) = outs 6 main_v6_0 c :=
  (Function.update_of_ne (StableHlo.devRef_ne_of_ne (by decide) : (Proc.devRef .tc main_v6_0 : DevRef τ sig) ≠ Proc.devRef .tc main_v6_1) _ _).trans
    (Function.update_self ..)
/-- What the first region leaves in its second output is there when the first region ends. -/
theorem V6_at_v6_1 : V6 m outs c (Proc.devRef .tc main_v6_1) = outs 6 main_v6_1 c :=
  Function.update_self ..
/-- What the second region leaves in its first output is there when the second region ends. -/
theorem V12_main_v19_0 : V12 m outs c (Proc.devRef .tc main_v19_0) = outs 12 main_v19_0 c :=
  (Function.update_of_ne (StableHlo.devRef_ne_of_ne (by decide) : (Proc.devRef .tc main_v19_0 : DevRef τ sig) ≠ Proc.devRef .tc main_v19_1) _ _).trans
    (Function.update_self ..)
/-- What the second region leaves in its second output is there when the second region ends. -/
theorem V12_main_v19_1 : V12 m outs c (Proc.devRef .tc main_v19_1) = outs 12 main_v19_1 c :=
  Function.update_self ..

/-- The first region's second output is untouched up to the end of the second region. -/
theorem V12_main_v6_1 : V12 m outs c (Proc.devRef .tc main_v6_1) = outs 6 main_v6_1 c :=
  (V12_of m outs c main_v6_1 (by decide)).trans <| (V11_of m outs c main_v6_1 (by decide)).trans <| (V10_of m outs c main_v6_1 (by decide)).trans <| (V9_of m outs c main_v6_1 (by decide)).trans <| (V8_of m outs c main_v6_1 (by decide)).trans <| (V7_of m outs c main_v6_1 (by decide)).trans <| V6_at_v6_1 m outs c
/-- The first region's first output is untouched up to the end of the second region. -/
theorem V12_main_v6_0 : V12 m outs c (Proc.devRef .tc main_v6_0) = outs 6 main_v6_0 c :=
  (V12_of m outs c main_v6_0 (by decide)).trans <| (V11_of m outs c main_v6_0 (by decide)).trans <| (V10_of m outs c main_v6_0 (by decide)).trans <| (V9_of m outs c main_v6_0 (by decide)).trans <| (V8_of m outs c main_v6_0 (by decide)).trans <| (V7_of m outs c main_v6_0 (by decide)).trans <| V6_at_v6_0 m outs c

/-- The new edge features reach the end as the first region left them. -/
theorem V19_main_v6_0 : V19 m outs c (Proc.devRef .tc main_v6_0) = outs 6 main_v6_0 c :=
  (V19_of m outs c main_v6_0 (by decide)).trans <| (V18_of m outs c main_v6_0 (by decide)).trans <| (V17_of m outs c main_v6_0 (by decide)).trans <| (V16_of m outs c main_v6_0 (by decide)).trans <| (V15_of m outs c main_v6_0 (by decide)).trans <| (V14_of m outs c main_v6_0 (by decide)).trans <| (V13_of m outs c main_v6_0 (by decide)).trans <| V12_main_v6_0 m outs c
/-- The new vertex features reach the end as the second region left them. -/
theorem V19_main_v19_0 : V19 m outs c (Proc.devRef .tc main_v19_0) = outs 12 main_v19_0 c :=
  (V19_of m outs c main_v19_0 (by decide)).trans <| (V18_of m outs c main_v19_0 (by decide)).trans <| (V17_of m outs c main_v19_0 (by decide)).trans <| (V16_of m outs c main_v19_0 (by decide)).trans <| (V15_of m outs c main_v19_0 (by decide)).trans <| (V14_of m outs c main_v19_0 (by decide)).trans <| (V13_of m outs c main_v19_0 (by decide)).trans <| V12_main_v19_0 m outs c

/-! ## The arguments when the last host stretches begin -/

/-- Argument 2 is as launched when the last host stretches begin. -/
theorem V12_main_arg2 : V12 m outs c (Proc.devRef .tc main_arg2) = m ((c : Thread nD τ).loc main_arg2) :=
  (V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
/-- Argument 6 is as launched when the last host stretches begin. -/
theorem V12_main_arg6 : V12 m outs c (Proc.devRef .tc main_arg6) = m ((c : Thread nD τ).loc main_arg6) :=
  (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
/-- Argument 7 is as launched when the last host stretches begin. -/
theorem V12_main_arg7 : V12 m outs c (Proc.devRef .tc main_arg7) = m ((c : Thread nD τ).loc main_arg7) :=
  (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl
/-- Argument 16 is as launched when the last host stretches begin. -/
theorem V12_main_arg16 : V12 m outs c (Proc.devRef .tc main_arg16) = m ((c : Thread nD τ).loc main_arg16) :=
  (V12_of m outs c main_arg16 (by decide)).trans <| (V11_of m outs c main_arg16 (by decide)).trans <| (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m c main_arg16 (by decide)).trans <| (V4_of m c main_arg16 (by decide)).trans <| (V3_of m c main_arg16 (by decide)).trans <| (V2_of m c main_arg16 (by decide)).trans <| (V1_of m c main_arg16 (by decide)).trans <| rfl
/-- Argument 17 is as launched when the last host stretches begin. -/
theorem V12_main_arg17 : V12 m outs c (Proc.devRef .tc main_arg17) = m ((c : Thread nD τ).loc main_arg17) :=
  (V12_of m outs c main_arg17 (by decide)).trans <| (V11_of m outs c main_arg17 (by decide)).trans <| (V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m c main_arg17 (by decide)).trans <| (V4_of m c main_arg17 (by decide)).trans <| (V3_of m c main_arg17 (by decide)).trans <| (V2_of m c main_arg17 (by decide)).trans <| (V1_of m c main_arg17 (by decide)).trans <| rfl
/-- Argument 18 is as launched when the last host stretches begin. -/
theorem V12_main_arg18 : V12 m outs c (Proc.devRef .tc main_arg18) = m ((c : Thread nD τ).loc main_arg18) :=
  (V12_of m outs c main_arg18 (by decide)).trans <| (V11_of m outs c main_arg18 (by decide)).trans <| (V10_of m outs c main_arg18 (by decide)).trans <| (V9_of m outs c main_arg18 (by decide)).trans <| (V8_of m outs c main_arg18 (by decide)).trans <| (V7_of m outs c main_arg18 (by decide)).trans <| (V6_of m outs c main_arg18 (by decide)).trans <| (V5_of m c main_arg18 (by decide)).trans <| (V4_of m c main_arg18 (by decide)).trans <| (V3_of m c main_arg18 (by decide)).trans <| (V2_of m c main_arg18 (by decide)).trans <| (V1_of m c main_arg18 (by decide)).trans <| rfl
/-- Argument 19 is as launched when the last host stretches begin. -/
theorem V12_main_arg19 : V12 m outs c (Proc.devRef .tc main_arg19) = m ((c : Thread nD τ).loc main_arg19) :=
  (V12_of m outs c main_arg19 (by decide)).trans <| (V11_of m outs c main_arg19 (by decide)).trans <| (V10_of m outs c main_arg19 (by decide)).trans <| (V9_of m outs c main_arg19 (by decide)).trans <| (V8_of m outs c main_arg19 (by decide)).trans <| (V7_of m outs c main_arg19 (by decide)).trans <| (V6_of m outs c main_arg19 (by decide)).trans <| (V5_of m c main_arg19 (by decide)).trans <| (V4_of m c main_arg19 (by decide)).trans <| (V3_of m c main_arg19 (by decide)).trans <| (V2_of m c main_arg19 (by decide)).trans <| (V1_of m c main_arg19 (by decide)).trans <| rfl
/-- Argument 20 is as launched when the last host stretches begin. -/
theorem V12_main_arg20 : V12 m outs c (Proc.devRef .tc main_arg20) = m ((c : Thread nD τ).loc main_arg20) :=
  (V12_of m outs c main_arg20 (by decide)).trans <| (V11_of m outs c main_arg20 (by decide)).trans <| (V10_of m outs c main_arg20 (by decide)).trans <| (V9_of m outs c main_arg20 (by decide)).trans <| (V8_of m outs c main_arg20 (by decide)).trans <| (V7_of m outs c main_arg20 (by decide)).trans <| (V6_of m outs c main_arg20 (by decide)).trans <| (V5_of m c main_arg20 (by decide)).trans <| (V4_of m c main_arg20 (by decide)).trans <| (V3_of m c main_arg20 (by decide)).trans <| (V2_of m c main_arg20 (by decide)).trans <| (V1_of m c main_arg20 (by decide)).trans <| rfl
/-- Argument 21 is as launched when the last host stretches begin. -/
theorem V12_main_arg21 : V12 m outs c (Proc.devRef .tc main_arg21) = m ((c : Thread nD τ).loc main_arg21) :=
  (V12_of m outs c main_arg21 (by decide)).trans <| (V11_of m outs c main_arg21 (by decide)).trans <| (V10_of m outs c main_arg21 (by decide)).trans <| (V9_of m outs c main_arg21 (by decide)).trans <| (V8_of m outs c main_arg21 (by decide)).trans <| (V7_of m outs c main_arg21 (by decide)).trans <| (V6_of m outs c main_arg21 (by decide)).trans <| (V5_of m c main_arg21 (by decide)).trans <| (V4_of m c main_arg21 (by decide)).trans <| (V3_of m c main_arg21 (by decide)).trans <| (V2_of m c main_arg21 (by decide)).trans <| (V1_of m c main_arg21 (by decide)).trans <| rfl

/-! ## The new global features -/

/-- The new global features at the end: the reference's global update of the two reshaped column-sum arrays. -/
theorem V19_main_v57 :
    V19 m outs c (Proc.devRef .tc main_v57)
      = Cert.ReferenceIdeal.RefValue.globalTail (shapeCast S4x256 (outs 6 main_v6_1 c : (⟨S4x1x256, .f32⟩ : BufTy).Contents (Elt Ideal)) shapeCasts_S4x1x256_S4x256) (shapeCast S4x256 (outs 12 main_v19_1 c : (⟨S4x1x256, .f32⟩ : BufTy).Contents (Elt Ideal)) shapeCasts_S4x1x256_S4x256)
          (m ((c : Thread nD τ).loc main_arg2)) (m ((c : Thread nD τ).loc main_arg6)) (m ((c : Thread nD τ).loc main_arg7)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  have h := tail_read (V12 m outs c)
  rw [V12_main_v6_1, V12_main_v19_1, V12_main_arg2, V12_main_arg6, V12_main_arg7, V12_main_arg16, V12_main_arg17, V12_main_arg18, V12_main_arg19, V12_main_arg20, V12_main_arg21] at h
  exact h

/-- The reshaped edge column sums at `(b, d)`: what the first region left at `(b, 0, d)`. -/
theorem edge_sums_read (b : Fin 4) (d : Fin 256) :
    (shapeCast S4x256 (outs 6 main_v6_1 c : (⟨S4x1x256, .f32⟩ : BufTy).Contents (Elt Ideal)) shapeCasts_S4x1x256_S4x256) (ix2 b d) = (outs 6 main_v6_1 c : (⟨S4x1x256, .f32⟩ : BufTy).Contents (Elt Ideal)) (ix3 b (0 : Fin 1) d) :=
  shapeCast_a1b_ab_apply _ _ b d

/-- The reshaped vertex column sums at `(b, d)`: what the second region left at `(b, 0, d)`. -/
theorem node_sums_read (b : Fin 4) (d : Fin 256) :
    (shapeCast S4x256 (outs 12 main_v19_1 c : (⟨S4x1x256, .f32⟩ : BufTy).Contents (Elt Ideal)) shapeCasts_S4x1x256_S4x256) (ix2 b d) = (outs 12 main_v19_1 c : (⟨S4x1x256, .f32⟩ : BufTy).Contents (Elt Ideal)) (ix3 b (0 : Fin 1) d) :=
  shapeCast_a1b_ab_apply _ _ b d

end Cert.KernelIdeal.HostValue

end
-- ==== Proof.EdgePieces.lean ====
/-
  What the edge region's body leaves in its two output buffers, per control case, as values: the stored tile is the
  normalised-rows payload of the loaded blocks (the residual is the first block again), and the running sum is the
  accumulator payload over what the buffer held — the zero payload at a batch's first tile, where the body has just
  cleared it, the carried value otherwise.
-/
import proofs.«143816_j32993938768001_1_alg».proof.Proof.EdgeRunKI
import Idealize.ShloMosaic.Lib.Pipeline.Value
import Idealize.ShloMosaic.Lib.Tactic

set_option maxRecDepth 16384

noncomputable section

namespace Cert.KernelIdeal.EdgeValue

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A first tile: the one store into the edge output's buffer leaves the normalised rows of the loaded blocks. -/
theorem piecesA_8 (c : Dev nD) (i : grid0.Coords)
    (a2 : Memref sig .tc .vmem S1x1024x256 .f32) (h2 : a2.IsWhole) (a3 : Memref sig .tc .vmem S1x1024x256 .f32) (h3 : a3.IsWhole)
    (a4 : Memref sig .tc .vmem S1x1024x256 .f32) (h4 : a4.IsWhole) (a5 : Memref sig .tc .vmem S1x1x256 .f32) (h5 : a5.IsWhole)
    (a6 : Memref sig .tc .vmem S1024x256 .bf16) (h6 : a6.IsWhole) (a7 : Memref sig .tc .vmem S256 .f32) (h7 : a7.IsWhole)
    (a8 : Memref sig .tc .vmem S256 .f32) (h8 : a8.IsWhole) (a9 : Memref sig .tc .vmem S256 .f32) (h9 : a9.IsWhole)
    (a10 : Memref sig .tc .vmem S1x1024x256 .f32) (h10 : a10.IsWhole) (a11 : Memref sig .tc .vmem S1x1x256 .f32) (h11 : a11.IsWhole)
    (hc : cond0 i) (x0 x1 x2 : Vec F S1x1024x256 .f32) (x3 : Vec F S1x1x256 .f32) (x4 : Vec F S1024x256 .bf16) (x5 x6 x7 : Vec F S256 .f32) :
    View.canon (kernelRun0_A (F := F) c i a2 h2 a3 h3 a4 h4 a5 h5 a6 h6 a7 h7 a8 h8 a9 h9 a10 h10 a11 h11 hc x0 x1 x2 x3 x4 x5 x6 x7).1.1
      = k0_pay2 (k0_pay5 x0 x1 x2 x3 x4 x5 x0) (k0_pay6 x0 x1 x2 x3 x4 x5 x0) (k0_pay7 x0 x1 x2 x3 x4 x5 x0)
          (Scalar.ofBits .f32 0x43800000#32) x6 x7 := by
  unfold kernelRun0_A
  dsimp only
  sl_unfold_words
  rw [View.canon_unit_zero hz3]
  simp only [View.readAt_eq_ld, h2.read_unread, h3.read_unread, h4.read_unread, h5.read_unread, h6.read_unread, h7.read_unread,
    h8.read_unread, h9.read_unread, h11.read_unread, View.ld_unit_zero (S := S1x1024x256) hz3, View.ld_unit_zero (S := S1x1x256) hz3,
    View.ld_unit_zero (S := S1024x256) hz2, View.ld_unit_zero (S := S256) hz1]

/-- A first tile: the running sum is cleared, read back, and gains the tile's column sums. -/
theorem piecesA_9 (c : Dev nD) (i : grid0.Coords)
    (a2 : Memref sig .tc .vmem S1x1024x256 .f32) (h2 : a2.IsWhole) (a3 : Memref sig .tc .vmem S1x1024x256 .f32) (h3 : a3.IsWhole)
    (a4 : Memref sig .tc .vmem S1x1024x256 .f32) (h4 : a4.IsWhole) (a5 : Memref sig .tc .vmem S1x1x256 .f32) (h5 : a5.IsWhole)
    (a6 : Memref sig .tc .vmem S1024x256 .bf16) (h6 : a6.IsWhole) (a7 : Memref sig .tc .vmem S256 .f32) (h7 : a7.IsWhole)
    (a8 : Memref sig .tc .vmem S256 .f32) (h8 : a8.IsWhole) (a9 : Memref sig .tc .vmem S256 .f32) (h9 : a9.IsWhole)
    (a10 : Memref sig .tc .vmem S1x1024x256 .f32) (h10 : a10.IsWhole) (a11 : Memref sig .tc .vmem S1x1x256 .f32) (h11 : a11.IsWhole)
    (hc : cond0 i) (x0 x1 x2 : Vec F S1x1024x256 .f32) (x3 : Vec F S1x1x256 .f32) (x4 : Vec F S1024x256 .bf16) (x5 x6 x7 : Vec F S256 .f32) :
    View.canon (kernelRun0_A (F := F) c i a2 h2 a3 h3 a4 h4 a5 h5 a6 h6 a7 h7 a8 h8 a9 h9 a10 h10 a11 h11 hc x0 x1 x2 x3 x4 x5 x6 x7).1.2
      = k0_pay4 (k0_pay5 x0 x1 x2 x3 x4 x5 x0) (k0_pay6 x0 x1 x2 x3 x4 x5 x0) (k0_pay7 x0 x1 x2 x3 x4 x5 x0)
          (Scalar.ofBits .f32 0x43800000#32) x6 x7 (k0_pay3 (F := F)) := by
  unfold kernelRun0_A
  dsimp only
  sl_unfold_words
  rw [View.canon_cons_unit_zero (S := S1x1x256) hz3, View.readCov_unit_zero (S := S1x1x256) _ hz3]
  simp only [View.readAt_eq_ld, h2.read_unread, h3.read_unread, h4.read_unread, h5.read_unread, h6.read_unread, h7.read_unread,
    h8.read_unread, h9.read_unread, h11.read_unread, View.ld_unit_zero (S := S1x1024x256) hz3, View.ld_unit_zero (S := S1x1x256) hz3,
    View.ld_unit_zero (S := S1024x256) hz2, View.ld_unit_zero (S := S256) hz1]

/-- A later tile: the one store into the edge output's buffer leaves the normalised rows of the loaded blocks. -/
theorem piecesB_8 (c : Dev nD) (i : grid0.Coords)
    (a2 : Memref sig .tc .vmem S1x1024x256 .f32) (h2 : a2.IsWhole) (a3 : Memref sig .tc .vmem S1x1024x256 .f32) (h3 : a3.IsWhole)
    (a4 : Memref sig .tc .vmem S1x1024x256 .f32) (h4 : a4.IsWhole) (a5 : Memref sig .tc .vmem S1x1x256 .f32) (h5 : a5.IsWhole)
    (a6 : Memref sig .tc .vmem S1024x256 .bf16) (h6 : a6.IsWhole) (a7 : Memref sig .tc .vmem S256 .f32) (h7 : a7.IsWhole)
    (a8 : Memref sig .tc .vmem S256 .f32) (h8 : a8.IsWhole) (a9 : Memref sig .tc .vmem S256 .f32) (h9 : a9.IsWhole)
    (a10 : Memref sig .tc .vmem S1x1024x256 .f32) (h10 : a10.IsWhole) (a11 : Memref sig .tc .vmem S1x1x256 .f32) (h11 : a11.IsWhole)
    (hc : ¬cond0 i) (x0 x1 x2 : Vec F S1x1024x256 .f32) (x3 : Vec F S1x1x256 .f32) (x4 : Vec F S1024x256 .bf16) (x5 x6 x7 : Vec F S256 .f32) (xo : Vec F S1x1x256 .f32) :
    View.canon (kernelRun0_B (F := F) c i a2 h2 a3 h3 a4 h4 a5 h5 a6 h6 a7 h7 a8 h8 a9 h9 a10 h10 a11 h11 hc x0 x1 x2 x3 x4 x5 x6 x7 xo).1.1
      = k0_pay2 (k0_pay5 x0 x1 x2 x3 x4 x5 x0) (k0_pay6 x0 x1 x2 x3 x4 x5 x0) (k0_pay7 x0 x1 x2 x3 x4 x5 x0)
          (Scalar.ofBits .f32 0x43800000#32) x6 x7 := by
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h9.read_unread, h11.read_unread, View.ld_unit_zero (S := S1x1024x256) hz3, View.ld_unit_zero (S := S1x1x256) hz3,
    View.ld_unit_zero (S := S1024x256) hz2, View.ld_unit_zero (S := S256) hz1]

/-- A later tile: the running sum found, `xo`, gains the tile's column sums. -/
theorem piecesB_9 (c : Dev nD) (i : grid0.Coords)
    (a2 : Memref sig .tc .vmem S1x1024x256 .f32) (h2 : a2.IsWhole) (a3 : Memref sig .tc .vmem S1x1024x256 .f32) (h3 : a3.IsWhole)
    (a4 : Memref sig .tc .vmem S1x1024x256 .f32) (h4 : a4.IsWhole) (a5 : Memref sig .tc .vmem S1x1x256 .f32) (h5 : a5.IsWhole)
    (a6 : Memref sig .tc .vmem S1024x256 .bf16) (h6 : a6.IsWhole) (a7 : Memref sig .tc .vmem S256 .f32) (h7 : a7.IsWhole)
    (a8 : Memref sig .tc .vmem S256 .f32) (h8 : a8.IsWhole) (a9 : Memref sig .tc .vmem S256 .f32) (h9 : a9.IsWhole)
    (a10 : Memref sig .tc .vmem S1x1024x256 .f32) (h10 : a10.IsWhole) (a11 : Memref sig .tc .vmem S1x1x256 .f32) (h11 : a11.IsWhole)
    (hc : ¬cond0 i) (x0 x1 x2 : Vec F S1x1024x256 .f32) (x3 : Vec F S1x1x256 .f32) (x4 : Vec F S1024x256 .bf16) (x5 x6 x7 : Vec F S256 .f32) (xo : Vec F S1x1x256 .f32) :
    View.canon (kernelRun0_B (F := F) c i a2 h2 a3 h3 a4 h4 a5 h5 a6 h6 a7 h7 a8 h8 a9 h9 a10 h10 a11 h11 hc x0 x1 x2 x3 x4 x5 x6 x7 xo).1.2
      = k0_pay4 (k0_pay5 x0 x1 x2 x3 x4 x5 x0) (k0_pay6 x0 x1 x2 x3 x4 x5 x0) (k0_pay7 x0 x1 x2 x3 x4 x5 x0)
          (Scalar.ofBits .f32 0x43800000#32) x6 x7 xo := by
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h9.read_unread, h11.read_unread, View.ld_unit_zero (S := S1x1024x256) hz3, View.ld_unit_zero (S := S1x1x256) hz3,
    View.ld_unit_zero (S := S1024x256) hz2, View.ld_unit_zero (S := S256) hz1]

end Cert.KernelIdeal.EdgeValue

end
-- ==== Proof.LibKeepdims.lean ====
/-
  Column ("keepdims") layout forms and one-axis sums of a matrix, read at an index given by coordinates.

  A row statistic of an `[a, b]` matrix — a row's sum, mean or variance — is a vector `[a]`; kept as a column
  `[a, 1]` and broadcast back over the row it meets three layout operations the library's coordinate forms
  (Lib/ValueLayout.lean) do not cover:
  • `[a] → [a, 1]`  (`shapeCast_a_a1_apply`): the column's entry `(i, u)` is the vector's entry `i`;
  • `[a, 1] → [a, b]` (`broadcastTo_a1_ab_apply`): the matrix's entry `(p, c)` is the column's entry `(p, 0)`;
  • two leading unit axes dropped from or added to a vector, `[1, 1, a] → [a]` and `[a] → [1, 1, a]`
    (`shapeCast_11a_a_apply`, `shapeCast_a_11a_apply`).
  And the two one-axis sums of a matrix at the extended reals, as `Fin`-indexed sums over the coordinate summed
  out: along the row (`multiReduction_add_row_apply`: entry `r` is `∑ d, src (r, d)`) and along the column
  (`multiReduction_add_col_apply`: entry `d` is `∑ r, src (r, d)`).
  Each is the library's general lemma (`shapeCast_apply`, `broadcastTo_apply`, `Ideal.multiReduction_add_single`)
  with both indices written by coordinates and the arithmetic side condition discharged.
-/
import Idealize.ShloMosaic.Lib.ValueLayout
import Idealize.ShloMosaic.PureOps.Ideal.Laws

open scoped BigOperators

namespace Cert.LibKeepdims

open Idealize.ShloMosaic Idealize.ShloMosaic.ValueIdx

variable {α : Type}

/-! ## A vector as a column, a column over its rows -/

/-- An `[a]` vector cast to the column `[a, 1]` reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Two leading unit axes on a vector -/

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to `[1, 1, a]` reads, at `(u, w, i)`, the operand at `i`, whatever the unit coordinates. -/
theorem shapeCast_a_11a_apply {a : ℕ} (x : (⟨1, ![a]⟩ : Shape).Idx → α) (h : (⟨1, ![a]⟩ : Shape).ShapeCasts ⟨3, ![1, 1, a]⟩)
    (u w : Fin 1) (i : Fin a) : shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    simp only [hu, hw, Nat.zero_mul, Nat.zero_add])

/-! ## The two one-axis sums of a matrix, at the extended reals -/

/-- The sum along the rows' entries (axis 1) of an `[a, b]` matrix, at row `r`, is `∑ d, src (r, d)`. -/
theorem multiReduction_add_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ d : Fin b, src (ix2 r d) := by
  refine (Ideal.multiReduction_add_single src acc h hφ hacc (ix1 r)).trans ?_
  show ∑ d : Fin b, src (h.lift (ix1 r) d) = ∑ d : Fin b, src (ix2 r d)
  refine Finset.sum_congr rfl fun d _ => congrArg src (funext fun c => Fin.ext ?_)
  match c with
  | ⟨0, _⟩ => rfl
  | ⟨1, _⟩ => rfl

/-- The sum down the columns (axis 0) of an `[a, b]` matrix, at column `d`, is `∑ r, src (r, d)`. -/
theorem multiReduction_add_col_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (d : Fin b) :
    multiReduction .add [0] ⟨1, ![b]⟩ src acc h hφ hacc (ix1 d) = ∑ r : Fin a, src (ix2 r d) := by
  refine (Ideal.multiReduction_add_single src acc h hφ hacc (ix1 d)).trans ?_
  show ∑ r : Fin a, src (h.lift (ix1 d) r) = ∑ r : Fin a, src (ix2 r d)
  refine Finset.sum_congr rfl fun r _ => congrArg src (funext fun c => Fin.ext ?_)
  match c with
  | ⟨0, _⟩ => rfl
  | ⟨1, _⟩ => rfl

end Cert.LibKeepdims
-- ==== Proof.PayEdge.lean ====
/-
  The edge update's arithmetic, read at an index, over the extended reals.

  The body works on one tile of 1024 rows. Its pre-normalisation value at `(r, d)` is the dense layer's row `r` at
  feature `d` (`k0_pay5_apply`): the input row is the concatenation of the three loaded rows and the one global row,
  the product with the weights into the zero accumulator is the plain sum over the 1024 features, a change of float
  format is the identity, and bias, relu and residual are pointwise. The row statistics are kept as columns: the row
  mean (`k0_pay6_apply`) and the row's sum of squared deviations (`k0_pay7_apply`). The stored tile is the layer
  normalisation of that row (`k0_pay2_apply`), the accumulator gains the tile's column sums (`k0_pay4_apply`), and
  the accumulator's first value is zero (`k0_pay3_apply`).
-/
import proofs.«143816_j32993938768001_1_alg».proof.Proof.Spec
import proofs.«143816_j32993938768001_1_alg».proof.Proof.LibKeepdims
import proofs.«143816_j32993938768001_1_alg».proof.Proof.Gen.KernelIdeal.Skeleton

open scoped BigOperators

noncomputable section

namespace Cert.KernelIdeal.PayValue

open Idealize.ShloMosaic Idealize.ShloMosaic.ValueIdx Cert.KernelIdeal Cert.KernelIdeal.Gen Cert.LibKeepdims

/-- Four `[1024, 256]` pieces side by side along the columns: column `k` of row `r` is entry `k % 256` of row `r`
    of piece `k / 256`. -/
theorem concat4_apply (v0 v1 v2 v3 : FVec Ideal S1024x256 .f32) (r : Fin 1024) (k : Fin 1024) :
    concatenate S1024x1024 1 [⟨S1024x256, v0⟩, ⟨S1024x256, v1⟩, ⟨S1024x256, v2⟩, ⟨S1024x256, v3⟩]
        concatenates_S1024x256_S1024x256_S1024x256_S1024x256_S1024x1024_d1 (ix2 r k)
      = Spec.cat4 (fun p => ![fun e => v0 (ix2 r e), fun e => v1 (ix2 r e), fun e => v2 (ix2 r e), fun e => v3 (ix2 r e)] p) k := by
  have hk := k.isLt
  have hm : k.val % 256 < 256 := Nat.mod_lt _ (by norm_num)
  unfold Spec.cat4
  rcases (by omega : k.val / 256 = 0 ∨ k.val / 256 = 1 ∨ k.val / 256 = 2 ∨ k.val / 256 = 3) with h | h | h | h
  · refine (concatenate_apply_piece (1 : Fin S1024x1024.rank) _ _ (ix2 r k) 0 (by show (0 : ℕ) < 4; omega) S1024x256 v0 rfl rfl 0 rfl
      (ix2 r ⟨k.val % 256, hm⟩) (fun b hb => ?_) ?_).trans ?_
    · match b with
      | ⟨0, _⟩ => rfl
      | ⟨1, _⟩ => exact absurd rfl hb
    · show 0 + k.val % 256 = k.val
      omega
    · simp only [h]; rfl
  · refine (concatenate_apply_piece (1 : Fin S1024x1024.rank) _ _ (ix2 r k) 1 (by show (1 : ℕ) < 4; omega) S1024x256 v1 rfl rfl 256 rfl
      (ix2 r ⟨k.val % 256, hm⟩) (fun b hb => ?_) ?_).trans ?_
    · match b with
      | ⟨0, _⟩ => rfl
      | ⟨1, _⟩ => exact absurd rfl hb
    · show 256 + k.val % 256 = k.val
      omega
    · simp only [h]; rfl
  · refine (concatenate_apply_piece (1 : Fin S1024x1024.rank) _ _ (ix2 r k) 2 (by show (2 : ℕ) < 4; omega) S1024x256 v2 rfl rfl 512 rfl
      (ix2 r ⟨k.val % 256, hm⟩) (fun b hb => ?_) ?_).trans ?_
    · match b with
      | ⟨0, _⟩ => rfl
      | ⟨1, _⟩ => exact absurd rfl hb
    · show 512 + k.val % 256 = k.val
      omega
    · simp only [h]; rfl
  · refine (concatenate_apply_piece (1 : Fin S1024x1024.rank) _ _ (ix2 r k) 3 (by show (3 : ℕ) < 4; omega) S1024x256 v3 rfl rfl 768 rfl
      (ix2 r ⟨k.val % 256, hm⟩) (fun b hb => ?_) ?_).trans ?_
    · match b with
      | ⟨0, _⟩ => rfl
      | ⟨1, _⟩ => exact absurd rfl hb
    · show 768 + k.val % 256 = k.val
      omega
    · simp only [h]; rfl

/-! ## The product with the weights -/

/-- The left operand's row coordinate at an output entry is the output's row. -/
theorem dotE_lhs_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
/-- The right operand's column coordinate at an output entry is the output's column. -/
theorem dotE_rhs_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The block product into the zero accumulator, at entry `(r, d)`: the sum over the 1024 features of the left
    operand's row `r` times the right operand's column `d`. -/
theorem matmulE_apply (A : FVec Ideal S1024x1024 .bf16) (B : FVec Ideal S1024x256 .bf16) (r : Fin 1024) (d : Fin 256) :
    matmul dot_S1024x1024_S1024x256_S1024x256_1_0_0_1_n_n none A B (constant (F := Ideal) S1024x256 .f32 0x00000000#32) (ix2 r d)
      = ∑ k : Fin 1024, A (ix2 r k) * B (ix2 k d) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 r d) ((contrEquiv1 dot_S1024x1024_S1024x256_S1024x256_1_0_0_1_n_n 1024 rfl rfl).symm k) = ix2 r k := funext fun a => Fin.ext (by
    match a with
    | ⟨0, _⟩ => exact dotE_lhs_0 _ _
    | ⟨1, _⟩ => exact (dot_S1024x1024_S1024x256_S1024x256_1_0_0_1_n_n.lhsIdx_val_of_single rfl _ _).trans hk)
  have er : dot_S1024x1024_S1024x256_S1024x256_1_0_0_1_n_n.rhsIdx (ix2 r d) ((contrEquiv1 dot_S1024x1024_S1024x256_S1024x256_1_0_0_1_n_n 1024 rfl rfl).symm k) = ix2 k d := funext fun a => Fin.ext (by
    match a with
    | ⟨0, _⟩ => exact (dot_S1024x1024_S1024x256_S1024x256_1_0_0_1_n_n.rhsIdx_val_of_single rfl _ _).trans hk
    | ⟨1, _⟩ => exact dotE_rhs_1 _ _)
  rw [el, er]

/-! ## The dense layer's row -/

/-- The pre-normalisation value at `(r, d)`: the dense layer's row `r` at feature `d`. -/
theorem k0_pay5_apply (x0 x1 x2 res : Vec Ideal S1x1024x256 .f32) (g : Vec Ideal S1x1x256 .f32) (W : Vec Ideal S1024x256 .bf16)
    (bias : Vec Ideal S256 .f32) (r : Fin 1024) (d : Fin 256) :
    k0_pay5 x0 x1 x2 g W bias res (ix2 r d)
      = Spec.dense (Spec.cat4 (fun p => ![fun k => x0 (ix3 0 r k), fun k => x1 (ix3 0 r k), fun k => x2 (ix3 0 r k), fun k => g (ix3 0 0 k)] p))
          (fun k e => W (ix2 k e)) (fun e => bias (ix1 e)) (fun e => res (ix3 0 r e)) d := by
  unfold k0_pay5 Spec.dense
  simp only [addf_apply, maximumf_apply, broadcast_apply]
  rw [matmulE_apply]
  simp only [truncf_apply, concat4_apply, shapeCast_self, shapeCast_1ab_ab_apply, broadcastTo_1b_ab_apply, shapeCast_a_1a_apply,
    shapeCast_11a_a_apply]
  rfl

/-! ## The row statistics, kept as columns -/

/-- The row mean: entry `(r, u)` of the mean column is the mean of row `r` of the pre-normalisation value. -/
theorem k0_pay6_apply (x0 x1 x2 res : Vec Ideal S1x1024x256 .f32) (g : Vec Ideal S1x1x256 .f32) (W : Vec Ideal S1024x256 .bf16)
    (bias : Vec Ideal S256 .f32) (r : Fin 1024) (u : Fin 1) :
    k0_pay6 x0 x1 x2 g W bias res (ix2 r u) = Spec.mean (fun e => k0_pay5 x0 x1 x2 g W bias res (ix2 r e)) := by
  unfold k0_pay6 Spec.mean
  generalize k0_pay5 x0 x1 x2 g W bias res = H
  simp only [divf_apply, broadcast_apply]
  exact congrArg (fun s => Ideal.div s Spec.c256)
    ((shapeCast_a_a1_apply _ _ r u).trans (multiReduction_add_row_apply H _ _ _ _ r))

/-- The row's sum of squared deviations from its mean: entry `(r, u)` of that column. -/
theorem k0_pay7_apply (x0 x1 x2 res : Vec Ideal S1x1024x256 .f32) (g : Vec Ideal S1x1x256 .f32) (W : Vec Ideal S1024x256 .bf16)
    (bias : Vec Ideal S256 .f32) (r : Fin 1024) (u : Fin 1) :
    k0_pay7 x0 x1 x2 g W bias res (ix2 r u)
      = ∑ e : Fin 256, (k0_pay5 x0 x1 x2 g W bias res (ix2 r e) - Spec.mean (fun e' => k0_pay5 x0 x1 x2 g W bias res (ix2 r e')))
          * (k0_pay5 x0 x1 x2 g W bias res (ix2 r e) - Spec.mean (fun e' => k0_pay5 x0 x1 x2 g W bias res (ix2 r e'))) := by
  unfold k0_pay7
  refine (shapeCast_a_a1_apply _ _ r u).trans ((multiReduction_add_row_apply _ _ _ _ _ r).trans
    (Finset.sum_congr rfl fun e _ => ?_))
  simp only [mulf_apply, subf_apply]
  rw [broadcastTo_a1_ab_apply, k0_pay6_apply]

/-! ## The layer normalisation -/

/-- The normalised tile at `(r, d)`, from the pre-normalisation tile `h`, the mean column and the column of sums of
    squared deviations: `(h − mean) · rsqrt (sumsq / c + ε) · gain + offset`. -/
theorem k0_pay1_apply (h : FVec Ideal S1024x256 .f32) (mcol scol : FVec Ideal S1024x1 .f32) (c : Ideal .f32)
    (gain offset : Vec Ideal S256 .f32) (r : Fin 1024) (d : Fin 256) :
    k0_pay1 h mcol scol c gain offset (ix2 r d)
      = (h (ix2 r d) - mcol (ix2 r (0 : Fin 1))) * Ideal.rsqrt (Ideal.div (scol (ix2 r (0 : Fin 1))) c + Spec.eps) * gain (ix1 d)
          + offset (ix1 d) := by
  unfold k0_pay1
  simp only [addf_apply, mulf_apply, subf_apply]
  rw [broadcastTo_a1_ab_apply, broadcastTo_a1_ab_apply, broadcastTo_1b_ab_apply, broadcastTo_1b_ab_apply,
    shapeCast_a_1a_apply, shapeCast_a_1a_apply]
  rfl

/-- The stored tile at `(0, r, d)`: the dense layer's row `r`, layer-normalised, at feature `d`. -/
theorem k0_pay2_apply (x0 x1 x2 res : Vec Ideal S1x1024x256 .f32) (g : Vec Ideal S1x1x256 .f32) (W : Vec Ideal S1024x256 .bf16)
    (bias gain offset : Vec Ideal S256 .f32) (r : Fin 1024) (d : Fin 256) :
    k0_pay2 (k0_pay5 x0 x1 x2 g W bias res) (k0_pay6 x0 x1 x2 g W bias res) (k0_pay7 x0 x1 x2 g W bias res)
        (Scalar.ofBits .f32 0x43800000#32) gain offset (ix3 0 r d)
      = Spec.mlpLn (Spec.cat4 (fun p => ![fun k => x0 (ix3 0 r k), fun k => x1 (ix3 0 r k), fun k => x2 (ix3 0 r k), fun k => g (ix3 0 0 k)] p))
          (fun k e => W (ix2 k e)) (fun e => bias (ix1 e)) (fun e => res (ix3 0 r e)) (fun e => gain (ix1 e)) (fun e => offset (ix1 e)) d := by
  unfold k0_pay2
  rw [shapeCast_ab_1ab_apply, k0_pay1_apply, k0_pay6_apply, k0_pay7_apply]
  have hrow : (fun e => k0_pay5 x0 x1 x2 g W bias res (ix2 r e))
      = Spec.dense (Spec.cat4 (fun p => ![fun k => x0 (ix3 0 r k), fun k => x1 (ix3 0 r k), fun k => x2 (ix3 0 r k), fun k => g (ix3 0 0 k)] p))
          (fun k e => W (ix2 k e)) (fun e => bias (ix1 e)) (fun e => res (ix3 0 r e)) :=
    funext fun e => k0_pay5_apply x0 x1 x2 res g W bias r e
  unfold Spec.mlpLn
  rw [← hrow]
  generalize k0_pay5 x0 x1 x2 g W bias res = P
  rfl

/-! ## The accumulator -/

/-- The accumulator's new value at `(0, 0, d)`: its old value plus the sum over the tile's rows of the stored value
    at column `d`. -/
theorem k0_pay4_apply (x0 x1 x2 res : Vec Ideal S1x1024x256 .f32) (g : Vec Ideal S1x1x256 .f32) (W : Vec Ideal S1024x256 .bf16)
    (bias gain offset : Vec Ideal S256 .f32) (prev : Vec Ideal S1x1x256 .f32) (d : Fin 256) :
    k0_pay4 (k0_pay5 x0 x1 x2 g W bias res) (k0_pay6 x0 x1 x2 g W bias res) (k0_pay7 x0 x1 x2 g W bias res)
        (Scalar.ofBits .f32 0x43800000#32) gain offset prev (ix3 0 0 d)
      = prev (ix3 0 0 d) + ∑ r : Fin 1024,
          k0_pay2 (k0_pay5 x0 x1 x2 g W bias res) (k0_pay6 x0 x1 x2 g W bias res) (k0_pay7 x0 x1 x2 g W bias res)
            (Scalar.ofBits .f32 0x43800000#32) gain offset (ix3 0 r d) := by
  unfold k0_pay4 k0_pay2
  generalize k0_pay1 (k0_pay5 x0 x1 x2 g W bias res) (k0_pay6 x0 x1 x2 g W bias res) (k0_pay7 x0 x1 x2 g W bias res)
    (Scalar.ofBits .f32 0x43800000#32) gain offset = T
  rw [shapeCast_a_11a_apply]
  simp only [addf_apply]
  rw [shapeCast_11a_a_apply]
  refine congrArg (fun s => prev (ix3 0 0 d) + s) ((multiReduction_add_col_apply T _ _ _ _ d).trans
    (Finset.sum_congr rfl fun r _ => (shapeCast_ab_1ab_apply T _ 0 r d).symm))

/-- The accumulator's first value is zero everywhere. -/
theorem k0_pay3_apply (d : Fin 256) : k0_pay3 (F := Ideal) (ix3 0 0 d) = 0 := by
  unfold k0_pay3
  rw [shapeCast_a_11a_apply]
  exact Ideal.ofBits_zero_f32

end Cert.KernelIdeal.PayValue

end
-- ==== Proof.EdgeValue.lean ====
/-
  The edge region's value, point by point. After the body at a point the edge output's buffer holds that point's tile
  of normalised rows (`outsAt0_fst`, `tile0`), whichever control case the point is; the running-sum buffer holds the
  previous value plus the tile's column sums (`acc0`), the previous value being zero at a batch's first tile. At the
  extended reals the tile's entry `(0, r, d)` is the dense layer's row `r` of the windows' blocks, layer-normalised
  (`tile0_apply`), and the running sum after position `n` is the sum of the column sums of the tiles of `n`'s batch
  up to `n` (`outsAt0_snd`, by induction on the position).
-/
import proofs.«143816_j32993938768001_1_alg».proof.Proof.EdgeFrameKI
import proofs.«143816_j32993938768001_1_alg».proof.Proof.EdgePieces
import proofs.«143816_j32993938768001_1_alg».proof.Proof.PayEdge

set_option maxRecDepth 16384

open scoped BigOperators

noncomputable section

namespace Cert.KernelIdeal.EdgeValue

open Cert.KernelIdeal Cert.KernelIdeal.Gen Cert.KernelIdeal.Hand Cert.KernelIdeal.PayValue
open Idealize.ShloMosaic Idealize.ShloMosaic.TcCoe Idealize.ShloMosaic.ValueIdx Idealize.SL.Sem
open Idealize.ShloMosaic.Pipeline (Dat)

section AnyF
variable {F : FTy → Type} [FloatOps F]
variable (V : (c : Dev nD) → (b : Ref sig .tc) → Buf (Elt F) ((c : Thread nD τ).loc b))

/-- The tile of normalised rows the body stores at point `t`, from the windows' blocks there (the residual is the
    first window's block again). -/
def tile0 (c : Dev nD) (t : Fin cfg0.N) : Vec F S1x1024x256 .f32 :=
  k0_pay2 (k0_pay5 (iblk0 V c 0 t) (iblk0 V c 1 t) (iblk0 V c 2 t) (iblk0 V c 3 t) (iblk0 V c 4 t) (iblk0 V c 5 t) (iblk0 V c 0 t))
    (k0_pay6 (iblk0 V c 0 t) (iblk0 V c 1 t) (iblk0 V c 2 t) (iblk0 V c 3 t) (iblk0 V c 4 t) (iblk0 V c 5 t) (iblk0 V c 0 t))
    (k0_pay7 (iblk0 V c 0 t) (iblk0 V c 1 t) (iblk0 V c 2 t) (iblk0 V c 3 t) (iblk0 V c 4 t) (iblk0 V c 5 t) (iblk0 V c 0 t))
    (Scalar.ofBits .f32 0x43800000#32) (iblk0 V c 6 t) (iblk0 V c 7 t)

/-- The running sum the body leaves at point `t` over the value `prev` it finds: `prev` plus the tile's column sums. -/
def acc0 (c : Dev nD) (t : Fin cfg0.N) (prev : Vec F S1x1x256 .f32) : Vec F S1x1x256 .f32 :=
  k0_pay4 (k0_pay5 (iblk0 V c 0 t) (iblk0 V c 1 t) (iblk0 V c 2 t) (iblk0 V c 3 t) (iblk0 V c 4 t) (iblk0 V c 5 t) (iblk0 V c 0 t))
    (k0_pay6 (iblk0 V c 0 t) (iblk0 V c 1 t) (iblk0 V c 2 t) (iblk0 V c 3 t) (iblk0 V c 4 t) (iblk0 V c 5 t) (iblk0 V c 0 t))
    (k0_pay7 (iblk0 V c 0 t) (iblk0 V c 1 t) (iblk0 V c 2 t) (iblk0 V c 3 t) (iblk0 V c 4 t) (iblk0 V c 5 t) (iblk0 V c 0 t))
    (Scalar.ofBits .f32 0x43800000#32) (iblk0 V c 6 t) (iblk0 V c 7 t) prev

theorem outA0_fst (c : Dev nD) (t : Fin cfg0.N) (h : cond0 (grid0.coords t)) : (outA0 V c t h).1 = tile0 V c t := by
  unfold outA0
  dsimp only
  rw [View.read_writes_eq_canon _ _ _ (coverA0_8 V c t h)]
  exact piecesA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h (iblk0 V c 0 t) (iblk0 V c 1 t) (iblk0 V c 2 t) (iblk0 V c 3 t) (iblk0 V c 4 t) (iblk0 V c 5 t) (iblk0 V c 6 t) (iblk0 V c 7 t)

theorem outA0_snd (c : Dev nD) (t : Fin cfg0.N) (h : cond0 (grid0.coords t)) : (outA0 V c t h).2 = acc0 V c t (k0_pay3 (F := F)) := by
  unfold outA0
  dsimp only
  rw [View.read_writes_eq_canon _ _ _ (coverA0_9 V c t h)]
  exact piecesA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h (iblk0 V c 0 t) (iblk0 V c 1 t) (iblk0 V c 2 t) (iblk0 V c 3 t) (iblk0 V c 4 t) (iblk0 V c 5 t) (iblk0 V c 6 t) (iblk0 V c 7 t)

theorem outB0_fst (c : Dev nD) (t : Fin cfg0.N) (h : ¬cond0 (grid0.coords t)) (xo : Vec F S1x1x256 .f32) :
    (outB0 V c t h xo).1 = tile0 V c t := by
  unfold outB0
  dsimp only
  rw [View.read_writes_eq_canon _ _ _ (coverB0_8 V c t h xo)]
  exact piecesB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h (iblk0 V c 0 t) (iblk0 V c 1 t) (iblk0 V c 2 t) (iblk0 V c 3 t) (iblk0 V c 4 t) (iblk0 V c 5 t) (iblk0 V c 6 t) (iblk0 V c 7 t) xo

theorem outB0_snd (c : Dev nD) (t : Fin cfg0.N) (h : ¬cond0 (grid0.coords t)) (xo : Vec F S1x1x256 .f32) :
    (outB0 V c t h xo).2 = acc0 V c t xo := by
  unfold outB0
  dsimp only
  rw [View.read_writes_eq_canon _ _ _ (coverB0_9 V c t h xo)]
  exact piecesB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) h (iblk0 V c 0 t) (iblk0 V c 1 t) (iblk0 V c 2 t) (iblk0 V c 3 t) (iblk0 V c 4 t) (iblk0 V c 5 t) (iblk0 V c 6 t) (iblk0 V c 7 t) xo

/-- After the body at any point the edge output's buffer holds that point's tile. -/
theorem outsAt0_fst (c : Dev nD) (t : Fin cfg0.N) : (outsAt0 V c t.val t.isLt).1 = tile0 V c t := by
  by_cases h0 : t.val % 32 = 0
  · rw [outsAt0_A V c t h0]; exact outA0_fst V c t _
  · rw [outsAt0_B V c t h0]; exact outB0_fst V c t _ _

end AnyF

/-! ## At the extended reals: the tile and the running sum at an index -/

section AtIdeal
variable (V : (c : Dev nD) → (b : Ref sig .tc) → Buf (Elt Ideal) ((c : Thread nD τ).loc b))

/-- Entry `(0, r, d)` of point `t`'s tile: the dense layer's row `r` of the windows' blocks there, layer-normalised,
    at feature `d`. -/
theorem tile0_apply (c : Dev nD) (t : Fin cfg0.N) (r : Fin 1024) (d : Fin 256) :
    tile0 V c t (ix3 0 r d)
      = Spec.mlpLn (Spec.cat4 (fun p => ![fun k => iblk0 V c 0 t (ix3 0 r k), fun k => iblk0 V c 1 t (ix3 0 r k),
            fun k => iblk0 V c 2 t (ix3 0 r k), fun k => iblk0 V c 3 t (ix3 0 0 k)] p))
          (fun k e => iblk0 V c 4 t (ix2 k e)) (fun e => iblk0 V c 5 t (ix1 e)) (fun e => iblk0 V c 0 t (ix3 0 r e))
          (fun e => iblk0 V c 6 t (ix1 e)) (fun e => iblk0 V c 7 t (ix1 e)) d :=
  k0_pay2_apply (iblk0 V c 0 t) (iblk0 V c 1 t) (iblk0 V c 2 t) (iblk0 V c 0 t) (iblk0 V c 3 t) (iblk0 V c 4 t) (iblk0 V c 5 t) (iblk0 V c 6 t) (iblk0 V c 7 t) r d

/-- The running sum the body leaves over `prev`, at column `d`: `prev` there plus the tile's column sum. -/
theorem acc0_apply (c : Dev nD) (t : Fin cfg0.N) (prev : Vec Ideal S1x1x256 .f32) (d : Fin 256) :
    acc0 V c t prev (ix3 0 0 d) = prev (ix3 0 0 d) + ∑ r : Fin 1024, tile0 V c t (ix3 0 r d) :=
  k0_pay4_apply (iblk0 V c 0 t) (iblk0 V c 1 t) (iblk0 V c 2 t) (iblk0 V c 0 t) (iblk0 V c 3 t) (iblk0 V c 4 t) (iblk0 V c 5 t) (iblk0 V c 6 t) (iblk0 V c 7 t) prev d

/-- The column sum of the tile at position `n` of the grid (zero past the grid). -/
def colsum0 (c : Dev nD) (n : ℕ) (d : Fin 256) : EReal :=
  if h : n < cfg0.N then ∑ r : Fin 1024, tile0 V c ⟨n, h⟩ (ix3 0 r d) else 0

theorem colsum0_of_lt (c : Dev nD) (n : ℕ) (h : n < cfg0.N) (d : Fin 256) :
    colsum0 V c n d = ∑ r : Fin 1024, tile0 V c ⟨n, h⟩ (ix3 0 r d) := dif_pos h

/-- THE RUNNING SUM: after the body at position `n` the running-sum buffer holds, at column `d`, the sum of the
    column sums of the tiles of `n`'s batch up to `n` — positions `n − n % 32` to `n`. By induction on the position:
    a batch's first tile starts from zero, any other adds to what the tile before left. -/
theorem outsAt0_snd (c : Dev nD) : ∀ (n : ℕ) (hn : n < cfg0.N) (d : Fin 256),
    (outsAt0 V c n hn).2 (ix3 0 0 d) = ∑ j ∈ Finset.range (n % 32 + 1), colsum0 V c (n - n % 32 + j) d
  | 0, hn, d => by
    rw [outsAt0_A V c ⟨0, hn⟩ rfl, outA0_snd, acc0_apply, k0_pay3_apply, zero_add]
    simp only [Nat.zero_mod, Nat.zero_add, Finset.sum_range_one, Nat.sub_zero, Nat.add_zero]
    exact (colsum0_of_lt V c 0 hn d).symm
  | n + 1, hn, d => by
    by_cases h0 : (n + 1) % 32 = 0
    · rw [outsAt0_A V c ⟨n + 1, hn⟩ h0, outA0_snd, acc0_apply, k0_pay3_apply, zero_add, h0]
      simp only [Nat.zero_add, Finset.sum_range_one, Nat.sub_zero, Nat.add_zero]
      exact (colsum0_of_lt V c (n + 1) hn d).symm
    · rw [outsAt0_B V c ⟨n + 1, hn⟩ h0, outB0_snd, acc0_apply]
      show (outsAt0 V c n _).2 (ix3 0 0 d) + _ = _
      rw [outsAt0_snd c n (Nat.lt_of_succ_lt hn) d]
      have e1 : (n + 1) % 32 = n % 32 + 1 := by omega
      have e2 : n + 1 - (n % 32 + 1) = n - n % 32 := by omega
      have e3 : n - n % 32 + (n % 32 + 1) = n + 1 := by omega
      rw [e1, e2, Finset.sum_range_succ _ (n % 32 + 1), e3, colsum0_of_lt V c (n + 1) hn d]

end AtIdeal

end Cert.KernelIdeal.EdgeValue

end
-- ==== Proof.LibTileSum.lean ====
/-
  A sum over `a · b` consecutive positions, taken tile by tile: `a` tiles of `b` positions each, position
  `j · b + r` being position `r` of tile `j`.
-/
import Mathlib.Algebra.BigOperators.Fin
import Mathlib.Logic.Equiv.Fin.Basic

open scoped BigOperators

namespace Cert.LibTileSum

/-- Position `r` of tile `j` is a position of the whole range. -/
theorem tile_pos_lt {a b : ℕ} (j : Fin a) (r : Fin b) : j.val * b + r.val < a * b :=
  calc j.val * b + r.val < j.val * b + b := Nat.add_lt_add_left r.isLt _
    _ = (j.val + 1) * b := (Nat.succ_mul _ _).symm
    _ ≤ a * b := Nat.mul_le_mul_right _ j.isLt

/-- The sum over the whole range is the sum over the tiles of each tile's sum. -/
theorem sum_fin_mul {M : Type*} [AddCommMonoid M] (a b : ℕ) (f : Fin (a * b) → M) :
    ∑ e, f e = ∑ j : Fin a, ∑ r : Fin b, f ⟨j.val * b + r.val, tile_pos_lt j r⟩ := by
  rw [← Equiv.sum_comp finProdFinEquiv f, Fintype.sum_prod_type]
  refine Finset.sum_congr rfl fun j _ => Finset.sum_congr rfl fun r _ => congrArg f (Fin.ext ?_)
  rw [finProdFinEquiv_apply_val, Nat.mul_comm, Nat.add_comm]

end Cert.LibTileSum
-- ==== Proof.EdgeArray.lean ====
/-
  The edge region's two result arrays, index by index, over the extended reals.

  Point `t` of the grid is tile `t % 32` of batch `t / 32`: its blocks of the three row inputs and of the edge output
  are rows `(t % 32) · 1024 …` of batch `t / 32`, its block of the global input is that batch's one row, and the
  weights, bias, gain and offset are whole. So the tile the body stores at `t` is, row by row, the edge update of
  the arrays' rows (`tile0_row`, `edgeRow`); every point writes its tile back, and the tiles cover the edge output
  (`final0_8`). The running sum is written back after a batch's last tile only, when it holds the sum over the
  batch's 32 tiles of their column sums — the sum over all 32768 rows of the batch (`final0_9`).
-/
import proofs.«143816_j32993938768001_1_alg».proof.Proof.EdgeValue
import proofs.«143816_j32993938768001_1_alg».proof.Proof.LibTileSum

set_option maxRecDepth 16384

open scoped BigOperators

noncomputable section

namespace Cert.KernelIdeal.EdgeValue

open Cert.KernelIdeal Cert.KernelIdeal.Gen Cert.KernelIdeal.Hand Cert.KernelIdeal.PayValue
open Idealize.ShloMosaic Idealize.ShloMosaic.TcCoe Idealize.ShloMosaic.ValueIdx Idealize.SL.Sem
open Idealize.ShloMosaic.Pipeline (Dat)

/-- The printed index maps over the grid: point `t` is tile `t % 32` of batch `t / 32`. -/
theorem idx_facts0 : ∀ t : Fin cfg0.N,
    (win0_0.index t (0 : Fin 3) = t.val / 32 ∧ win0_0.index t (1 : Fin 3) = t.val % 32 ∧ win0_0.index t (2 : Fin 3) = 0)
    ∧ (win0_1.index t (0 : Fin 3) = t.val / 32 ∧ win0_1.index t (1 : Fin 3) = t.val % 32 ∧ win0_1.index t (2 : Fin 3) = 0)
    ∧ (win0_2.index t (0 : Fin 3) = t.val / 32 ∧ win0_2.index t (1 : Fin 3) = t.val % 32 ∧ win0_2.index t (2 : Fin 3) = 0)
    ∧ (win0_3.index t (0 : Fin 3) = t.val / 32 ∧ win0_3.index t (1 : Fin 3) = 0 ∧ win0_3.index t (2 : Fin 3) = 0)
    ∧ (win0_4.index t (0 : Fin 2) = 0 ∧ win0_4.index t (1 : Fin 2) = 0)
    ∧ win0_5.index t (0 : Fin 1) = 0 ∧ win0_6.index t (0 : Fin 1) = 0 ∧ win0_7.index t (0 : Fin 1) = 0
    ∧ (win0_8.index t (0 : Fin 3) = t.val / 32 ∧ win0_8.index t (1 : Fin 3) = t.val % 32 ∧ win0_8.index t (2 : Fin 3) = 0)
    ∧ (win0_9.index t (0 : Fin 3) = t.val / 32 ∧ win0_9.index t (1 : Fin 3) = 0 ∧ win0_9.index t (2 : Fin 3) = 0) :=
  (by decide +kernel : ∀ t : Fin grid0.N, _)

section AtIdeal
variable (V : (c : Dev nD) → (b : Ref sig .tc) → Buf (Elt Ideal) ((c : Thread nD τ).loc b))

/-- The batch of point `t`. -/
def bat0 (t : Fin cfg0.N) : Fin 4 := ⟨t.val / 32, by have := lt_of_lt_of_eq t.isLt (show cfg0.N = 128 from N_0); omega⟩
/-- Row `r` of point `t`'s tile, as a row of its batch. -/
def row0 (t : Fin cfg0.N) (r : Fin 1024) : Fin 32768 := ⟨t.val % 32 * 1024 + r.val, by omega⟩

/-! ## The windows' blocks, read off the arrays -/

theorem iblk0_0_apply (c : Dev nD) (t : Fin cfg0.N) (u : Fin 1) (r : Fin 1024) (k : Fin 256) :
    iblk0 V c 0 t (ix3 u r k) = V c main_arg1 (ix3 (bat0 t) (row0 t r) k) := by
  obtain ⟨⟨a0, a1, a2⟩, ⟨b0, b1, b2⟩, ⟨c0, c1, c2⟩, -⟩ := idx_facts0 t
  unfold iblk0
  rw [View.read_apply]
  show V c main_arg1 (((cfg0.win 0).blk t).view.emb (ix3 u r k)) = _
  refine congrArg (V c main_arg1) (funext fun a => Fin.ext ?_)
  match a with
  | ⟨0, _⟩ => show win0_0.index t (0 : Fin 3) * 1 + 1 * u.val = t.val / 32; omega
  | ⟨1, _⟩ => show win0_0.index t (1 : Fin 3) * 1024 + 1 * r.val = t.val % 32 * 1024 + r.val; omega
  | ⟨2, _⟩ => show win0_0.index t (2 : Fin 3) * 256 + 1 * k.val = k.val; omega

theorem iblk0_1_apply (c : Dev nD) (t : Fin cfg0.N) (u : Fin 1) (r : Fin 1024) (k : Fin 256) :
    iblk0 V c 1 t (ix3 u r k) = V c main_v1 (ix3 (bat0 t) (row0 t r) k) := by
  obtain ⟨⟨a0, a1, a2⟩, ⟨b0, b1, b2⟩, ⟨c0, c1, c2⟩, -⟩ := idx_facts0 t
  unfold iblk0
  rw [View.read_apply]
  show V c main_v1 (((cfg0.win 1).blk t).view.emb (ix3 u r k)) = _
  refine congrArg (V c main_v1) (funext fun a => Fin.ext ?_)
  match a with
  | ⟨0, _⟩ => show win0_1.index t (0 : Fin 3) * 1 + 1 * u.val = t.val / 32; omega
  | ⟨1, _⟩ => show win0_1.index t (1 : Fin 3) * 1024 + 1 * r.val = t.val % 32 * 1024 + r.val; omega
  | ⟨2, _⟩ => show win0_1.index t (2 : Fin 3) * 256 + 1 * k.val = k.val; omega

theorem iblk0_2_apply (c : Dev nD) (t : Fin cfg0.N) (u : Fin 1) (r : Fin 1024) (k : Fin 256) :
    iblk0 V c 2 t (ix3 u r k) = V c main_v3 (ix3 (bat0 t) (row0 t r) k) := by
  obtain ⟨⟨a0, a1, a2⟩, ⟨b0, b1, b2⟩, ⟨c0, c1, c2⟩, -⟩ := idx_facts0 t
  unfold iblk0
  rw [View.read_apply]
  show V c main_v3 (((cfg0.win 2).blk t).view.emb (ix3 u r k)) = _
  refine congrArg (V c main_v3) (funext fun a => Fin.ext ?_)
  match a with
  | ⟨0, _⟩ => show win0_2.index t (0 : Fin 3) * 1 + 1 * u.val = t.val / 32; omega
  | ⟨1, _⟩ => show win0_2.index t (1 : Fin 3) * 1024 + 1 * r.val = t.val % 32 * 1024 + r.val; omega
  | ⟨2, _⟩ => show win0_2.index t (2 : Fin 3) * 256 + 1 * k.val = k.val; omega

theorem iblk0_3_apply (c : Dev nD) (t : Fin cfg0.N) (u w : Fin 1) (k : Fin 256) :
    iblk0 V c 3 t (ix3 u w k) = V c main_v4 (ix3 (bat0 t) (0 : Fin 1) k) := by
  obtain ⟨-, -, -, ⟨d0, d1, d2⟩, -⟩ := idx_facts0 t
  unfold iblk0
  rw [View.read_apply]
  show V c main_v4 (((cfg0.win 3).blk t).view.emb (ix3 u w k)) = _
  refine congrArg (V c main_v4) (funext fun a => Fin.ext ?_)
  match a with
  | ⟨0, _⟩ => show win0_3.index t (0 : Fin 3) * 1 + 1 * u.val = t.val / 32; omega
  | ⟨1, _⟩ => show win0_3.index t (1 : Fin 3) * 1 + 1 * w.val = 0; omega
  | ⟨2, _⟩ => show win0_3.index t (2 : Fin 3) * 256 + 1 * k.val = k.val; omega

theorem iblk0_4_apply (c : Dev nD) (t : Fin cfg0.N) (k : Fin 1024) (e : Fin 256) :
    iblk0 V c 4 t (ix2 k e) = V c main_v5 (ix2 k e) := by
  obtain ⟨-, -, -, -, ⟨g0, g1⟩, -⟩ := idx_facts0 t
  unfold iblk0
  rw [View.read_apply]
  show V c main_v5 (((cfg0.win 4).blk t).view.emb (ix2 k e)) = _
  refine congrArg (V c main_v5) (funext fun a => Fin.ext ?_)
  match a with
  | ⟨0, _⟩ => show win0_4.index t (0 : Fin 2) * 1024 + 1 * k.val = k.val; omega
  | ⟨1, _⟩ => show win0_4.index t (1 : Fin 2) * 256 + 1 * e.val = e.val; omega

theorem iblk0_5_apply (c : Dev nD) (t : Fin cfg0.N) (e : Fin 256) :
    iblk0 V c 5 t (ix1 e) = V c main_arg9 (ix1 e) := by
  obtain ⟨-, -, -, -, -, f5, f6, f7, -⟩ := idx_facts0 t
  unfold iblk0
  rw [View.read_apply]
  show V c main_arg9 (((cfg0.win 5).blk t).view.emb (ix1 e)) = _
  refine congrArg (V c main_arg9) (funext fun a => Fin.ext ?_)
  match a with
  | ⟨0, _⟩ => show win0_5.index t (0 : Fin 1) * 256 + 1 * e.val = e.val; omega

theorem iblk0_6_apply (c : Dev nD) (t : Fin cfg0.N) (e : Fin 256) :
    iblk0 V c 6 t (ix1 e) = V c main_arg10 (ix1 e) := by
  obtain ⟨-, -, -, -, -, f5, f6, f7, -⟩ := idx_facts0 t
  unfold iblk0
  rw [View.read_apply]
  show V c main_arg10 (((cfg0.win 6).blk t).view.emb (ix1 e)) = _
  refine congrArg (V c main_arg10) (funext fun a => Fin.ext ?_)
  match a with
  | ⟨0, _⟩ => show win0_6.index t (0 : Fin 1) * 256 + 1 * e.val = e.val; omega

theorem iblk0_7_apply (c : Dev nD) (t : Fin cfg0.N) (e : Fin 256) :
    iblk0 V c 7 t (ix1 e) = V c main_arg11 (ix1 e) := by
  obtain ⟨-, -, -, -, -, f5, f6, f7, -⟩ := idx_facts0 t
  unfold iblk0
  rw [View.read_apply]
  show V c main_arg11 (((cfg0.win 7).blk t).view.emb (ix1 e)) = _
  refine congrArg (V c main_arg11) (funext fun a => Fin.ext ?_)
  match a with
  | ⟨0, _⟩ => show win0_7.index t (0 : Fin 1) * 256 + 1 * e.val = e.val; omega

/-! ## The edge update of the arrays' rows -/

/-- Row `e` of batch `b`, updated, at feature `d`: the dense layer of the concatenated edge, sender, receiver and global
    rows, with the edge row as residual, layer-normalised — over the arrays as the region finds them. -/
def edgeRow (c : Dev nD) (b : Fin 4) (e : Fin 32768) (d : Fin 256) : EReal :=
  Spec.mlpLn (Spec.cat4 (fun p => ![fun k => V c main_arg1 (ix3 b e k), fun k => V c main_v1 (ix3 b e k),
        fun k => V c main_v3 (ix3 b e k), fun k => V c main_v4 (ix3 b (0 : Fin 1) k)] p))
    (fun k f => V c main_v5 (ix2 k f)) (fun f => V c main_arg9 (ix1 f)) (fun f => V c main_arg1 (ix3 b e f))
    (fun f => V c main_arg10 (ix1 f)) (fun f => V c main_arg11 (ix1 f)) d

/-- Point `t`'s tile, row by row, is the edge update of its rows of its batch. -/
theorem tile0_row (c : Dev nD) (t : Fin cfg0.N) (r : Fin 1024) (d : Fin 256) :
    tile0 V c t (ix3 0 r d) = edgeRow V c (bat0 t) (row0 t r) d := by
  rw [tile0_apply]
  unfold edgeRow
  simp only [iblk0_0_apply, iblk0_1_apply, iblk0_2_apply, iblk0_3_apply, iblk0_4_apply, iblk0_5_apply, iblk0_6_apply, iblk0_7_apply]

/-! ## The edge output -/

/-- The edge output array: every row updated. -/
def G0_8 (c : Dev nD) : Buf (Elt Ideal) ((c : Thread nD τ).loc main_v6_0) := fun i => edgeRow V c (i 0) (i 1) (i 2)

/-- What point `t` writes back to the edge output is its block of that array. -/
theorem flushed0_8_eq (c : Dev nD) (t : Fin cfg0.N) :
    (dat0 V c).flushed 8 t = ((cfg0.win 8).blk t).view.read (Elt Ideal) (G0_8 V c) := by
  obtain ⟨-, -, -, -, -, -, -, -, ⟨e0, e1, e2⟩, -⟩ := idx_facts0 t
  show (cfg0.win 8).cut (grid0.coords t) ((dat0 V c).after 8 t) = _
  rw [after0_8, outsAt0_fst]
  refine funext fun (j : S1x1024x256.Idx) => ?_
  obtain ⟨u, r, d, rfl⟩ : ∃ (u : Fin 1) (r : Fin 1024) (d : Fin 256), j = ix3 u r d := ⟨j 0, j 1, j 2, eq_ix3 j⟩
  obtain rfl : u = 0 := Subsingleton.elim _ _
  rw [View.read_apply]
  have hemb : ((cfg0.win 8).blk t).view.emb (ix3 (0 : Fin 1) r d) = ix3 (bat0 t) (row0 t r) d := funext fun a => Fin.ext (by
    match a with
    | ⟨0, _⟩ => show win0_8.index t (0 : Fin 3) * 1 + 1 * 0 = t.val / 32; omega
    | ⟨1, _⟩ => show win0_8.index t (1 : Fin 3) * 1024 + 1 * r.val = t.val % 32 * 1024 + r.val; omega
    | ⟨2, _⟩ => show win0_8.index t (2 : Fin 3) * 256 + 1 * d.val = d.val; omega)
  rw [hemb]
  exact tile0_row V c t r d

/-- An index of the edge output is in point `t`'s block iff each coordinate is in the block's range on its axis. -/
theorem mem_blk0_8 (t : Fin cfg0.N) (i : S4x32768x256.Idx) :
    i ∈ ((cfg0.win 8).blk t).view.set ↔ ∀ a : Fin 3, win0_8.index t a * S1x1024x256.size a ≤ (i a).val ∧ (i a).val < win0_8.index t a * S1x1024x256.size a + S1x1024x256.size a := by
  show i ∈ ((View.whole main_v6_0).slice (win0_8.rect t)).set ↔ _
  rw [View.set_slice_whole, Rect.mem_set_unit]
  exact Iff.rfl

/-- Row `e` of batch `b` is in the block of tile `e / 1024` of that batch. -/
theorem cover0_8 (i : S4x32768x256.Idx) : ∃ t : Fin cfg0.N, (cfg0.win 8).flush t = true ∧ i ∈ ((cfg0.win 8).blk t).view.set := by
  have hN : cfg0.N = 128 := N_0
  have h0 : (i 0).val < 4 := (i 0).isLt
  have h1 : (i 1).val < 32768 := (i 1).isLt
  have h2 : (i 2).val < 256 := (i 2).isLt
  obtain ⟨t, ht⟩ : ∃ t : Fin cfg0.N, t.val = (i 0).val * 32 + (i 1).val / 1024 := ⟨⟨(i 0).val * 32 + (i 1).val / 1024, by omega⟩, rfl⟩
  obtain ⟨-, -, -, -, -, -, -, -, ⟨e0, e1, e2⟩, -⟩ := idx_facts0 t
  refine ⟨t, flush0_8 t, ?_⟩
  rw [mem_blk0_8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 256 ≤ (i 2).val ∧ (i 2).val < win0_8.index t (2 : Fin 3) * 256 + 256; omega

/-- THE EDGE OUTPUT after the region: every row updated. -/
theorem final0_8 (c : Dev nD) : (dat0 V c).arrAt 8 cfg0.N = G0_8 V c :=
  (dat0 V c).arrAt_eq_of_cover 8 (G0_8 V c) (fun t _ => flushed0_8_eq V c t) cover0_8

theorem final0_8_apply (c : Dev nD) (b : Fin 4) (e : Fin 32768) (d : Fin 256) :
    (dat0 V c).arrAt 8 cfg0.N (ix3 b e d) = edgeRow V c b e d :=
  congrFun (final0_8 V c) (ix3 b e d)

/-! ## The running sum -/

/-- Per batch and feature, the sum over the batch's rows of the updated rows. -/
def edgeSum (c : Dev nD) (b : Fin 4) (d : Fin 256) : EReal := ∑ e : Fin 32768, edgeRow V c b e d

/-- The running-sum array. -/
def G0_9 (c : Dev nD) : Buf (Elt Ideal) ((c : Thread nD τ).loc main_v6_1) := fun i => edgeSum V c (i 0) (i 2)

theorem G0_9_apply (c : Dev nD) (b : Fin 4) (u : Fin 1) (d : Fin 256) : G0_9 V c (ix3 b u d) = edgeSum V c b d := by
  unfold G0_9
  exact congrArg₂ (edgeSum V c) rfl rfl

/-- What a batch's last tile writes back to the running-sum array is its block of that array. -/
theorem flushed0_9_eq (c : Dev nD) (t : Fin cfg0.N) (hf : (cfg0.win 9).flush t = true) :
    (dat0 V c).flushed 9 t = ((cfg0.win 9).blk t).view.read (Elt Ideal) (G0_9 V c) := by
  have h31 : t.val % 32 = 31 := (flush0_9 t).mp hf
  have hN : cfg0.N = 128 := N_0
  have htN : t.val < 128 := lt_of_lt_of_eq t.isLt hN
  obtain ⟨-, -, -, -, -, -, -, -, -, ⟨e0, e1, e2⟩⟩ := idx_facts0 t
  have hX : ∀ d : Fin 256, (outsAt0 V c t.val t.isLt).2 (ix3 0 0 d) = edgeSum V c (bat0 t) d := fun d => by
    unfold edgeSum
    have h32 : t.val % 32 + 1 = 32 := by omega
    rw [outsAt0_snd V c t.val t.isLt d, h32, Finset.sum_range,
      Cert.LibTileSum.sum_fin_mul 32 1024 (fun e => edgeRow V c (bat0 t) e d)]
    refine Finset.sum_congr rfl fun j _ => ?_
    have hj : j.val < 32 := j.isLt
    have hlt : t.val - t.val % 32 + j.val < cfg0.N := by omega
    rw [colsum0_of_lt V c _ hlt d]
    refine Finset.sum_congr rfl fun r _ => ?_
    rw [tile0_row]
    have hb : bat0 ⟨t.val - t.val % 32 + j.val, hlt⟩ = bat0 t := Fin.ext (by
      show (t.val - t.val % 32 + j.val) / 32 = t.val / 32; omega)
    have he : row0 ⟨t.val - t.val % 32 + j.val, hlt⟩ r = ⟨j.val * 1024 + r.val, Cert.LibTileSum.tile_pos_lt j r⟩ := Fin.ext (by
      show (t.val - t.val % 32 + j.val) % 32 * 1024 + r.val = j.val * 1024 + r.val; omega)
    rw [hb, he]
  show (cfg0.win 9).cut (grid0.coords t) ((dat0 V c).after 9 t) = _
  rw [after0_9]
  unfold G0_9
  generalize (outsAt0 V c t.val t.isLt).2 = X at hX ⊢
  generalize edgeSum V c = S at hX ⊢
  refine funext fun (j : S1x1x256.Idx) => ?_
  obtain ⟨u, w, d, rfl⟩ : ∃ (u w : Fin 1) (d : Fin 256), j = ix3 u w d := ⟨j 0, j 1, j 2, eq_ix3 j⟩
  obtain rfl : u = 0 := Subsingleton.elim _ _
  obtain rfl : w = 0 := Subsingleton.elim _ _
  rw [View.read_apply]
  have hemb : ((cfg0.win 9).blk t).view.emb (ix3 (0 : Fin 1) (0 : Fin 1) d) = ix3 (bat0 t) (0 : Fin 1) d := funext fun a => Fin.ext (by
    match a with
    | ⟨0, _⟩ => show win0_9.index t (0 : Fin 3) * 1 + 1 * 0 = t.val / 32; omega
    | ⟨1, _⟩ => show win0_9.index t (1 : Fin 3) * 1 + 1 * 0 = 0; omega
    | ⟨2, _⟩ => show win0_9.index t (2 : Fin 3) * 256 + 1 * d.val = d.val; omega)
  rw [hemb]
  exact hX d

/-- An index of the running-sum array is in point `t`'s block iff each coordinate is in the block's range on its axis. -/
theorem mem_blk0_9 (t : Fin cfg0.N) (i : S4x1x256.Idx) :
    i ∈ ((cfg0.win 9).blk t).view.set ↔ ∀ a : Fin 3, win0_9.index t a * S1x1x256.size a ≤ (i a).val ∧ (i a).val < win0_9.index t a * S1x1x256.size a + S1x1x256.size a := by
  show i ∈ ((View.whole main_v6_1).slice (win0_9.rect t)).set ↔ _
  rw [View.set_slice_whole, Rect.mem_set_unit]
  exact Iff.rfl

/-- Batch `b`'s row of the running-sum array is written back after the batch's last tile. -/
theorem cover0_9 (i : S4x1x256.Idx) : ∃ t : Fin cfg0.N, (cfg0.win 9).flush t = true ∧ i ∈ ((cfg0.win 9).blk t).view.set := by
  have hN : cfg0.N = 128 := N_0
  have h0 : (i 0).val < 4 := (i 0).isLt
  have h1 : (i 1).val < 1 := (i 1).isLt
  have h2 : (i 2).val < 256 := (i 2).isLt
  obtain ⟨t, ht⟩ : ∃ t : Fin cfg0.N, t.val = (i 0).val * 32 + 31 := ⟨⟨(i 0).val * 32 + 31, by omega⟩, rfl⟩
  obtain ⟨-, -, -, -, -, -, -, -, -, ⟨e0, e1, e2⟩⟩ := idx_facts0 t
  refine ⟨t, (flush0_9 t).mpr (by omega), ?_⟩
  rw [mem_blk0_9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 1 ≤ (i 1).val ∧ (i 1).val < win0_9.index t (1 : Fin 3) * 1 + 1; omega
  | ⟨2, _⟩ => show win0_9.index t (2 : Fin 3) * 256 ≤ (i 2).val ∧ (i 2).val < win0_9.index t (2 : Fin 3) * 256 + 256; omega

/-- THE RUNNING-SUM ARRAY after the region: per batch and feature, the sum over the batch's rows of the updated rows. -/
theorem final0_9 (c : Dev nD) : (dat0 V c).arrAt 9 cfg0.N = G0_9 V c :=
  (dat0 V c).arrAt_eq_of_cover 9 (G0_9 V c) (flushed0_9_eq V c) cover0_9

theorem final0_9_apply (c : Dev nD) (b : Fin 4) (u : Fin 1) (d : Fin 256) :
    (dat0 V c).arrAt 9 cfg0.N (ix3 b u d) = edgeSum V c b d :=
  (congrFun (final0_9 V c) (ix3 b u d)).trans (G0_9_apply V c b u d)

end AtIdeal

end Cert.KernelIdeal.EdgeValue

end
-- ==== Proof.HostGlue0.lean ====
/-
  What the edge region finds in its input arrays, as values over the extended reals.

  Before the edge region the host gathers, for every edge, the sender's and the receiver's row of the vertex features
  (the two columns of the edge index array name the rows), inserts a unit axis into the global features, and changes the
  float format of the edge weights, which at the extended reals changes nothing. The two gathers are the same operations,
  in the same order, as the reference's, so each is stated as the reference's own stage function of the two argument
  arrays; the other inputs are argument arrays no host operation writes.
-/
import proofs.«143816_j32993938768001_1_alg».proof.Proof.Gen.KernelIdeal.Regions
import proofs.«143816_j32993938768001_1_alg».proof.Proof.RefReadP
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

/-- A value carried to a buffer's type and back is the value. -/
theorem ofBuf_toBuf {Val : EltTy → Type} {T : BufTy} (x : StableHlo.TRef sig T) (v : T.Contents Val) : x.ofBuf (x.toBuf v) = v := by
  obtain ⟨r, rfl, _, _⟩ := x; rfl

/-! ## The arguments no host operation writes -/

theorem V5_arg1 : V5 m c (Proc.devRef .tc main_arg1) = m ((c.tc : Thread nD τ).loc main_arg1) :=
  (V5_of m c main_arg1 (by decide)).trans <| (V4_of m c main_arg1 (by decide)).trans <| (V3_of m c main_arg1 (by decide)).trans <|
    (V2_of m c main_arg1 (by decide)).trans <| V1_of m c main_arg1 (by decide)
theorem V5_arg9 : V5 m c (Proc.devRef .tc main_arg9) = m ((c.tc : Thread nD τ).loc main_arg9) :=
  (V5_of m c main_arg9 (by decide)).trans <| (V4_of m c main_arg9 (by decide)).trans <| (V3_of m c main_arg9 (by decide)).trans <|
    (V2_of m c main_arg9 (by decide)).trans <| V1_of m c main_arg9 (by decide)
theorem V5_arg10 : V5 m c (Proc.devRef .tc main_arg10) = m ((c.tc : Thread nD τ).loc main_arg10) :=
  (V5_of m c main_arg10 (by decide)).trans <| (V4_of m c main_arg10 (by decide)).trans <| (V3_of m c main_arg10 (by decide)).trans <|
    (V2_of m c main_arg10 (by decide)).trans <| V1_of m c main_arg10 (by decide)
theorem V5_arg11 : V5 m c (Proc.devRef .tc main_arg11) = m ((c.tc : Thread nD τ).loc main_arg11) :=
  (V5_of m c main_arg11 (by decide)).trans <| (V4_of m c main_arg11 (by decide)).trans <| (V3_of m c main_arg11 (by decide)).trans <|
    (V2_of m c main_arg11 (by decide)).trans <| V1_of m c main_arg11 (by decide)

/-! ## The two row gathers -/

/-- The first column of the edge indices cut out, then the sender rows gathered: over any buffer contents the two host
    stretches leave the reference's sender stage of the vertex features and the edge indices. -/
theorem sender_after (W : Valuation τ sig (Elt Ideal)) (R : (⟨S4x32768x256, .f32⟩ : BufTy).Contents (Elt Ideal))
    (hR : R = Cert.ReferenceIdeal.ReadP.val_main_v1 (F := Ideal) (W (Proc.devRef .tc main_arg0)) (W (Proc.devRef .tc main_arg3))) :
    StableHlo.after (hostOps0_1 (F := Ideal)) (StableHlo.after (hostOps0 (F := Ideal)) W) (Proc.devRef .tc main_v1) = R := by
  dsimp only [hostOps0, hostOps0_1]
  after_results_simp
  have c1 : ∀ p1 p2 p3 v, (StableHlo.TRef.of main_v0 p1 p2 p3 : StableHlo.TRef sig ⟨S4x32768x1, .i32⟩).ofBuf (Val := Elt Ideal) v = v := fun _ _ _ _ => rfl
  have c2 : ∀ p1 p2 p3 v, (StableHlo.TRef.of main_arg0 p1 p2 p3 : StableHlo.TRef sig ⟨S4x8192x256, .f32⟩).ofBuf (Val := Elt Ideal) v = v := fun _ _ _ _ => rfl
  have c3 : ∀ p1 p2 p3 v, (StableHlo.TRef.of main_v1 p1 p2 p3 : StableHlo.TRef sig ⟨S4x32768x256, .f32⟩).toBuf (Val := Elt Ideal) v = v := fun _ _ _ _ => rfl
  simp only [ofBuf_toBuf, c1, c2, c3]
  subst hR
  rfl

/-- The second column, and the receiver rows, likewise. -/
theorem receiver_after (W : Valuation τ sig (Elt Ideal)) (R : (⟨S4x32768x256, .f32⟩ : BufTy).Contents (Elt Ideal))
    (hR : R = Cert.ReferenceIdeal.ReadP.val_main_v3 (F := Ideal) (W (Proc.devRef .tc main_arg0)) (W (Proc.devRef .tc main_arg3))) :
    StableHlo.after (hostOps0_3 (F := Ideal)) (StableHlo.after (hostOps0_2 (F := Ideal)) W) (Proc.devRef .tc main_v3) = R := by
  dsimp only [hostOps0_2, hostOps0_3]
  after_results_simp
  have c1 : ∀ p1 p2 p3 v, (StableHlo.TRef.of main_v2 p1 p2 p3 : StableHlo.TRef sig ⟨S4x32768x1, .i32⟩).ofBuf (Val := Elt Ideal) v = v := fun _ _ _ _ => rfl
  have c2 : ∀ p1 p2 p3 v, (StableHlo.TRef.of main_arg0 p1 p2 p3 : StableHlo.TRef sig ⟨S4x8192x256, .f32⟩).ofBuf (Val := Elt Ideal) v = v := fun _ _ _ _ => rfl
  have c3 : ∀ p1 p2 p3 v, (StableHlo.TRef.of main_v3 p1 p2 p3 : StableHlo.TRef sig ⟨S4x32768x256, .f32⟩).toBuf (Val := Elt Ideal) v = v := fun _ _ _ _ => rfl
  simp only [ofBuf_toBuf, c1, c2, c3]
  subst hR
  rfl

/-- The edge region's sender rows: the reference's sender stage of the launch's vertex features and edge indices. -/
theorem V5_main_v1 : V5 m c (Proc.devRef .tc main_v1)
    = Cert.ReferenceIdeal.ReadP.val_main_v1 (F := Ideal) (m ((c.tc : Thread nD τ).loc main_arg0)) (m ((c.tc : Thread nD τ).loc main_arg3)) :=
  (V5_of m c main_v1 (by decide)).trans <| (V4_of m c main_v1 (by decide)).trans <| (V3_of m c main_v1 (by decide)).trans <|
    sender_after (V0 m c) _ rfl

/-- The edge region's receiver rows: the reference's receiver stage of the same two arrays. -/
theorem V5_main_v3 : V5 m c (Proc.devRef .tc main_v3)
    = Cert.ReferenceIdeal.ReadP.val_main_v3 (F := Ideal) (m ((c.tc : Thread nD τ).loc main_arg0)) (m ((c.tc : Thread nD τ).loc main_arg3)) :=
  (V5_of m c main_v3 (by decide)).trans <| (receiver_after (V2 m c) _ rfl).trans <| by
    rw [V2_of m c main_arg0 (by decide), V1_of m c main_arg0 (by decide), V2_of m c main_arg3 (by decide), V1_of m c main_arg3 (by decide)]

/-! ## The global features with a unit axis, and the edge weights -/

/-- The last stretch before the edge region: a unit axis inserted into the global features. -/
theorem unitAxis_after (W : Valuation τ sig (Elt Ideal)) :
    StableHlo.after (hostOps0_4 (F := Ideal)) W (Proc.devRef .tc main_v4)
      = broadcastInDim S4x1x256 ![0, 2] bcast_S4x256_S4x1x256_0_2 (W (Proc.devRef .tc main_arg2)) := by
  dsimp only [hostOps0_4]
  after_results

/-- The same stretch: the edge weights in the narrower float format, which at the extended reals is the same array. -/
theorem weights_after (W : Valuation τ sig (Elt Ideal)) :
    StableHlo.after (hostOps0_4 (F := Ideal)) W (Proc.devRef .tc main_v5)
      = truncf (F := Ideal) .bf16 (W (Proc.devRef .tc main_arg8)) bitsLt_bf16_f32 := by
  dsimp only [hostOps0_4]
  after_results

theorem V4_arg2 : V4 m c (Proc.devRef .tc main_arg2) = m ((c.tc : Thread nD τ).loc main_arg2) :=
  (V4_of m c main_arg2 (by decide)).trans <| (V3_of m c main_arg2 (by decide)).trans <|
    (V2_of m c main_arg2 (by decide)).trans <| V1_of m c main_arg2 (by decide)
theorem V4_arg8 : V4 m c (Proc.devRef .tc main_arg8) = m ((c.tc : Thread nD τ).loc main_arg8) :=
  (V4_of m c main_arg8 (by decide)).trans <| (V3_of m c main_arg8 (by decide)).trans <|
    (V2_of m c main_arg8 (by decide)).trans <| V1_of m c main_arg8 (by decide)

/-- The edge region's global-feature input: batch `b`'s one row is the global features' row `b`. -/
theorem V5_main_v4 (b : Fin 4) (k : Fin 256) :
    (V5 m c (Proc.devRef .tc main_v4) : (⟨S4x1x256, .f32⟩ : BufTy).Contents (Elt Ideal)) (ix3 b 0 k)
      = (m ((c.tc : Thread nD τ).loc main_arg2) : (⟨S4x256, .f32⟩ : BufTy).Contents (Elt Ideal)) (ix2 b k) := by
  refine (congrFun (unitAxis_after (V4 m c)) (ix3 b 0 k)).trans ?_
  refine (broadcastInDim_apply _ _ _ (ix3 b 0 k) (ix2 b k) (fun a => match a with | ⟨0, _⟩ => rfl | ⟨1, _⟩ => rfl)).trans ?_
  rw [V4_arg2]

/-- The edge region's weight input is the edge weight argument, entry by entry. -/
theorem V5_main_v5 (k : Fin 1024) (d : Fin 256) :
    (V5 m c (Proc.devRef .tc main_v5) : (⟨S1024x256, .bf16⟩ : BufTy).Contents (Elt Ideal)) (ix2 k d)
      = (m ((c.tc : Thread nD τ).loc main_arg8) : (⟨S1024x256, .f32⟩ : BufTy).Contents (Elt Ideal)) (ix2 k d) := by
  refine (congrFun (weights_after (V4 m c)) (ix2 k d)).trans ?_
  rw [V4_arg8]
  rfl

end Cert.KernelIdeal.HostValue

end
-- ==== Proof.RefCat.lean ====
/-
  Pieces joined along the last axis, read at a feature.

  A row of `n` pieces of 256 features each has feature `k` equal to entry `k % 256` of piece `k / 256`: the
  joined array at row `(b, e)` and feature `256 q + r` is piece `q` at `(b, e, r)`. Stated for four pieces over
  32768 rows and for three pieces over 8192 rows, with the pieces as variables.
-/
import proofs.«143816_j32993938768001_1_alg».proof.ReferenceIdeal
import Idealize.ShloMosaic.Lib.Pipeline.Value
import Idealize.ShloMosaic.Lib.ValueIdx
import proofs.«143816_j32993938768001_1_alg».proof.Proof.Spec

noncomputable section

namespace Cert.ReferenceIdeal.RefValue

open Cert.ReferenceIdeal Idealize.ShloMosaic Idealize.ShloMosaic.ValueIdx

/-- The specification's four-piece row at feature `256 q + r` is piece `q` at `r`. -/
theorem cat4_at (p : Fin 4 → Fin 256 → EReal) (k : Fin 1024) (q : Fin 4) (r : Fin 256)
    (hk : k.val = 256 * q.val + r.val) : Spec.cat4 p k = p q r := by
  have h1 : (⟨k.val / 256, by omega⟩ : Fin 4) = q := Fin.ext (by show k.val / 256 = q.val; omega)
  have h2 : (⟨k.val % 256, Nat.mod_lt _ (by norm_num)⟩ : Fin 256) = r := Fin.ext (by show k.val % 256 = r.val; omega)
  unfold Spec.cat4
  rw [h1, h2]

/-- The specification's three-piece row at feature `256 q + r` is piece `q` at `r`. -/
theorem cat3_at (p : Fin 3 → Fin 256 → EReal) (k : Fin 768) (q : Fin 3) (r : Fin 256)
    (hk : k.val = 256 * q.val + r.val) : Spec.cat3 p k = p q r := by
  have h1 : (⟨k.val / 256, by omega⟩ : Fin 3) = q := Fin.ext (by show k.val / 256 = q.val; omega)
  have h2 : (⟨k.val % 256, Nat.mod_lt _ (by norm_num)⟩ : Fin 256) = r := Fin.ext (by show k.val % 256 = r.val; omega)
  unfold Spec.cat3
  rw [h1, h2]

/-- Four arrays of 256 features joined along the last axis, read at row `(b, e)`, feature `256 q + r`:
    array `q` at `(b, e, r)`. -/
theorem concat4_read (P0 P1 P2 P3 : S4x32768x256.Idx → EReal)
    (h : Shape.Concatenates (([⟨S4x32768x256, P0⟩, ⟨S4x32768x256, P1⟩, ⟨S4x32768x256, P2⟩, ⟨S4x32768x256, P3⟩] :
      List ((s : Shape) × (s.Idx → EReal))).map (·.1)) S4x32768x1024 2)
    (b : Fin 4) (e : Fin 32768) (q : Fin 4) (r : Fin 256) (k : Fin 1024) (hk : k.val = 256 * q.val + r.val) :
    concatenate S4x32768x1024 2 [⟨S4x32768x256, P0⟩, ⟨S4x32768x256, P1⟩, ⟨S4x32768x256, P2⟩, ⟨S4x32768x256, P3⟩] h (ix3 b e k)
      = (![P0, P1, P2, P3] q) (ix3 b e r) := by
  have off : ∀ a : Fin S4x32768x256.rank, a.cast (rfl : S4x32768x256.rank = S4x32768x1024.rank) ≠ (2 : Fin S4x32768x1024.rank) →
      ((ix3 b e r : S4x32768x256.Idx) a).val = ((ix3 b e k : S4x32768x1024.Idx) (a.cast rfl)).val := fun a ha => by
    match a with
    | ⟨0, _⟩ => rfl
    | ⟨1, _⟩ => rfl
    | ⟨2, _⟩ => exact absurd rfl ha
  match q with
  | ⟨0, _⟩ =>
    refine concatenate_apply_piece (2 : Fin S4x32768x1024.rank) _ h (ix3 b e k) 0 (by show (0 : Nat) < 4; decide) S4x32768x256 P0 rfl rfl 0 rfl (ix3 b e r) off ?_
    have hk' : k.val = 256 * 0 + r.val := hk
    show 0 + r.val = k.val
    omega
  | ⟨1, _⟩ =>
    refine concatenate_apply_piece (2 : Fin S4x32768x1024.rank) _ h (ix3 b e k) 1 (by show (1 : Nat) < 4; decide) S4x32768x256 P1 rfl rfl 256 rfl (ix3 b e r) off ?_
    have hk' : k.val = 256 * 1 + r.val := hk
    show 256 + r.val = k.val
    omega
  | ⟨2, _⟩ =>
    refine concatenate_apply_piece (2 : Fin S4x32768x1024.rank) _ h (ix3 b e k) 2 (by show (2 : Nat) < 4; decide) S4x32768x256 P2 rfl rfl 512 rfl (ix3 b e r) off ?_
    have hk' : k.val = 256 * 2 + r.val := hk
    show 512 + r.val = k.val
    omega
  | ⟨3, _⟩ =>
    refine concatenate_apply_piece (2 : Fin S4x32768x1024.rank) _ h (ix3 b e k) 3 (by show (3 : Nat) < 4; decide) S4x32768x256 P3 rfl rfl 768 rfl (ix3 b e r) off ?_
    have hk' : k.val = 256 * 3 + r.val := hk
    show 768 + r.val = k.val
    omega

/-- Three arrays of 256 features joined along the last axis, read at row `(b, n)`, feature `256 q + r`:
    array `q` at `(b, n, r)`. -/
theorem concat3_read (P0 P1 P2 : S4x8192x256.Idx → EReal)
    (h : Shape.Concatenates (([⟨S4x8192x256, P0⟩, ⟨S4x8192x256, P1⟩, ⟨S4x8192x256, P2⟩] :
      List ((s : Shape) × (s.Idx → EReal))).map (·.1)) S4x8192x768 2)
    (b : Fin 4) (n : Fin 8192) (q : Fin 3) (r : Fin 256) (k : Fin 768) (hk : k.val = 256 * q.val + r.val) :
    concatenate S4x8192x768 2 [⟨S4x8192x256, P0⟩, ⟨S4x8192x256, P1⟩, ⟨S4x8192x256, P2⟩] h (ix3 b n k)
      = (![P0, P1, P2] q) (ix3 b n r) := by
  have off : ∀ a : Fin S4x8192x256.rank, a.cast (rfl : S4x8192x256.rank = S4x8192x768.rank) ≠ (2 : Fin S4x8192x768.rank) →
      ((ix3 b n r : S4x8192x256.Idx) a).val = ((ix3 b n k : S4x8192x768.Idx) (a.cast rfl)).val := fun a ha => by
    match a with
    | ⟨0, _⟩ => rfl
    | ⟨1, _⟩ => rfl
    | ⟨2, _⟩ => exact absurd rfl ha
  match q with
  | ⟨0, _⟩ =>
    refine concatenate_apply_piece (2 : Fin S4x8192x768.rank) _ h (ix3 b n k) 0 (by show (0 : Nat) < 3; decide) S4x8192x256 P0 rfl rfl 0 rfl (ix3 b n r) off ?_
    have hk' : k.val = 256 * 0 + r.val := hk
    show 0 + r.val = k.val
    omega
  | ⟨1, _⟩ =>
    refine concatenate_apply_piece (2 : Fin S4x8192x768.rank) _ h (ix3 b n k) 1 (by show (1 : Nat) < 3; decide) S4x8192x256 P1 rfl rfl 256 rfl (ix3 b n r) off ?_
    have hk' : k.val = 256 * 1 + r.val := hk
    show 256 + r.val = k.val
    omega
  | ⟨2, _⟩ =>
    refine concatenate_apply_piece (2 : Fin S4x8192x768.rank) _ h (ix3 b n k) 2 (by show (2 : Nat) < 3; decide) S4x8192x256 P2 rfl rfl 512 rfl (ix3 b n r) off ?_
    have hk' : k.val = 256 * 2 + r.val := hk
    show 512 + r.val = k.val
    omega

end Cert.ReferenceIdeal.RefValue

end
-- ==== Proof.RefEdgeDense.lean ====
/-
  The edge update's dense row, read off the reference's stages.

  Row `(b, e)` of the reference's joined input is the four-piece row of the specification: the edge's own features, the
  sender's and the receiver's gathered vertex features (kept as the stages that produce them), and the batch's global
  features. The contraction with the weights, the bias, the maximum with the zero word and the residual then give the
  specification's dense row.
-/
import proofs.«143816_j32993938768001_1_alg».proof.Proof.RefReadP
import proofs.«143816_j32993938768001_1_alg».proof.Proof.Spec
import proofs.«143816_j32993938768001_1_alg».proof.Proof.RefCat

noncomputable section

namespace Cert.ReferenceIdeal.RefValue

open Cert.ReferenceIdeal Cert.ReferenceIdeal.Gen Cert.ReferenceIdeal.ReadP Idealize.ShloMosaic Idealize.ShloMosaic.ValueIdx

/-- The global features broadcast over the rows, read at `(b, e, r')`: the global feature `(b, r')`. -/
theorem edge_global_read (x2 : (⟨S4x256, .f32⟩ : BufTy).Contents (Elt Ideal)) (b : Fin 4) (e : Fin 32768) (r' : Fin 256) :
    val_main_v5 (F := Ideal) x2 (ix3 b e r') = x2 (ix2 b r') := by
  rw [val_main_v5_apply, val_main_v4_apply]
  exact congrArg x2 (funext fun a => Fin.ext (by match a with | ⟨0, _⟩ => rfl | ⟨1, _⟩ => rfl))

/-- The joined edge input at row `(b, e)`, feature `k`: the specification's four-piece row. -/
theorem edge_cat_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (b : Fin 4) (e : Fin 32768) (k : Fin 1024) :
    val_main_v6 (F := Ideal) x0 x1 x2 x3 (ix3 b e k) = Spec.cat4 (fun p => ![fun k => x1 (ix3 b e k), fun k => val_main_v1 (F := Ideal) x0 x3 (ix3 b e k), fun k => val_main_v3 (F := Ideal) x0 x3 (ix3 b e k), fun k => x2 (ix2 b k)] p) k := by
  obtain ⟨q, r', hk⟩ : ∃ (q : Fin 4) (r' : Fin 256), k.val = 256 * q.val + r'.val :=
    ⟨⟨k.val / 256, by omega⟩, ⟨k.val % 256, Nat.mod_lt _ (by norm_num)⟩, (Nat.div_add_mod _ _).symm⟩
  unfold val_main_v6
  rw [cat4_at _ k q r' hk]
  refine (concat4_read x1 (val_main_v1 (F := Ideal) x0 x3) (val_main_v3 (F := Ideal) x0 x3) (val_main_v5 (F := Ideal) x2) _ b e q r' k hk).trans ?_
  match q with
  | ⟨0, _⟩ => rfl
  | ⟨1, _⟩ => rfl
  | ⟨2, _⟩ => rfl
  | ⟨3, _⟩ => exact edge_global_read x2 b e r'

/-- The edge update before normalisation, at `(b, e, d)`: the specification's dense row. -/
theorem edge_dense_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x8 : (⟨S1024x256, .f32⟩ : BufTy).Contents (Elt Ideal)) (x9 : (⟨S256, .f32⟩ : BufTy).Contents (Elt Ideal)) (b : Fin 4) (e : Fin 32768) (d : Fin 256) :
    val_main_v12 (F := Ideal) x0 x1 x2 x3 x8 x9 (ix3 b e d)
      = Spec.dense (Spec.cat4 (fun p => ![fun k => x1 (ix3 b e k), fun k => val_main_v1 (F := Ideal) x0 x3 (ix3 b e k), fun k => val_main_v3 (F := Ideal) x0 x3 (ix3 b e k), fun k => x2 (ix2 b k)] p)) (fun k e' => x8 (ix2 k e')) (fun e' => x9 (ix1 e')) (fun e' => x1 (ix3 b e e')) d := by
  have hl : ∀ k : Fin 1024, lidx_main_v7 (ix3 b e d) k = ix3 b e k := fun k =>
    funext fun a => Fin.ext (by match a with | ⟨0, _⟩ => rfl | ⟨1, _⟩ => rfl | ⟨2, _⟩ => rfl)
  have hr : ∀ k : Fin 1024, ridx_main_v7 (ix3 b e d) k = ix2 k d := fun k =>
    funext fun a => Fin.ext (by match a with | ⟨0, _⟩ => rfl | ⟨1, _⟩ => rfl)
  have hb : idx_main_v8 (idx_main_v9 (ix3 b e d)) = ix1 d :=
    funext fun a => Fin.ext (by match a with | ⟨0, _⟩ => rfl)
  rw [val_main_v12_apply, val_main_v11_apply, val_main_v10_apply, val_main_v7_apply, val_main_v9_apply, val_main_v8_apply,
    val_main_call2_v0_apply, val_main_call2_cst_apply, hb]
  simp only [hl, hr, edge_cat_read, Ideal.addf_def, Ideal.maximumf_def, Ideal.ofBits_def]
  rfl

end Cert.ReferenceIdeal.RefValue

end
-- ==== Proof.RefEdgeLn.lean ====
/-
  The edge update's layer normalisation, read off the reference's stages.

  With `h` the row `(b, e)` of the edge update before normalisation: the row's sum divided by the word of 256 is the
  specification's mean (the sum's initial value is the zero word, which is 0); the sum of the squared centred entries
  divided by the same word is its variance; and the result is
  `(h d − mean) · rsqrt (variance + ε) · gain d + offset d`, the specification's normalised row.
-/
import proofs.«143816_j32993938768001_1_alg».proof.Proof.RefReadP
import proofs.«143816_j32993938768001_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- The row mean of the edge update, at `(b, e)`. -/
theorem edge_mean_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x8 : (⟨S1024x256, .f32⟩ : BufTy).Contents (Elt Ideal)) (x9 : (⟨S256, .f32⟩ : BufTy).Contents (Elt Ideal)) (b : Fin 4) (e : Fin 32768) (z : Fin 1) :
    val_main_v16 (F := Ideal) x0 x1 x2 x3 x8 x9 (ix3 b e z) = Spec.mean (fun d' => val_main_v12 (F := Ideal) x0 x1 x2 x3 x8 x9 (ix3 b e d')) := by
  have hi : ∀ k : Fin 256, idx_main_v13 (idx_main_v14 (ix3 b e z)) k = ix3 b e k := fun k =>
    funext fun a => Fin.ext (by match a with | ⟨0, _⟩ => rfl | ⟨1, _⟩ => rfl | ⟨2, _⟩ => rfl)
  rw [val_main_v16_apply, val_main_v14_apply, val_main_v13_apply, val_main_v15_apply, val_main_cst_0_apply, val_main_cst_apply]
  simp only [hi, Ideal.hostDivf_def, Ideal.ofBits_def, Ideal.ofBits_zero_f32, zero_add]
  rfl

/-- The centred edge update, at `(b, e, d)`. -/
theorem edge_centred_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x8 : (⟨S1024x256, .f32⟩ : BufTy).Contents (Elt Ideal)) (x9 : (⟨S256, .f32⟩ : BufTy).Contents (Elt Ideal)) (b : Fin 4) (e : Fin 32768) (d : Fin 256) :
    val_main_v18 (F := Ideal) x0 x1 x2 x3 x8 x9 (ix3 b e d) = val_main_v12 (F := Ideal) x0 x1 x2 x3 x8 x9 (ix3 b e d) - Spec.mean (fun d' => val_main_v12 (F := Ideal) x0 x1 x2 x3 x8 x9 (ix3 b e d')) := by
  have hm : idx_main_v17 (ix3 b e d) = ix3 b e (0 : Fin 1) :=
    funext fun a => Fin.ext (by match a with | ⟨0, _⟩ => rfl | ⟨1, _⟩ => rfl | ⟨2, _⟩ => rfl)
  rw [val_main_v18_apply, val_main_v17_apply, hm, edge_mean_read, Ideal.subf_def]

/-- The row variance of the edge update, at `(b, e)`. -/
theorem edge_var_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x8 : (⟨S1024x256, .f32⟩ : BufTy).Contents (Elt Ideal)) (x9 : (⟨S256, .f32⟩ : BufTy).Contents (Elt Ideal)) (b : Fin 4) (e : Fin 32768) (z : Fin 1) :
    val_main_v23 (F := Ideal) x0 x1 x2 x3 x8 x9 (ix3 b e z)
      = Spec.mean (fun d' => (val_main_v12 (F := Ideal) x0 x1 x2 x3 x8 x9 (ix3 b e d') - Spec.mean (fun d' => val_main_v12 (F := Ideal) x0 x1 x2 x3 x8 x9 (ix3 b e d')))
          * (val_main_v12 (F := Ideal) x0 x1 x2 x3 x8 x9 (ix3 b e d') - Spec.mean (fun d' => val_main_v12 (F := Ideal) x0 x1 x2 x3 x8 x9 (ix3 b e d')))) := by
  have hi : ∀ k : Fin 256, idx_main_v20 (idx_main_v21 (ix3 b e z)) k = ix3 b e k := fun k =>
    funext fun a => Fin.ext (by match a with | ⟨0, _⟩ => rfl | ⟨1, _⟩ => rfl | ⟨2, _⟩ => rfl)
  rw [val_main_v23_apply, val_main_v21_apply, val_main_v20_apply, val_main_v22_apply, val_main_cst_2_apply, val_main_cst_1_apply]
  simp only [hi, val_main_v19_apply, edge_centred_read, Ideal.mulf_def, Ideal.hostDivf_def, Ideal.ofBits_def, Ideal.ofBits_zero_f32, zero_add]
  rfl

/-- The normalised edge update, at `(b, e, d)`: the specification's layer normalisation of the row before it. -/
theorem edge_norm_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x8 : (⟨S1024x256, .f32⟩ : BufTy).Contents (Elt Ideal)) (x9 : (⟨S256, .f32⟩ : BufTy).Contents (Elt Ideal)) (x10 x11 : (⟨S256, .f32⟩ : BufTy).Contents (Elt Ideal)) (b : Fin 4) (e : Fin 32768) (d : Fin 256) :
    val_main_v36 (F := Ideal) x0 x1 x2 x3 x8 x9 x10 x11 (ix3 b e d)
      = Spec.layerNorm (fun d' => val_main_v12 (F := Ideal) x0 x1 x2 x3 x8 x9 (ix3 b e d')) (fun e' => x10 (ix1 e')) (fun e' => x11 (ix1 e')) d := by
  have hm : idx_main_v24 (ix3 b e d) = ix3 b e (0 : Fin 1) :=
    funext fun a => Fin.ext (by match a with | ⟨0, _⟩ => rfl | ⟨1, _⟩ => rfl | ⟨2, _⟩ => rfl)
  have hs : idx_main_v29 (ix3 b e d) = ix3 b e (0 : Fin 1) :=
    funext fun a => Fin.ext (by match a with | ⟨0, _⟩ => rfl | ⟨1, _⟩ => rfl | ⟨2, _⟩ => rfl)
  have hg : idx_main_v31 (idx_main_v32 (ix3 b e d)) = ix1 d :=
    funext fun a => Fin.ext (by match a with | ⟨0, _⟩ => rfl)
  have ho : idx_main_v34 (idx_main_v35 (ix3 b e d)) = ix1 d :=
    funext fun a => Fin.ext (by match a with | ⟨0, _⟩ => rfl)
  have he : val_main_v26 (F := Ideal) (ix3 b e (0 : Fin 1)) = Spec.eps := by
    rw [val_main_v26_apply, val_main_cst_3_apply, Ideal.ofBits_def]
  rw [val_main_v36_apply, val_main_v33_apply, val_main_v30_apply, val_main_v25_apply, val_main_v24_apply, val_main_v29_apply,
    val_main_v28_apply, val_main_v27_apply, val_main_v32_apply, val_main_v31_apply, val_main_v35_apply, val_main_v34_apply,
    hm, hs, hg, ho, he, edge_mean_read, edge_var_read]
  simp only [Ideal.addf_def, Ideal.mulf_def, Ideal.subf_def, Ideal.hostUnary_rsqrt_def]
  rfl

end Cert.ReferenceIdeal.RefValue

end
-- ==== Proof.RefEdge.lean ====
/-
  The reference's new edge features are the specification's dense layer, residual and layer normalisation, row by row.

  The sender's and the receiver's vertex features enter as the two gather stages applied to the vertex features and
  the edge index array; they are not opened.
-/
import proofs.«143816_j32993938768001_1_alg».proof.Proof.RefReadP
import proofs.«143816_j32993938768001_1_alg».proof.Proof.Spec
import proofs.«143816_j32993938768001_1_alg».proof.Proof.RefEdgeDense
import proofs.«143816_j32993938768001_1_alg».proof.Proof.RefEdgeLn

noncomputable section

namespace Cert.ReferenceIdeal.RefValue

open Cert.ReferenceIdeal Cert.ReferenceIdeal.Gen Cert.ReferenceIdeal.ReadP Idealize.ShloMosaic Idealize.ShloMosaic.ValueIdx

/-- The reference's new edge features at `(b, e, d)`. -/
theorem edges_new_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x8 : (⟨S1024x256, .f32⟩ : BufTy).Contents (Elt Ideal)) (x9 : (⟨S256, .f32⟩ : BufTy).Contents (Elt Ideal)) (x10 x11 : (⟨S256, .f32⟩ : BufTy).Contents (Elt Ideal)) (b : Fin 4) (e : Fin 32768) (d : Fin 256) :
    val_main_v36 (F := Ideal) x0 x1 x2 x3 x8 x9 x10 x11 (ix3 b e d)
      = Spec.mlpLn (Spec.cat4 (fun p => ![fun k => x1 (ix3 b e k), fun k => val_main_v1 (F := Ideal) x0 x3 (ix3 b e k), fun k => val_main_v3 (F := Ideal) x0 x3 (ix3 b e k), fun k => x2 (ix2 b k)] p)) (fun k e' => x8 (ix2 k e')) (fun e' => x9 (ix1 e')) (fun e' => x1 (ix3 b e e'))
          (fun e' => x10 (ix1 e')) (fun e' => x11 (ix1 e')) d := by
  rw [edge_norm_read]
  unfold Spec.mlpLn
  exact congrArg (fun h => Spec.layerNorm h (fun e' => x10 (ix1 e')) (fun e' => x11 (ix1 e')) d)
    (funext fun d' => edge_dense_read x0 x1 x2 x3 x8 x9 b e d')

end Cert.ReferenceIdeal.RefValue

end
-- ==== Proof.BridgeEdge.lean ====
/-
  The edge region's two results are the reference's: the new edge features, and their column sums per batch.

  After the region the edge output array holds every row's update over the arrays the region found (the sender and
  receiver rows are the reference's own gather stages of the arguments, the global row is the global features' row, the
  weights are the weight argument, and the other inputs are arguments), which is the reference's new edge features row by
  row; and the running-sum array holds, per batch and feature, the sum of those rows — the reference's column sum.
-/
import proofs.«143816_j32993938768001_1_alg».proof.Proof.FrameKI
import proofs.«143816_j32993938768001_1_alg».proof.Proof.EdgeArray
import proofs.«143816_j32993938768001_1_alg».proof.Proof.HostGlue0
import proofs.«143816_j32993938768001_1_alg».proof.Proof.RefEdge
import proofs.«143816_j32993938768001_1_alg».proof.Proof.RefGlobal

set_option maxRecDepth 16384

open scoped BigOperators

noncomputable section

namespace Cert.KernelIdeal.Bridge

open Cert.KernelIdeal Cert.KernelIdeal.Gen Cert.KernelIdeal.Hand Cert.KernelIdeal.EdgeValue Cert.KernelIdeal.HostValue
open Idealize.ShloMosaic Idealize.ShloMosaic.TcCoe Idealize.ShloMosaic.ValueIdx Idealize.SL.Sem

variable (m : (ℓ : Loc nD τ sig) → Buf (Elt Ideal) ℓ) (c : Dev nD)

/-- Row `e` of batch `b`, updated over the arrays the edge region finds, is the reference's new edge features there. -/
theorem edgeRow_eq (b : Fin 4) (e : Fin 32768) (d : Fin 256) :
    edgeRow (VE0 m) c b e d
      = Cert.ReferenceIdeal.ReadP.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (ix3 b e d) := by
  rw [Cert.ReferenceIdeal.RefValue.edges_new_read]
  unfold edgeRow
  dsimp only [VE0]
  rw [V5_arg1 m c, V5_arg9 m c, V5_arg10 m c, V5_arg11 m c, V5_main_v1 m c, V5_main_v3 m c]
  have h4 : (fun k : Fin 256 => (V5 m c (Proc.devRef .tc main_v4) : (⟨S4x1x256, .f32⟩ : BufTy).Contents (Elt Ideal)) (ix3 b (0 : Fin 1) k))
      = fun k => (m ((c.tc : Thread nD τ).loc main_arg2) : (⟨S4x256, .f32⟩ : BufTy).Contents (Elt Ideal)) (ix2 b k) :=
    funext fun k => V5_main_v4 m c b k
  have h5 : (fun (k : Fin 1024) (f : Fin 256) => (V5 m c (Proc.devRef .tc main_v5) : (⟨S1024x256, .bf16⟩ : BufTy).Contents (Elt Ideal)) (ix2 k f))
      = fun k f => (m ((c.tc : Thread nD τ).loc main_arg8) : (⟨S1024x256, .f32⟩ : BufTy).Contents (Elt Ideal)) (ix2 k f) :=
    funext fun k => funext fun f => V5_main_v5 m c k f
  rw [h4, h5]

/-- The edge output after the region is the reference's new edge features. -/
theorem edges_eq :
    WX0 m c (Proc.devRef .tc main_v6_0)
      = Cert.ReferenceIdeal.ReadP.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) := by
  refine (WX0_arr m c 8).trans ?_
  rw [final0_8]
  funext i
  obtain ⟨b, e, d, rfl⟩ : ∃ (b : Fin 4) (e : Fin 32768) (d : Fin 256), i = ix3 b e d := ⟨i 0, i 1, i 2, eq_ix3 i⟩
  exact edgeRow_eq m c b e d

/-- The running-sum array after the region is, per batch and feature, the reference's column sum of the new edge features. -/
theorem edge_sums_eq (b : Fin 4) (d : Fin 256) :
    WX0 m c (Proc.devRef .tc main_v6_1) (ix3 b 0 d)
      = Cert.ReferenceIdeal.ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (ix2 b d) := by
  have h1 : (WX0 m c (Proc.devRef .tc main_v6_1) (ix3 b 0 d) : EReal) = edgeSum (VE0 m) c b d :=
    (congrFun (WX0_arr m c 9) (ix3 b 0 d)).trans (final0_9_apply (VE0 m) c b 0 d)
  have h2 : edgeSum (VE0 m) c b d
      = Cert.ReferenceIdeal.ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)) (ix2 b d) := by
    rw [Cert.ReferenceIdeal.RefValue.edge_sum_read]
    unfold edgeSum
    exact Finset.sum_congr rfl fun e _ => edgeRow_eq m c b e d
  exact h1.trans h2

end Cert.KernelIdeal.Bridge

end
-- ==== Proof.NodePieces.lean ====
/-
  What the node region's body leaves in its two output buffers, per control case, as values: the stored tile is the
  normalised-rows payload of the loaded blocks (the residual is the first block again), and the running sum is the
  accumulator payload over what the buffer held — the zero payload at a batch's first tile, where the body has just
  cleared it, the carried value otherwise.
-/
import proofs.«143816_j32993938768001_1_alg».proof.Proof.NodeRunKI
import Idealize.ShloMosaic.Lib.Pipeline.Value
import Idealize.ShloMosaic.Lib.Tactic

set_option maxRecDepth 16384

noncomputable section

namespace Cert.KernelIdeal.NodeValue

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A first tile: the one store into the node output's buffer leaves the normalised rows of the loaded blocks. -/
theorem piecesA_7 (c : Dev nD) (i : grid1.Coords)
    (a2 : Memref sig .tc .vmem S1x1024x256 .f32) (h2 : a2.IsWhole) (a3 : Memref sig .tc .vmem S1x1024x256 .f32) (h3 : a3.IsWhole)
    (a4 : Memref sig .tc .vmem S1x1x256 .f32) (h4 : a4.IsWhole) (a5 : Memref sig .tc .vmem S768x256 .bf16) (h5 : a5.IsWhole)
    (a6 : Memref sig .tc .vmem S256 .f32) (h6 : a6.IsWhole) (a7 : Memref sig .tc .vmem S256 .f32) (h7 : a7.IsWhole)
    (a8 : Memref sig .tc .vmem S256 .f32) (h8 : a8.IsWhole)
    (a9 : Memref sig .tc .vmem S1x1024x256 .f32) (h9 : a9.IsWhole) (a10 : Memref sig .tc .vmem S1x1x256 .f32) (h10 : a10.IsWhole)
    (hc : cond1 i) (x0 x1 : Vec F S1x1024x256 .f32) (x2 : Vec F S1x1x256 .f32) (x3 : Vec F S768x256 .bf16) (x4 x5 x6 : Vec F S256 .f32) :
    View.canon (kernelRun1_A (F := F) c i a2 h2 a3 h3 a4 h4 a5 h5 a6 h6 a7 h7 a8 h8 a9 h9 a10 h10 hc x0 x1 x2 x3 x4 x5 x6).1.1
      = k1_pay2 (k1_pay7 x0 x1 x2 x3 x4 x0) (k1_pay8 x0 x1 x2 x3 x4 x0) (Scalar.ofBits .f32 0x3A83126F#32) x5 x6 := by
  unfold kernelRun1_A
  dsimp only
  sl_unfold_words
  rw [View.canon_unit_zero hz3]
  simp only [View.readAt_eq_ld, h2.read_unread, h3.read_unread, h4.read_unread, h5.read_unread, h6.read_unread, h7.read_unread,
    h8.read_unread, h10.read_unread, View.ld_unit_zero (S := S1x1024x256) hz3, View.ld_unit_zero (S := S1x1x256) hz3,
    View.ld_unit_zero (S := S768x256) hz2, View.ld_unit_zero (S := S256) hz1]

/-- A first tile: the running sum is cleared, read back, and gains the tile's column sums. -/
theorem piecesA_8 (c : Dev nD) (i : grid1.Coords)
    (a2 : Memref sig .tc .vmem S1x1024x256 .f32) (h2 : a2.IsWhole) (a3 : Memref sig .tc .vmem S1x1024x256 .f32) (h3 : a3.IsWhole)
    (a4 : Memref sig .tc .vmem S1x1x256 .f32) (h4 : a4.IsWhole) (a5 : Memref sig .tc .vmem S768x256 .bf16) (h5 : a5.IsWhole)
    (a6 : Memref sig .tc .vmem S256 .f32) (h6 : a6.IsWhole) (a7 : Memref sig .tc .vmem S256 .f32) (h7 : a7.IsWhole)
    (a8 : Memref sig .tc .vmem S256 .f32) (h8 : a8.IsWhole)
    (a9 : Memref sig .tc .vmem S1x1024x256 .f32) (h9 : a9.IsWhole) (a10 : Memref sig .tc .vmem S1x1x256 .f32) (h10 : a10.IsWhole)
    (hc : cond1 i) (x0 x1 : Vec F S1x1024x256 .f32) (x2 : Vec F S1x1x256 .f32) (x3 : Vec F S768x256 .bf16) (x4 x5 x6 : Vec F S256 .f32) :
    View.canon (kernelRun1_A (F := F) c i a2 h2 a3 h3 a4 h4 a5 h5 a6 h6 a7 h7 a8 h8 a9 h9 a10 h10 hc x0 x1 x2 x3 x4 x5 x6).1.2
      = k1_pay4 (k1_pay7 x0 x1 x2 x3 x4 x0) (k1_pay8 x0 x1 x2 x3 x4 x0) (Scalar.ofBits .f32 0x3A83126F#32) x5 x6 (k1_pay3 (F := F)) := by
  unfold kernelRun1_A
  dsimp only
  sl_unfold_words
  rw [View.canon_cons_unit_zero (S := S1x1x256) hz3, View.readCov_unit_zero (S := S1x1x256) _ hz3]
  simp only [View.readAt_eq_ld, h2.read_unread, h3.read_unread, h4.read_unread, h5.read_unread, h6.read_unread, h7.read_unread,
    h8.read_unread, h10.read_unread, View.ld_unit_zero (S := S1x1024x256) hz3, View.ld_unit_zero (S := S1x1x256) hz3,
    View.ld_unit_zero (S := S768x256) hz2, View.ld_unit_zero (S := S256) hz1]

/-- A later tile: the one store into the node output's buffer leaves the normalised rows of the loaded blocks. -/
theorem piecesB_7 (c : Dev nD) (i : grid1.Coords)
    (a2 : Memref sig .tc .vmem S1x1024x256 .f32) (h2 : a2.IsWhole) (a3 : Memref sig .tc .vmem S1x1024x256 .f32) (h3 : a3.IsWhole)
    (a4 : Memref sig .tc .vmem S1x1x256 .f32) (h4 : a4.IsWhole) (a5 : Memref sig .tc .vmem S768x256 .bf16) (h5 : a5.IsWhole)
    (a6 : Memref sig .tc .vmem S256 .f32) (h6 : a6.IsWhole) (a7 : Memref sig .tc .vmem S256 .f32) (h7 : a7.IsWhole)
    (a8 : Memref sig .tc .vmem S256 .f32) (h8 : a8.IsWhole)
    (a9 : Memref sig .tc .vmem S1x1024x256 .f32) (h9 : a9.IsWhole) (a10 : Memref sig .tc .vmem S1x1x256 .f32) (h10 : a10.IsWhole)
    (hc : ¬cond1 i) (x0 x1 : Vec F S1x1024x256 .f32) (x2 : Vec F S1x1x256 .f32) (x3 : Vec F S768x256 .bf16) (x4 x5 x6 : Vec F S256 .f32) (xo : Vec F S1x1x256 .f32) :
    View.canon (kernelRun1_B (F := F) c i a2 h2 a3 h3 a4 h4 a5 h5 a6 h6 a7 h7 a8 h8 a9 h9 a10 h10 hc x0 x1 x2 x3 x4 x5 x6 xo).1.1
      = k1_pay2 (k1_pay7 x0 x1 x2 x3 x4 x0) (k1_pay8 x0 x1 x2 x3 x4 x0) (Scalar.ofBits .f32 0x3A83126F#32) x5 x6 := by
  unfold kernelRun1_B
  dsimp only
  sl_unfold_words
  rw [View.canon_unit_zero hz3]
  simp only [View.readAt_eq_ld, h2.read_unread, h3.read_unread, h4.read_unread, h5.read_unread, h6.read_unread, h7.read_unread,
    h8.read_unread, h10.read_unread, View.ld_unit_zero (S := S1x1024x256) hz3, View.ld_unit_zero (S := S1x1x256) hz3,
    View.ld_unit_zero (S := S768x256) hz2, View.ld_unit_zero (S := S256) hz1]

/-- A later tile: the running sum found, `xo`, gains the tile's column sums. -/
theorem piecesB_8 (c : Dev nD) (i : grid1.Coords)
    (a2 : Memref sig .tc .vmem S1x1024x256 .f32) (h2 : a2.IsWhole) (a3 : Memref sig .tc .vmem S1x1024x256 .f32) (h3 : a3.IsWhole)
    (a4 : Memref sig .tc .vmem S1x1x256 .f32) (h4 : a4.IsWhole) (a5 : Memref sig .tc .vmem S768x256 .bf16) (h5 : a5.IsWhole)
    (a6 : Memref sig .tc .vmem S256 .f32) (h6 : a6.IsWhole) (a7 : Memref sig .tc .vmem S256 .f32) (h7 : a7.IsWhole)
    (a8 : Memref sig .tc .vmem S256 .f32) (h8 : a8.IsWhole)
    (a9 : Memref sig .tc .vmem S1x1024x256 .f32) (h9 : a9.IsWhole) (a10 : Memref sig .tc .vmem S1x1x256 .f32) (h10 : a10.IsWhole)
    (hc : ¬cond1 i) (x0 x1 : Vec F S1x1024x256 .f32) (x2 : Vec F S1x1x256 .f32) (x3 : Vec F S768x256 .bf16) (x4 x5 x6 : Vec F S256 .f32) (xo : Vec F S1x1x256 .f32) :
    View.canon (kernelRun1_B (F := F) c i a2 h2 a3 h3 a4 h4 a5 h5 a6 h6 a7 h7 a8 h8 a9 h9 a10 h10 hc x0 x1 x2 x3 x4 x5 x6 xo).1.2
      = k1_pay4 (k1_pay7 x0 x1 x2 x3 x4 x0) (k1_pay8 x0 x1 x2 x3 x4 x0) (Scalar.ofBits .f32 0x3A83126F#32) x5 x6 xo := by
  unfold kernelRun1_B
  dsimp only
  sl_unfold_words
  rw [View.canon_unit_zero hz3]
  simp only [View.readAt_eq_ld, h2.read_unread, h3.read_unread, h4.read_unread, h5.read_unread, h6.read_unread, h7.read_unread,
    h8.read_unread, h10.read_unread, View.ld_unit_zero (S := S1x1024x256) hz3, View.ld_unit_zero (S := S1x1x256) hz3,
    View.ld_unit_zero (S := S768x256) hz2, View.ld_unit_zero (S := S256) hz1]

end Cert.KernelIdeal.NodeValue

end
-- ==== Proof.PayNode.lean ====
/-
  The node update's arithmetic, read at an index, over the extended reals.

  The body works on one tile of 1024 rows. Its pre-normalisation value at `(r, d)` is the dense layer's row `r` at
  feature `d` (`k1_pay5_apply`): the input row is the concatenation of the two loaded rows and the one global row,
  the product with the weights into the zero accumulator is the plain sum over the 768 features, a change of float
  format is the identity, and bias, relu and residual are pointwise. The row statistics are kept as columns: the row
  mean (`k1_pay6_apply`) and the row's variance (`k1_pay7_apply`); the centred tile is `k1_pay8_apply`. The stored
  tile is the layer normalisation of that row (`k1_pay2_apply`), the accumulator gains the tile's column sums
  (`k1_pay4_apply`), and the accumulator's first value is zero (`k1_pay3_apply`).
-/
import proofs.«143816_j32993938768001_1_alg».proof.Proof.Spec
import proofs.«143816_j32993938768001_1_alg».proof.Proof.LibKeepdims
import proofs.«143816_j32993938768001_1_alg».proof.Proof.Gen.KernelIdeal.Skeleton

open scoped BigOperators

noncomputable section

namespace Cert.KernelIdeal.PayValue

open Idealize.ShloMosaic Idealize.ShloMosaic.ValueIdx Cert.KernelIdeal Cert.KernelIdeal.Gen Cert.LibKeepdims

/-- Three `[1024, 256]` pieces side by side along the columns: column `k` of row `r` is entry `k % 256` of row `r`
    of piece `k / 256`. -/
theorem concat3_apply (v0 v1 v2 : FVec Ideal S1024x256 .f32) (r : Fin 1024) (k : Fin 768) :
    concatenate S1024x768 1 [⟨S1024x256, v0⟩, ⟨S1024x256, v1⟩, ⟨S1024x256, v2⟩]
        concatenates_S1024x256_S1024x256_S1024x256_S1024x768_d1 (ix2 r k)
      = Spec.cat3 (fun p => ![fun e => v0 (ix2 r e), fun e => v1 (ix2 r e), fun e => v2 (ix2 r e)] p) k := by
  have hk := k.isLt
  have hm : k.val % 256 < 256 := Nat.mod_lt _ (by norm_num)
  unfold Spec.cat3
  rcases (by omega : k.val / 256 = 0 ∨ k.val / 256 = 1 ∨ k.val / 256 = 2) with h | h | h
  · refine (concatenate_apply_piece (1 : Fin S1024x768.rank) _ _ (ix2 r k) 0 (by show (0 : ℕ) < 3; omega) S1024x256 v0 rfl rfl 0 rfl
      (ix2 r ⟨k.val % 256, hm⟩) (fun b hb => ?_) ?_).trans ?_
    · match b with
      | ⟨0, _⟩ => rfl
      | ⟨1, _⟩ => exact absurd rfl hb
    · show 0 + k.val % 256 = k.val
      omega
    · simp only [h]; rfl
  · refine (concatenate_apply_piece (1 : Fin S1024x768.rank) _ _ (ix2 r k) 1 (by show (1 : ℕ) < 3; omega) S1024x256 v1 rfl rfl 256 rfl
      (ix2 r ⟨k.val % 256, hm⟩) (fun b hb => ?_) ?_).trans ?_
    · match b with
      | ⟨0, _⟩ => rfl
      | ⟨1, _⟩ => exact absurd rfl hb
    · show 256 + k.val % 256 = k.val
      omega
    · simp only [h]; rfl
  · refine (concatenate_apply_piece (1 : Fin S1024x768.rank) _ _ (ix2 r k) 2 (by show (2 : ℕ) < 3; omega) S1024x256 v2 rfl rfl 512 rfl
      (ix2 r ⟨k.val % 256, hm⟩) (fun b hb => ?_) ?_).trans ?_
    · match b with
      | ⟨0, _⟩ => rfl
      | ⟨1, _⟩ => exact absurd rfl hb
    · show 512 + k.val % 256 = k.val
      omega
    · simp only [h]; rfl

/-! ## The product with the weights -/

/-- The left operand's row coordinate at an output entry is the output's row. -/
theorem dotN_lhs_0 (i : S1024x256.Idx) (q : dot_S1024x768_S768x256_S1024x256_1_0_0_1_n_n.contr.Idx) :
    (dot_S1024x768_S768x256_S1024x256_1_0_0_1_n_n.lhsIdx i q 0).val = (i 0).val := by
  unfold DotDims.lhsIdx
  rw [dif_neg (show ¬(0 : Fin S1024x768.rank) ∈ dot_S1024x768_S768x256_S1024x256_1_0_0_1_n_n.lhsBatch by decide), dif_pos (show (0 : Fin S1024x768.rank) ∈ dot_S1024x768_S768x256_S1024x256_1_0_0_1_n_n.lhsNonContracting by decide)]
  rfl
/-- The right operand's column coordinate at an output entry is the output's column. -/
theorem dotN_rhs_1 (i : S1024x256.Idx) (q : dot_S1024x768_S768x256_S1024x256_1_0_0_1_n_n.contr.Idx) :
    (dot_S1024x768_S768x256_S1024x256_1_0_0_1_n_n.rhsIdx i q 1).val = (i 1).val := by
  unfold DotDims.rhsIdx
  rw [dif_neg (show ¬(1 : Fin S768x256.rank) ∈ dot_S1024x768_S768x256_S1024x256_1_0_0_1_n_n.rhsBatch by decide), dif_pos (show (1 : Fin S768x256.rank) ∈ dot_S1024x768_S768x256_S1024x256_1_0_0_1_n_n.rhsNonContracting by decide)]
  rfl

/-- The block product into the zero accumulator, at entry `(r, d)`: the sum over the 768 features of the left
    operand's row `r` times the right operand's column `d`. -/
theorem matmulN_apply (A : FVec Ideal S1024x768 .bf16) (B : FVec Ideal S768x256 .bf16) (r : Fin 1024) (d : Fin 256) :
    matmul dot_S1024x768_S768x256_S1024x256_1_0_0_1_n_n none A B (constant (F := Ideal) S1024x256 .f32 0x00000000#32) (ix2 r d)
      = ∑ k : Fin 768, A (ix2 r k) * B (ix2 k d) := by
  simp only [matmul]
  rw [Ideal.matmul_constant_zero_apply, ← Equiv.sum_comp (contrEquiv1 dot_S1024x768_S768x256_S1024x256_1_0_0_1_n_n 768 rfl rfl).symm]
  refine Finset.sum_congr rfl fun k _ => ?_
  have hk := contrEquiv1_symm_val dot_S1024x768_S768x256_S1024x256_1_0_0_1_n_n 768 rfl rfl k
  have el : dot_S1024x768_S768x256_S1024x256_1_0_0_1_n_n.lhsIdx (ix2 r d) ((contrEquiv1 dot_S1024x768_S768x256_S1024x256_1_0_0_1_n_n 768 rfl rfl).symm k) = ix2 r k := funext fun a => Fin.ext (by
    match a with
    | ⟨0, _⟩ => exact dotN_lhs_0 _ _
    | ⟨1, _⟩ => exact (dot_S1024x768_S768x256_S1024x256_1_0_0_1_n_n.lhsIdx_val_of_single rfl _ _).trans hk)
  have er : dot_S1024x768_S768x256_S1024x256_1_0_0_1_n_n.rhsIdx (ix2 r d) ((contrEquiv1 dot_S1024x768_S768x256_S1024x256_1_0_0_1_n_n 768 rfl rfl).symm k) = ix2 k d := funext fun a => Fin.ext (by
    match a with
    | ⟨0, _⟩ => exact (dot_S1024x768_S768x256_S1024x256_1_0_0_1_n_n.rhsIdx_val_of_single rfl _ _).trans hk
    | ⟨1, _⟩ => exact dotN_rhs_1 _ _)
  rw [el, er]

/-! ## The dense layer's row -/

/-- The pre-normalisation value at `(r, d)`: the dense layer's row `r` at feature `d`. -/
theorem k1_pay5_apply (x0 x1 res : Vec Ideal S1x1024x256 .f32) (g : Vec Ideal S1x1x256 .f32) (W : Vec Ideal S768x256 .bf16)
    (bias : Vec Ideal S256 .f32) (r : Fin 1024) (d : Fin 256) :
    k1_pay5 x0 x1 g W bias res (ix2 r d)
      = Spec.dense (Spec.cat3 (fun p => ![fun k => x0 (ix3 0 r k), fun k => x1 (ix3 0 r k), fun k => g (ix3 0 0 k)] p))
          (fun k e => W (ix2 k e)) (fun e => bias (ix1 e)) (fun e => res (ix3 0 r e)) d := by
  unfold k1_pay5 Spec.dense
  simp only [addf_apply, maximumf_apply, broadcast_apply]
  rw [matmulN_apply]
  simp only [truncf_apply, concat3_apply, shapeCast_self, shapeCast_1ab_ab_apply, broadcastTo_1b_ab_apply, shapeCast_a_1a_apply,
    shapeCast_11a_a_apply]
  rfl

/-! ## The row statistics, kept as columns -/

/-- The row mean: entry `(r, u)` of the mean column is the mean of row `r` of the pre-normalisation value. -/
theorem k1_pay6_apply (x0 x1 res : Vec Ideal S1x1024x256 .f32) (g : Vec Ideal S1x1x256 .f32) (W : Vec Ideal S768x256 .bf16)
    (bias : Vec Ideal S256 .f32) (r : Fin 1024) (u : Fin 1) :
    k1_pay6 x0 x1 g W bias res (ix2 r u) = Spec.mean (fun e => k1_pay5 x0 x1 g W bias res (ix2 r e)) := by
  unfold k1_pay6 Spec.mean
  generalize k1_pay5 x0 x1 g W bias res = H
  simp only [divf_apply, broadcast_apply]
  exact congrArg (fun s => Ideal.div s Spec.c256)
    ((shapeCast_a_a1_apply _ _ r u).trans (multiReduction_add_row_apply H _ _ _ _ r))

/-- The centred tile at `(r, d)`: the pre-normalisation value less its row's mean. -/
theorem k1_pay8_apply (x0 x1 res : Vec Ideal S1x1024x256 .f32) (g : Vec Ideal S1x1x256 .f32) (W : Vec Ideal S768x256 .bf16)
    (bias : Vec Ideal S256 .f32) (r : Fin 1024) (d : Fin 256) :
    k1_pay8 x0 x1 g W bias res (ix2 r d)
      = k1_pay5 x0 x1 g W bias res (ix2 r d) - Spec.mean (fun e => k1_pay5 x0 x1 g W bias res (ix2 r e)) := by
  unfold k1_pay8
  simp only [subf_apply]
  rw [broadcastTo_a1_ab_apply, k1_pay6_apply]

/-- The row's variance: entry `(r, u)` of that column is the mean of the squared deviations of row `r`. -/
theorem k1_pay7_apply (x0 x1 res : Vec Ideal S1x1024x256 .f32) (g : Vec Ideal S1x1x256 .f32) (W : Vec Ideal S768x256 .bf16)
    (bias : Vec Ideal S256 .f32) (r : Fin 1024) (u : Fin 1) :
    k1_pay7 x0 x1 g W bias res (ix2 r u)
      = Spec.mean (fun e => (k1_pay5 x0 x1 g W bias res (ix2 r e) - Spec.mean (fun e' => k1_pay5 x0 x1 g W bias res (ix2 r e')))
          * (k1_pay5 x0 x1 g W bias res (ix2 r e) - Spec.mean (fun e' => k1_pay5 x0 x1 g W bias res (ix2 r e')))) := by
  unfold k1_pay7
  simp only [divf_apply, broadcast_apply]
  refine congrArg (fun s => Ideal.div s Spec.c256) ((shapeCast_a_a1_apply _ _ r u).trans
    ((multiReduction_add_row_apply _ _ _ _ _ r).trans (Finset.sum_congr rfl fun e _ => ?_)))
  simp only [mulf_apply, subf_apply]
  rw [broadcastTo_a1_ab_apply, k1_pay6_apply]

/-! ## The layer normalisation -/

/-- The normalised tile at `(r, d)`, from the variance column and the centred tile:
    `centred · rsqrt (var + c) · gain + offset`. -/
theorem k1_pay1_apply (vcol : FVec Ideal S1024x1 .f32) (cen : FVec Ideal S1024x256 .f32) (c : Ideal .f32)
    (gain offset : Vec Ideal S256 .f32) (r : Fin 1024) (d : Fin 256) :
    k1_pay1 vcol cen c gain offset (ix2 r d)
      = cen (ix2 r d) * Ideal.rsqrt (vcol (ix2 r (0 : Fin 1)) + c) * gain (ix1 d) + offset (ix1 d) := by
  unfold k1_pay1
  simp only [addf_apply, mulf_apply]
  rw [broadcastTo_a1_ab_apply, broadcastTo_1b_ab_apply, broadcastTo_1b_ab_apply, shapeCast_a_1a_apply, shapeCast_a_1a_apply]
  rfl

/-- The stored tile at `(0, r, d)`: the dense layer's row `r`, layer-normalised, at feature `d`. -/
theorem k1_pay2_apply (x0 x1 res : Vec Ideal S1x1024x256 .f32) (g : Vec Ideal S1x1x256 .f32) (W : Vec Ideal S768x256 .bf16)
    (bias gain offset : Vec Ideal S256 .f32) (r : Fin 1024) (d : Fin 256) :
    k1_pay2 (k1_pay7 x0 x1 g W bias res) (k1_pay8 x0 x1 g W bias res) (Scalar.ofBits .f32 0x3A83126F#32) gain offset (ix3 0 r d)
      = Spec.mlpLn (Spec.cat3 (fun p => ![fun k => x0 (ix3 0 r k), fun k => x1 (ix3 0 r k), fun k => g (ix3 0 0 k)] p))
          (fun k e => W (ix2 k e)) (fun e => bias (ix1 e)) (fun e => res (ix3 0 r e)) (fun e => gain (ix1 e)) (fun e => offset (ix1 e)) d := by
  unfold k1_pay2
  rw [shapeCast_ab_1ab_apply, k1_pay1_apply, k1_pay7_apply, k1_pay8_apply]
  have hrow : (fun e => k1_pay5 x0 x1 g W bias res (ix2 r e))
      = Spec.dense (Spec.cat3 (fun p => ![fun k => x0 (ix3 0 r k), fun k => x1 (ix3 0 r k), fun k => g (ix3 0 0 k)] p))
          (fun k e => W (ix2 k e)) (fun e => bias (ix1 e)) (fun e => res (ix3 0 r e)) :=
    funext fun e => k1_pay5_apply x0 x1 res g W bias r e
  unfold Spec.mlpLn
  rw [← hrow]
  generalize k1_pay5 x0 x1 g W bias res = P
  rfl

/-! ## The accumulator -/

/-- The accumulator's new value at `(0, 0, d)`: its old value plus the sum over the tile's rows of the stored value
    at column `d`. -/
theorem k1_pay4_apply (x0 x1 res : Vec Ideal S1x1024x256 .f32) (g : Vec Ideal S1x1x256 .f32) (W : Vec Ideal S768x256 .bf16)
    (bias gain offset : Vec Ideal S256 .f32) (prev : Vec Ideal S1x1x256 .f32) (d : Fin 256) :
    k1_pay4 (k1_pay7 x0 x1 g W bias res) (k1_pay8 x0 x1 g W bias res) (Scalar.ofBits .f32 0x3A83126F#32) gain offset prev (ix3 0 0 d)
      = prev (ix3 0 0 d) + ∑ r : Fin 1024,
          k1_pay2 (k1_pay7 x0 x1 g W bias res) (k1_pay8 x0 x1 g W bias res) (Scalar.ofBits .f32 0x3A83126F#32) gain offset (ix3 0 r d) := by
  unfold k1_pay4 k1_pay2
  generalize k1_pay1 (k1_pay7 x0 x1 g W bias res) (k1_pay8 x0 x1 g W bias res) (Scalar.ofBits .f32 0x3A83126F#32) gain offset = T
  rw [shapeCast_a_11a_apply]
  simp only [addf_apply]
  rw [shapeCast_11a_a_apply]
  refine congrArg (fun s => prev (ix3 0 0 d) + s) ((multiReduction_add_col_apply T _ _ _ _ d).trans
    (Finset.sum_congr rfl fun r _ => (shapeCast_ab_1ab_apply T _ 0 r d).symm))

/-- The accumulator's first value is zero everywhere. -/
theorem k1_pay3_apply (d : Fin 256) : k1_pay3 (F := Ideal) (ix3 0 0 d) = 0 := by
  unfold k1_pay3
  rw [shapeCast_a_11a_apply]
  exact Ideal.ofBits_zero_f32

end Cert.KernelIdeal.PayValue

end
-- ==== Proof.NodeValue.lean ====
/-
  The node region's value, point by point. After the body at a point the node output's buffer holds that point's tile
  of normalised rows (`outsAt1_fst`, `tile1`), whichever control case the point is; the running-sum buffer holds the
  previous value plus the tile's column sums (`acc1`), the previous value being zero at a batch's first tile. At the
  extended reals the tile's entry `(0, r, d)` is the dense layer's row `r` of the windows' blocks, layer-normalised
  (`tile1_apply`), and the running sum after position `n` is the sum of the column sums of the tiles of `n`'s batch
  up to `n` (`outsAt1_snd`, by induction on the position).
-/
import proofs.«143816_j32993938768001_1_alg».proof.Proof.NodeFrameKI
import proofs.«143816_j32993938768001_1_alg».proof.Proof.NodePieces
import proofs.«143816_j32993938768001_1_alg».proof.Proof.PayNode

set_option maxRecDepth 16384

open scoped BigOperators

noncomputable section

namespace Cert.KernelIdeal.NodeValue

open Cert.KernelIdeal Cert.KernelIdeal.Gen Cert.KernelIdeal.Hand Cert.KernelIdeal.PayValue
open Idealize.ShloMosaic Idealize.ShloMosaic.TcCoe Idealize.ShloMosaic.ValueIdx Idealize.SL.Sem
open Idealize.ShloMosaic.Pipeline (Dat)

section AnyF
variable {F : FTy → Type} [FloatOps F]
variable (V : (c : Dev nD) → (b : Ref sig .tc) → Buf (Elt F) ((c : Thread nD τ).loc b))

/-- The tile of normalised rows the body stores at point `t`, from the windows' blocks there (the residual is the
    first window's block again). -/
def tile1 (c : Dev nD) (t : Fin cfg1.N) : Vec F S1x1024x256 .f32 :=
  k1_pay2 (k1_pay7 (iblk1 V c 0 t) (iblk1 V c 1 t) (iblk1 V c 2 t) (iblk1 V c 3 t) (iblk1 V c 4 t) (iblk1 V c 0 t))
    (k1_pay8 (iblk1 V c 0 t) (iblk1 V c 1 t) (iblk1 V c 2 t) (iblk1 V c 3 t) (iblk1 V c 4 t) (iblk1 V c 0 t))
    (Scalar.ofBits .f32 0x3A83126F#32) (iblk1 V c 5 t) (iblk1 V c 6 t)

/-- The running sum the body leaves at point `t` over the value `prev` it finds: `prev` plus the tile's column sums. -/
def acc1 (c : Dev nD) (t : Fin cfg1.N) (prev : Vec F S1x1x256 .f32) : Vec F S1x1x256 .f32 :=
  k1_pay4 (k1_pay7 (iblk1 V c 0 t) (iblk1 V c 1 t) (iblk1 V c 2 t) (iblk1 V c 3 t) (iblk1 V c 4 t) (iblk1 V c 0 t))
    (k1_pay8 (iblk1 V c 0 t) (iblk1 V c 1 t) (iblk1 V c 2 t) (iblk1 V c 3 t) (iblk1 V c 4 t) (iblk1 V c 0 t))
    (Scalar.ofBits .f32 0x3A83126F#32) (iblk1 V c 5 t) (iblk1 V c 6 t) prev

theorem outA1_fst (c : Dev nD) (t : Fin cfg1.N) (h : cond1 (grid1.coords t)) : (outA1 V c t h).1 = tile1 V c t := by
  unfold outA1
  dsimp only
  rw [View.read_writes_eq_canon _ _ _ (coverA1_7 V c t h)]
  exact piecesA_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) h (iblk1 V c 0 t) (iblk1 V c 1 t) (iblk1 V c 2 t) (iblk1 V c 3 t) (iblk1 V c 4 t) (iblk1 V c 5 t) (iblk1 V c 6 t)

theorem outA1_snd (c : Dev nD) (t : Fin cfg1.N) (h : cond1 (grid1.coords t)) : (outA1 V c t h).2 = acc1 V c t (k1_pay3 (F := F)) := by
  unfold outA1
  dsimp only
  rw [View.read_writes_eq_canon _ _ _ (coverA1_8 V c t h)]
  exact piecesA_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) h (iblk1 V c 0 t) (iblk1 V c 1 t) (iblk1 V c 2 t) (iblk1 V c 3 t) (iblk1 V c 4 t) (iblk1 V c 5 t) (iblk1 V c 6 t)

theorem outB1_fst (c : Dev nD) (t : Fin cfg1.N) (h : ¬cond1 (grid1.coords t)) (xo : Vec F S1x1x256 .f32) :
    (outB1 V c t h xo).1 = tile1 V c t := by
  unfold outB1
  dsimp only
  rw [View.read_writes_eq_canon _ _ _ (coverB1_7 V c t h xo)]
  exact piecesB_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) h (iblk1 V c 0 t) (iblk1 V c 1 t) (iblk1 V c 2 t) (iblk1 V c 3 t) (iblk1 V c 4 t) (iblk1 V c 5 t) (iblk1 V c 6 t) xo

theorem outB1_snd (c : Dev nD) (t : Fin cfg1.N) (h : ¬cond1 (grid1.coords t)) (xo : Vec F S1x1x256 .f32) :
    (outB1 V c t h xo).2 = acc1 V c t xo := by
  unfold outB1
  dsimp only
  rw [View.read_writes_eq_canon _ _ _ (coverB1_8 V c t h xo)]
  exact piecesB_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) h (iblk1 V c 0 t) (iblk1 V c 1 t) (iblk1 V c 2 t) (iblk1 V c 3 t) (iblk1 V c 4 t) (iblk1 V c 5 t) (iblk1 V c 6 t) xo

/-- After the body at any point the node output's buffer holds that point's tile. -/
theorem outsAt1_fst (c : Dev nD) (t : Fin cfg1.N) : (outsAt1 V c t.val t.isLt).1 = tile1 V c t := by
  by_cases h0 : t.val % 8 = 0
  · rw [outsAt1_A V c t h0]; exact outA1_fst V c t _
  · rw [outsAt1_B V c t h0]; exact outB1_fst V c t _ _

end AnyF

/-! ## At the extended reals: the tile and the running sum at an index -/

section AtIdeal
variable (V : (c : Dev nD) → (b : Ref sig .tc) → Buf (Elt Ideal) ((c : Thread nD τ).loc b))

/-- Entry `(0, r, d)` of point `t`'s tile: the dense layer's row `r` of the windows' blocks there, layer-normalised,
    at feature `d`. -/
theorem tile1_apply (c : Dev nD) (t : Fin cfg1.N) (r : Fin 1024) (d : Fin 256) :
    tile1 V c t (ix3 0 r d)
      = Spec.mlpLn (Spec.cat3 (fun p => ![fun k => iblk1 V c 0 t (ix3 0 r k), fun k => iblk1 V c 1 t (ix3 0 r k),
            fun k => iblk1 V c 2 t (ix3 0 0 k)] p))
          (fun k e => iblk1 V c 3 t (ix2 k e)) (fun e => iblk1 V c 4 t (ix1 e)) (fun e => iblk1 V c 0 t (ix3 0 r e))
          (fun e => iblk1 V c 5 t (ix1 e)) (fun e => iblk1 V c 6 t (ix1 e)) d :=
  k1_pay2_apply (iblk1 V c 0 t) (iblk1 V c 1 t) (iblk1 V c 0 t) (iblk1 V c 2 t) (iblk1 V c 3 t) (iblk1 V c 4 t) (iblk1 V c 5 t) (iblk1 V c 6 t) r d

/-- The running sum the body leaves over `prev`, at column `d`: `prev` there plus the tile's column sum. -/
theorem acc1_apply (c : Dev nD) (t : Fin cfg1.N) (prev : Vec Ideal S1x1x256 .f32) (d : Fin 256) :
    acc1 V c t prev (ix3 0 0 d) = prev (ix3 0 0 d) + ∑ r : Fin 1024, tile1 V c t (ix3 0 r d) :=
  k1_pay4_apply (iblk1 V c 0 t) (iblk1 V c 1 t) (iblk1 V c 0 t) (iblk1 V c 2 t) (iblk1 V c 3 t) (iblk1 V c 4 t) (iblk1 V c 5 t) (iblk1 V c 6 t) prev d

/-- The column sum of the tile at position `n` of the grid (zero past the grid). -/
def colsum1 (c : Dev nD) (n : ℕ) (d : Fin 256) : EReal :=
  if h : n < cfg1.N then ∑ r : Fin 1024, tile1 V c ⟨n, h⟩ (ix3 0 r d) else 0

theorem colsum1_of_lt (c : Dev nD) (n : ℕ) (h : n < cfg1.N) (d : Fin 256) :
    colsum1 V c n d = ∑ r : Fin 1024, tile1 V c ⟨n, h⟩ (ix3 0 r d) := dif_pos h

/-- THE RUNNING SUM: after the body at position `n` the running-sum buffer holds, at column `d`, the sum of the
    column sums of the tiles of `n`'s batch up to `n` — positions `n − n % 8` to `n`. By induction on the position:
    a batch's first tile starts from zero, any other adds to what the tile before left. -/
theorem outsAt1_snd (c : Dev nD) : ∀ (n : ℕ) (hn : n < cfg1.N) (d : Fin 256),
    (outsAt1 V c n hn).2 (ix3 0 0 d) = ∑ j ∈ Finset.range (n % 8 + 1), colsum1 V c (n - n % 8 + j) d
  | 0, hn, d => by
    rw [outsAt1_A V c ⟨0, hn⟩ rfl, outA1_snd, acc1_apply, k1_pay3_apply, zero_add]
    simp only [Nat.zero_mod, Nat.zero_add, Finset.sum_range_one, Nat.sub_zero, Nat.add_zero]
    exact (colsum1_of_lt V c 0 hn d).symm
  | n + 1, hn, d => by
    by_cases h0 : (n + 1) % 8 = 0
    · rw [outsAt1_A V c ⟨n + 1, hn⟩ h0, outA1_snd, acc1_apply, k1_pay3_apply, zero_add, h0]
      simp only [Nat.zero_add, Finset.sum_range_one, Nat.sub_zero, Nat.add_zero]
      exact (colsum1_of_lt V c (n + 1) hn d).symm
    · rw [outsAt1_B V c ⟨n + 1, hn⟩ h0, outB1_snd, acc1_apply]
      show (outsAt1 V c n _).2 (ix3 0 0 d) + _ = _
      rw [outsAt1_snd c n (Nat.lt_of_succ_lt hn) d]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3, colsum1_of_lt V c (n + 1) hn d]

end AtIdeal

end Cert.KernelIdeal.NodeValue

end
-- ==== Proof.NodeArray.lean ====
/-
  The node region's two result arrays, index by index, over the extended reals.

  Point `t` of the grid is tile `t % 8` of batch `t / 8`: its blocks of the two row inputs and of the node output
  are rows `(t % 8) · 1024 …` of batch `t / 8`, its block of the global input is that batch's one row, and the
  weights, bias, gain and offset are whole. So the tile the body stores at `t` is, row by row, the node update of
  the arrays' rows (`tile1_row`, `nodeRow`); every point writes its tile back, and the tiles cover the node output
  (`final1_7`). The running sum is written back after a batch's last tile only, when it holds the sum over the
  batch's 8 tiles of their column sums — the sum over all 8192 rows of the batch (`final1_8`).
-/
import proofs.«143816_j32993938768001_1_alg».proof.Proof.NodeValue
import proofs.«143816_j32993938768001_1_alg».proof.Proof.LibTileSum

set_option maxRecDepth 16384

open scoped BigOperators

noncomputable section

namespace Cert.KernelIdeal.NodeValue

open Cert.KernelIdeal Cert.KernelIdeal.Gen Cert.KernelIdeal.Hand Cert.KernelIdeal.PayValue
open Idealize.ShloMosaic Idealize.ShloMosaic.TcCoe Idealize.ShloMosaic.ValueIdx Idealize.SL.Sem
open Idealize.ShloMosaic.Pipeline (Dat)

/-- The printed index maps over the grid: point `t` is tile `t % 8` of batch `t / 8`. -/
theorem idx_facts1 : ∀ t : Fin cfg1.N,
    (win1_0.index t (0 : Fin 3) = t.val / 8 ∧ win1_0.index t (1 : Fin 3) = t.val % 8 ∧ win1_0.index t (2 : Fin 3) = 0)
    ∧ (win1_1.index t (0 : Fin 3) = t.val / 8 ∧ win1_1.index t (1 : Fin 3) = t.val % 8 ∧ win1_1.index t (2 : Fin 3) = 0)
    ∧ (win1_2.index t (0 : Fin 3) = t.val / 8 ∧ win1_2.index t (1 : Fin 3) = 0 ∧ win1_2.index t (2 : Fin 3) = 0)
    ∧ (win1_3.index t (0 : Fin 2) = 0 ∧ win1_3.index t (1 : Fin 2) = 0)
    ∧ win1_4.index t (0 : Fin 1) = 0 ∧ win1_5.index t (0 : Fin 1) = 0 ∧ win1_6.index t (0 : Fin 1) = 0
    ∧ (win1_7.index t (0 : Fin 3) = t.val / 8 ∧ win1_7.index t (1 : Fin 3) = t.val % 8 ∧ win1_7.index t (2 : Fin 3) = 0)
    ∧ (win1_8.index t (0 : Fin 3) = t.val / 8 ∧ win1_8.index t (1 : Fin 3) = 0 ∧ win1_8.index t (2 : Fin 3) = 0) :=
  (by decide +kernel : ∀ t : Fin grid1.N, _)

section AtIdeal
variable (V : (c : Dev nD) → (b : Ref sig .tc) → Buf (Elt Ideal) ((c : Thread nD τ).loc b))

/-- The batch of point `t`. -/
def bat1 (t : Fin cfg1.N) : Fin 4 := ⟨t.val / 8, by have := lt_of_lt_of_eq t.isLt (show cfg1.N = 32 from N_1); omega⟩
/-- Row `r` of point `t`'s tile, as a row of its batch. -/
def row1 (t : Fin cfg1.N) (r : Fin 1024) : Fin 8192 := ⟨t.val % 8 * 1024 + r.val, by omega⟩

/-! ## The windows' blocks, read off the arrays -/

theorem iblk1_0_apply (c : Dev nD) (t : Fin cfg1.N) (u : Fin 1) (r : Fin 1024) (k : Fin 256) :
    iblk1 V c 0 t (ix3 u r k) = V c main_arg0 (ix3 (bat1 t) (row1 t r) k) := by
  obtain ⟨⟨a0, a1, a2⟩, ⟨b0, b1, b2⟩, -⟩ := idx_facts1 t
  unfold iblk1
  rw [View.read_apply]
  show V c main_arg0 (((cfg1.win 0).blk t).view.emb (ix3 u r k)) = _
  refine congrArg (V c main_arg0) (funext fun a => Fin.ext ?_)
  match a with
  | ⟨0, _⟩ => show win1_0.index t (0 : Fin 3) * 1 + 1 * u.val = t.val / 8; omega
  | ⟨1, _⟩ => show win1_0.index t (1 : Fin 3) * 1024 + 1 * r.val = t.val % 8 * 1024 + r.val; omega
  | ⟨2, _⟩ => show win1_0.index t (2 : Fin 3) * 256 + 1 * k.val = k.val; omega

theorem iblk1_1_apply (c : Dev nD) (t : Fin cfg1.N) (u : Fin 1) (r : Fin 1024) (k : Fin 256) :
    iblk1 V c 1 t (ix3 u r k) = V c main_v17 (ix3 (bat1 t) (row1 t r) k) := by
  obtain ⟨⟨a0, a1, a2⟩, ⟨b0, b1, b2⟩, -⟩ := idx_facts1 t
  unfold iblk1
  rw [View.read_apply]
  show V c main_v17 (((cfg1.win 1).blk t).view.emb (ix3 u r k)) = _
  refine congrArg (V c main_v17) (funext fun a => Fin.ext ?_)
  match a with
  | ⟨0, _⟩ => show win1_1.index t (0 : Fin 3) * 1 + 1 * u.val = t.val / 8; omega
  | ⟨1, _⟩ => show win1_1.index t (1 : Fin 3) * 1024 + 1 * r.val = t.val % 8 * 1024 + r.val; omega
  | ⟨2, _⟩ => show win1_1.index t (2 : Fin 3) * 256 + 1 * k.val = k.val; omega

theorem iblk1_2_apply (c : Dev nD) (t : Fin cfg1.N) (u w : Fin 1) (k : Fin 256) :
    iblk1 V c 2 t (ix3 u w k) = V c main_v4 (ix3 (bat1 t) (0 : Fin 1) k) := by
  obtain ⟨-, -, ⟨d0, d1, d2⟩, -⟩ := idx_facts1 t
  unfold iblk1
  rw [View.read_apply]
  show V c main_v4 (((cfg1.win 2).blk t).view.emb (ix3 u w k)) = _
  refine congrArg (V c main_v4) (funext fun a => Fin.ext ?_)
  match a with
  | ⟨0, _⟩ => show win1_2.index t (0 : Fin 3) * 1 + 1 * u.val = t.val / 8; omega
  | ⟨1, _⟩ => show win1_2.index t (1 : Fin 3) * 1 + 1 * w.val = 0; omega
  | ⟨2, _⟩ => show win1_2.index t (2 : Fin 3) * 256 + 1 * k.val = k.val; omega

theorem iblk1_3_apply (c : Dev nD) (t : Fin cfg1.N) (k : Fin 768) (e : Fin 256) :
    iblk1 V c 3 t (ix2 k e) = V c main_v18 (ix2 k e) := by
  obtain ⟨-, -, -, ⟨g0, g1⟩, -⟩ := idx_facts1 t
  unfold iblk1
  rw [View.read_apply]
  show V c main_v18 (((cfg1.win 3).blk t).view.emb (ix2 k e)) = _
  refine congrArg (V c main_v18) (funext fun a => Fin.ext ?_)
  match a with
  | ⟨0, _⟩ => show win1_3.index t (0 : Fin 2) * 768 + 1 * k.val = k.val; omega
  | ⟨1, _⟩ => show win1_3.index t (1 : Fin 2) * 256 + 1 * e.val = e.val; omega

theorem iblk1_4_apply (c : Dev nD) (t : Fin cfg1.N) (e : Fin 256) :
    iblk1 V c 4 t (ix1 e) = V c main_arg13 (ix1 e) := by
  obtain ⟨-, -, -, -, f4, f5, f6, -⟩ := idx_facts1 t
  unfold iblk1
  rw [View.read_apply]
  show V c main_arg13 (((cfg1.win 4).blk t).view.emb (ix1 e)) = _
  refine congrArg (V c main_arg13) (funext fun a => Fin.ext ?_)
  match a with
  | ⟨0, _⟩ => show win1_4.index t (0 : Fin 1) * 256 + 1 * e.val = e.val; omega

theorem iblk1_5_apply (c : Dev nD) (t : Fin cfg1.N) (e : Fin 256) :
    iblk1 V c 5 t (ix1 e) = V c main_arg14 (ix1 e) := by
  obtain ⟨-, -, -, -, f4, f5, f6, -⟩ := idx_facts1 t
  unfold iblk1
  rw [View.read_apply]
  show V c main_arg14 (((cfg1.win 5).blk t).view.emb (ix1 e)) = _
  refine congrArg (V c main_arg14) (funext fun a => Fin.ext ?_)
  match a with
  | ⟨0, _⟩ => show win1_5.index t (0 : Fin 1) * 256 + 1 * e.val = e.val; omega

theorem iblk1_6_apply (c : Dev nD) (t : Fin cfg1.N) (e : Fin 256) :
    iblk1 V c 6 t (ix1 e) = V c main_arg15 (ix1 e) := by
  obtain ⟨-, -, -, -, f4, f5, f6, -⟩ := idx_facts1 t
  unfold iblk1
  rw [View.read_apply]
  show V c main_arg15 (((cfg1.win 6).blk t).view.emb (ix1 e)) = _
  refine congrArg (V c main_arg15) (funext fun a => Fin.ext ?_)
  match a with
  | ⟨0, _⟩ => show win1_6.index t (0 : Fin 1) * 256 + 1 * e.val = e.val; omega

/-! ## The node update of the arrays' rows -/

/-- Row `e` of batch `b`, updated, at feature `d`: the dense layer of the concatenated node, aggregated-edge and global
    rows, with the node row as residual, layer-normalised — over the arrays as the region finds them. -/
def nodeRow (c : Dev nD) (b : Fin 4) (e : Fin 8192) (d : Fin 256) : EReal :=
  Spec.mlpLn (Spec.cat3 (fun p => ![fun k => V c main_arg0 (ix3 b e k), fun k => V c main_v17 (ix3 b e k),
        fun k => V c main_v4 (ix3 b (0 : Fin 1) k)] p))
    (fun k f => V c main_v18 (ix2 k f)) (fun f => V c main_arg13 (ix1 f)) (fun f => V c main_arg0 (ix3 b e f))
    (fun f => V c main_arg14 (ix1 f)) (fun f => V c main_arg15 (ix1 f)) d

/-- Point `t`'s tile, row by row, is the node update of its rows of its batch. -/
theorem tile1_row (c : Dev nD) (t : Fin cfg1.N) (r : Fin 1024) (d : Fin 256) :
    tile1 V c t (ix3 0 r d) = nodeRow V c (bat1 t) (row1 t r) d := by
  rw [tile1_apply]
  unfold nodeRow
  simp only [iblk1_0_apply, iblk1_1_apply, iblk1_2_apply, iblk1_3_apply, iblk1_4_apply, iblk1_5_apply, iblk1_6_apply]

/-! ## The node output -/

/-- The node output array: every row updated. -/
def G1_7 (c : Dev nD) : Buf (Elt Ideal) ((c : Thread nD τ).loc main_v19_0) := fun i => nodeRow V c (i 0) (i 1) (i 2)

/-- What point `t` writes back to the node output is its block of that array. -/
theorem flushed1_7_eq (c : Dev nD) (t : Fin cfg1.N) :
    (dat1 V c).flushed 7 t = ((cfg1.win 7).blk t).view.read (Elt Ideal) (G1_7 V c) := by
  obtain ⟨-, -, -, -, -, -, -, ⟨e0, e1, e2⟩, -⟩ := idx_facts1 t
  show (cfg1.win 7).cut (grid1.coords t) ((dat1 V c).after 7 t) = _
  rw [after1_7, outsAt1_fst]
  refine funext fun (j : S1x1024x256.Idx) => ?_
  obtain ⟨u, r, d, rfl⟩ : ∃ (u : Fin 1) (r : Fin 1024) (d : Fin 256), j = ix3 u r d := ⟨j 0, j 1, j 2, eq_ix3 j⟩
  obtain rfl : u = 0 := Subsingleton.elim _ _
  rw [View.read_apply]
  have hemb : ((cfg1.win 7).blk t).view.emb (ix3 (0 : Fin 1) r d) = ix3 (bat1 t) (row1 t r) d := funext fun a => Fin.ext (by
    match a with
    | ⟨0, _⟩ => show win1_7.index t (0 : Fin 3) * 1 + 1 * 0 = t.val / 8; omega
    | ⟨1, _⟩ => show win1_7.index t (1 : Fin 3) * 1024 + 1 * r.val = t.val % 8 * 1024 + r.val; omega
    | ⟨2, _⟩ => show win1_7.index t (2 : Fin 3) * 256 + 1 * d.val = d.val; omega)
  rw [hemb]
  exact tile1_row V c t r d

/-- An index of the node output is in point `t`'s block iff each coordinate is in the block's range on its axis. -/
theorem mem_blk1_7 (t : Fin cfg1.N) (i : S4x8192x256.Idx) :
    i ∈ ((cfg1.win 7).blk t).view.set ↔ ∀ a : Fin 3, win1_7.index t a * S1x1024x256.size a ≤ (i a).val ∧ (i a).val < win1_7.index t a * S1x1024x256.size a + S1x1024x256.size a := by
  show i ∈ ((View.whole main_v19_0).slice (win1_7.rect t)).set ↔ _
  rw [View.set_slice_whole, Rect.mem_set_unit]
  exact Iff.rfl

/-- Row `e` of batch `b` is in the block of tile `e / 1024` of that batch. -/
theorem cover1_7 (i : S4x8192x256.Idx) : ∃ t : Fin cfg1.N, (cfg1.win 7).flush t = true ∧ i ∈ ((cfg1.win 7).blk t).view.set := by
  have hN : cfg1.N = 32 := N_1
  have h0 : (i 0).val < 4 := (i 0).isLt
  have h1 : (i 1).val < 8192 := (i 1).isLt
  have h2 : (i 2).val < 256 := (i 2).isLt
  obtain ⟨t, ht⟩ : ∃ t : Fin cfg1.N, t.val = (i 0).val * 8 + (i 1).val / 1024 := ⟨⟨(i 0).val * 8 + (i 1).val / 1024, by omega⟩, rfl⟩
  obtain ⟨-, -, -, -, -, -, -, ⟨e0, e1, e2⟩, -⟩ := idx_facts1 t
  refine ⟨t, flush1_7 t, ?_⟩
  rw [mem_blk1_7]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 1024 ≤ (i 1).val ∧ (i 1).val < win1_7.index t (1 : Fin 3) * 1024 + 1024; omega
  | ⟨2, _⟩ => show win1_7.index t (2 : Fin 3) * 256 ≤ (i 2).val ∧ (i 2).val < win1_7.index t (2 : Fin 3) * 256 + 256; omega

/-- THE NODE OUTPUT after the region: every row updated. -/
theorem final1_7 (c : Dev nD) : (dat1 V c).arrAt 7 cfg1.N = G1_7 V c :=
  (dat1 V c).arrAt_eq_of_cover 7 (G1_7 V c) (fun t _ => flushed1_7_eq V c t) cover1_7

theorem final1_7_apply (c : Dev nD) (b : Fin 4) (e : Fin 8192) (d : Fin 256) :
    (dat1 V c).arrAt 7 cfg1.N (ix3 b e d) = nodeRow V c b e d :=
  congrFun (final1_7 V c) (ix3 b e d)

/-! ## The running sum -/

/-- Per batch and feature, the sum over the batch's rows of the updated rows. -/
def nodeSum (c : Dev nD) (b : Fin 4) (d : Fin 256) : EReal := ∑ e : Fin 8192, nodeRow V c b e d

/-- The running-sum array. -/
def G1_8 (c : Dev nD) : Buf (Elt Ideal) ((c : Thread nD τ).loc main_v19_1) := fun i => nodeSum V c (i 0) (i 2)

theorem G1_8_apply (c : Dev nD) (b : Fin 4) (u : Fin 1) (d : Fin 256) : G1_8 V c (ix3 b u d) = nodeSum V c b d := by
  unfold G1_8
  exact congrArg₂ (nodeSum V c) rfl rfl

/-- What a batch's last tile writes back to the running-sum array is its block of that array. -/
theorem flushed1_8_eq (c : Dev nD) (t : Fin cfg1.N) (hf : (cfg1.win 8).flush t = true) :
    (dat1 V c).flushed 8 t = ((cfg1.win 8).blk t).view.read (Elt Ideal) (G1_8 V c) := by
  have h7 : t.val % 8 = 7 := (flush1_8 t).mp hf
  have hN : cfg1.N = 32 := N_1
  have htN : t.val < 32 := lt_of_lt_of_eq t.isLt hN
  obtain ⟨-, -, -, -, -, -, -, -, ⟨e0, e1, e2⟩⟩ := idx_facts1 t
  have hX : ∀ d : Fin 256, (outsAt1 V c t.val t.isLt).2 (ix3 0 0 d) = nodeSum V c (bat1 t) d := fun d => by
    unfold nodeSum
    have h8 : t.val % 8 + 1 = 8 := by omega
    rw [outsAt1_snd V c t.val t.isLt d, h8, Finset.sum_range,
      Cert.LibTileSum.sum_fin_mul 8 1024 (fun e => nodeRow V c (bat1 t) e d)]
    refine Finset.sum_congr rfl fun j _ => ?_
    have hj : j.val < 8 := j.isLt
    have hlt : t.val - t.val % 8 + j.val < cfg1.N := by omega
    rw [colsum1_of_lt V c _ hlt d]
    refine Finset.sum_congr rfl fun r _ => ?_
    rw [tile1_row]
    have hb : bat1 ⟨t.val - t.val % 8 + j.val, hlt⟩ = bat1 t := Fin.ext (by
      show (t.val - t.val % 8 + j.val) / 8 = t.val / 8; omega)
    have he : row1 ⟨t.val - t.val % 8 + j.val, hlt⟩ r = ⟨j.val * 1024 + r.val, Cert.LibTileSum.tile_pos_lt j r⟩ := Fin.ext (by
      show (t.val - t.val % 8 + j.val) % 8 * 1024 + r.val = j.val * 1024 + r.val; omega)
    rw [hb, he]
  show (cfg1.win 8).cut (grid1.coords t) ((dat1 V c).after 8 t) = _
  rw [after1_8]
  unfold G1_8
  generalize (outsAt1 V c t.val t.isLt).2 = X at hX ⊢
  generalize nodeSum V c = S at hX ⊢
  refine funext fun (j : S1x1x256.Idx) => ?_
  obtain ⟨u, w, d, rfl⟩ : ∃ (u w : Fin 1) (d : Fin 256), j = ix3 u w d := ⟨j 0, j 1, j 2, eq_ix3 j⟩
  obtain rfl : u = 0 := Subsingleton.elim _ _
  obtain rfl : w = 0 := Subsingleton.elim _ _
  rw [View.read_apply]
  have hemb : ((cfg1.win 8).blk t).view.emb (ix3 (0 : Fin 1) (0 : Fin 1) d) = ix3 (bat1 t) (0 : Fin 1) d := funext fun a => Fin.ext (by
    match a with
    | ⟨0, _⟩ => show win1_8.index t (0 : Fin 3) * 1 + 1 * 0 = t.val / 8; omega
    | ⟨1, _⟩ => show win1_8.index t (1 : Fin 3) * 1 + 1 * 0 = 0; omega
    | ⟨2, _⟩ => show win1_8.index t (2 : Fin 3) * 256 + 1 * d.val = d.val; omega)
  rw [hemb]
  exact hX d

/-- An index of the running-sum array is in point `t`'s block iff each coordinate is in the block's range on its axis. -/
theorem mem_blk1_8 (t : Fin cfg1.N) (i : S4x1x256.Idx) :
    i ∈ ((cfg1.win 8).blk t).view.set ↔ ∀ a : Fin 3, win1_8.index t a * S1x1x256.size a ≤ (i a).val ∧ (i a).val < win1_8.index t a * S1x1x256.size a + S1x1x256.size a := by
  show i ∈ ((View.whole main_v19_1).slice (win1_8.rect t)).set ↔ _
  rw [View.set_slice_whole, Rect.mem_set_unit]
  exact Iff.rfl

/-- Batch `b`'s row of the running-sum array is written back after the batch's last tile. -/
theorem cover1_8 (i : S4x1x256.Idx) : ∃ t : Fin cfg1.N, (cfg1.win 8).flush t = true ∧ i ∈ ((cfg1.win 8).blk t).view.set := by
  have hN : cfg1.N = 32 := N_1
  have h0 : (i 0).val < 4 := (i 0).isLt
  have h1 : (i 1).val < 1 := (i 1).isLt
  have h2 : (i 2).val < 256 := (i 2).isLt
  obtain ⟨t, ht⟩ : ∃ t : Fin cfg1.N, t.val = (i 0).val * 8 + 7 := ⟨⟨(i 0).val * 8 + 7, by omega⟩, rfl⟩
  obtain ⟨-, -, -, -, -, -, -, -, ⟨e0, e1, e2⟩⟩ := idx_facts1 t
  refine ⟨t, (flush1_8 t).mpr (by omega), ?_⟩
  rw [mem_blk1_8]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 1 ≤ (i 1).val ∧ (i 1).val < win1_8.index t (1 : Fin 3) * 1 + 1; omega
  | ⟨2, _⟩ => show win1_8.index t (2 : Fin 3) * 256 ≤ (i 2).val ∧ (i 2).val < win1_8.index t (2 : Fin 3) * 256 + 256; omega

/-- THE RUNNING-SUM ARRAY after the region: per batch and feature, the sum over the batch's rows of the updated rows. -/
theorem final1_8 (c : Dev nD) : (dat1 V c).arrAt 8 cfg1.N = G1_8 V c :=
  (dat1 V c).arrAt_eq_of_cover 8 (G1_8 V c) (flushed1_8_eq V c) cover1_8

theorem final1_8_apply (c : Dev nD) (b : Fin 4) (u : Fin 1) (d : Fin 256) :
    (dat1 V c).arrAt 8 cfg1.N (ix3 b u d) = nodeSum V c b d :=
  (congrFun (final1_8 V c) (ix3 b u d)).trans (G1_8_apply V c b u d)

end AtIdeal

end Cert.KernelIdeal.NodeValue

end
-- ==== Proof.RefConn.lean ====
/-
  The mean of each node's connected edges, as one function of the edge array.

  The reference gathers, for every node, the rows of the new edge features named by its sixteen connected-edge indices,
  regroups them sixteen to a node, sums the sixteen and divides by the node's valid count. Here that chain is stated
  once as a function `connAgg` of an arbitrary edge array, so that it can be applied to any array equal to the new edge
  features; the index, in-range mask, filler and count stages are the reference's own, applied to the index and count
  arguments, and none of them is opened.
-/
import proofs.«143816_j32993938768001_1_alg».proof.Proof.RefReadP
import proofs.«143816_j32993938768001_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- Gather the connected edges' rows of `EN`, regroup sixteen to a node, sum them, divide by the valid count. -/
def connAgg (EN : (⟨S4x32768x256, .f32⟩ : BufTy).Contents (Elt Ideal)) (x4 : (⟨S4x8192x16, .i32⟩ : BufTy).Contents (Elt Ideal)) (x5 : (⟨S4x8192, .i32⟩ : BufTy).Contents (Elt Ideal)) :
    (⟨S4x8192x256, .f32⟩ : BufTy).Contents (Elt Ideal) :=
  Host.divf (F := Ideal) (φ := .f32)
    (Host.reduceAdd (F := Ideal) (φ := .f32)
      (shapeCast _
        (select (val_main_call3_v13 (F := Ideal) x4)
          (Host.gather gather_S4x32768x256_S4x131072x1_S4x131072x256_2_1_0_0_1_2_11256 EN (val_main_call3_v4 (F := Ideal) x4))
          (val_main_call3_v14 (F := Ideal)))
        shapeCasts_S4x131072x256_S4x8192x16x256 : (⟨S4x8192x16x256, .f32⟩ : BufTy).Contents (Elt Ideal))
      (val_main_cst_6 (F := Ideal)) reducesTo_S4x8192x16x256_S4x8192x256_d2 h_S_)
    (val_main_v46 (F := Ideal) x5)

/-- The reference's connected-edge mean is `connAgg` of its new edge features. -/
theorem conn_agg_eq (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) :
    val_main_v47 (F := Ideal) x0 x1 x2 x3 x4 x5 x8 x9 x10 x11
      = connAgg (val_main_v36 (F := Ideal) x0 x1 x2 x3 x8 x9 x10 x11) x4 x5 := by
  unfold val_main_v47 val_main_v44 val_main_v39 val_main_v38 val_main_call3_v12 connAgg
  rfl

end Cert.ReferenceIdeal.RefValue

end
-- ==== Proof.HostGlue1.lean ====
/-
  What the node region finds in its input arrays, as values over the extended reals, whatever the edge region left.

  Between the two regions the host regroups the connected-edge indices, gathers those rows of the new edge features,
  regroups them sixteen to a node, sums the sixteen and divides by the node's valid count (a zero count read as one);
  it also changes the float format of the node weights, which at the extended reals changes nothing. The gather-and-mean
  chain is the same operations, in the same order, as the reference's, so it is stated as the reference's connected-edge
  mean of whatever array the edge region left, and of the two index and count arguments; it is never opened.
-/
import proofs.«143816_j32993938768001_1_alg».proof.Proof.Gen.KernelIdeal.Regions
import proofs.«143816_j32993938768001_1_alg».proof.Proof.RefReadP
import proofs.«143816_j32993938768001_1_alg».proof.Proof.RefConn
import proofs.«143816_j32993938768001_1_alg».proof.Proof.HostGlue0
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.ValueIdx

variable (m : (ℓ : Loc nD τ sig) → Buf (Elt Ideal) ℓ) (outs : Outs (F := Ideal)) (c : Dev nD)

/-! ## The arguments no host operation writes and no region may change -/

theorem V11_arg0 : V11 m outs c (Proc.devRef .tc main_arg0) = m ((c.tc : Thread nD τ).loc main_arg0) :=
  (V11_of m outs c main_arg0 (by decide)).trans <| (V10_of m outs c main_arg0 (by decide)).trans <| (V9_of m outs c main_arg0 (by decide)).trans <| (V8_of m outs c main_arg0 (by decide)).trans <| (V7_of m outs c main_arg0 (by decide)).trans <| (V6_of m outs c main_arg0 (by decide)).trans <| (V5_of m c main_arg0 (by decide)).trans <| (V4_of m c main_arg0 (by decide)).trans <| (V3_of m c main_arg0 (by decide)).trans <| (V2_of m c main_arg0 (by decide)).trans <| V1_of m c main_arg0 (by decide)
theorem V11_arg13 : V11 m outs c (Proc.devRef .tc main_arg13) = m ((c.tc : Thread nD τ).loc main_arg13) :=
  (V11_of m outs c main_arg13 (by decide)).trans <| (V10_of m outs c main_arg13 (by decide)).trans <| (V9_of m outs c main_arg13 (by decide)).trans <| (V8_of m outs c main_arg13 (by decide)).trans <| (V7_of m outs c main_arg13 (by decide)).trans <| (V6_of m outs c main_arg13 (by decide)).trans <| (V5_of m c main_arg13 (by decide)).trans <| (V4_of m c main_arg13 (by decide)).trans <| (V3_of m c main_arg13 (by decide)).trans <| (V2_of m c main_arg13 (by decide)).trans <| V1_of m c main_arg13 (by decide)
theorem V11_arg14 : V11 m outs c (Proc.devRef .tc main_arg14) = m ((c.tc : Thread nD τ).loc main_arg14) :=
  (V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m c main_arg14 (by decide)).trans <| (V4_of m c main_arg14 (by decide)).trans <| (V3_of m c main_arg14 (by decide)).trans <| (V2_of m c main_arg14 (by decide)).trans <| V1_of m c main_arg14 (by decide)
theorem V11_arg15 : V11 m outs c (Proc.devRef .tc main_arg15) = m ((c.tc : Thread nD τ).loc main_arg15) :=
  (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m c main_arg15 (by decide)).trans <| (V4_of m c main_arg15 (by decide)).trans <| (V3_of m c main_arg15 (by decide)).trans <| (V2_of m c main_arg15 (by decide)).trans <| V1_of m c main_arg15 (by decide)
theorem V6_arg4 : V6 m outs c (Proc.devRef .tc main_arg4) = m ((c.tc : Thread nD τ).loc main_arg4) :=
  (V6_of m outs c main_arg4 (by decide)).trans <| (V5_of m c main_arg4 (by decide)).trans <| (V4_of m c main_arg4 (by decide)).trans <| (V3_of m c main_arg4 (by decide)).trans <| (V2_of m c main_arg4 (by decide)).trans <| V1_of m c main_arg4 (by decide)
theorem V6_arg5 : V6 m outs c (Proc.devRef .tc main_arg5) = m ((c.tc : Thread nD τ).loc main_arg5) :=
  (V6_of m outs c main_arg5 (by decide)).trans <| (V5_of m c main_arg5 (by decide)).trans <| (V4_of m c main_arg5 (by decide)).trans <| (V3_of m c main_arg5 (by decide)).trans <| (V2_of m c main_arg5 (by decide)).trans <| V1_of m c main_arg5 (by decide)
theorem V10_arg12 : V10 m outs c (Proc.devRef .tc main_arg12) = m ((c.tc : Thread nD τ).loc main_arg12) :=
  (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m c main_arg12 (by decide)).trans <| (V4_of m c main_arg12 (by decide)).trans <| (V3_of m c main_arg12 (by decide)).trans <| (V2_of m c main_arg12 (by decide)).trans <| V1_of m c main_arg12 (by decide)

/-- What the edge region left in its first result is what the next stretch starts from there. -/
theorem V6_main_v6_0 : V6 m outs c (Proc.devRef .tc main_v6_0) = outs 6 main_v6_0 c := by
  dsimp only [V6]
  rw [Function.update_of_ne (StableHlo.devRef_ne_of_ne (by decide) : (Proc.devRef .tc main_v6_0 : DevRef τ sig) ≠ Proc.devRef .tc main_v6_1),
    Function.update_self]

/-! ## The mean of each node's connected edges -/

/-- Over any buffer contents, the five host stretches between the regions leave the reference's connected-edge mean of
    the edge region's first result and of the index and count arguments. -/
theorem connAgg_after (W : Valuation τ sig (Elt Ideal)) (R : (⟨S4x8192x256, .f32⟩ : BufTy).Contents (Elt Ideal))
    (hR : R = Cert.ReferenceIdeal.RefValue.connAgg (W (Proc.devRef .tc main_v6_0)) (W (Proc.devRef .tc main_arg4)) (W (Proc.devRef .tc main_arg5))) :
    StableHlo.after (hostOps1_4 (F := Ideal)) (StableHlo.after (hostOps1_3 (F := Ideal)) (StableHlo.after (hostOps1_2 (F := Ideal))
      (StableHlo.after (hostOps1_1 (F := Ideal)) (StableHlo.after (hostOps1 (F := Ideal)) W)))) (Proc.devRef .tc main_v17) = R := by
  dsimp only [hostOps1, hostOps1_1, hostOps1_2, hostOps1_3, hostOps1_4]
  after_results_simp
  have c1 : ∀ p1 p2 p3 v, (StableHlo.TRef.of main_v7 p1 p2 p3 : StableHlo.TRef sig ⟨S4x131072x1, .i32⟩).ofBuf (Val := Elt Ideal) v = v := fun _ _ _ _ => rfl
  have c2 : ∀ p1 p2 p3 v, (StableHlo.TRef.of main_v6_0 p1 p2 p3 : StableHlo.TRef sig ⟨S4x32768x256, .f32⟩).ofBuf (Val := Elt Ideal) v = v := fun _ _ _ _ => rfl
  have c3 : ∀ p1 p2 p3 v, (StableHlo.TRef.of main_cst_0 p1 p2 p3 : StableHlo.TRef sig ⟨S_, .f32⟩).ofBuf (Val := Elt Ideal) v = v := fun _ _ _ _ => rfl
  have c4 : ∀ p1 p2 p3 v, (StableHlo.TRef.of main_v12 p1 p2 p3 : StableHlo.TRef sig ⟨S4x8192, .i1⟩).ofBuf (Val := Elt Ideal) v = v := fun _ _ _ _ => rfl
  have c5 : ∀ p1 p2 p3 v, (StableHlo.TRef.of main_v10 p1 p2 p3 : StableHlo.TRef sig ⟨S4x8192, .f32⟩).ofBuf (Val := Elt Ideal) v = v := fun _ _ _ _ => rfl
  have c6 : ∀ p1 p2 p3 v, (StableHlo.TRef.of main_v8 p1 p2 p3 : StableHlo.TRef sig ⟨S4x131072x256, .f32⟩).toBuf (Val := Elt Ideal) v = v := fun _ _ _ _ => rfl
  have c7 : ∀ p1 p2 p3 v, (StableHlo.TRef.of main_v13 p1 p2 p3 : StableHlo.TRef sig ⟨S4x8192, .f32⟩).toBuf (Val := Elt Ideal) v = v := fun _ _ _ _ => rfl
  simp only [ofBuf_toBuf, c1, c2, c3, c4, c5, c6, c7]
  subst hR
  rfl

/-- The node region's connected-edge input: the reference's connected-edge mean of what the edge region left. -/
theorem V11_main_v17 : V11 m outs c (Proc.devRef .tc main_v17)
    = Cert.ReferenceIdeal.RefValue.connAgg (outs 6 main_v6_0 c) (m ((c.tc : Thread nD τ).loc main_arg4)) (m ((c.tc : Thread nD τ).loc main_arg5)) :=
  (connAgg_after (V6 m outs c) _ rfl).trans <| by rw [V6_main_v6_0, V6_arg4, V6_arg5]

/-! ## The global features with a unit axis, and the node weights -/

/-- The node region's global-feature input is the edge region's: no operation in between writes it. -/
theorem V11_main_v4 (b : Fin 4) (k : Fin 256) :
    (V11 m outs c (Proc.devRef .tc main_v4) : (⟨S4x1x256, .f32⟩ : BufTy).Contents (Elt Ideal)) (ix3 b 0 k)
      = (m ((c.tc : Thread nD τ).loc main_arg2) : (⟨S4x256, .f32⟩ : BufTy).Contents (Elt Ideal)) (ix2 b k) := by
  rw [show V11 m outs c (Proc.devRef .tc main_v4) = V5 m c (Proc.devRef .tc main_v4) from
    (V11_of m outs c main_v4 (by decide)).trans <| (V10_of m outs c main_v4 (by decide)).trans <| (V9_of m outs c main_v4 (by decide)).trans <| (V8_of m outs c main_v4 (by decide)).trans <| (V7_of m outs c main_v4 (by decide)).trans <| V6_of m outs c main_v4 (by decide)]
  exact V5_main_v4 m c b k

/-- The last stretch before the node region: the node weights in the narrower float format. -/
theorem nodeWeights_after (W : Valuation τ sig (Elt Ideal)) :
    StableHlo.after (hostOps1_4 (F := Ideal)) W (Proc.devRef .tc main_v18)
      = truncf (F := Ideal) .bf16 (W (Proc.devRef .tc main_arg12)) bitsLt_bf16_f32 := by
  dsimp only [hostOps1_4]
  after_results

/-- The node region's weight input is the node weight argument, entry by entry. -/
theorem V11_main_v18 (k : Fin 768) (d : Fin 256) :
    (V11 m outs c (Proc.devRef .tc main_v18) : (⟨S768x256, .bf16⟩ : BufTy).Contents (Elt Ideal)) (ix2 k d)
      = (m ((c.tc : Thread nD τ).loc main_arg12) : (⟨S768x256, .f32⟩ : BufTy).Contents (Elt Ideal)) (ix2 k d) := by
  refine (congrFun (nodeWeights_after (V10 m outs c)) (ix2 k d)).trans ?_
  rw [V10_arg12]
  rfl

end Cert.KernelIdeal.HostValue

end
-- ==== Proof.RefNodeDense.lean ====
/-
  The node update's dense row, read off the reference's stages.

  Row `(b, n)` of the reference's joined input is the three-piece row of the specification: the vertex's own features,
  the mean of its connected edges' new features (kept as the stage that produces it), and the batch's global features.
  The contraction with the weights, the bias, the maximum with the zero word and the residual then give the
  specification's dense row.
-/
import proofs.«143816_j32993938768001_1_alg».proof.Proof.RefReadP
import proofs.«143816_j32993938768001_1_alg».proof.Proof.Spec
import proofs.«143816_j32993938768001_1_alg».proof.Proof.RefCat

noncomputable section

namespace Cert.ReferenceIdeal.RefValue

open Cert.ReferenceIdeal Cert.ReferenceIdeal.Gen Cert.ReferenceIdeal.ReadP Idealize.ShloMosaic Idealize.ShloMosaic.ValueIdx

/-- The global features broadcast over the rows, read at `(b, n, r')`: the global feature `(b, r')`. -/
theorem node_global_read (x2 : (⟨S4x256, .f32⟩ : BufTy).Contents (Elt Ideal)) (b : Fin 4) (n : Fin 8192) (r' : Fin 256) :
    val_main_v49 (F := Ideal) x2 (ix3 b n r') = x2 (ix2 b r') := by
  rw [val_main_v49_apply, val_main_v48_apply]
  exact congrArg x2 (funext fun a => Fin.ext (by match a with | ⟨0, _⟩ => rfl | ⟨1, _⟩ => rfl))

/-- The joined node input at row `(b, n)`, feature `k`: the specification's three-piece row. -/
theorem node_cat_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (b : Fin 4) (n : Fin 8192) (k : Fin 768) :
    val_main_v50 (F := Ideal) x0 x1 x2 x3 x4 x5 x8 x9 x10 x11 (ix3 b n k) = Spec.cat3 (fun p => ![fun k => x0 (ix3 b n k), fun k => val_main_v47 (F := Ideal) x0 x1 x2 x3 x4 x5 x8 x9 x10 x11 (ix3 b n k), fun k => x2 (ix2 b k)] p) k := by
  obtain ⟨q, r', hk⟩ : ∃ (q : Fin 3) (r' : Fin 256), k.val = 256 * q.val + r'.val :=
    ⟨⟨k.val / 256, by omega⟩, ⟨k.val % 256, Nat.mod_lt _ (by norm_num)⟩, (Nat.div_add_mod _ _).symm⟩
  unfold val_main_v50
  rw [cat3_at _ k q r' hk]
  refine (concat3_read x0 (val_main_v47 (F := Ideal) x0 x1 x2 x3 x4 x5 x8 x9 x10 x11) (val_main_v49 (F := Ideal) x2) _ b n q r' k hk).trans ?_
  match q with
  | ⟨0, _⟩ => rfl
  | ⟨1, _⟩ => rfl
  | ⟨2, _⟩ => exact node_global_read x2 b n r'

/-- The node update before normalisation, at `(b, n, d)`: the specification's dense row. -/
theorem node_dense_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 : (⟨S256, .f32⟩ : BufTy).Contents (Elt Ideal)) (b : Fin 4) (n : Fin 8192) (d : Fin 256) :
    val_main_v56 (F := Ideal) x0 x1 x2 x3 x4 x5 x8 x9 x10 x11 x12 x13 (ix3 b n d)
      = Spec.dense (Spec.cat3 (fun p => ![fun k => x0 (ix3 b n k), fun k => val_main_v47 (F := Ideal) x0 x1 x2 x3 x4 x5 x8 x9 x10 x11 (ix3 b n k), fun k => x2 (ix2 b k)] p)) (fun k e' => x12 (ix2 k e')) (fun e' => x13 (ix1 e')) (fun e' => x0 (ix3 b n e')) d := by
  have hl : ∀ k : Fin 768, lidx_main_v51 (ix3 b n d) k = ix3 b n k := fun k =>
    funext fun a => Fin.ext (by match a with | ⟨0, _⟩ => rfl | ⟨1, _⟩ => rfl | ⟨2, _⟩ => rfl)
  have hr : ∀ k : Fin 768, ridx_main_v51 (ix3 b n d) k = ix2 k d := fun k =>
    funext fun a => Fin.ext (by match a with | ⟨0, _⟩ => rfl | ⟨1, _⟩ => rfl)
  have hb : idx_main_v52 (idx_main_v53 (ix3 b n d)) = ix1 d :=
    funext fun a => Fin.ext (by match a with | ⟨0, _⟩ => rfl)
  rw [val_main_v56_apply, val_main_v55_apply, val_main_v54_apply, val_main_v51_apply, val_main_v53_apply, val_main_v52_apply,
    val_main_call5_v0_apply, val_main_call5_cst_apply, hb]
  simp only [hl, hr, node_cat_read, Ideal.addf_def, Ideal.maximumf_def, Ideal.ofBits_def]
  rfl

end Cert.ReferenceIdeal.RefValue

end
-- ==== Proof.RefNodeLn.lean ====
/-
  The node update's layer normalisation, read off the reference's stages.

  With `h` the row `(b, n)` of the node update before normalisation: the row's sum divided by the word of 256 is the
  specification's mean (the sum's initial value is the zero word, which is 0); the sum of the squared centred entries
  divided by the same word is its variance; and the result is
  `(h d − mean) · rsqrt (variance + ε) · gain d + offset d`, the specification's normalised row.
-/
import proofs.«143816_j32993938768001_1_alg».proof.Proof.RefReadP
import proofs.«143816_j32993938768001_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- The row mean of the node update, at `(b, n)`. -/
theorem node_mean_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 : (⟨S256, .f32⟩ : BufTy).Contents (Elt Ideal)) (b : Fin 4) (n : Fin 8192) (z : Fin 1) :
    val_main_v60 (F := Ideal) x0 x1 x2 x3 x4 x5 x8 x9 x10 x11 x12 x13 (ix3 b n z) = Spec.mean (fun d' => val_main_v56 (F := Ideal) x0 x1 x2 x3 x4 x5 x8 x9 x10 x11 x12 x13 (ix3 b n d')) := by
  have hi : ∀ k : Fin 256, idx_main_v57 (idx_main_v58 (ix3 b n z)) k = ix3 b n k := fun k =>
    funext fun a => Fin.ext (by match a with | ⟨0, _⟩ => rfl | ⟨1, _⟩ => rfl | ⟨2, _⟩ => rfl)
  rw [val_main_v60_apply, val_main_v58_apply, val_main_v57_apply, val_main_v59_apply, val_main_cst_8_apply, val_main_cst_7_apply]
  simp only [hi, Ideal.hostDivf_def, Ideal.ofBits_def, Ideal.ofBits_zero_f32, zero_add]
  rfl

/-- The centred node update, at `(b, n, d)`. -/
theorem node_centred_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 : (⟨S256, .f32⟩ : BufTy).Contents (Elt Ideal)) (b : Fin 4) (n : Fin 8192) (d : Fin 256) :
    val_main_v62 (F := Ideal) x0 x1 x2 x3 x4 x5 x8 x9 x10 x11 x12 x13 (ix3 b n d) = val_main_v56 (F := Ideal) x0 x1 x2 x3 x4 x5 x8 x9 x10 x11 x12 x13 (ix3 b n d) - Spec.mean (fun d' => val_main_v56 (F := Ideal) x0 x1 x2 x3 x4 x5 x8 x9 x10 x11 x12 x13 (ix3 b n d')) := by
  have hm : idx_main_v61 (ix3 b n d) = ix3 b n (0 : Fin 1) :=
    funext fun a => Fin.ext (by match a with | ⟨0, _⟩ => rfl | ⟨1, _⟩ => rfl | ⟨2, _⟩ => rfl)
  rw [val_main_v62_apply, val_main_v61_apply, hm, node_mean_read, Ideal.subf_def]

/-- The row variance of the node update, at `(b, n)`. -/
theorem node_var_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 : (⟨S256, .f32⟩ : BufTy).Contents (Elt Ideal)) (b : Fin 4) (n : Fin 8192) (z : Fin 1) :
    val_main_v67 (F := Ideal) x0 x1 x2 x3 x4 x5 x8 x9 x10 x11 x12 x13 (ix3 b n z)
      = Spec.mean (fun d' => (val_main_v56 (F := Ideal) x0 x1 x2 x3 x4 x5 x8 x9 x10 x11 x12 x13 (ix3 b n d') - Spec.mean (fun d' => val_main_v56 (F := Ideal) x0 x1 x2 x3 x4 x5 x8 x9 x10 x11 x12 x13 (ix3 b n d')))
          * (val_main_v56 (F := Ideal) x0 x1 x2 x3 x4 x5 x8 x9 x10 x11 x12 x13 (ix3 b n d') - Spec.mean (fun d' => val_main_v56 (F := Ideal) x0 x1 x2 x3 x4 x5 x8 x9 x10 x11 x12 x13 (ix3 b n d')))) := by
  have hi : ∀ k : Fin 256, idx_main_v64 (idx_main_v65 (ix3 b n z)) k = ix3 b n k := fun k =>
    funext fun a => Fin.ext (by match a with | ⟨0, _⟩ => rfl | ⟨1, _⟩ => rfl | ⟨2, _⟩ => rfl)
  rw [val_main_v67_apply, val_main_v65_apply, val_main_v64_apply, val_main_v66_apply, val_main_cst_10_apply, val_main_cst_9_apply]
  simp only [hi, val_main_v63_apply, node_centred_read, Ideal.mulf_def, Ideal.hostDivf_def, Ideal.ofBits_def, Ideal.ofBits_zero_f32, zero_add]
  rfl

/-- The normalised node update, at `(b, n, d)`: the specification's layer normalisation of the row before it. -/
theorem node_norm_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 : (⟨S256, .f32⟩ : BufTy).Contents (Elt Ideal)) (x14 x15 : (⟨S256, .f32⟩ : BufTy).Contents (Elt Ideal)) (b : Fin 4) (n : Fin 8192) (d : Fin 256) :
    val_main_v80 (F := Ideal) x0 x1 x2 x3 x4 x5 x8 x9 x10 x11 x12 x13 x14 x15 (ix3 b n d)
      = Spec.layerNorm (fun d' => val_main_v56 (F := Ideal) x0 x1 x2 x3 x4 x5 x8 x9 x10 x11 x12 x13 (ix3 b n d')) (fun e' => x14 (ix1 e')) (fun e' => x15 (ix1 e')) d := by
  have hm : idx_main_v68 (ix3 b n d) = ix3 b n (0 : Fin 1) :=
    funext fun a => Fin.ext (by match a with | ⟨0, _⟩ => rfl | ⟨1, _⟩ => rfl | ⟨2, _⟩ => rfl)
  have hs : idx_main_v73 (ix3 b n d) = ix3 b n (0 : Fin 1) :=
    funext fun a => Fin.ext (by match a with | ⟨0, _⟩ => rfl | ⟨1, _⟩ => rfl | ⟨2, _⟩ => rfl)
  have hg : idx_main_v75 (idx_main_v76 (ix3 b n d)) = ix1 d :=
    funext fun a => Fin.ext (by match a with | ⟨0, _⟩ => rfl)
  have ho : idx_main_v78 (idx_main_v79 (ix3 b n d)) = ix1 d :=
    funext fun a => Fin.ext (by match a with | ⟨0, _⟩ => rfl)
  have he : val_main_v70 (F := Ideal) (ix3 b n (0 : Fin 1)) = Spec.eps := by
    rw [val_main_v70_apply, val_main_cst_11_apply, Ideal.ofBits_def]
  rw [val_main_v80_apply, val_main_v77_apply, val_main_v74_apply, val_main_v69_apply, val_main_v68_apply, val_main_v73_apply,
    val_main_v72_apply, val_main_v71_apply, val_main_v76_apply, val_main_v75_apply, val_main_v79_apply, val_main_v78_apply,
    hm, hs, hg, ho, he, node_mean_read, node_var_read]
  simp only [Ideal.addf_def, Ideal.mulf_def, Ideal.subf_def, Ideal.hostUnary_rsqrt_def]
  rfl

end Cert.ReferenceIdeal.RefValue

end
-- ==== Proof.RefNode.lean ====
/-
  The reference's new vertex features are the specification's dense layer, residual and layer normalisation, row by row.

  The mean of each node's connected edges enters as one function of the new edge features, the connected-edge index
  array and the valid counts; it is not opened.
-/
import proofs.«143816_j32993938768001_1_alg».proof.Proof.RefReadP
import proofs.«143816_j32993938768001_1_alg».proof.Proof.Spec
import proofs.«143816_j32993938768001_1_alg».proof.Proof.RefNodeDense
import proofs.«143816_j32993938768001_1_alg».proof.Proof.RefNodeLn
import proofs.«143816_j32993938768001_1_alg».proof.Proof.RefConn

noncomputable section

namespace Cert.ReferenceIdeal.RefValue

open Cert.ReferenceIdeal Cert.ReferenceIdeal.Gen Cert.ReferenceIdeal.ReadP Idealize.ShloMosaic Idealize.ShloMosaic.ValueIdx

/-- The reference's new vertex features at `(b, n, d)`. -/
theorem vertex_new_read_stage (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 : (⟨S256, .f32⟩ : BufTy).Contents (Elt Ideal)) (x14 x15 : (⟨S256, .f32⟩ : BufTy).Contents (Elt Ideal)) (b : Fin 4) (n : Fin 8192) (d : Fin 256) :
    val_main_v80 (F := Ideal) x0 x1 x2 x3 x4 x5 x8 x9 x10 x11 x12 x13 x14 x15 (ix3 b n d)
      = Spec.mlpLn (Spec.cat3 (fun p => ![fun k => x0 (ix3 b n k), fun k => val_main_v47 (F := Ideal) x0 x1 x2 x3 x4 x5 x8 x9 x10 x11 (ix3 b n k), fun k => x2 (ix2 b k)] p)) (fun k e' => x12 (ix2 k e')) (fun e' => x13 (ix1 e')) (fun e' => x0 (ix3 b n e'))
          (fun e' => x14 (ix1 e')) (fun e' => x15 (ix1 e')) d := by
  rw [node_norm_read]
  unfold Spec.mlpLn
  exact congrArg (fun h => Spec.layerNorm h (fun e' => x14 (ix1 e')) (fun e' => x15 (ix1 e')) d)
    (funext fun d' => node_dense_read x0 x1 x2 x3 x4 x5 x8 x9 x10 x11 x12 x13 b n d')

/-- The reference's new vertex features at `(b, n, d)`, with the connected-edge mean written as `connAgg` of the new
    edge features. -/
theorem vertex_new_read (x0 : (⟨S4x8192x256, .f32⟩ : BufTy).Contents (Elt Ideal)) (x1 : (⟨S4x32768x256, .f32⟩ : BufTy).Contents (Elt Ideal)) (x2 : (⟨S4x256, .f32⟩ : BufTy).Contents (Elt Ideal)) (x3 : (⟨S4x32768x2, .i32⟩ : BufTy).Contents (Elt Ideal)) (x4 : (⟨S4x8192x16, .i32⟩ : BufTy).Contents (Elt Ideal)) (x5 : (⟨S4x8192, .i32⟩ : BufTy).Contents (Elt Ideal)) (x8 : (⟨S1024x256, .f32⟩ : BufTy).Contents (Elt Ideal)) (x9 x10 x11 : (⟨S256, .f32⟩ : BufTy).Contents (Elt Ideal)) (x12 : (⟨S768x256, .f32⟩ : BufTy).Contents (Elt Ideal)) (x13 : (⟨S256, .f32⟩ : BufTy).Contents (Elt Ideal)) (x14 x15 : (⟨S256, .f32⟩ : BufTy).Contents (Elt Ideal)) (b : Fin 4) (n : Fin 8192) (d : Fin 256) :
    val_main_v80 (F := Ideal) x0 x1 x2 x3 x4 x5 x8 x9 x10 x11 x12 x13 x14 x15 (ix3 b n d)
      = Spec.mlpLn (Spec.cat3 (fun p => ![fun k => x0 (ix3 b n k), fun k => connAgg (val_main_v36 (F := Ideal) x0 x1 x2 x3 x8 x9 x10 x11) x4 x5 (ix3 b n k), fun k => x2 (ix2 b k)] p)) (fun k e' => x12 (ix2 k e')) (fun e' => x13 (ix1 e')) (fun e' => x0 (ix3 b n e'))
          (fun e' => x14 (ix1 e')) (fun e' => x15 (ix1 e')) d := by
  rw [vertex_new_read_stage, conn_agg_eq]

end Cert.ReferenceIdeal.RefValue

end
-- ==== Proof.BridgeNode.lean ====
/-
  The node region's two results are the reference's: the new vertex features, and their column sums per batch.

  The node region finds, as the mean of each node's connected edges, the reference's connected-edge mean of what the
  edge region left — which is the reference's new edge features —, the global row, the weight argument and the other
  arguments; so the node output array holds the reference's new vertex features row by row, and the running-sum array,
  per batch and feature, the sum of those rows — the reference's column sum.
-/
import proofs.«143816_j32993938768001_1_alg».proof.Proof.BridgeEdge
import proofs.«143816_j32993938768001_1_alg».proof.Proof.NodeArray
import proofs.«143816_j32993938768001_1_alg».proof.Proof.HostGlue1
import proofs.«143816_j32993938768001_1_alg».proof.Proof.RefNode

set_option maxRecDepth 16384

open scoped BigOperators

noncomputable section

namespace Cert.KernelIdeal.Bridge

open Cert.KernelIdeal Cert.KernelIdeal.Gen Cert.KernelIdeal.Hand Cert.KernelIdeal.NodeValue Cert.KernelIdeal.HostValue
open Idealize.ShloMosaic Idealize.ShloMosaic.TcCoe Idealize.ShloMosaic.ValueIdx Idealize.SL.Sem

variable (m : (ℓ : Loc nD τ sig) → Buf (Elt Ideal) ℓ) (c : Dev nD)

/-- The node region's connected-edge input is the reference's connected-edge mean of the reference's new edge features. -/
theorem conn_eq :
    V11 m (outs0 m) c (Proc.devRef .tc main_v17)
      = Cert.ReferenceIdeal.RefValue.connAgg (Cert.ReferenceIdeal.ReadP.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) (m ((c.tc : Thread nD τ).loc main_arg10)) (m ((c.tc : Thread nD τ).loc main_arg11)))
          (m ((c.tc : Thread nD τ).loc main_arg4)) (m ((c.tc : Thread nD τ).loc main_arg5)) := by
  rw [V11_main_v17 m (outs0 m) c]
  show Cert.ReferenceIdeal.RefValue.connAgg (WX0 m c (Proc.devRef .tc main_v6_0)) _ _ = _
  rw [edges_eq m c]

/-- Row `n` of batch `b`, updated over the arrays the node region finds, is the reference's new vertex features there. -/
theorem nodeRow_eq (b : Fin 4) (n : Fin 8192) (d : Fin 256) :
    nodeRow (VE1 m) c b n d
      = Cert.ReferenceIdeal.ReadP.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (ix3 b n d) := by
  rw [Cert.ReferenceIdeal.RefValue.vertex_new_read]
  unfold nodeRow
  dsimp only [VE1]
  rw [V11_arg0 m (outs0 m) c, V11_arg13 m (outs0 m) c, V11_arg14 m (outs0 m) c, V11_arg15 m (outs0 m) c, conn_eq m c]
  have h4 : (fun k : Fin 256 => (V11 m (outs0 m) c (Proc.devRef .tc main_v4) : (⟨S4x1x256, .f32⟩ : BufTy).Contents (Elt Ideal)) (ix3 b (0 : Fin 1) k))
      = fun k => (m ((c.tc : Thread nD τ).loc main_arg2) : (⟨S4x256, .f32⟩ : BufTy).Contents (Elt Ideal)) (ix2 b k) :=
    funext fun k => V11_main_v4 m (outs0 m) c b k
  have h5 : (fun (k : Fin 768) (f : Fin 256) => (V11 m (outs0 m) c (Proc.devRef .tc main_v18) : (⟨S768x256, .bf16⟩ : BufTy).Contents (Elt Ideal)) (ix2 k f))
      = fun k f => (m ((c.tc : Thread nD τ).loc main_arg12) : (⟨S768x256, .f32⟩ : BufTy).Contents (Elt Ideal)) (ix2 k f) :=
    funext fun k => funext fun f => V11_main_v18 m (outs0 m) c k f
  rw [h4, h5]

/-- The node output after the region is the reference's new vertex features. -/
theorem nodes_eq :
    WX1 m c (Proc.devRef .tc main_v19_0)
      = Cert.ReferenceIdeal.ReadP.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (WX1_arr m c 7).trans ?_
  rw [final1_7]
  funext i
  obtain ⟨b, n, d, rfl⟩ : ∃ (b : Fin 4) (n : Fin 8192) (d : Fin 256), i = ix3 b n d := ⟨i 0, i 1, i 2, eq_ix3 i⟩
  exact nodeRow_eq m c b n d

/-- The running-sum array after the region is, per batch and feature, the reference's column sum of the new vertex features. -/
theorem node_sums_eq (b : Fin 4) (d : Fin 256) :
    WX1 m c (Proc.devRef .tc main_v19_1) (ix3 b 0 d)
      = Cert.ReferenceIdeal.ReadP.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (ix2 b d) := by
  have h1 : (WX1 m c (Proc.devRef .tc main_v19_1) (ix3 b 0 d) : EReal) = nodeSum (VE1 m) c b d :=
    (congrFun (WX1_arr m c 8) (ix3 b 0 d)).trans (final1_8_apply (VE1 m) c b 0 d)
  have h2 : nodeSum (VE1 m) c b d
      = Cert.ReferenceIdeal.ReadP.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (ix2 b d) := by
    rw [Cert.ReferenceIdeal.RefValue.node_sum_read]
    unfold nodeSum
    exact Finset.sum_congr rfl fun n _ => nodeRow_eq m c b n d
  exact h1.trans h2

end Cert.KernelIdeal.Bridge

end
-- ==== Proof.BridgeOut.lean ====
/-
  The two programs' results agree.

  From memories agreeing on the arguments, the reference's three result stages — of its own arguments — equal the kernel
  program's last buffer contents at its three result buffers. The new edge and vertex features reach the kernel
  program's end as its two regions left them, and each region leaves the reference's stage of the kernel's arguments.
  The new global features are, on both sides, the same global update of the two column-sum arrays: the reference's sums
  and the kernel's reshaped accumulators agree entry by entry. The three equations are proved together, so that the
  agreement of the two memories is stated once.
-/
import proofs.«143816_j32993938768001_1_alg».proof.Proof.HostTail
import proofs.«143816_j32993938768001_1_alg».proof.Proof.BridgeNode

noncomputable section

namespace Cert.Bridge

open Idealize.ShloMosaic Idealize.SL.Sem Idealize.ShloMosaic.ValueIdx

/-- The reference's three result stages of its arguments are the kernel program's three results. -/
theorem cores (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Cert.ReferenceIdeal.ReadP.val_main_v36 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = Cert.KernelIdeal.Gen.V19 m (Cert.KernelIdeal.Hand.outs m) c (Proc.devRef .tc Cert.KernelIdeal.main_v6_0)
    ∧ Cert.ReferenceIdeal.ReadP.val_main_v80 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = Cert.KernelIdeal.Gen.V19 m (Cert.KernelIdeal.Hand.outs m) c (Proc.devRef .tc Cert.KernelIdeal.main_v19_0)
    ∧ Cert.ReferenceIdeal.ReadP.val_main_v118 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) = Cert.KernelIdeal.Gen.V19 m (Cert.KernelIdeal.Hand.outs m) c (Proc.devRef .tc Cert.KernelIdeal.main_v57) := by
  obtain ⟨h0, h1, h2, h3, h4, h5, h6, h7, h8, h9, h10, h11, h12, h13, h14, h15, h16, h17, h18, h19, h20, h21⟩ := h
  rw [h0, h1, h2, h3, h4, h5, h6, h7, h8, h9, h10, h11, h12, h13, h14, h15, h16, h17, h18, h19, h20, h21]
  refine ⟨?_, ?_, ?_⟩
  · rw [Cert.KernelIdeal.HostValue.V19_main_v6_0, Cert.KernelIdeal.Hand.outs_6]
    exact (Cert.KernelIdeal.Bridge.edges_eq m c).symm
  · rw [Cert.KernelIdeal.HostValue.V19_main_v19_0, Cert.KernelIdeal.Hand.outs_12]
    exact (Cert.KernelIdeal.Bridge.nodes_eq m c).symm
  · have hSE : shapeCast Cert.KernelIdeal.S4x256 (Cert.KernelIdeal.Hand.outs m 6 Cert.KernelIdeal.main_v6_1 c : (⟨Cert.KernelIdeal.S4x1x256, .f32⟩ : BufTy).Contents (Elt Ideal)) Cert.KernelIdeal.Gen.shapeCasts_S4x1x256_S4x256
        = Cert.ReferenceIdeal.ReadP.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := funext fun j => by
      obtain ⟨b, d, rfl⟩ : ∃ (b : Fin 4) (d : Fin 256), j = ix2 b d := ⟨j 0, j 1, eq_ix2 j⟩
      rw [Cert.KernelIdeal.HostValue.edge_sums_read (Cert.KernelIdeal.Hand.outs m) c b d, Cert.KernelIdeal.Hand.outs_6]
      exact Cert.KernelIdeal.Bridge.edge_sums_eq m c b d
    have hSV : shapeCast Cert.KernelIdeal.S4x256 (Cert.KernelIdeal.Hand.outs m 12 Cert.KernelIdeal.main_v19_1 c : (⟨Cert.KernelIdeal.S4x1x256, .f32⟩ : BufTy).Contents (Elt Ideal)) Cert.KernelIdeal.Gen.shapeCasts_S4x1x256_S4x256
        = Cert.ReferenceIdeal.ReadP.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := funext fun j => by
      obtain ⟨b, d, rfl⟩ : ∃ (b : Fin 4) (d : Fin 256), j = ix2 b d := ⟨j 0, j 1, eq_ix2 j⟩
      rw [Cert.KernelIdeal.HostValue.node_sums_read (Cert.KernelIdeal.Hand.outs m) c b d, Cert.KernelIdeal.Hand.outs_12]
      exact Cert.KernelIdeal.Bridge.node_sums_eq m c b d
    rw [Cert.ReferenceIdeal.RefValue.global_new_eq, Cert.KernelIdeal.HostValue.V19_main_v57, hSE, hSV]

end Cert.Bridge

end
-- ==== Proof.lean ====
/-
  The certificate's claims assembled.

  The three frames: the two kernel programs (the word-level one and its idealization are one text) run their host
  stretches and their two gridded regions to the end with every argument array as launched — each region's pipeline
  over the edge or node tiles, the running column sums carried from tile to tile within a batch; the reference is a
  straight line of host operations. No rewrite was made by the idealization, so nothing is to be preserved.

  The value claim, at the exact extended reals: both programs compute, row by row, a dense layer over the
  concatenated features with bias, relu and residual followed by a layer normalisation (mean and variance by
  sum / 256, rsqrt (var + ε), gain, offset) — for the edges over [edge, sender, receiver, global], for the nodes over
  [node, mean of the connected new edges, global] — and then a global update from the per-batch column sums of the two
  results. The kernel takes the rows tile by tile and accumulates the column sums over a batch's tiles; the reference
  takes whole arrays. The gathers, the connected-edge mean and the global update's tail are the same host operations
  in both programs and are carried unopened. Only the regrouping of the column sums (a sum over a batch's rows is
  the sum over its tiles of the sums over a tile's rows) joins the two sides, and it needs no finiteness.
-/
import proofs.«143816_j32993938768001_1_alg».proof.Defs
import proofs.«143816_j32993938768001_1_alg».proof.Proof.Gen.Kernel
import proofs.«143816_j32993938768001_1_alg».proof.Proof.Gen.KernelIdeal
import proofs.«143816_j32993938768001_1_alg».proof.Proof.Gen.ReferenceIdeal
import proofs.«143816_j32993938768001_1_alg».proof.Proof.Gen.Pre_finite_inputs
import proofs.«143816_j32993938768001_1_alg».proof.Proof.FrameK
import proofs.«143816_j32993938768001_1_alg».proof.Proof.RunKI
import proofs.«143816_j32993938768001_1_alg».proof.Proof.RefRunH
import proofs.«143816_j32993938768001_1_alg».proof.Proof.BridgeOut
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.RunH.run' m ρ)

theorem preserves : Cert.preserves_Kernel_KernelIdeal := trivial

/-- Both runs end with the same three results: the kernel's, read off its last buffer contents. -/
theorem algebraic : Cert.algebraic_KernelIdeal_ReferenceIdeal := by
  intro m ρ m' ρ' _ hagree
  refine ⟨fun c => Cert.KernelIdeal.Gen.V19 m (Cert.KernelIdeal.Hand.outs m) c (Proc.devRef .tc Cert.KernelIdeal.main_v6_0),
    fun c => Cert.KernelIdeal.Gen.V19 m (Cert.KernelIdeal.Hand.outs m) c (Proc.devRef .tc Cert.KernelIdeal.main_v19_0),
    fun c => Cert.KernelIdeal.Gen.V19 m (Cert.KernelIdeal.Hand.outs m) c (Proc.devRef .tc Cert.KernelIdeal.main_v57),
    Cert.KernelIdeal.Hand.run_value m ρ, ?_⟩
  refine (θ_run Cert.ReferenceIdeal.defs _ _).mono (fun _ h c => ?_) (Cert.ReferenceIdeal.RunH.run' m' ρ')
  have hb := Cert.Bridge.cores m m' c (hagree c)
  exact ⟨(h c).1.trans hb.1, (h c).2.1.trans hb.2.1, (h c).2.2.1.trans hb.2.2, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
